-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8192x4x1024 : Shape := ⟨3, ![8192, 4, 1024]⟩
abbrev S4x4096 : Shape := ⟨2, ![4, 4096]⟩
abbrev S1024 : Shape := ⟨1, ![1024]⟩
abbrev S_ : Shape := ⟨0, ![]⟩

class Facts : Prop where
  bcast_S_S8192x4x1024 : S_.BroadcastsInDim S8192x4x1024 (![] : Fin 0 → Fin S8192x4x1024.rank)
  reducesTo_S8192x4x1024_S_d0_1_2 : S8192x4x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : IVec S4x4096 32) (main_v13 : IVec S_ 1) (main_v15 : IVec S4x4096 1) (main_c_5 : IVec S_ 32) : IVec S_ 1 :=
  let main_v16 : IVec S4x4096 32 := broadcastInDim S4x4096 ![] bcast_S_S4x4096 main_c_5
  let main_v17 : IVec S4x4096 1 := cmpi .sle main_arg1 main_v16
  let main_v18 : IVec S4x4096 1 := andi main_v15 main_v17
  let main_c_6 : IVec S_ 1 := constantI S_ 1 1#1
  let main_v19 : IVec S_ 1 := (fun x v => Host.reduce IntOp.andi x v reducesTo_S4x4096_S_d0_1 h_S_) main_v18 main_c_6
  let main_v20 : IVec S_ 1 := andi main_v13 main_v19
  main_v20

def fn {F : FTy → Type} [FloatOps F] (main_arg0 : FVec F S8192x4x1024 .f32) (main_arg1 : IVec S4x4096 32) (main_arg2 : FVec F S1024 .f32) (main_arg3 : FVec F S1024 .f32) : IVec S_ 1 :=
  let main_v0 : FVec F S8192x4x1024 .f32 := Host.absf main_arg0
  let main_cst : FVec F S_ .f32 := constant S_ .f32 0x7F800000#32
  let main_v1 : FVec F S8192x4x1024 .f32 := broadcastInDim S8192x4x1024 ![] bcast_S_S8192x4x1024 main_cst
  let main_v2 : IVec S8192x4x1024 1 := cmpf .olt main_v0 main_v1
  let main_c : IVec S_ 1 := constantI S_ 1 1#1
  let main_v3 : IVec S_ 1 := (fun x v => Host.reduce IntOp.andi x v reducesTo_S8192x4x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_c_4 : IVec S_ 32 := constantI S_ 32 0#32
  let main_v14 : IVec S4x4096 32 := broadcastInDim S4x4096 ![] bcast_S_S4x4096 main_c_4
  let main_v15 : IVec S4x4096 1 := cmpi .sge main_arg1 main_v14
  let main_c_5 : IVec S_ 32 := constantI S_ 32 8191#32
  fn_part1 (F := F) main_arg1 main_v13 main_v15 main_c_5
-- ==== Kernel.lean ====
abbrev S8192x4x1024 : Shape := ⟨3, ![8192, 4, 1024]⟩
abbrev S4x4096 : Shape := ⟨2, ![4, 4096]⟩
abbrev S1024 : Shape := ⟨1, ![1024]⟩
abbrev S4x8192 : Shape := ⟨2, ![4, 8192]⟩
abbrev S4096 : Shape := ⟨1, ![4096]⟩
abbrev S_ : Shape := ⟨0, ![]⟩
abbrev S1x4096 : Shape := ⟨2, ![1, 4096]⟩
abbrev S16 : Shape := ⟨1, ![16]⟩
abbrev S1x1024 : Shape := ⟨2, ![1, 1024]⟩
abbrev S4x512 : Shape := ⟨2, ![4, 512]⟩
abbrev S512x4x1024 : Shape := ⟨3, ![512, 4, 1024]⟩
abbrev S512x4 : Shape := ⟨2, ![512, 4]⟩
abbrev S512x4x1 : Shape := ⟨3, ![512, 4, 1]⟩
abbrev S1x1x1024 : Shape := ⟨3, ![1, 1, 1024]⟩
abbrev S4x1 : Shape := ⟨2, ![4, 1]⟩
abbrev S1x4x1024 : Shape := ⟨3, ![1, 4, 1024]⟩
abbrev S4x1024 : Shape := ⟨2, ![4, 1024]⟩

abbrev nBuf : Table → Nat
  | .hbm => 8
  | .local .tc .vmem => 8
  | .local .scVector .vmem => 2
  | _ => 0

abbrev bufTy : (tb : Table) → Fin (nBuf tb) → BufTy
  | .hbm, ⟨0, _⟩ => ⟨S8192x4x1024, .f32⟩
  | .hbm, ⟨1, _⟩ => ⟨S4x4096, .i32⟩
  | .hbm, ⟨2, _⟩ => ⟨S1024, .f32⟩
  | .hbm, ⟨3, _⟩ => ⟨S1024, .f32⟩
  | .hbm, ⟨4, _⟩ => ⟨S4x8192, .f32⟩
  | .hbm, ⟨5, _⟩ => ⟨S1x1024, .f32⟩
  | .hbm, ⟨6, _⟩ => ⟨S1x1024, .f32⟩
  | .hbm, ⟨7, _⟩ => ⟨S8192x4x1024, .f32⟩
  | .local .tc .vmem, ⟨0, _⟩ => ⟨S4x512, .f32⟩
  | .local .tc .vmem, ⟨1, _⟩ => ⟨S4x512, .f32⟩
  | .local .tc .vmem, ⟨2, _⟩ => ⟨S512x4x1024, .f32⟩
  | .local .tc .vmem, ⟨3, _⟩ => ⟨S512x4x1024, .f32⟩
  | .local .tc .vmem, ⟨4, _⟩ => ⟨S1x1024, .f32⟩
  | .local .tc .vmem, ⟨5, _⟩ => ⟨S1x1024, .f32⟩
  | .local .tc .vmem, ⟨6, _⟩ => ⟨S512x4x1024, .f32⟩
  | .local .tc .vmem, ⟨7, _⟩ => ⟨S512x4x1024, .f32⟩
  | .local .scVector .vmem, ⟨0, _⟩ => ⟨S4096, .i32⟩
  | .local .scVector .vmem, ⟨1, _⟩ => ⟨S1024, .f32⟩
  | _, _ => ⟨S8192x4x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem4_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_18_r0 : BitVec 32 := 0#32
  ![v18.toNat, 0]
@[reducible] def k0_t1_loop : Scf.Loop 32 :=
  let c0_i32_11 : BitVec 32 := 0#32
  let c64_i32 : BitVec 32 := 64#32
  let v30 : BitVec 32 := Scalar.addi c0_i32_11 c64_i32
  let c1_i32_12 : BitVec 32 := 1#32
  ⟨c0_i32_11, v30, c1_i32_12⟩
def k0_off2 (k0_t1 : Fin k0_t1_loop.trips) : Fin 1 → Nat :=
  let c0_i32_11 : BitVec 32 := 0#32
  let c1_i32_12 : BitVec 32 := 1#32
  let arg6 : BitVec 32 := Scf.iv c0_i32_11 c1_i32_12 k0_t1
  let c16_i32 : BitVec 32 := 16#32
  let v34 : BitVec 32 := Scalar.muli arg6 c16_i32
  let v35 : Index := Scalar.indexCast v34
  ![v35.toNat]
@[reducible] def k0_t2_loop : Scf.Loop 32 :=
  let c0_i32_15 : BitVec 32 := 0#32
  let c256_i32 : BitVec 32 := 256#32
  let v32 : BitVec 32 := Scalar.addi c0_i32_15 c256_i32
  let c1_i32_16 : BitVec 32 := 1#32
  ⟨c0_i32_15, v32, c1_i32_16⟩
def k0_off3 (k0_t2 : Fin k0_t2_loop.trips) : Fin 1 → Nat :=
  let c0_i32_15 : BitVec 32 := 0#32
  let c1_i32_16 : BitVec 32 := 1#32
  let arg6 : BitVec 32 := Scf.iv c0_i32_15 c1_i32_16 k0_t2
  let c16_i32 : BitVec 32 := 16#32
  let v33 : BitVec 32 := Scalar.muli arg6 c16_i32
  let v34 : Index := Scalar.indexCast v33
  ![v34.toNat]

def k0_chk1 (v46 : IVec S16 32) : Prop :=
  (∀ a x, ((![v46] : Fin 1 → IVec S16 32) a x).toNat < S1024.size a)
instance k0_chk1.dec : ∀ (v46 : IVec S16 32), Decidable (k0_chk1 v46) := fun v46 => decidable_of_iff' _ (Iff.of_eq (k0_chk1.eq_1 v46))
theorem k0_idx1_inb : ∀ (v46 : IVec S16 32) (k0_hw1 : k0_chk1 v46), ∀ a x, ((![v46] : Fin 1 → IVec S16 32) a x).toNat < S1024.size a := fun v46 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  ![v18.toNat, v29.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x4x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hcore0 : grid0.bound 0 ≤ τ.nSC
  hsub0 : grid0.bound 1 ≤ τ.nSub
  k0_off1_inb : ∀ i : grid0.Coords, ∀ a, (k0_off1 i) a + S1x4096.size a ≤ S4x4096.size a
  k0_t1_ok : k0_t1_loop.OK
  k0_off2_inb : ∀ k0_t1 : Fin k0_t1_loop.trips, ∀ a, (k0_off2 k0_t1) a + S16.size a ≤ S1024.size a
  k0_t2_ok : k0_t2_loop.OK
  k0_off3_inb : ∀ k0_t2 : Fin k0_t2_loop.trips, ∀ a, (k0_off3 k0_t2) a + S16.size a ≤ S4096.size a
  k0_off4_inb : ∀ i : grid0.Coords, ∀ a, (k0_off4 i) a + S1x1024.size a ≤ S4x8192.size a

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512.size a ≤ S4x8192.size a
  hwx1_0 : ∀ i : grid1.Coords, EltTy.bits .f32 = 32 ∨ (Rect.block (s := S4x8192) S4x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4x1024.size a ≤ S8192x4x1024.size a
  hwx1_1 : ∀ i : grid1.Coords, EltTy.bits .f32 = 32 ∨ (Rect.block (s := S8192x4x1024) S512x4x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4x1024.size a ≤ S8192x4x1024.size a
  hwx1_4 : ∀ i : grid1.Coords, EltTy.bits .f32 = 32 ∨ (Rect.block (s := S8192x4x1024) S512x4x1024.size (cc1_transform_4 i) (hinb1_4 i)).WholeWords (EltTy.packing .f32)

class Shapes1.Facts₀ : Prop where
  squeezes_S1x4096_S4096 : S1x4096.Squeezes S4096
  h_S16 : 0 < S16.numel
  h_S1024 : 0 < S1024.numel
  squeezes_S1x1024_S1024 : S1x1024.Squeezes S1024
  shapeCasts_S1024_S1x1024 : S1024.ShapeCasts S1x1024
  inb_S512x4x1024_S512x4x1024_0_0_0 : ∀ a, (![0, 0, 0] : Fin 3 → Nat) a + S512x4x1024.size a ≤ S512x4x1024.size a
  h_S512x4x1024 : 0 < S512x4x1024.numel
  inb_S4x512_S4x512_0_0 : ∀ a, (![0, 0] : Fin 2 → Nat) a + S4x512.size a ≤ S4x512.size a
  h_S4x512 : 0 < S4x512.numel
  shapeCasts_S4x512_S4x512 : S4x512.ShapeCasts S4x512
  reduces_S512x4x1024_S512x4 : S512x4x1024.Reduces [2] S512x4
  shapeCasts_S512x4_S512x4x1 : S512x4.ShapeCasts S512x4x1
  broadcasts_S512x4x1_S512x4x1024 : S512x4x1.Broadcasts S512x4x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1x1024 : S1024.ShapeCasts S1x1x1024
  broadcasts_S1x1x1024_S512x4x1024 : S1x1x1024.Broadcasts S512x4x1024
  slices_S4x512_o0_0_S4x1 : S4x512.Slices ![0, 0] S4x1
  slices_S512x4x1024_o0_0_0_S1x4x1024 : S512x4x1024.Slices ![0, 0, 0] S1x4x1024
  shapeCasts_S1x4x1024_S4x1024 : S1x4x1024.ShapeCasts S4x1024
  shapeCasts_S4x1_S4x1 : S4x1.ShapeCasts S4x1
  broadcasts_S4x1_S4x1024 : S4x1.Broadcasts S4x1024
  inb_S512x4x1024_S1x4x1024_0_0_0 : ∀ a, (![0, 0, 0] : Fin 3 → Nat) a + S1x4x1024.size a ≤ S512x4x1024.size a
  h_S1x4x1024 : 0 < S1x4x1024.numel
  shapeCasts_S4x1024_S1x4x1024 : S4x1024.ShapeCasts S1x4x1024
  slices_S4x512_o0_1_S4x1 : S4x512.Slices ![0, 1] S4x1
  slices_S512x4x1024_o1_0_0_S1x4x1024 : S512x4x1024.Slices ![1, 0, 0] S1x4x1024
  inb_S512x4x1024_S1x4x1024_1_0_0 : ∀ a, (![1, 0, 0] : Fin 3 → Nat) a + S1x4x1024.size a ≤ S512x4x1024.size a
  slices_S4x512_o0_2_S4x1 : S4x512.Slices ![0, 2] S4x1
  slices_S512x4x1024_o2_0_0_S1x4x1024 : S512x4x1024.Slices ![2, 0, 0] S1x4x1024
  inb_S512x4x1024_S1x4x1024_2_0_0 : ∀ a, (![2, 0, 0] : Fin 3 → Nat) a + S1x4x1024.size a ≤ S512x4x1024.size a
  slices_S4x512_o0_3_S4x1 : S4x512.Slices ![0, 3] S4x1
  slices_S512x4x1024_o3_0_0_S1x4x1024 : S512x4x1024.Slices ![3, 0, 0] S1x4x1024
  inb_S512x4x1024_S1x4x1024_3_0_0 : ∀ a, (![3, 0, 0] : Fin 3 → Nat) a + S1x4x1024.size a ≤ S512x4x1024.size a
  slices_S4x512_o0_4_S4x1 : S4x512.Slices ![0, 4] S4x1
  slices_S512x4x1024_o4_0_0_S1x4x1024 : S512x4x1024.Slices ![4, 0, 0] S1x4x1024
  inb_S512x4x1024_S1x4x1024_4_0_0 : ∀ a, (![4, 0, 0] : Fin 3 → Nat) a + S1x4x1024.size a ≤ S512x4x1024.size a
  slices_S4x512_o0_5_S4x1 : S4x512.Slices ![0, 5] S4x1
  slices_S512x4x1024_o5_0_0_S1x4x1024 : S512x4x1024.Slices ![5, 0, 0] S1x4x1024
  inb_S512x4x1024_S1x4x1024_5_0_0 : ∀ a, (![5, 0, 0] : Fin 3 → Nat) a + S1x4x1024.size a ≤ S512x4x1024.size a
  slices_S4x512_o0_6_S4x1 : S4x512.Slices ![0, 6] S4x1
  slices_S512x4x1024_o6_0_0_S1x4x1024 : S512x4x1024.Slices ![6, 0, 0] S1x4x1024
  inb_S512x4x1024_S1x4x1024_6_0_0 : ∀ a, (![6, 0, 0] : Fin 3 → Nat) a + S1x4x1024.size a ≤ S512x4x1024.size a
  slices_S4x512_o0_7_S4x1 : S4x512.Slices ![0, 7] S4x1
  slices_S512x4x1024_o7_0_0_S1x4x1024 : S512x4x1024.Slices ![7, 0, 0] S1x4x1024
  inb_S512x4x1024_S1x4x1024_7_0_0 : ∀ a, (![7, 0, 0] : Fin 3 → Nat) a + S1x4x1024.size a ≤ S512x4x1024.size a
  slices_S4x512_o0_8_S4x1 : S4x512.Slices ![0, 8] S4x1
  slices_S512x4x1024_o8_0_0_S1x4x1024 : S512x4x1024.Slices ![8, 0, 0] S1x4x1024
  inb_S512x4x1024_S1x4x1024_8_0_0 : ∀ a, (![8, 0, 0] : Fin 3 → Nat) a + S1x4x1024.size a ≤ S512x4x1024.size a
  slices_S4x512_o0_9_S4x1 : S4x512.Slices ![0, 9] S4x1
  slices_S512x4x1024_o9_0_0_S1x4x1024 : S512x4x1024.Slices ![9, 0, 0] S1x4x1024
  inb_S512x4x1024_S1x4x1024_9_0_0 : ∀ a, (![9, 0, 0] : Fin 3 → Nat) a + S1x4x1024.size a ≤ S512x4x1024.size a
  slices_S4x512_o0_10_S4x1 : S4x512.Slices ![0, 10] S4x1
  slices_S512x4x1024_o10_0_0_S1x4x1024 : S512x4x1024.Slices ![10, 0, 0] S1x4x1024
  inb_S512x4x1024_S1x4x1024_10_0_0 : ∀ a, (![10, 0, 0] : Fin 3 → Nat) a + S1x4x1024.size a ≤ S512x4x1024.size a
  slices_S4x512_o0_11_S4x1 : S4x512.Slices ![0, 11] S4x1
  slices_S512x4x1024_o11_0_0_S1x4x1024 : S512x4x1024.Slices ![11, 0, 0] S1x4x1024
  inb_S512x4x1024_S1x4x1024_11_0_0 : ∀ a, (![11, 0, 0] : Fin 3 → Nat) a + S1x4x1024.size a ≤ S512x4x1024.size a
  slices_S4x512_o0_12_S4x1 : S4x512.Slices ![0, 12] S4x1
  slices_S512x4x1024_o12_0_0_S1x4x1024 : S512x4x1024.Slices ![12, 0, 0] S1x4x1024
  inb_S512x4x1024_S1x4x1024_12_0_0 : ∀ a, (![12, 0, 0] : Fin 3 → Nat) a + S1x4x1024.size a ≤ S512x4x1024.size a
  slices_S4x512_o0_13_S4x1 : S4x512.Slices ![0, 13] S4x1
  slices_S512x4x1024_o13_0_0_S1x4x1024 : S512x4x1024.Slices ![13, 0, 0] S1x4x1024
  inb_S512x4x1024_S1x4x1024_13_0_0 : ∀ a, (![13, 0, 0] : Fin 3 → Nat) a + S1x4x1024.size a ≤ S512x4x1024.size a
  slices_S4x512_o0_14_S4x1 : S4x512.Slices ![0, 14] S4x1
  slices_S512x4x1024_o14_0_0_S1x4x1024 : S512x4x1024.Slices ![14, 0, 0] S1x4x1024
  inb_S512x4x1024_S1x4x1024_14_0_0 : ∀ a, (![14, 0, 0] : Fin 3 → Nat) a + S1x4x1024.size a ≤ S512x4x1024.size a
  slices_S4x512_o0_15_S4x1 : S4x512.Slices ![0, 15] S4x1
  slices_S512x4x1024_o15_0_0_S1x4x1024 : S512x4x1024.Slices ![15, 0, 0] S1x4x1024
  inb_S512x4x1024_S1x4x1024_15_0_0 : ∀ a, (![15, 0, 0] : Fin 3 → Nat) a + S1x4x1024.size a ≤ S512x4x1024.size a
  slices_S4x512_o0_16_S4x1 : S4x512.Slices ![0, 16] S4x1
  slices_S512x4x1024_o16_0_0_S1x4x1024 : S512x4x1024.Slices ![16, 0, 0] S1x4x1024
  inb_S512x4x1024_S1x4x1024_16_0_0 : ∀ a, (![16, 0, 0] : Fin 3 → Nat) a + S1x4x1024.size a ≤ S512x4x1024.size a
  slices_S4x512_o0_17_S4x1 : S4x512.Slices ![0, 17] S4x1
  slices_S512x4x1024_o17_0_0_S1x4x1024 : S512x4x1024.Slices ![17, 0, 0] S1x4x1024
  inb_S512x4x1024_S1x4x1024_17_0_0 : ∀ a, (![17, 0, 0] : Fin 3 → Nat) a + S1x4x1024.size a ≤ S512x4x1024.size a
  slices_S4x512_o0_18_S4x1 : S4x512.Slices ![0, 18] S4x1
  slices_S512x4x1024_o18_0_0_S1x4x1024 : S512x4x1024.Slices ![18, 0, 0] S1x4x1024
  inb_S512x4x1024_S1x4x1024_18_0_0 : ∀ a, (![18, 0, 0] : Fin 3 → Nat) a + S1x4x1024.size a ≤ S512x4x1024.size a
  slices_S4x512_o0_19_S4x1 : S4x512.Slices ![0, 19] S4x1
  slices_S512x4x1024_o19_0_0_S1x4x1024 : S512x4x1024.Slices ![19, 0, 0] S1x4x1024
  inb_S512x4x1024_S1x4x1024_19_0_0 : ∀ a, (![19, 0, 0] : Fin 3 → Nat) a + S1x4x1024.size a ≤ S512x4x1024.size a
  slices_S4x512_o0_20_S4x1 : S4x512.Slices ![0, 20] S4x1
  slices_S512x4x1024_o20_0_0_S1x4x1024 : S512x4x1024.Slices ![20, 0, 0] S1x4x1024
  inb_S512x4x1024_S1x4x1024_20_0_0 : ∀ a, (![20, 0, 0] : Fin 3 → Nat) a + S1x4x1024.size a ≤ S512x4x1024.size a
  slices_S4x512_o0_21_S4x1 : S4x512.Slices ![0, 21] S4x1
  slices_S512x4x1024_o21_0_0_S1x4x1024 : S512x4x1024.Slices ![21, 0, 0] S1x4x1024
  inb_S512x4x1024_S1x4x1024_21_0_0 : ∀ a, (![21, 0, 0] : Fin 3 → Nat) a + S1x4x1024.size a ≤ S512x4x1024.size a
  slices_S4x512_o0_22_S4x1 : S4x512.Slices ![0, 22] S4x1
  slices_S512x4x1024_o22_0_0_S1x4x1024 : S512x4x1024.Slices ![22, 0, 0] S1x4x1024
  inb_S512x4x1024_S1x4x1024_22_0_0 : ∀ a, (![22, 0, 0] : Fin 3 → Nat) a + S1x4x1024.size a ≤ S512x4x1024.size a
  slices_S4x512_o0_23_S4x1 : S4x512.Slices ![0, 23] S4x1
  slices_S512x4x1024_o23_0_0_S1x4x1024 : S512x4x1024.Slices ![23, 0, 0] S1x4x1024
  inb_S512x4x1024_S1x4x1024_23_0_0 : ∀ a, (![23, 0, 0] : Fin 3 → Nat) a + S1x4x1024.size a ≤ S512x4x1024.size a
  slices_S4x512_o0_24_S4x1 : S4x512.Slices ![0, 24] S4x1
  slices_S512x4x1024_o24_0_0_S1x4x1024 : S512x4x1024.Slices ![24, 0, 0] S1x4x1024
  inb_S512x4x1024_S1x4x1024_24_0_0 : ∀ a, (![24, 0, 0] : Fin 3 → Nat) a + S1x4x1024.size a ≤ S512x4x1024.size a
  slices_S4x512_o0_25_S4x1 : S4x512.Slices ![0, 25] S4x1
  slices_S512x4x1024_o25_0_0_S1x4x1024 : S512x4x1024.Slices ![25, 0, 0] S1x4x1024
  inb_S512x4x1024_S1x4x1024_25_0_0 : ∀ a, (![25, 0, 0] : Fin 3 → Nat) a + S1x4x1024.size a ≤ S512x4x1024.size a
  slices_S4x512_o0_26_S4x1 : S4x512.Slices ![0, 26] S4x1
  slices_S512x4x1024_o26_0_0_S1x4x1024 : S512x4x1024.Slices ![26, 0, 0] S1x4x1024
  inb_S512x4x1024_S1x4x1024_26_0_0 : ∀ a, (![26, 0, 0] : Fin 3 → Nat) a + S1x4x1024.size a ≤ S512x4x1024.size a
  slices_S4x512_o0_27_S4x1 : S4x512.Slices ![0, 27] S4x1
  slices_S512x4x1024_o27_0_0_S1x4x1024 : S512x4x1024.Slices ![27, 0, 0] S1x4x1024
  inb_S512x4x1024_S1x4x1024_27_0_0 : ∀ a, (![27, 0, 0] : Fin 3 → Nat) a + S1x4x1024.size a ≤ S512x4x1024.size a
  slices_S4x512_o0_28_S4x1 : S4x512.Slices ![0, 28] S4x1
  slices_S512x4x1024_o28_0_0_S1x4x1024 : S512x4x1024.Slices ![28, 0, 0] S1x4x1024
  inb_S512x4x1024_S1x4x1024_28_0_0 : ∀ a, (![28, 0, 0] : Fin 3 → Nat) a + S1x4x1024.size a ≤ S512x4x1024.size a
  slices_S4x512_o0_29_S4x1 : S4x512.Slices ![0, 29] S4x1
  slices_S512x4x1024_o29_0_0_S1x4x1024 : S512x4x1024.Slices ![29, 0, 0] S1x4x1024
  inb_S512x4x1024_S1x4x1024_29_0_0 : ∀ a, (![29, 0, 0] : Fin 3 → Nat) a + S1x4x1024.size a ≤ S512x4x1024.size a
  slices_S4x512_o0_30_S4x1 : S4x512.Slices ![0, 30] S4x1
  slices_S512x4x1024_o30_0_0_S1x4x1024 : S512x4x1024.Slices ![30, 0, 0] S1x4x1024
  inb_S512x4x1024_S1x4x1024_30_0_0 : ∀ a, (![30, 0, 0] : Fin 3 → Nat) a + S1x4x1024.size a ≤ S512x4x1024.size a
  slices_S4x512_o0_31_S4x1 : S4x512.Slices ![0, 31] S4x1
  slices_S512x4x1024_o31_0_0_S1x4x1024 : S512x4x1024.Slices ![31, 0, 0] S1x4x1024
  inb_S512x4x1024_S1x4x1024_31_0_0 : ∀ a, (![31, 0, 0] : Fin 3 → Nat) a + S1x4x1024.size a ≤ S512x4x1024.size a
  slices_S4x512_o0_32_S4x1 : S4x512.Slices ![0, 32] S4x1
  slices_S512x4x1024_o32_0_0_S1x4x1024 : S512x4x1024.Slices ![32, 0, 0] S1x4x1024
  inb_S512x4x1024_S1x4x1024_32_0_0 : ∀ a, (![32, 0, 0] : Fin 3 → Nat) a + S1x4x1024.size a ≤ S512x4x1024.size a
  slices_S4x512_o0_33_S4x1 : S4x512.Slices ![0, 33] S4x1
  slices_S512x4x1024_o33_0_0_S1x4x1024 : S512x4x1024.Slices ![33, 0, 0] S1x4x1024
  inb_S512x4x1024_S1x4x1024_33_0_0 : ∀ a, (![33, 0, 0] : Fin 3 → Nat) a + S1x4x1024.size a ≤ S512x4x1024.size a
  slices_S4x512_o0_34_S4x1 : S4x512.Slices ![0, 34] S4x1
  slices_S512x4x1024_o34_0_0_S1x4x1024 : S512x4x1024.Slices ![34, 0, 0] S1x4x1024
  inb_S512x4x1024_S1x4x1024_34_0_0 : ∀ a, (![34, 0, 0] : Fin 3 → Nat) a + S1x4x1024.size a ≤ S512x4x1024.size a
  slices_S4x512_o0_35_S4x1 : S4x512.Slices ![0, 35] S4x1
  slices_S512x4x1024_o35_0_0_S1x4x1024 : S512x4x1024.Slices ![35, 0, 0] S1x4x1024
  inb_S512x4x1024_S1x4x1024_35_0_0 : ∀ a, (![35, 0, 0] : Fin 3 → Nat) a + S1x4x1024.size a ≤ S512x4x1024.size a
  slices_S4x512_o0_36_S4x1 : S4x512.Slices ![0, 36] S4x1
  slices_S512x4x1024_o36_0_0_S1x4x1024 : S512x4x1024.Slices ![36, 0, 0] S1x4x1024
  inb_S512x4x1024_S1x4x1024_36_0_0 : ∀ a, (![36, 0, 0] : Fin 3 → Nat) a + S1x4x1024.size a ≤ S512x4x1024.size a
  slices_S4x512_o0_37_S4x1 : S4x512.Slices ![0, 37] S4x1
  slices_S512x4x1024_o37_0_0_S1x4x1024 : S512x4x1024.Slices ![37, 0, 0] S1x4x1024
  inb_S512x4x1024_S1x4x1024_37_0_0 : ∀ a, (![37, 0, 0] : Fin 3 → Nat) a + S1x4x1024.size a ≤ S512x4x1024.size a
  slices_S4x512_o0_38_S4x1 : S4x512.Slices ![0, 38] S4x1
  slices_S512x4x1024_o38_0_0_S1x4x1024 : S512x4x1024.Slices ![38, 0, 0] S1x4x1024
  inb_S512x4x1024_S1x4x1024_38_0_0 : ∀ a, (![38, 0, 0] : Fin 3 → Nat) a + S1x4x1024.size a ≤ S512x4x1024.size a
  slices_S4x512_o0_39_S4x1 : S4x512.Slices ![0, 39] S4x1
  slices_S512x4x1024_o39_0_0_S1x4x1024 : S512x4x1024.Slices ![39, 0, 0] S1x4x1024
  inb_S512x4x1024_S1x4x1024_39_0_0 : ∀ a, (![39, 0, 0] : Fin 3 → Nat) a + S1x4x1024.size a ≤ S512x4x1024.size a
  slices_S4x512_o0_40_S4x1 : S4x512.Slices ![0, 40] S4x1
  slices_S512x4x1024_o40_0_0_S1x4x1024 : S512x4x1024.Slices ![40, 0, 0] S1x4x1024
  inb_S512x4x1024_S1x4x1024_40_0_0 : ∀ a, (![40, 0, 0] : Fin 3 → Nat) a + S1x4x1024.size a ≤ S512x4x1024.size a
  slices_S4x512_o0_41_S4x1 : S4x512.Slices ![0, 41] S4x1
  slices_S512x4x1024_o41_0_0_S1x4x1024 : S512x4x1024.Slices ![41, 0, 0] S1x4x1024
  inb_S512x4x1024_S1x4x1024_41_0_0 : ∀ a, (![41, 0, 0] : Fin 3 → Nat) a + S1x4x1024.size a ≤ S512x4x1024.size a
  slices_S4x512_o0_42_S4x1 : S4x512.Slices ![0, 42] S4x1
  slices_S512x4x1024_o42_0_0_S1x4x1024 : S512x4x1024.Slices ![42, 0, 0] S1x4x1024
  inb_S512x4x1024_S1x4x1024_42_0_0 : ∀ a, (![42, 0, 0] : Fin 3 → Nat) a + S1x4x1024.size a ≤ S512x4x1024.size a
  slices_S4x512_o0_43_S4x1 : S4x512.Slices ![0, 43] S4x1
  slices_S512x4x1024_o43_0_0_S1x4x1024 : S512x4x1024.Slices ![43, 0, 0] S1x4x1024
  inb_S512x4x1024_S1x4x1024_43_0_0 : ∀ a, (![43, 0, 0] : Fin 3 → Nat) a + S1x4x1024.size a ≤ S512x4x1024.size a
  slices_S4x512_o0_44_S4x1 : S4x512.Slices ![0, 44] S4x1
  slices_S512x4x1024_o44_0_0_S1x4x1024 : S512x4x1024.Slices ![44, 0, 0] S1x4x1024
  inb_S512x4x1024_S1x4x1024_44_0_0 : ∀ a, (![44, 0, 0] : Fin 3 → Nat) a + S1x4x1024.size a ≤ S512x4x1024.size a
  slices_S4x512_o0_45_S4x1 : S4x512.Slices ![0, 45] S4x1
  slices_S512x4x1024_o45_0_0_S1x4x1024 : S512x4x1024.Slices ![45, 0, 0] S1x4x1024
  inb_S512x4x1024_S1x4x1024_45_0_0 : ∀ a, (![45, 0, 0] : Fin 3 → Nat) a + S1x4x1024.size a ≤ S512x4x1024.size a
  slices_S4x512_o0_46_S4x1 : S4x512.Slices ![0, 46] S4x1
  slices_S512x4x1024_o46_0_0_S1x4x1024 : S512x4x1024.Slices ![46, 0, 0] S1x4x1024
  inb_S512x4x1024_S1x4x1024_46_0_0 : ∀ a, (![46, 0, 0] : Fin 3 → Nat) a + S1x4x1024.size a ≤ S512x4x1024.size a
  slices_S4x512_o0_47_S4x1 : S4x512.Slices ![0, 47] S4x1
  slices_S512x4x1024_o47_0_0_S1x4x1024 : S512x4x1024.Slices ![47, 0, 0] S1x4x1024
  inb_S512x4x1024_S1x4x1024_47_0_0 : ∀ a, (![47, 0, 0] : Fin 3 → Nat) a + S1x4x1024.size a ≤ S512x4x1024.size a
  slices_S4x512_o0_48_S4x1 : S4x512.Slices ![0, 48] S4x1
  slices_S512x4x1024_o48_0_0_S1x4x1024 : S512x4x1024.Slices ![48, 0, 0] S1x4x1024
  inb_S512x4x1024_S1x4x1024_48_0_0 : ∀ a, (![48, 0, 0] : Fin 3 → Nat) a + S1x4x1024.size a ≤ S512x4x1024.size a
  slices_S4x512_o0_49_S4x1 : S4x512.Slices ![0, 49] S4x1
  slices_S512x4x1024_o49_0_0_S1x4x1024 : S512x4x1024.Slices ![49, 0, 0] S1x4x1024
  inb_S512x4x1024_S1x4x1024_49_0_0 : ∀ a, (![49, 0, 0] : Fin 3 → Nat) a + S1x4x1024.size a ≤ S512x4x1024.size a
  slices_S4x512_o0_50_S4x1 : S4x512.Slices ![0, 50] S4x1
  slices_S512x4x1024_o50_0_0_S1x4x1024 : S512x4x1024.Slices ![50, 0, 0] S1x4x1024
  inb_S512x4x1024_S1x4x1024_50_0_0 : ∀ a, (![50, 0, 0] : Fin 3 → Nat) a + S1x4x1024.size a ≤ S512x4x1024.size a
  slices_S4x512_o0_51_S4x1 : S4x512.Slices ![0, 51] S4x1
  slices_S512x4x1024_o51_0_0_S1x4x1024 : S512x4x1024.Slices ![51, 0, 0] S1x4x1024
  inb_S512x4x1024_S1x4x1024_51_0_0 : ∀ a, (![51, 0, 0] : Fin 3 → Nat) a + S1x4x1024.size a ≤ S512x4x1024.size a
  slices_S4x512_o0_52_S4x1 : S4x512.Slices ![0, 52] S4x1
  slices_S512x4x1024_o52_0_0_S1x4x1024 : S512x4x1024.Slices ![52, 0, 0] S1x4x1024
  inb_S512x4x1024_S1x4x1024_52_0_0 : ∀ a, (![52, 0, 0] : Fin 3 → Nat) a + S1x4x1024.size a ≤ S512x4x1024.size a
  slices_S4x512_o0_53_S4x1 : S4x512.Slices ![0, 53] S4x1
  slices_S512x4x1024_o53_0_0_S1x4x1024 : S512x4x1024.Slices ![53, 0, 0] S1x4x1024
  inb_S512x4x1024_S1x4x1024_53_0_0 : ∀ a, (![53, 0, 0] : Fin 3 → Nat) a + S1x4x1024.size a ≤ S512x4x1024.size a
  slices_S4x512_o0_54_S4x1 : S4x512.Slices ![0, 54] S4x1
  slices_S512x4x1024_o54_0_0_S1x4x1024 : S512x4x1024.Slices ![54, 0, 0] S1x4x1024
  inb_S512x4x1024_S1x4x1024_54_0_0 : ∀ a, (![54, 0, 0] : Fin 3 → Nat) a + S1x4x1024.size a ≤ S512x4x1024.size a
  slices_S4x512_o0_55_S4x1 : S4x512.Slices ![0, 55] S4x1
  slices_S512x4x1024_o55_0_0_S1x4x1024 : S512x4x1024.Slices ![55, 0, 0] S1x4x1024
  inb_S512x4x1024_S1x4x1024_55_0_0 : ∀ a, (![55, 0, 0] : Fin 3 → Nat) a + S1x4x1024.size a ≤ S512x4x1024.size a
  slices_S4x512_o0_56_S4x1 : S4x512.Slices ![0, 56] S4x1
  slices_S512x4x1024_o56_0_0_S1x4x1024 : S512x4x1024.Slices ![56, 0, 0] S1x4x1024
  inb_S512x4x1024_S1x4x1024_56_0_0 : ∀ a, (![56, 0, 0] : Fin 3 → Nat) a + S1x4x1024.size a ≤ S512x4x1024.size a
  slices_S4x512_o0_57_S4x1 : S4x512.Slices ![0, 57] S4x1
  slices_S512x4x1024_o57_0_0_S1x4x1024 : S512x4x1024.Slices ![57, 0, 0] S1x4x1024
  inb_S512x4x1024_S1x4x1024_57_0_0 : ∀ a, (![57, 0, 0] : Fin 3 → Nat) a + S1x4x1024.size a ≤ S512x4x1024.size a
  slices_S4x512_o0_58_S4x1 : S4x512.Slices ![0, 58] S4x1
  slices_S512x4x1024_o58_0_0_S1x4x1024 : S512x4x1024.Slices ![58, 0, 0] S1x4x1024
  inb_S512x4x1024_S1x4x1024_58_0_0 : ∀ a, (![58, 0, 0] : Fin 3 → Nat) a + S1x4x1024.size a ≤ S512x4x1024.size a
  slices_S4x512_o0_59_S4x1 : S4x512.Slices ![0, 59] S4x1
  slices_S512x4x1024_o59_0_0_S1x4x1024 : S512x4x1024.Slices ![59, 0, 0] S1x4x1024
  inb_S512x4x1024_S1x4x1024_59_0_0 : ∀ a, (![59, 0, 0] : Fin 3 → Nat) a + S1x4x1024.size a ≤ S512x4x1024.size a
  slices_S4x512_o0_60_S4x1 : S4x512.Slices ![0, 60] S4x1
  slices_S512x4x1024_o60_0_0_S1x4x1024 : S512x4x1024.Slices ![60, 0, 0] S1x4x1024
  inb_S512x4x1024_S1x4x1024_60_0_0 : ∀ a, (![60, 0, 0] : Fin 3 → Nat) a + S1x4x1024.size a ≤ S512x4x1024.size a
  slices_S4x512_o0_61_S4x1 : S4x512.Slices ![0, 61] S4x1
  slices_S512x4x1024_o61_0_0_S1x4x1024 : S512x4x1024.Slices ![61, 0, 0] S1x4x1024
  inb_S512x4x1024_S1x4x1024_61_0_0 : ∀ a, (![61, 0, 0] : Fin 3 → Nat) a + S1x4x1024.size a ≤ S512x4x1024.size a
  slices_S4x512_o0_62_S4x1 : S4x512.Slices ![0, 62] S4x1
  slices_S512x4x1024_o62_0_0_S1x4x1024 : S512x4x1024.Slices ![62, 0, 0] S1x4x1024
  inb_S512x4x1024_S1x4x1024_62_0_0 : ∀ a, (![62, 0, 0] : Fin 3 → Nat) a + S1x4x1024.size a ≤ S512x4x1024.size a
  slices_S4x512_o0_63_S4x1 : S4x512.Slices ![0, 63] S4x1
  slices_S512x4x1024_o63_0_0_S1x4x1024 : S512x4x1024.Slices ![63, 0, 0] S1x4x1024
  inb_S512x4x1024_S1x4x1024_63_0_0 : ∀ a, (![63, 0, 0] : Fin 3 → Nat) a + S1x4x1024.size a ≤ S512x4x1024.size a
  slices_S4x512_o0_64_S4x1 : S4x512.Slices ![0, 64] S4x1
  slices_S512x4x1024_o64_0_0_S1x4x1024 : S512x4x1024.Slices ![64, 0, 0] S1x4x1024
  inb_S512x4x1024_S1x4x1024_64_0_0 : ∀ a, (![64, 0, 0] : Fin 3 → Nat) a + S1x4x1024.size a ≤ S512x4x1024.size a
  slices_S4x512_o0_65_S4x1 : S4x512.Slices ![0, 65] S4x1
  slices_S512x4x1024_o65_0_0_S1x4x1024 : S512x4x1024.Slices ![65, 0, 0] S1x4x1024
  inb_S512x4x1024_S1x4x1024_65_0_0 : ∀ a, (![65, 0, 0] : Fin 3 → Nat) a + S1x4x1024.size a ≤ S512x4x1024.size a
  slices_S4x512_o0_66_S4x1 : S4x512.Slices ![0, 66] S4x1
  slices_S512x4x1024_o66_0_0_S1x4x1024 : S512x4x1024.Slices ![66, 0, 0] S1x4x1024
  inb_S512x4x1024_S1x4x1024_66_0_0 : ∀ a, (![66, 0, 0] : Fin 3 → Nat) a + S1x4x1024.size a ≤ S512x4x1024.size a
  slices_S4x512_o0_67_S4x1 : S4x512.Slices ![0, 67] S4x1
  slices_S512x4x1024_o67_0_0_S1x4x1024 : S512x4x1024.Slices ![67, 0, 0] S1x4x1024
  inb_S512x4x1024_S1x4x1024_67_0_0 : ∀ a, (![67, 0, 0] : Fin 3 → Nat) a + S1x4x1024.size a ≤ S512x4x1024.size a
  slices_S4x512_o0_68_S4x1 : S4x512.Slices ![0, 68] S4x1
  slices_S512x4x1024_o68_0_0_S1x4x1024 : S512x4x1024.Slices ![68, 0, 0] S1x4x1024
  inb_S512x4x1024_S1x4x1024_68_0_0 : ∀ a, (![68, 0, 0] : Fin 3 → Nat) a + S1x4x1024.size a ≤ S512x4x1024.size a
  slices_S4x512_o0_69_S4x1 : S4x512.Slices ![0, 69] S4x1
  slices_S512x4x1024_o69_0_0_S1x4x1024 : S512x4x1024.Slices ![69, 0, 0] S1x4x1024
  inb_S512x4x1024_S1x4x1024_69_0_0 : ∀ a, (![69, 0, 0] : Fin 3 → Nat) a + S1x4x1024.size a ≤ S512x4x1024.size a
  slices_S4x512_o0_70_S4x1 : S4x512.Slices ![0, 70] S4x1
  slices_S512x4x1024_o70_0_0_S1x4x1024 : S512x4x1024.Slices ![70, 0, 0] S1x4x1024
  inb_S512x4x1024_S1x4x1024_70_0_0 : ∀ a, (![70, 0, 0] : Fin 3 → Nat) a + S1x4x1024.size a ≤ S512x4x1024.size a
  slices_S4x512_o0_71_S4x1 : S4x512.Slices ![0, 71] S4x1
  slices_S512x4x1024_o71_0_0_S1x4x1024 : S512x4x1024.Slices ![71, 0, 0] S1x4x1024
  inb_S512x4x1024_S1x4x1024_71_0_0 : ∀ a, (![71, 0, 0] : Fin 3 → Nat) a + S1x4x1024.size a ≤ S512x4x1024.size a
  slices_S4x512_o0_72_S4x1 : S4x512.Slices ![0, 72] S4x1
  slices_S512x4x1024_o72_0_0_S1x4x1024 : S512x4x1024.Slices ![72, 0, 0] S1x4x1024
  inb_S512x4x1024_S1x4x1024_72_0_0 : ∀ a, (![72, 0, 0] : Fin 3 → Nat) a + S1x4x1024.size a ≤ S512x4x1024.size a
  slices_S4x512_o0_73_S4x1 : S4x512.Slices ![0, 73] S4x1
  slices_S512x4x1024_o73_0_0_S1x4x1024 : S512x4x1024.Slices ![73, 0, 0] S1x4x1024
  inb_S512x4x1024_S1x4x1024_73_0_0 : ∀ a, (![73, 0, 0] : Fin 3 → Nat) a + S1x4x1024.size a ≤ S512x4x1024.size a
  slices_S4x512_o0_74_S4x1 : S4x512.Slices ![0, 74] S4x1
  slices_S512x4x1024_o74_0_0_S1x4x1024 : S512x4x1024.Slices ![74, 0, 0] S1x4x1024
  inb_S512x4x1024_S1x4x1024_74_0_0 : ∀ a, (![74, 0, 0] : Fin 3 → Nat) a + S1x4x1024.size a ≤ S512x4x1024.size a
  slices_S4x512_o0_75_S4x1 : S4x512.Slices ![0, 75] S4x1
  slices_S512x4x1024_o75_0_0_S1x4x1024 : S512x4x1024.Slices ![75, 0, 0] S1x4x1024
  inb_S512x4x1024_S1x4x1024_75_0_0 : ∀ a, (![75, 0, 0] : Fin 3 → Nat) a + S1x4x1024.size a ≤ S512x4x1024.size a
  slices_S4x512_o0_76_S4x1 : S4x512.Slices ![0, 76] S4x1
  slices_S512x4x1024_o76_0_0_S1x4x1024 : S512x4x1024.Slices ![76, 0, 0] S1x4x1024
  inb_S512x4x1024_S1x4x1024_76_0_0 : ∀ a, (![76, 0, 0] : Fin 3 → Nat) a + S1x4x1024.size a ≤ S512x4x1024.size a
  slices_S4x512_o0_77_S4x1 : S4x512.Slices ![0, 77] S4x1
  slices_S512x4x1024_o77_0_0_S1x4x1024 : S512x4x1024.Slices ![77, 0, 0] S1x4x1024
  inb_S512x4x1024_S1x4x1024_77_0_0 : ∀ a, (![77, 0, 0] : Fin 3 → Nat) a + S1x4x1024.size a ≤ S512x4x1024.size a
  slices_S4x512_o0_78_S4x1 : S4x512.Slices ![0, 78] S4x1
  slices_S512x4x1024_o78_0_0_S1x4x1024 : S512x4x1024.Slices ![78, 0, 0] S1x4x1024
  inb_S512x4x1024_S1x4x1024_78_0_0 : ∀ a, (![78, 0, 0] : Fin 3 → Nat) a + S1x4x1024.size a ≤ S512x4x1024.size a
  slices_S4x512_o0_79_S4x1 : S4x512.Slices ![0, 79] S4x1
  slices_S512x4x1024_o79_0_0_S1x4x1024 : S512x4x1024.Slices ![79, 0, 0] S1x4x1024
  inb_S512x4x1024_S1x4x1024_79_0_0 : ∀ a, (![79, 0, 0] : Fin 3 → Nat) a + S1x4x1024.size a ≤ S512x4x1024.size a
  slices_S4x512_o0_80_S4x1 : S4x512.Slices ![0, 80] S4x1
  slices_S512x4x1024_o80_0_0_S1x4x1024 : S512x4x1024.Slices ![80, 0, 0] S1x4x1024
  inb_S512x4x1024_S1x4x1024_80_0_0 : ∀ a, (![80, 0, 0] : Fin 3 → Nat) a + S1x4x1024.size a ≤ S512x4x1024.size a
  slices_S4x512_o0_81_S4x1 : S4x512.Slices ![0, 81] S4x1
  slices_S512x4x1024_o81_0_0_S1x4x1024 : S512x4x1024.Slices ![81, 0, 0] S1x4x1024
  inb_S512x4x1024_S1x4x1024_81_0_0 : ∀ a, (![81, 0, 0] : Fin 3 → Nat) a + S1x4x1024.size a ≤ S512x4x1024.size a
  slices_S4x512_o0_82_S4x1 : S4x512.Slices ![0, 82] S4x1
  slices_S512x4x1024_o82_0_0_S1x4x1024 : S512x4x1024.Slices ![82, 0, 0] S1x4x1024
  inb_S512x4x1024_S1x4x1024_82_0_0 : ∀ a, (![82, 0, 0] : Fin 3 → Nat) a + S1x4x1024.size a ≤ S512x4x1024.size a
  slices_S4x512_o0_83_S4x1 : S4x512.Slices ![0, 83] S4x1
  slices_S512x4x1024_o83_0_0_S1x4x1024 : S512x4x1024.Slices ![83, 0, 0] S1x4x1024
  inb_S512x4x1024_S1x4x1024_83_0_0 : ∀ a, (![83, 0, 0] : Fin 3 → Nat) a + S1x4x1024.size a ≤ S512x4x1024.size a
  slices_S4x512_o0_84_S4x1 : S4x512.Slices ![0, 84] S4x1
  slices_S512x4x1024_o84_0_0_S1x4x1024 : S512x4x1024.Slices ![84, 0, 0] S1x4x1024
  inb_S512x4x1024_S1x4x1024_84_0_0 : ∀ a, (![84, 0, 0] : Fin 3 → Nat) a + S1x4x1024.size a ≤ S512x4x1024.size a
  slices_S4x512_o0_85_S4x1 : S4x512.Slices ![0, 85] S4x1
  slices_S512x4x1024_o85_0_0_S1x4x1024 : S512x4x1024.Slices ![85, 0, 0] S1x4x1024
  inb_S512x4x1024_S1x4x1024_85_0_0 : ∀ a, (![85, 0, 0] : Fin 3 → Nat) a + S1x4x1024.size a ≤ S512x4x1024.size a
  slices_S4x512_o0_86_S4x1 : S4x512.Slices ![0, 86] S4x1
  slices_S512x4x1024_o86_0_0_S1x4x1024 : S512x4x1024.Slices ![86, 0, 0] S1x4x1024
  inb_S512x4x1024_S1x4x1024_86_0_0 : ∀ a, (![86, 0, 0] : Fin 3 → Nat) a + S1x4x1024.size a ≤ S512x4x1024.size a
  slices_S4x512_o0_87_S4x1 : S4x512.Slices ![0, 87] S4x1
  slices_S512x4x1024_o87_0_0_S1x4x1024 : S512x4x1024.Slices ![87, 0, 0] S1x4x1024
  inb_S512x4x1024_S1x4x1024_87_0_0 : ∀ a, (![87, 0, 0] : Fin 3 → Nat) a + S1x4x1024.size a ≤ S512x4x1024.size a
  slices_S4x512_o0_88_S4x1 : S4x512.Slices ![0, 88] S4x1
  slices_S512x4x1024_o88_0_0_S1x4x1024 : S512x4x1024.Slices ![88, 0, 0] S1x4x1024
  inb_S512x4x1024_S1x4x1024_88_0_0 : ∀ a, (![88, 0, 0] : Fin 3 → Nat) a + S1x4x1024.size a ≤ S512x4x1024.size a
  slices_S4x512_o0_89_S4x1 : S4x512.Slices ![0, 89] S4x1
  slices_S512x4x1024_o89_0_0_S1x4x1024 : S512x4x1024.Slices ![89, 0, 0] S1x4x1024
  inb_S512x4x1024_S1x4x1024_89_0_0 : ∀ a, (![89, 0, 0] : Fin 3 → Nat) a + S1x4x1024.size a ≤ S512x4x1024.size a
  slices_S4x512_o0_90_S4x1 : S4x512.Slices ![0, 90] S4x1
  slices_S512x4x1024_o90_0_0_S1x4x1024 : S512x4x1024.Slices ![90, 0, 0] S1x4x1024
  inb_S512x4x1024_S1x4x1024_90_0_0 : ∀ a, (![90, 0, 0] : Fin 3 → Nat) a + S1x4x1024.size a ≤ S512x4x1024.size a
  slices_S4x512_o0_91_S4x1 : S4x512.Slices ![0, 91] S4x1
  slices_S512x4x1024_o91_0_0_S1x4x1024 : S512x4x1024.Slices ![91, 0, 0] S1x4x1024
  inb_S512x4x1024_S1x4x1024_91_0_0 : ∀ a, (![91, 0, 0] : Fin 3 → Nat) a + S1x4x1024.size a ≤ S512x4x1024.size a
  slices_S4x512_o0_92_S4x1 : S4x512.Slices ![0, 92] S4x1
  slices_S512x4x1024_o92_0_0_S1x4x1024 : S512x4x1024.Slices ![92, 0, 0] S1x4x1024
  inb_S512x4x1024_S1x4x1024_92_0_0 : ∀ a, (![92, 0, 0] : Fin 3 → Nat) a + S1x4x1024.size a ≤ S512x4x1024.size a
  slices_S4x512_o0_93_S4x1 : S4x512.Slices ![0, 93] S4x1
  slices_S512x4x1024_o93_0_0_S1x4x1024 : S512x4x1024.Slices ![93, 0, 0] S1x4x1024
  inb_S512x4x1024_S1x4x1024_93_0_0 : ∀ a, (![93, 0, 0] : Fin 3 → Nat) a + S1x4x1024.size a ≤ S512x4x1024.size a
  slices_S4x512_o0_94_S4x1 : S4x512.Slices ![0, 94] S4x1
  slices_S512x4x1024_o94_0_0_S1x4x1024 : S512x4x1024.Slices ![94, 0, 0] S1x4x1024
  inb_S512x4x1024_S1x4x1024_94_0_0 : ∀ a, (![94, 0, 0] : Fin 3 → Nat) a + S1x4x1024.size a ≤ S512x4x1024.size a
  slices_S4x512_o0_95_S4x1 : S4x512.Slices ![0, 95] S4x1
  slices_S512x4x1024_o95_0_0_S1x4x1024 : S512x4x1024.Slices ![95, 0, 0] S1x4x1024
  inb_S512x4x1024_S1x4x1024_95_0_0 : ∀ a, (![95, 0, 0] : Fin 3 → Nat) a + S1x4x1024.size a ≤ S512x4x1024.size a
  slices_S4x512_o0_96_S4x1 : S4x512.Slices ![0, 96] S4x1
  slices_S512x4x1024_o96_0_0_S1x4x1024 : S512x4x1024.Slices ![96, 0, 0] S1x4x1024
  inb_S512x4x1024_S1x4x1024_96_0_0 : ∀ a, (![96, 0, 0] : Fin 3 → Nat) a + S1x4x1024.size a ≤ S512x4x1024.size a
  slices_S4x512_o0_97_S4x1 : S4x512.Slices ![0, 97] S4x1
  slices_S512x4x1024_o97_0_0_S1x4x1024 : S512x4x1024.Slices ![97, 0, 0] S1x4x1024
  inb_S512x4x1024_S1x4x1024_97_0_0 : ∀ a, (![97, 0, 0] : Fin 3 → Nat) a + S1x4x1024.size a ≤ S512x4x1024.size a
  slices_S4x512_o0_98_S4x1 : S4x512.Slices ![0, 98] S4x1
  slices_S512x4x1024_o98_0_0_S1x4x1024 : S512x4x1024.Slices ![98, 0, 0] S1x4x1024
  inb_S512x4x1024_S1x4x1024_98_0_0 : ∀ a, (![98, 0, 0] : Fin 3 → Nat) a + S1x4x1024.size a ≤ S512x4x1024.size a
  slices_S4x512_o0_99_S4x1 : S4x512.Slices ![0, 99] S4x1
  slices_S512x4x1024_o99_0_0_S1x4x1024 : S512x4x1024.Slices ![99, 0, 0] S1x4x1024
  inb_S512x4x1024_S1x4x1024_99_0_0 : ∀ a, (![99, 0, 0] : Fin 3 → Nat) a + S1x4x1024.size a ≤ S512x4x1024.size a
  slices_S4x512_o0_100_S4x1 : S4x512.Slices ![0, 100] S4x1
  slices_S512x4x1024_o100_0_0_S1x4x1024 : S512x4x1024.Slices ![100, 0, 0] S1x4x1024
  inb_S512x4x1024_S1x4x1024_100_0_0 : ∀ a, (![100, 0, 0] : Fin 3 → Nat) a + S1x4x1024.size a ≤ S512x4x1024.size a
  slices_S4x512_o0_101_S4x1 : S4x512.Slices ![0, 101] S4x1
  slices_S512x4x1024_o101_0_0_S1x4x1024 : S512x4x1024.Slices ![101, 0, 0] S1x4x1024
  inb_S512x4x1024_S1x4x1024_101_0_0 : ∀ a, (![101, 0, 0] : Fin 3 → Nat) a + S1x4x1024.size a ≤ S512x4x1024.size a
  slices_S4x512_o0_102_S4x1 : S4x512.Slices ![0, 102] S4x1
  slices_S512x4x1024_o102_0_0_S1x4x1024 : S512x4x1024.Slices ![102, 0, 0] S1x4x1024
  inb_S512x4x1024_S1x4x1024_102_0_0 : ∀ a, (![102, 0, 0] : Fin 3 → Nat) a + S1x4x1024.size a ≤ S512x4x1024.size a
  slices_S4x512_o0_103_S4x1 : S4x512.Slices ![0, 103] S4x1
  slices_S512x4x1024_o103_0_0_S1x4x1024 : S512x4x1024.Slices ![103, 0, 0] S1x4x1024
  inb_S512x4x1024_S1x4x1024_103_0_0 : ∀ a, (![103, 0, 0] : Fin 3 → Nat) a + S1x4x1024.size a ≤ S512x4x1024.size a
  slices_S4x512_o0_104_S4x1 : S4x512.Slices ![0, 104] S4x1
  slices_S512x4x1024_o104_0_0_S1x4x1024 : S512x4x1024.Slices ![104, 0, 0] S1x4x1024
  inb_S512x4x1024_S1x4x1024_104_0_0 : ∀ a, (![104, 0, 0] : Fin 3 → Nat) a + S1x4x1024.size a ≤ S512x4x1024.size a
  slices_S4x512_o0_105_S4x1 : S4x512.Slices ![0, 105] S4x1
  slices_S512x4x1024_o105_0_0_S1x4x1024 : S512x4x1024.Slices ![105, 0, 0] S1x4x1024
  inb_S512x4x1024_S1x4x1024_105_0_0 : ∀ a, (![105, 0, 0] : Fin 3 → Nat) a + S1x4x1024.size a ≤ S512x4x1024.size a
  slices_S4x512_o0_106_S4x1 : S4x512.Slices ![0, 106] S4x1
  slices_S512x4x1024_o106_0_0_S1x4x1024 : S512x4x1024.Slices ![106, 0, 0] S1x4x1024
  inb_S512x4x1024_S1x4x1024_106_0_0 : ∀ a, (![106, 0, 0] : Fin 3 → Nat) a + S1x4x1024.size a ≤ S512x4x1024.size a
  slices_S4x512_o0_107_S4x1 : S4x512.Slices ![0, 107] S4x1
  slices_S512x4x1024_o107_0_0_S1x4x1024 : S512x4x1024.Slices ![107, 0, 0] S1x4x1024
  inb_S512x4x1024_S1x4x1024_107_0_0 : ∀ a, (![107, 0, 0] : Fin 3 → Nat) a + S1x4x1024.size a ≤ S512x4x1024.size a
  slices_S4x512_o0_108_S4x1 : S4x512.Slices ![0, 108] S4x1
  slices_S512x4x1024_o108_0_0_S1x4x1024 : S512x4x1024.Slices ![108, 0, 0] S1x4x1024
  inb_S512x4x1024_S1x4x1024_108_0_0 : ∀ a, (![108, 0, 0] : Fin 3 → Nat) a + S1x4x1024.size a ≤ S512x4x1024.size a
  slices_S4x512_o0_109_S4x1 : S4x512.Slices ![0, 109] S4x1
  slices_S512x4x1024_o109_0_0_S1x4x1024 : S512x4x1024.Slices ![109, 0, 0] S1x4x1024
  inb_S512x4x1024_S1x4x1024_109_0_0 : ∀ a, (![109, 0, 0] : Fin 3 → Nat) a + S1x4x1024.size a ≤ S512x4x1024.size a
  slices_S4x512_o0_110_S4x1 : S4x512.Slices ![0, 110] S4x1
  slices_S512x4x1024_o110_0_0_S1x4x1024 : S512x4x1024.Slices ![110, 0, 0] S1x4x1024
  inb_S512x4x1024_S1x4x1024_110_0_0 : ∀ a, (![110, 0, 0] : Fin 3 → Nat) a + S1x4x1024.size a ≤ S512x4x1024.size a
  slices_S4x512_o0_111_S4x1 : S4x512.Slices ![0, 111] S4x1
  slices_S512x4x1024_o111_0_0_S1x4x1024 : S512x4x1024.Slices ![111, 0, 0] S1x4x1024
  inb_S512x4x1024_S1x4x1024_111_0_0 : ∀ a, (![111, 0, 0] : Fin 3 → Nat) a + S1x4x1024.size a ≤ S512x4x1024.size a
  slices_S4x512_o0_112_S4x1 : S4x512.Slices ![0, 112] S4x1
  slices_S512x4x1024_o112_0_0_S1x4x1024 : S512x4x1024.Slices ![112, 0, 0] S1x4x1024
  inb_S512x4x1024_S1x4x1024_112_0_0 : ∀ a, (![112, 0, 0] : Fin 3 → Nat) a + S1x4x1024.size a ≤ S512x4x1024.size a
  slices_S4x512_o0_113_S4x1 : S4x512.Slices ![0, 113] S4x1
  slices_S512x4x1024_o113_0_0_S1x4x1024 : S512x4x1024.Slices ![113, 0, 0] S1x4x1024
  inb_S512x4x1024_S1x4x1024_113_0_0 : ∀ a, (![113, 0, 0] : Fin 3 → Nat) a + S1x4x1024.size a ≤ S512x4x1024.size a
  slices_S4x512_o0_114_S4x1 : S4x512.Slices ![0, 114] S4x1
  slices_S512x4x1024_o114_0_0_S1x4x1024 : S512x4x1024.Slices ![114, 0, 0] S1x4x1024
  inb_S512x4x1024_S1x4x1024_114_0_0 : ∀ a, (![114, 0, 0] : Fin 3 → Nat) a + S1x4x1024.size a ≤ S512x4x1024.size a
  slices_S4x512_o0_115_S4x1 : S4x512.Slices ![0, 115] S4x1
  slices_S512x4x1024_o115_0_0_S1x4x1024 : S512x4x1024.Slices ![115, 0, 0] S1x4x1024
  inb_S512x4x1024_S1x4x1024_115_0_0 : ∀ a, (![115, 0, 0] : Fin 3 → Nat) a + S1x4x1024.size a ≤ S512x4x1024.size a
  slices_S4x512_o0_116_S4x1 : S4x512.Slices ![0, 116] S4x1
  slices_S512x4x1024_o116_0_0_S1x4x1024 : S512x4x1024.Slices ![116, 0, 0] S1x4x1024
  inb_S512x4x1024_S1x4x1024_116_0_0 : ∀ a, (![116, 0, 0] : Fin 3 → Nat) a + S1x4x1024.size a ≤ S512x4x1024.size a
  slices_S4x512_o0_117_S4x1 : S4x512.Slices ![0, 117] S4x1
  slices_S512x4x1024_o117_0_0_S1x4x1024 : S512x4x1024.Slices ![117, 0, 0] S1x4x1024
  inb_S512x4x1024_S1x4x1024_117_0_0 : ∀ a, (![117, 0, 0] : Fin 3 → Nat) a + S1x4x1024.size a ≤ S512x4x1024.size a
  slices_S4x512_o0_118_S4x1 : S4x512.Slices ![0, 118] S4x1
  slices_S512x4x1024_o118_0_0_S1x4x1024 : S512x4x1024.Slices ![118, 0, 0] S1x4x1024
  inb_S512x4x1024_S1x4x1024_118_0_0 : ∀ a, (![118, 0, 0] : Fin 3 → Nat) a + S1x4x1024.size a ≤ S512x4x1024.size a
  slices_S4x512_o0_119_S4x1 : S4x512.Slices ![0, 119] S4x1
  slices_S512x4x1024_o119_0_0_S1x4x1024 : S512x4x1024.Slices ![119, 0, 0] S1x4x1024
  inb_S512x4x1024_S1x4x1024_119_0_0 : ∀ a, (![119, 0, 0] : Fin 3 → Nat) a + S1x4x1024.size a ≤ S512x4x1024.size a
  slices_S4x512_o0_120_S4x1 : S4x512.Slices ![0, 120] S4x1
  slices_S512x4x1024_o120_0_0_S1x4x1024 : S512x4x1024.Slices ![120, 0, 0] S1x4x1024
  inb_S512x4x1024_S1x4x1024_120_0_0 : ∀ a, (![120, 0, 0] : Fin 3 → Nat) a + S1x4x1024.size a ≤ S512x4x1024.size a
  slices_S4x512_o0_121_S4x1 : S4x512.Slices ![0, 121] S4x1
  slices_S512x4x1024_o121_0_0_S1x4x1024 : S512x4x1024.Slices ![121, 0, 0] S1x4x1024
  inb_S512x4x1024_S1x4x1024_121_0_0 : ∀ a, (![121, 0, 0] : Fin 3 → Nat) a + S1x4x1024.size a ≤ S512x4x1024.size a
  slices_S4x512_o0_122_S4x1 : S4x512.Slices ![0, 122] S4x1
  slices_S512x4x1024_o122_0_0_S1x4x1024 : S512x4x1024.Slices ![122, 0, 0] S1x4x1024
  inb_S512x4x1024_S1x4x1024_122_0_0 : ∀ a, (![122, 0, 0] : Fin 3 → Nat) a + S1x4x1024.size a ≤ S512x4x1024.size a
  slices_S4x512_o0_123_S4x1 : S4x512.Slices ![0, 123] S4x1
  slices_S512x4x1024_o123_0_0_S1x4x1024 : S512x4x1024.Slices ![123, 0, 0] S1x4x1024
  inb_S512x4x1024_S1x4x1024_123_0_0 : ∀ a, (![123, 0, 0] : Fin 3 → Nat) a + S1x4x1024.size a ≤ S512x4x1024.size a
  slices_S4x512_o0_124_S4x1 : S4x512.Slices ![0, 124] S4x1
  slices_S512x4x1024_o124_0_0_S1x4x1024 : S512x4x1024.Slices ![124, 0, 0] S1x4x1024
  inb_S512x4x1024_S1x4x1024_124_0_0 : ∀ a, (![124, 0, 0] : Fin 3 → Nat) a + S1x4x1024.size a ≤ S512x4x1024.size a
  slices_S4x512_o0_125_S4x1 : S4x512.Slices ![0, 125] S4x1
  slices_S512x4x1024_o125_0_0_S1x4x1024 : S512x4x1024.Slices ![125, 0, 0] S1x4x1024
  inb_S512x4x1024_S1x4x1024_125_0_0 : ∀ a, (![125, 0, 0] : Fin 3 → Nat) a + S1x4x1024.size a ≤ S512x4x1024.size a
  slices_S4x512_o0_126_S4x1 : S4x512.Slices ![0, 126] S4x1
  slices_S512x4x1024_o126_0_0_S1x4x1024 : S512x4x1024.Slices ![126, 0, 0] S1x4x1024
  inb_S512x4x1024_S1x4x1024_126_0_0 : ∀ a, (![126, 0, 0] : Fin 3 → Nat) a + S1x4x1024.size a ≤ S512x4x1024.size a
  slices_S4x512_o0_127_S4x1 : S4x512.Slices ![0, 127] S4x1
  slices_S512x4x1024_o127_0_0_S1x4x1024 : S512x4x1024.Slices ![127, 0, 0] S1x4x1024
  inb_S512x4x1024_S1x4x1024_127_0_0 : ∀ a, (![127, 0, 0] : Fin 3 → Nat) a + S1x4x1024.size a ≤ S512x4x1024.size a
  slices_S4x512_o0_128_S4x1 : S4x512.Slices ![0, 128] S4x1
  slices_S512x4x1024_o128_0_0_S1x4x1024 : S512x4x1024.Slices ![128, 0, 0] S1x4x1024
  inb_S512x4x1024_S1x4x1024_128_0_0 : ∀ a, (![128, 0, 0] : Fin 3 → Nat) a + S1x4x1024.size a ≤ S512x4x1024.size a
  slices_S4x512_o0_129_S4x1 : S4x512.Slices ![0, 129] S4x1
  slices_S512x4x1024_o129_0_0_S1x4x1024 : S512x4x1024.Slices ![129, 0, 0] S1x4x1024
  inb_S512x4x1024_S1x4x1024_129_0_0 : ∀ a, (![129, 0, 0] : Fin 3 → Nat) a + S1x4x1024.size a ≤ S512x4x1024.size a
  slices_S4x512_o0_130_S4x1 : S4x512.Slices ![0, 130] S4x1
  slices_S512x4x1024_o130_0_0_S1x4x1024 : S512x4x1024.Slices ![130, 0, 0] S1x4x1024
  inb_S512x4x1024_S1x4x1024_130_0_0 : ∀ a, (![130, 0, 0] : Fin 3 → Nat) a + S1x4x1024.size a ≤ S512x4x1024.size a
  slices_S4x512_o0_131_S4x1 : S4x512.Slices ![0, 131] S4x1
  slices_S512x4x1024_o131_0_0_S1x4x1024 : S512x4x1024.Slices ![131, 0, 0] S1x4x1024
  inb_S512x4x1024_S1x4x1024_131_0_0 : ∀ a, (![131, 0, 0] : Fin 3 → Nat) a + S1x4x1024.size a ≤ S512x4x1024.size a
  slices_S4x512_o0_132_S4x1 : S4x512.Slices ![0, 132] S4x1
  slices_S512x4x1024_o132_0_0_S1x4x1024 : S512x4x1024.Slices ![132, 0, 0] S1x4x1024
  inb_S512x4x1024_S1x4x1024_132_0_0 : ∀ a, (![132, 0, 0] : Fin 3 → Nat) a + S1x4x1024.size a ≤ S512x4x1024.size a
  slices_S4x512_o0_133_S4x1 : S4x512.Slices ![0, 133] S4x1
  slices_S512x4x1024_o133_0_0_S1x4x1024 : S512x4x1024.Slices ![133, 0, 0] S1x4x1024
  inb_S512x4x1024_S1x4x1024_133_0_0 : ∀ a, (![133, 0, 0] : Fin 3 → Nat) a + S1x4x1024.size a ≤ S512x4x1024.size a
  slices_S4x512_o0_134_S4x1 : S4x512.Slices ![0, 134] S4x1
  slices_S512x4x1024_o134_0_0_S1x4x1024 : S512x4x1024.Slices ![134, 0, 0] S1x4x1024
  inb_S512x4x1024_S1x4x1024_134_0_0 : ∀ a, (![134, 0, 0] : Fin 3 → Nat) a + S1x4x1024.size a ≤ S512x4x1024.size a
  slices_S4x512_o0_135_S4x1 : S4x512.Slices ![0, 135] S4x1
  slices_S512x4x1024_o135_0_0_S1x4x1024 : S512x4x1024.Slices ![135, 0, 0] S1x4x1024
  inb_S512x4x1024_S1x4x1024_135_0_0 : ∀ a, (![135, 0, 0] : Fin 3 → Nat) a + S1x4x1024.size a ≤ S512x4x1024.size a
  slices_S4x512_o0_136_S4x1 : S4x512.Slices ![0, 136] S4x1
  slices_S512x4x1024_o136_0_0_S1x4x1024 : S512x4x1024.Slices ![136, 0, 0] S1x4x1024
  inb_S512x4x1024_S1x4x1024_136_0_0 : ∀ a, (![136, 0, 0] : Fin 3 → Nat) a + S1x4x1024.size a ≤ S512x4x1024.size a
  slices_S4x512_o0_137_S4x1 : S4x512.Slices ![0, 137] S4x1
  slices_S512x4x1024_o137_0_0_S1x4x1024 : S512x4x1024.Slices ![137, 0, 0] S1x4x1024
  inb_S512x4x1024_S1x4x1024_137_0_0 : ∀ a, (![137, 0, 0] : Fin 3 → Nat) a + S1x4x1024.size a ≤ S512x4x1024.size a
  slices_S4x512_o0_138_S4x1 : S4x512.Slices ![0, 138] S4x1
  slices_S512x4x1024_o138_0_0_S1x4x1024 : S512x4x1024.Slices ![138, 0, 0] S1x4x1024
  inb_S512x4x1024_S1x4x1024_138_0_0 : ∀ a, (![138, 0, 0] : Fin 3 → Nat) a + S1x4x1024.size a ≤ S512x4x1024.size a
  slices_S4x512_o0_139_S4x1 : S4x512.Slices ![0, 139] S4x1
  slices_S512x4x1024_o139_0_0_S1x4x1024 : S512x4x1024.Slices ![139, 0, 0] S1x4x1024
  inb_S512x4x1024_S1x4x1024_139_0_0 : ∀ a, (![139, 0, 0] : Fin 3 → Nat) a + S1x4x1024.size a ≤ S512x4x1024.size a
  slices_S4x512_o0_140_S4x1 : S4x512.Slices ![0, 140] S4x1
  slices_S512x4x1024_o140_0_0_S1x4x1024 : S512x4x1024.Slices ![140, 0, 0] S1x4x1024
  inb_S512x4x1024_S1x4x1024_140_0_0 : ∀ a, (![140, 0, 0] : Fin 3 → Nat) a + S1x4x1024.size a ≤ S512x4x1024.size a
  slices_S4x512_o0_141_S4x1 : S4x512.Slices ![0, 141] S4x1
  slices_S512x4x1024_o141_0_0_S1x4x1024 : S512x4x1024.Slices ![141, 0, 0] S1x4x1024
  inb_S512x4x1024_S1x4x1024_141_0_0 : ∀ a, (![141, 0, 0] : Fin 3 → Nat) a + S1x4x1024.size a ≤ S512x4x1024.size a
  slices_S4x512_o0_142_S4x1 : S4x512.Slices ![0, 142] S4x1
  slices_S512x4x1024_o142_0_0_S1x4x1024 : S512x4x1024.Slices ![142, 0, 0] S1x4x1024
  inb_S512x4x1024_S1x4x1024_142_0_0 : ∀ a, (![142, 0, 0] : Fin 3 → Nat) a + S1x4x1024.size a ≤ S512x4x1024.size a
  slices_S4x512_o0_143_S4x1 : S4x512.Slices ![0, 143] S4x1
  slices_S512x4x1024_o143_0_0_S1x4x1024 : S512x4x1024.Slices ![143, 0, 0] S1x4x1024
  inb_S512x4x1024_S1x4x1024_143_0_0 : ∀ a, (![143, 0, 0] : Fin 3 → Nat) a + S1x4x1024.size a ≤ S512x4x1024.size a
  slices_S4x512_o0_144_S4x1 : S4x512.Slices ![0, 144] S4x1
  slices_S512x4x1024_o144_0_0_S1x4x1024 : S512x4x1024.Slices ![144, 0, 0] S1x4x1024
  inb_S512x4x1024_S1x4x1024_144_0_0 : ∀ a, (![144, 0, 0] : Fin 3 → Nat) a + S1x4x1024.size a ≤ S512x4x1024.size a
  slices_S4x512_o0_145_S4x1 : S4x512.Slices ![0, 145] S4x1
  slices_S512x4x1024_o145_0_0_S1x4x1024 : S512x4x1024.Slices ![145, 0, 0] S1x4x1024
  inb_S512x4x1024_S1x4x1024_145_0_0 : ∀ a, (![145, 0, 0] : Fin 3 → Nat) a + S1x4x1024.size a ≤ S512x4x1024.size a
  slices_S4x512_o0_146_S4x1 : S4x512.Slices ![0, 146] S4x1
  slices_S512x4x1024_o146_0_0_S1x4x1024 : S512x4x1024.Slices ![146, 0, 0] S1x4x1024
  inb_S512x4x1024_S1x4x1024_146_0_0 : ∀ a, (![146, 0, 0] : Fin 3 → Nat) a + S1x4x1024.size a ≤ S512x4x1024.size a
  slices_S4x512_o0_147_S4x1 : S4x512.Slices ![0, 147] S4x1
  slices_S512x4x1024_o147_0_0_S1x4x1024 : S512x4x1024.Slices ![147, 0, 0] S1x4x1024
  inb_S512x4x1024_S1x4x1024_147_0_0 : ∀ a, (![147, 0, 0] : Fin 3 → Nat) a + S1x4x1024.size a ≤ S512x4x1024.size a
  slices_S4x512_o0_148_S4x1 : S4x512.Slices ![0, 148] S4x1
  slices_S512x4x1024_o148_0_0_S1x4x1024 : S512x4x1024.Slices ![148, 0, 0] S1x4x1024
  inb_S512x4x1024_S1x4x1024_148_0_0 : ∀ a, (![148, 0, 0] : Fin 3 → Nat) a + S1x4x1024.size a ≤ S512x4x1024.size a
  slices_S4x512_o0_149_S4x1 : S4x512.Slices ![0, 149] S4x1
  slices_S512x4x1024_o149_0_0_S1x4x1024 : S512x4x1024.Slices ![149, 0, 0] S1x4x1024
  inb_S512x4x1024_S1x4x1024_149_0_0 : ∀ a, (![149, 0, 0] : Fin 3 → Nat) a + S1x4x1024.size a ≤ S512x4x1024.size a
  slices_S4x512_o0_150_S4x1 : S4x512.Slices ![0, 150] S4x1
  slices_S512x4x1024_o150_0_0_S1x4x1024 : S512x4x1024.Slices ![150, 0, 0] S1x4x1024
  inb_S512x4x1024_S1x4x1024_150_0_0 : ∀ a, (![150, 0, 0] : Fin 3 → Nat) a + S1x4x1024.size a ≤ S512x4x1024.size a
  slices_S4x512_o0_151_S4x1 : S4x512.Slices ![0, 151] S4x1
  slices_S512x4x1024_o151_0_0_S1x4x1024 : S512x4x1024.Slices ![151, 0, 0] S1x4x1024
  inb_S512x4x1024_S1x4x1024_151_0_0 : ∀ a, (![151, 0, 0] : Fin 3 → Nat) a + S1x4x1024.size a ≤ S512x4x1024.size a
  slices_S4x512_o0_152_S4x1 : S4x512.Slices ![0, 152] S4x1
  slices_S512x4x1024_o152_0_0_S1x4x1024 : S512x4x1024.Slices ![152, 0, 0] S1x4x1024
  inb_S512x4x1024_S1x4x1024_152_0_0 : ∀ a, (![152, 0, 0] : Fin 3 → Nat) a + S1x4x1024.size a ≤ S512x4x1024.size a
  slices_S4x512_o0_153_S4x1 : S4x512.Slices ![0, 153] S4x1
  slices_S512x4x1024_o153_0_0_S1x4x1024 : S512x4x1024.Slices ![153, 0, 0] S1x4x1024
  inb_S512x4x1024_S1x4x1024_153_0_0 : ∀ a, (![153, 0, 0] : Fin 3 → Nat) a + S1x4x1024.size a ≤ S512x4x1024.size a
  slices_S4x512_o0_154_S4x1 : S4x512.Slices ![0, 154] S4x1
  slices_S512x4x1024_o154_0_0_S1x4x1024 : S512x4x1024.Slices ![154, 0, 0] S1x4x1024
  inb_S512x4x1024_S1x4x1024_154_0_0 : ∀ a, (![154, 0, 0] : Fin 3 → Nat) a + S1x4x1024.size a ≤ S512x4x1024.size a
  slices_S4x512_o0_155_S4x1 : S4x512.Slices ![0, 155] S4x1
  slices_S512x4x1024_o155_0_0_S1x4x1024 : S512x4x1024.Slices ![155, 0, 0] S1x4x1024
  inb_S512x4x1024_S1x4x1024_155_0_0 : ∀ a, (![155, 0, 0] : Fin 3 → Nat) a + S1x4x1024.size a ≤ S512x4x1024.size a
  slices_S4x512_o0_156_S4x1 : S4x512.Slices ![0, 156] S4x1
  slices_S512x4x1024_o156_0_0_S1x4x1024 : S512x4x1024.Slices ![156, 0, 0] S1x4x1024
  inb_S512x4x1024_S1x4x1024_156_0_0 : ∀ a, (![156, 0, 0] : Fin 3 → Nat) a + S1x4x1024.size a ≤ S512x4x1024.size a
  slices_S4x512_o0_157_S4x1 : S4x512.Slices ![0, 157] S4x1
  slices_S512x4x1024_o157_0_0_S1x4x1024 : S512x4x1024.Slices ![157, 0, 0] S1x4x1024
  inb_S512x4x1024_S1x4x1024_157_0_0 : ∀ a, (![157, 0, 0] : Fin 3 → Nat) a + S1x4x1024.size a ≤ S512x4x1024.size a
  slices_S4x512_o0_158_S4x1 : S4x512.Slices ![0, 158] S4x1
  slices_S512x4x1024_o158_0_0_S1x4x1024 : S512x4x1024.Slices ![158, 0, 0] S1x4x1024
  inb_S512x4x1024_S1x4x1024_158_0_0 : ∀ a, (![158, 0, 0] : Fin 3 → Nat) a + S1x4x1024.size a ≤ S512x4x1024.size a
  slices_S4x512_o0_159_S4x1 : S4x512.Slices ![0, 159] S4x1
  slices_S512x4x1024_o159_0_0_S1x4x1024 : S512x4x1024.Slices ![159, 0, 0] S1x4x1024
  inb_S512x4x1024_S1x4x1024_159_0_0 : ∀ a, (![159, 0, 0] : Fin 3 → Nat) a + S1x4x1024.size a ≤ S512x4x1024.size a
  slices_S4x512_o0_160_S4x1 : S4x512.Slices ![0, 160] S4x1
  slices_S512x4x1024_o160_0_0_S1x4x1024 : S512x4x1024.Slices ![160, 0, 0] S1x4x1024
  inb_S512x4x1024_S1x4x1024_160_0_0 : ∀ a, (![160, 0, 0] : Fin 3 → Nat) a + S1x4x1024.size a ≤ S512x4x1024.size a
  slices_S4x512_o0_161_S4x1 : S4x512.Slices ![0, 161] S4x1
  slices_S512x4x1024_o161_0_0_S1x4x1024 : S512x4x1024.Slices ![161, 0, 0] S1x4x1024
  inb_S512x4x1024_S1x4x1024_161_0_0 : ∀ a, (![161, 0, 0] : Fin 3 → Nat) a + S1x4x1024.size a ≤ S512x4x1024.size a
  slices_S4x512_o0_162_S4x1 : S4x512.Slices ![0, 162] S4x1
  slices_S512x4x1024_o162_0_0_S1x4x1024 : S512x4x1024.Slices ![162, 0, 0] S1x4x1024
  inb_S512x4x1024_S1x4x1024_162_0_0 : ∀ a, (![162, 0, 0] : Fin 3 → Nat) a + S1x4x1024.size a ≤ S512x4x1024.size a
  slices_S4x512_o0_163_S4x1 : S4x512.Slices ![0, 163] S4x1
  slices_S512x4x1024_o163_0_0_S1x4x1024 : S512x4x1024.Slices ![163, 0, 0] S1x4x1024
  inb_S512x4x1024_S1x4x1024_163_0_0 : ∀ a, (![163, 0, 0] : Fin 3 → Nat) a + S1x4x1024.size a ≤ S512x4x1024.size a
  slices_S4x512_o0_164_S4x1 : S4x512.Slices ![0, 164] S4x1
  slices_S512x4x1024_o164_0_0_S1x4x1024 : S512x4x1024.Slices ![164, 0, 0] S1x4x1024
  inb_S512x4x1024_S1x4x1024_164_0_0 : ∀ a, (![164, 0, 0] : Fin 3 → Nat) a + S1x4x1024.size a ≤ S512x4x1024.size a
  slices_S4x512_o0_165_S4x1 : S4x512.Slices ![0, 165] S4x1
  slices_S512x4x1024_o165_0_0_S1x4x1024 : S512x4x1024.Slices ![165, 0, 0] S1x4x1024
  inb_S512x4x1024_S1x4x1024_165_0_0 : ∀ a, (![165, 0, 0] : Fin 3 → Nat) a + S1x4x1024.size a ≤ S512x4x1024.size a
  slices_S4x512_o0_166_S4x1 : S4x512.Slices ![0, 166] S4x1
  slices_S512x4x1024_o166_0_0_S1x4x1024 : S512x4x1024.Slices ![166, 0, 0] S1x4x1024
  inb_S512x4x1024_S1x4x1024_166_0_0 : ∀ a, (![166, 0, 0] : Fin 3 → Nat) a + S1x4x1024.size a ≤ S512x4x1024.size a
  slices_S4x512_o0_167_S4x1 : S4x512.Slices ![0, 167] S4x1
  slices_S512x4x1024_o167_0_0_S1x4x1024 : S512x4x1024.Slices ![167, 0, 0] S1x4x1024
  inb_S512x4x1024_S1x4x1024_167_0_0 : ∀ a, (![167, 0, 0] : Fin 3 → Nat) a + S1x4x1024.size a ≤ S512x4x1024.size a
  slices_S4x512_o0_168_S4x1 : S4x512.Slices ![0, 168] S4x1
  slices_S512x4x1024_o168_0_0_S1x4x1024 : S512x4x1024.Slices ![168, 0, 0] S1x4x1024
  inb_S512x4x1024_S1x4x1024_168_0_0 : ∀ a, (![168, 0, 0] : Fin 3 → Nat) a + S1x4x1024.size a ≤ S512x4x1024.size a
  slices_S4x512_o0_169_S4x1 : S4x512.Slices ![0, 169] S4x1
  slices_S512x4x1024_o169_0_0_S1x4x1024 : S512x4x1024.Slices ![169, 0, 0] S1x4x1024
  inb_S512x4x1024_S1x4x1024_169_0_0 : ∀ a, (![169, 0, 0] : Fin 3 → Nat) a + S1x4x1024.size a ≤ S512x4x1024.size a
  slices_S4x512_o0_170_S4x1 : S4x512.Slices ![0, 170] S4x1
  slices_S512x4x1024_o170_0_0_S1x4x1024 : S512x4x1024.Slices ![170, 0, 0] S1x4x1024
  inb_S512x4x1024_S1x4x1024_170_0_0 : ∀ a, (![170, 0, 0] : Fin 3 → Nat) a + S1x4x1024.size a ≤ S512x4x1024.size a
  slices_S4x512_o0_171_S4x1 : S4x512.Slices ![0, 171] S4x1
  slices_S512x4x1024_o171_0_0_S1x4x1024 : S512x4x1024.Slices ![171, 0, 0] S1x4x1024
  inb_S512x4x1024_S1x4x1024_171_0_0 : ∀ a, (![171, 0, 0] : Fin 3 → Nat) a + S1x4x1024.size a ≤ S512x4x1024.size a
  slices_S4x512_o0_172_S4x1 : S4x512.Slices ![0, 172] S4x1
  slices_S512x4x1024_o172_0_0_S1x4x1024 : S512x4x1024.Slices ![172, 0, 0] S1x4x1024
  inb_S512x4x1024_S1x4x1024_172_0_0 : ∀ a, (![172, 0, 0] : Fin 3 → Nat) a + S1x4x1024.size a ≤ S512x4x1024.size a
  slices_S4x512_o0_173_S4x1 : S4x512.Slices ![0, 173] S4x1
  slices_S512x4x1024_o173_0_0_S1x4x1024 : S512x4x1024.Slices ![173, 0, 0] S1x4x1024
  inb_S512x4x1024_S1x4x1024_173_0_0 : ∀ a, (![173, 0, 0] : Fin 3 → Nat) a + S1x4x1024.size a ≤ S512x4x1024.size a
  slices_S4x512_o0_174_S4x1 : S4x512.Slices ![0, 174] S4x1
  slices_S512x4x1024_o174_0_0_S1x4x1024 : S512x4x1024.Slices ![174, 0, 0] S1x4x1024
  inb_S512x4x1024_S1x4x1024_174_0_0 : ∀ a, (![174, 0, 0] : Fin 3 → Nat) a + S1x4x1024.size a ≤ S512x4x1024.size a
  slices_S4x512_o0_175_S4x1 : S4x512.Slices ![0, 175] S4x1
  slices_S512x4x1024_o175_0_0_S1x4x1024 : S512x4x1024.Slices ![175, 0, 0] S1x4x1024
  inb_S512x4x1024_S1x4x1024_175_0_0 : ∀ a, (![175, 0, 0] : Fin 3 → Nat) a + S1x4x1024.size a ≤ S512x4x1024.size a
  slices_S4x512_o0_176_S4x1 : S4x512.Slices ![0, 176] S4x1
  slices_S512x4x1024_o176_0_0_S1x4x1024 : S512x4x1024.Slices ![176, 0, 0] S1x4x1024
  inb_S512x4x1024_S1x4x1024_176_0_0 : ∀ a, (![176, 0, 0] : Fin 3 → Nat) a + S1x4x1024.size a ≤ S512x4x1024.size a
  slices_S4x512_o0_177_S4x1 : S4x512.Slices ![0, 177] S4x1
  slices_S512x4x1024_o177_0_0_S1x4x1024 : S512x4x1024.Slices ![177, 0, 0] S1x4x1024
  inb_S512x4x1024_S1x4x1024_177_0_0 : ∀ a, (![177, 0, 0] : Fin 3 → Nat) a + S1x4x1024.size a ≤ S512x4x1024.size a
  slices_S4x512_o0_178_S4x1 : S4x512.Slices ![0, 178] S4x1
  slices_S512x4x1024_o178_0_0_S1x4x1024 : S512x4x1024.Slices ![178, 0, 0] S1x4x1024
  inb_S512x4x1024_S1x4x1024_178_0_0 : ∀ a, (![178, 0, 0] : Fin 3 → Nat) a + S1x4x1024.size a ≤ S512x4x1024.size a
  slices_S4x512_o0_179_S4x1 : S4x512.Slices ![0, 179] S4x1
  slices_S512x4x1024_o179_0_0_S1x4x1024 : S512x4x1024.Slices ![179, 0, 0] S1x4x1024
  inb_S512x4x1024_S1x4x1024_179_0_0 : ∀ a, (![179, 0, 0] : Fin 3 → Nat) a + S1x4x1024.size a ≤ S512x4x1024.size a
  slices_S4x512_o0_180_S4x1 : S4x512.Slices ![0, 180] S4x1
  slices_S512x4x1024_o180_0_0_S1x4x1024 : S512x4x1024.Slices ![180, 0, 0] S1x4x1024
  inb_S512x4x1024_S1x4x1024_180_0_0 : ∀ a, (![180, 0, 0] : Fin 3 → Nat) a + S1x4x1024.size a ≤ S512x4x1024.size a
  slices_S4x512_o0_181_S4x1 : S4x512.Slices ![0, 181] S4x1
  slices_S512x4x1024_o181_0_0_S1x4x1024 : S512x4x1024.Slices ![181, 0, 0] S1x4x1024
  inb_S512x4x1024_S1x4x1024_181_0_0 : ∀ a, (![181, 0, 0] : Fin 3 → Nat) a + S1x4x1024.size a ≤ S512x4x1024.size a
  slices_S4x512_o0_182_S4x1 : S4x512.Slices ![0, 182] S4x1
  slices_S512x4x1024_o182_0_0_S1x4x1024 : S512x4x1024.Slices ![182, 0, 0] S1x4x1024
  inb_S512x4x1024_S1x4x1024_182_0_0 : ∀ a, (![182, 0, 0] : Fin 3 → Nat) a + S1x4x1024.size a ≤ S512x4x1024.size a
  slices_S4x512_o0_183_S4x1 : S4x512.Slices ![0, 183] S4x1
  slices_S512x4x1024_o183_0_0_S1x4x1024 : S512x4x1024.Slices ![183, 0, 0] S1x4x1024
  inb_S512x4x1024_S1x4x1024_183_0_0 : ∀ a, (![183, 0, 0] : Fin 3 → Nat) a + S1x4x1024.size a ≤ S512x4x1024.size a
  slices_S4x512_o0_184_S4x1 : S4x512.Slices ![0, 184] S4x1
  slices_S512x4x1024_o184_0_0_S1x4x1024 : S512x4x1024.Slices ![184, 0, 0] S1x4x1024
  inb_S512x4x1024_S1x4x1024_184_0_0 : ∀ a, (![184, 0, 0] : Fin 3 → Nat) a + S1x4x1024.size a ≤ S512x4x1024.size a
  slices_S4x512_o0_185_S4x1 : S4x512.Slices ![0, 185] S4x1
  slices_S512x4x1024_o185_0_0_S1x4x1024 : S512x4x1024.Slices ![185, 0, 0] S1x4x1024
  inb_S512x4x1024_S1x4x1024_185_0_0 : ∀ a, (![185, 0, 0] : Fin 3 → Nat) a + S1x4x1024.size a ≤ S512x4x1024.size a
  slices_S4x512_o0_186_S4x1 : S4x512.Slices ![0, 186] S4x1
  slices_S512x4x1024_o186_0_0_S1x4x1024 : S512x4x1024.Slices ![186, 0, 0] S1x4x1024
  inb_S512x4x1024_S1x4x1024_186_0_0 : ∀ a, (![186, 0, 0] : Fin 3 → Nat) a + S1x4x1024.size a ≤ S512x4x1024.size a
  slices_S4x512_o0_187_S4x1 : S4x512.Slices ![0, 187] S4x1
  slices_S512x4x1024_o187_0_0_S1x4x1024 : S512x4x1024.Slices ![187, 0, 0] S1x4x1024
  inb_S512x4x1024_S1x4x1024_187_0_0 : ∀ a, (![187, 0, 0] : Fin 3 → Nat) a + S1x4x1024.size a ≤ S512x4x1024.size a
  slices_S4x512_o0_188_S4x1 : S4x512.Slices ![0, 188] S4x1
  slices_S512x4x1024_o188_0_0_S1x4x1024 : S512x4x1024.Slices ![188, 0, 0] S1x4x1024
  inb_S512x4x1024_S1x4x1024_188_0_0 : ∀ a, (![188, 0, 0] : Fin 3 → Nat) a + S1x4x1024.size a ≤ S512x4x1024.size a
  slices_S4x512_o0_189_S4x1 : S4x512.Slices ![0, 189] S4x1
  slices_S512x4x1024_o189_0_0_S1x4x1024 : S512x4x1024.Slices ![189, 0, 0] S1x4x1024
  inb_S512x4x1024_S1x4x1024_189_0_0 : ∀ a, (![189, 0, 0] : Fin 3 → Nat) a + S1x4x1024.size a ≤ S512x4x1024.size a
  slices_S4x512_o0_190_S4x1 : S4x512.Slices ![0, 190] S4x1
  slices_S512x4x1024_o190_0_0_S1x4x1024 : S512x4x1024.Slices ![190, 0, 0] S1x4x1024
  inb_S512x4x1024_S1x4x1024_190_0_0 : ∀ a, (![190, 0, 0] : Fin 3 → Nat) a + S1x4x1024.size a ≤ S512x4x1024.size a
  slices_S4x512_o0_191_S4x1 : S4x512.Slices ![0, 191] S4x1
  slices_S512x4x1024_o191_0_0_S1x4x1024 : S512x4x1024.Slices ![191, 0, 0] S1x4x1024
  inb_S512x4x1024_S1x4x1024_191_0_0 : ∀ a, (![191, 0, 0] : Fin 3 → Nat) a + S1x4x1024.size a ≤ S512x4x1024.size a
  slices_S4x512_o0_192_S4x1 : S4x512.Slices ![0, 192] S4x1
  slices_S512x4x1024_o192_0_0_S1x4x1024 : S512x4x1024.Slices ![192, 0, 0] S1x4x1024
  inb_S512x4x1024_S1x4x1024_192_0_0 : ∀ a, (![192, 0, 0] : Fin 3 → Nat) a + S1x4x1024.size a ≤ S512x4x1024.size a
  slices_S4x512_o0_193_S4x1 : S4x512.Slices ![0, 193] S4x1
  slices_S512x4x1024_o193_0_0_S1x4x1024 : S512x4x1024.Slices ![193, 0, 0] S1x4x1024
  inb_S512x4x1024_S1x4x1024_193_0_0 : ∀ a, (![193, 0, 0] : Fin 3 → Nat) a + S1x4x1024.size a ≤ S512x4x1024.size a
  slices_S4x512_o0_194_S4x1 : S4x512.Slices ![0, 194] S4x1
  slices_S512x4x1024_o194_0_0_S1x4x1024 : S512x4x1024.Slices ![194, 0, 0] S1x4x1024
  inb_S512x4x1024_S1x4x1024_194_0_0 : ∀ a, (![194, 0, 0] : Fin 3 → Nat) a + S1x4x1024.size a ≤ S512x4x1024.size a
  slices_S4x512_o0_195_S4x1 : S4x512.Slices ![0, 195] S4x1
  slices_S512x4x1024_o195_0_0_S1x4x1024 : S512x4x1024.Slices ![195, 0, 0] S1x4x1024
  inb_S512x4x1024_S1x4x1024_195_0_0 : ∀ a, (![195, 0, 0] : Fin 3 → Nat) a + S1x4x1024.size a ≤ S512x4x1024.size a
  slices_S4x512_o0_196_S4x1 : S4x512.Slices ![0, 196] S4x1
  slices_S512x4x1024_o196_0_0_S1x4x1024 : S512x4x1024.Slices ![196, 0, 0] S1x4x1024
  inb_S512x4x1024_S1x4x1024_196_0_0 : ∀ a, (![196, 0, 0] : Fin 3 → Nat) a + S1x4x1024.size a ≤ S512x4x1024.size a
  slices_S4x512_o0_197_S4x1 : S4x512.Slices ![0, 197] S4x1
  slices_S512x4x1024_o197_0_0_S1x4x1024 : S512x4x1024.Slices ![197, 0, 0] S1x4x1024
  inb_S512x4x1024_S1x4x1024_197_0_0 : ∀ a, (![197, 0, 0] : Fin 3 → Nat) a + S1x4x1024.size a ≤ S512x4x1024.size a
  slices_S4x512_o0_198_S4x1 : S4x512.Slices ![0, 198] S4x1
  slices_S512x4x1024_o198_0_0_S1x4x1024 : S512x4x1024.Slices ![198, 0, 0] S1x4x1024
  inb_S512x4x1024_S1x4x1024_198_0_0 : ∀ a, (![198, 0, 0] : Fin 3 → Nat) a + S1x4x1024.size a ≤ S512x4x1024.size a
  slices_S4x512_o0_199_S4x1 : S4x512.Slices ![0, 199] S4x1
  slices_S512x4x1024_o199_0_0_S1x4x1024 : S512x4x1024.Slices ![199, 0, 0] S1x4x1024
  inb_S512x4x1024_S1x4x1024_199_0_0 : ∀ a, (![199, 0, 0] : Fin 3 → Nat) a + S1x4x1024.size a ≤ S512x4x1024.size a
  slices_S4x512_o0_200_S4x1 : S4x512.Slices ![0, 200] S4x1
  slices_S512x4x1024_o200_0_0_S1x4x1024 : S512x4x1024.Slices ![200, 0, 0] S1x4x1024
  inb_S512x4x1024_S1x4x1024_200_0_0 : ∀ a, (![200, 0, 0] : Fin 3 → Nat) a + S1x4x1024.size a ≤ S512x4x1024.size a
  slices_S4x512_o0_201_S4x1 : S4x512.Slices ![0, 201] S4x1
  slices_S512x4x1024_o201_0_0_S1x4x1024 : S512x4x1024.Slices ![201, 0, 0] S1x4x1024
  inb_S512x4x1024_S1x4x1024_201_0_0 : ∀ a, (![201, 0, 0] : Fin 3 → Nat) a + S1x4x1024.size a ≤ S512x4x1024.size a
  slices_S4x512_o0_202_S4x1 : S4x512.Slices ![0, 202] S4x1
  slices_S512x4x1024_o202_0_0_S1x4x1024 : S512x4x1024.Slices ![202, 0, 0] S1x4x1024
  inb_S512x4x1024_S1x4x1024_202_0_0 : ∀ a, (![202, 0, 0] : Fin 3 → Nat) a + S1x4x1024.size a ≤ S512x4x1024.size a
  slices_S4x512_o0_203_S4x1 : S4x512.Slices ![0, 203] S4x1
  slices_S512x4x1024_o203_0_0_S1x4x1024 : S512x4x1024.Slices ![203, 0, 0] S1x4x1024
  inb_S512x4x1024_S1x4x1024_203_0_0 : ∀ a, (![203, 0, 0] : Fin 3 → Nat) a + S1x4x1024.size a ≤ S512x4x1024.size a
  slices_S4x512_o0_204_S4x1 : S4x512.Slices ![0, 204] S4x1
  slices_S512x4x1024_o204_0_0_S1x4x1024 : S512x4x1024.Slices ![204, 0, 0] S1x4x1024
  inb_S512x4x1024_S1x4x1024_204_0_0 : ∀ a, (![204, 0, 0] : Fin 3 → Nat) a + S1x4x1024.size a ≤ S512x4x1024.size a
  slices_S4x512_o0_205_S4x1 : S4x512.Slices ![0, 205] S4x1
  slices_S512x4x1024_o205_0_0_S1x4x1024 : S512x4x1024.Slices ![205, 0, 0] S1x4x1024
  inb_S512x4x1024_S1x4x1024_205_0_0 : ∀ a, (![205, 0, 0] : Fin 3 → Nat) a + S1x4x1024.size a ≤ S512x4x1024.size a
  slices_S4x512_o0_206_S4x1 : S4x512.Slices ![0, 206] S4x1
  slices_S512x4x1024_o206_0_0_S1x4x1024 : S512x4x1024.Slices ![206, 0, 0] S1x4x1024
  inb_S512x4x1024_S1x4x1024_206_0_0 : ∀ a, (![206, 0, 0] : Fin 3 → Nat) a + S1x4x1024.size a ≤ S512x4x1024.size a
  slices_S4x512_o0_207_S4x1 : S4x512.Slices ![0, 207] S4x1
  slices_S512x4x1024_o207_0_0_S1x4x1024 : S512x4x1024.Slices ![207, 0, 0] S1x4x1024
  inb_S512x4x1024_S1x4x1024_207_0_0 : ∀ a, (![207, 0, 0] : Fin 3 → Nat) a + S1x4x1024.size a ≤ S512x4x1024.size a
  slices_S4x512_o0_208_S4x1 : S4x512.Slices ![0, 208] S4x1
  slices_S512x4x1024_o208_0_0_S1x4x1024 : S512x4x1024.Slices ![208, 0, 0] S1x4x1024
  inb_S512x4x1024_S1x4x1024_208_0_0 : ∀ a, (![208, 0, 0] : Fin 3 → Nat) a + S1x4x1024.size a ≤ S512x4x1024.size a
  slices_S4x512_o0_209_S4x1 : S4x512.Slices ![0, 209] S4x1
  slices_S512x4x1024_o209_0_0_S1x4x1024 : S512x4x1024.Slices ![209, 0, 0] S1x4x1024
  inb_S512x4x1024_S1x4x1024_209_0_0 : ∀ a, (![209, 0, 0] : Fin 3 → Nat) a + S1x4x1024.size a ≤ S512x4x1024.size a
  slices_S4x512_o0_210_S4x1 : S4x512.Slices ![0, 210] S4x1
  slices_S512x4x1024_o210_0_0_S1x4x1024 : S512x4x1024.Slices ![210, 0, 0] S1x4x1024
  inb_S512x4x1024_S1x4x1024_210_0_0 : ∀ a, (![210, 0, 0] : Fin 3 → Nat) a + S1x4x1024.size a ≤ S512x4x1024.size a
  slices_S4x512_o0_211_S4x1 : S4x512.Slices ![0, 211] S4x1
  slices_S512x4x1024_o211_0_0_S1x4x1024 : S512x4x1024.Slices ![211, 0, 0] S1x4x1024
  inb_S512x4x1024_S1x4x1024_211_0_0 : ∀ a, (![211, 0, 0] : Fin 3 → Nat) a + S1x4x1024.size a ≤ S512x4x1024.size a
  slices_S4x512_o0_212_S4x1 : S4x512.Slices ![0, 212] S4x1
  slices_S512x4x1024_o212_0_0_S1x4x1024 : S512x4x1024.Slices ![212, 0, 0] S1x4x1024
  inb_S512x4x1024_S1x4x1024_212_0_0 : ∀ a, (![212, 0, 0] : Fin 3 → Nat) a + S1x4x1024.size a ≤ S512x4x1024.size a
  slices_S4x512_o0_213_S4x1 : S4x512.Slices ![0, 213] S4x1
  slices_S512x4x1024_o213_0_0_S1x4x1024 : S512x4x1024.Slices ![213, 0, 0] S1x4x1024
  inb_S512x4x1024_S1x4x1024_213_0_0 : ∀ a, (![213, 0, 0] : Fin 3 → Nat) a + S1x4x1024.size a ≤ S512x4x1024.size a
  slices_S4x512_o0_214_S4x1 : S4x512.Slices ![0, 214] S4x1
  slices_S512x4x1024_o214_0_0_S1x4x1024 : S512x4x1024.Slices ![214, 0, 0] S1x4x1024
  inb_S512x4x1024_S1x4x1024_214_0_0 : ∀ a, (![214, 0, 0] : Fin 3 → Nat) a + S1x4x1024.size a ≤ S512x4x1024.size a
  slices_S4x512_o0_215_S4x1 : S4x512.Slices ![0, 215] S4x1
  slices_S512x4x1024_o215_0_0_S1x4x1024 : S512x4x1024.Slices ![215, 0, 0] S1x4x1024
  inb_S512x4x1024_S1x4x1024_215_0_0 : ∀ a, (![215, 0, 0] : Fin 3 → Nat) a + S1x4x1024.size a ≤ S512x4x1024.size a
  slices_S4x512_o0_216_S4x1 : S4x512.Slices ![0, 216] S4x1
  slices_S512x4x1024_o216_0_0_S1x4x1024 : S512x4x1024.Slices ![216, 0, 0] S1x4x1024
  inb_S512x4x1024_S1x4x1024_216_0_0 : ∀ a, (![216, 0, 0] : Fin 3 → Nat) a + S1x4x1024.size a ≤ S512x4x1024.size a
  slices_S4x512_o0_217_S4x1 : S4x512.Slices ![0, 217] S4x1
  slices_S512x4x1024_o217_0_0_S1x4x1024 : S512x4x1024.Slices ![217, 0, 0] S1x4x1024
  inb_S512x4x1024_S1x4x1024_217_0_0 : ∀ a, (![217, 0, 0] : Fin 3 → Nat) a + S1x4x1024.size a ≤ S512x4x1024.size a
  slices_S4x512_o0_218_S4x1 : S4x512.Slices ![0, 218] S4x1
  slices_S512x4x1024_o218_0_0_S1x4x1024 : S512x4x1024.Slices ![218, 0, 0] S1x4x1024
  inb_S512x4x1024_S1x4x1024_218_0_0 : ∀ a, (![218, 0, 0] : Fin 3 → Nat) a + S1x4x1024.size a ≤ S512x4x1024.size a
  slices_S4x512_o0_219_S4x1 : S4x512.Slices ![0, 219] S4x1
  slices_S512x4x1024_o219_0_0_S1x4x1024 : S512x4x1024.Slices ![219, 0, 0] S1x4x1024
  inb_S512x4x1024_S1x4x1024_219_0_0 : ∀ a, (![219, 0, 0] : Fin 3 → Nat) a + S1x4x1024.size a ≤ S512x4x1024.size a
  slices_S4x512_o0_220_S4x1 : S4x512.Slices ![0, 220] S4x1
  slices_S512x4x1024_o220_0_0_S1x4x1024 : S512x4x1024.Slices ![220, 0, 0] S1x4x1024
  inb_S512x4x1024_S1x4x1024_220_0_0 : ∀ a, (![220, 0, 0] : Fin 3 → Nat) a + S1x4x1024.size a ≤ S512x4x1024.size a
  slices_S4x512_o0_221_S4x1 : S4x512.Slices ![0, 221] S4x1
  slices_S512x4x1024_o221_0_0_S1x4x1024 : S512x4x1024.Slices ![221, 0, 0] S1x4x1024
  inb_S512x4x1024_S1x4x1024_221_0_0 : ∀ a, (![221, 0, 0] : Fin 3 → Nat) a + S1x4x1024.size a ≤ S512x4x1024.size a
  slices_S4x512_o0_222_S4x1 : S4x512.Slices ![0, 222] S4x1
  slices_S512x4x1024_o222_0_0_S1x4x1024 : S512x4x1024.Slices ![222, 0, 0] S1x4x1024
  inb_S512x4x1024_S1x4x1024_222_0_0 : ∀ a, (![222, 0, 0] : Fin 3 → Nat) a + S1x4x1024.size a ≤ S512x4x1024.size a
  slices_S4x512_o0_223_S4x1 : S4x512.Slices ![0, 223] S4x1
  slices_S512x4x1024_o223_0_0_S1x4x1024 : S512x4x1024.Slices ![223, 0, 0] S1x4x1024
  inb_S512x4x1024_S1x4x1024_223_0_0 : ∀ a, (![223, 0, 0] : Fin 3 → Nat) a + S1x4x1024.size a ≤ S512x4x1024.size a
  slices_S4x512_o0_224_S4x1 : S4x512.Slices ![0, 224] S4x1
  slices_S512x4x1024_o224_0_0_S1x4x1024 : S512x4x1024.Slices ![224, 0, 0] S1x4x1024
  inb_S512x4x1024_S1x4x1024_224_0_0 : ∀ a, (![224, 0, 0] : Fin 3 → Nat) a + S1x4x1024.size a ≤ S512x4x1024.size a
  slices_S4x512_o0_225_S4x1 : S4x512.Slices ![0, 225] S4x1
  slices_S512x4x1024_o225_0_0_S1x4x1024 : S512x4x1024.Slices ![225, 0, 0] S1x4x1024
  inb_S512x4x1024_S1x4x1024_225_0_0 : ∀ a, (![225, 0, 0] : Fin 3 → Nat) a + S1x4x1024.size a ≤ S512x4x1024.size a
  slices_S4x512_o0_226_S4x1 : S4x512.Slices ![0, 226] S4x1
  slices_S512x4x1024_o226_0_0_S1x4x1024 : S512x4x1024.Slices ![226, 0, 0] S1x4x1024
  inb_S512x4x1024_S1x4x1024_226_0_0 : ∀ a, (![226, 0, 0] : Fin 3 → Nat) a + S1x4x1024.size a ≤ S512x4x1024.size a
  slices_S4x512_o0_227_S4x1 : S4x512.Slices ![0, 227] S4x1
  slices_S512x4x1024_o227_0_0_S1x4x1024 : S512x4x1024.Slices ![227, 0, 0] S1x4x1024
  inb_S512x4x1024_S1x4x1024_227_0_0 : ∀ a, (![227, 0, 0] : Fin 3 → Nat) a + S1x4x1024.size a ≤ S512x4x1024.size a
  slices_S4x512_o0_228_S4x1 : S4x512.Slices ![0, 228] S4x1
  slices_S512x4x1024_o228_0_0_S1x4x1024 : S512x4x1024.Slices ![228, 0, 0] S1x4x1024
  inb_S512x4x1024_S1x4x1024_228_0_0 : ∀ a, (![228, 0, 0] : Fin 3 → Nat) a + S1x4x1024.size a ≤ S512x4x1024.size a
  slices_S4x512_o0_229_S4x1 : S4x512.Slices ![0, 229] S4x1
  slices_S512x4x1024_o229_0_0_S1x4x1024 : S512x4x1024.Slices ![229, 0, 0] S1x4x1024
  inb_S512x4x1024_S1x4x1024_229_0_0 : ∀ a, (![229, 0, 0] : Fin 3 → Nat) a + S1x4x1024.size a ≤ S512x4x1024.size a
  slices_S4x512_o0_230_S4x1 : S4x512.Slices ![0, 230] S4x1
  slices_S512x4x1024_o230_0_0_S1x4x1024 : S512x4x1024.Slices ![230, 0, 0] S1x4x1024
  inb_S512x4x1024_S1x4x1024_230_0_0 : ∀ a, (![230, 0, 0] : Fin 3 → Nat) a + S1x4x1024.size a ≤ S512x4x1024.size a
  slices_S4x512_o0_231_S4x1 : S4x512.Slices ![0, 231] S4x1
  slices_S512x4x1024_o231_0_0_S1x4x1024 : S512x4x1024.Slices ![231, 0, 0] S1x4x1024
  inb_S512x4x1024_S1x4x1024_231_0_0 : ∀ a, (![231, 0, 0] : Fin 3 → Nat) a + S1x4x1024.size a ≤ S512x4x1024.size a
  slices_S4x512_o0_232_S4x1 : S4x512.Slices ![0, 232] S4x1
  slices_S512x4x1024_o232_0_0_S1x4x1024 : S512x4x1024.Slices ![232, 0, 0] S1x4x1024
  inb_S512x4x1024_S1x4x1024_232_0_0 : ∀ a, (![232, 0, 0] : Fin 3 → Nat) a + S1x4x1024.size a ≤ S512x4x1024.size a
  slices_S4x512_o0_233_S4x1 : S4x512.Slices ![0, 233] S4x1
  slices_S512x4x1024_o233_0_0_S1x4x1024 : S512x4x1024.Slices ![233, 0, 0] S1x4x1024
  inb_S512x4x1024_S1x4x1024_233_0_0 : ∀ a, (![233, 0, 0] : Fin 3 → Nat) a + S1x4x1024.size a ≤ S512x4x1024.size a
  slices_S4x512_o0_234_S4x1 : S4x512.Slices ![0, 234] S4x1
  slices_S512x4x1024_o234_0_0_S1x4x1024 : S512x4x1024.Slices ![234, 0, 0] S1x4x1024
  inb_S512x4x1024_S1x4x1024_234_0_0 : ∀ a, (![234, 0, 0] : Fin 3 → Nat) a + S1x4x1024.size a ≤ S512x4x1024.size a
  slices_S4x512_o0_235_S4x1 : S4x512.Slices ![0, 235] S4x1
  slices_S512x4x1024_o235_0_0_S1x4x1024 : S512x4x1024.Slices ![235, 0, 0] S1x4x1024
  inb_S512x4x1024_S1x4x1024_235_0_0 : ∀ a, (![235, 0, 0] : Fin 3 → Nat) a + S1x4x1024.size a ≤ S512x4x1024.size a
  slices_S4x512_o0_236_S4x1 : S4x512.Slices ![0, 236] S4x1
  slices_S512x4x1024_o236_0_0_S1x4x1024 : S512x4x1024.Slices ![236, 0, 0] S1x4x1024
  inb_S512x4x1024_S1x4x1024_236_0_0 : ∀ a, (![236, 0, 0] : Fin 3 → Nat) a + S1x4x1024.size a ≤ S512x4x1024.size a
  slices_S4x512_o0_237_S4x1 : S4x512.Slices ![0, 237] S4x1
  slices_S512x4x1024_o237_0_0_S1x4x1024 : S512x4x1024.Slices ![237, 0, 0] S1x4x1024
  inb_S512x4x1024_S1x4x1024_237_0_0 : ∀ a, (![237, 0, 0] : Fin 3 → Nat) a + S1x4x1024.size a ≤ S512x4x1024.size a
  slices_S4x512_o0_238_S4x1 : S4x512.Slices ![0, 238] S4x1
  slices_S512x4x1024_o238_0_0_S1x4x1024 : S512x4x1024.Slices ![238, 0, 0] S1x4x1024
  inb_S512x4x1024_S1x4x1024_238_0_0 : ∀ a, (![238, 0, 0] : Fin 3 → Nat) a + S1x4x1024.size a ≤ S512x4x1024.size a
  slices_S4x512_o0_239_S4x1 : S4x512.Slices ![0, 239] S4x1
  slices_S512x4x1024_o239_0_0_S1x4x1024 : S512x4x1024.Slices ![239, 0, 0] S1x4x1024
  inb_S512x4x1024_S1x4x1024_239_0_0 : ∀ a, (![239, 0, 0] : Fin 3 → Nat) a + S1x4x1024.size a ≤ S512x4x1024.size a
  slices_S4x512_o0_240_S4x1 : S4x512.Slices ![0, 240] S4x1
  slices_S512x4x1024_o240_0_0_S1x4x1024 : S512x4x1024.Slices ![240, 0, 0] S1x4x1024
  inb_S512x4x1024_S1x4x1024_240_0_0 : ∀ a, (![240, 0, 0] : Fin 3 → Nat) a + S1x4x1024.size a ≤ S512x4x1024.size a
  slices_S4x512_o0_241_S4x1 : S4x512.Slices ![0, 241] S4x1
  slices_S512x4x1024_o241_0_0_S1x4x1024 : S512x4x1024.Slices ![241, 0, 0] S1x4x1024
  inb_S512x4x1024_S1x4x1024_241_0_0 : ∀ a, (![241, 0, 0] : Fin 3 → Nat) a + S1x4x1024.size a ≤ S512x4x1024.size a
  slices_S4x512_o0_242_S4x1 : S4x512.Slices ![0, 242] S4x1
  slices_S512x4x1024_o242_0_0_S1x4x1024 : S512x4x1024.Slices ![242, 0, 0] S1x4x1024
  inb_S512x4x1024_S1x4x1024_242_0_0 : ∀ a, (![242, 0, 0] : Fin 3 → Nat) a + S1x4x1024.size a ≤ S512x4x1024.size a
  slices_S4x512_o0_243_S4x1 : S4x512.Slices ![0, 243] S4x1
  slices_S512x4x1024_o243_0_0_S1x4x1024 : S512x4x1024.Slices ![243, 0, 0] S1x4x1024
  inb_S512x4x1024_S1x4x1024_243_0_0 : ∀ a, (![243, 0, 0] : Fin 3 → Nat) a + S1x4x1024.size a ≤ S512x4x1024.size a
  slices_S4x512_o0_244_S4x1 : S4x512.Slices ![0, 244] S4x1
  slices_S512x4x1024_o244_0_0_S1x4x1024 : S512x4x1024.Slices ![244, 0, 0] S1x4x1024
  inb_S512x4x1024_S1x4x1024_244_0_0 : ∀ a, (![244, 0, 0] : Fin 3 → Nat) a + S1x4x1024.size a ≤ S512x4x1024.size a
  slices_S4x512_o0_245_S4x1 : S4x512.Slices ![0, 245] S4x1
  slices_S512x4x1024_o245_0_0_S1x4x1024 : S512x4x1024.Slices ![245, 0, 0] S1x4x1024
  inb_S512x4x1024_S1x4x1024_245_0_0 : ∀ a, (![245, 0, 0] : Fin 3 → Nat) a + S1x4x1024.size a ≤ S512x4x1024.size a
  slices_S4x512_o0_246_S4x1 : S4x512.Slices ![0, 246] S4x1
  slices_S512x4x1024_o246_0_0_S1x4x1024 : S512x4x1024.Slices ![246, 0, 0] S1x4x1024
  inb_S512x4x1024_S1x4x1024_246_0_0 : ∀ a, (![246, 0, 0] : Fin 3 → Nat) a + S1x4x1024.size a ≤ S512x4x1024.size a
  slices_S4x512_o0_247_S4x1 : S4x512.Slices ![0, 247] S4x1
  slices_S512x4x1024_o247_0_0_S1x4x1024 : S512x4x1024.Slices ![247, 0, 0] S1x4x1024
  inb_S512x4x1024_S1x4x1024_247_0_0 : ∀ a, (![247, 0, 0] : Fin 3 → Nat) a + S1x4x1024.size a ≤ S512x4x1024.size a
  slices_S4x512_o0_248_S4x1 : S4x512.Slices ![0, 248] S4x1
  slices_S512x4x1024_o248_0_0_S1x4x1024 : S512x4x1024.Slices ![248, 0, 0] S1x4x1024
  inb_S512x4x1024_S1x4x1024_248_0_0 : ∀ a, (![248, 0, 0] : Fin 3 → Nat) a + S1x4x1024.size a ≤ S512x4x1024.size a
  slices_S4x512_o0_249_S4x1 : S4x512.Slices ![0, 249] S4x1
  slices_S512x4x1024_o249_0_0_S1x4x1024 : S512x4x1024.Slices ![249, 0, 0] S1x4x1024
  inb_S512x4x1024_S1x4x1024_249_0_0 : ∀ a, (![249, 0, 0] : Fin 3 → Nat) a + S1x4x1024.size a ≤ S512x4x1024.size a
  slices_S4x512_o0_250_S4x1 : S4x512.Slices ![0, 250] S4x1
  slices_S512x4x1024_o250_0_0_S1x4x1024 : S512x4x1024.Slices ![250, 0, 0] S1x4x1024
  inb_S512x4x1024_S1x4x1024_250_0_0 : ∀ a, (![250, 0, 0] : Fin 3 → Nat) a + S1x4x1024.size a ≤ S512x4x1024.size a
  slices_S4x512_o0_251_S4x1 : S4x512.Slices ![0, 251] S4x1
  slices_S512x4x1024_o251_0_0_S1x4x1024 : S512x4x1024.Slices ![251, 0, 0] S1x4x1024
  inb_S512x4x1024_S1x4x1024_251_0_0 : ∀ a, (![251, 0, 0] : Fin 3 → Nat) a + S1x4x1024.size a ≤ S512x4x1024.size a
  slices_S4x512_o0_252_S4x1 : S4x512.Slices ![0, 252] S4x1
  slices_S512x4x1024_o252_0_0_S1x4x1024 : S512x4x1024.Slices ![252, 0, 0] S1x4x1024
  inb_S512x4x1024_S1x4x1024_252_0_0 : ∀ a, (![252, 0, 0] : Fin 3 → Nat) a + S1x4x1024.size a ≤ S512x4x1024.size a
  slices_S4x512_o0_253_S4x1 : S4x512.Slices ![0, 253] S4x1
  slices_S512x4x1024_o253_0_0_S1x4x1024 : S512x4x1024.Slices ![253, 0, 0] S1x4x1024
  inb_S512x4x1024_S1x4x1024_253_0_0 : ∀ a, (![253, 0, 0] : Fin 3 → Nat) a + S1x4x1024.size a ≤ S512x4x1024.size a
  slices_S4x512_o0_254_S4x1 : S4x512.Slices ![0, 254] S4x1
  slices_S512x4x1024_o254_0_0_S1x4x1024 : S512x4x1024.Slices ![254, 0, 0] S1x4x1024
  inb_S512x4x1024_S1x4x1024_254_0_0 : ∀ a, (![254, 0, 0] : Fin 3 → Nat) a + S1x4x1024.size a ≤ S512x4x1024.size a
  slices_S4x512_o0_255_S4x1 : S4x512.Slices ![0, 255] S4x1
  slices_S512x4x1024_o255_0_0_S1x4x1024 : S512x4x1024.Slices ![255, 0, 0] S1x4x1024
  inb_S512x4x1024_S1x4x1024_255_0_0 : ∀ a, (![255, 0, 0] : Fin 3 → Nat) a + S1x4x1024.size a ≤ S512x4x1024.size a
  slices_S4x512_o0_256_S4x1 : S4x512.Slices ![0, 256] S4x1
  slices_S512x4x1024_o256_0_0_S1x4x1024 : S512x4x1024.Slices ![256, 0, 0] S1x4x1024
  inb_S512x4x1024_S1x4x1024_256_0_0 : ∀ a, (![256, 0, 0] : Fin 3 → Nat) a + S1x4x1024.size a ≤ S512x4x1024.size a
  slices_S4x512_o0_257_S4x1 : S4x512.Slices ![0, 257] S4x1
  slices_S512x4x1024_o257_0_0_S1x4x1024 : S512x4x1024.Slices ![257, 0, 0] S1x4x1024
  inb_S512x4x1024_S1x4x1024_257_0_0 : ∀ a, (![257, 0, 0] : Fin 3 → Nat) a + S1x4x1024.size a ≤ S512x4x1024.size a
  slices_S4x512_o0_258_S4x1 : S4x512.Slices ![0, 258] S4x1
  slices_S512x4x1024_o258_0_0_S1x4x1024 : S512x4x1024.Slices ![258, 0, 0] S1x4x1024
  inb_S512x4x1024_S1x4x1024_258_0_0 : ∀ a, (![258, 0, 0] : Fin 3 → Nat) a + S1x4x1024.size a ≤ S512x4x1024.size a
  slices_S4x512_o0_259_S4x1 : S4x512.Slices ![0, 259] S4x1
  slices_S512x4x1024_o259_0_0_S1x4x1024 : S512x4x1024.Slices ![259, 0, 0] S1x4x1024
  inb_S512x4x1024_S1x4x1024_259_0_0 : ∀ a, (![259, 0, 0] : Fin 3 → Nat) a + S1x4x1024.size a ≤ S512x4x1024.size a
  slices_S4x512_o0_260_S4x1 : S4x512.Slices ![0, 260] S4x1
  slices_S512x4x1024_o260_0_0_S1x4x1024 : S512x4x1024.Slices ![260, 0, 0] S1x4x1024
  inb_S512x4x1024_S1x4x1024_260_0_0 : ∀ a, (![260, 0, 0] : Fin 3 → Nat) a + S1x4x1024.size a ≤ S512x4x1024.size a
  slices_S4x512_o0_261_S4x1 : S4x512.Slices ![0, 261] S4x1
  slices_S512x4x1024_o261_0_0_S1x4x1024 : S512x4x1024.Slices ![261, 0, 0] S1x4x1024
  inb_S512x4x1024_S1x4x1024_261_0_0 : ∀ a, (![261, 0, 0] : Fin 3 → Nat) a + S1x4x1024.size a ≤ S512x4x1024.size a
  slices_S4x512_o0_262_S4x1 : S4x512.Slices ![0, 262] S4x1
  slices_S512x4x1024_o262_0_0_S1x4x1024 : S512x4x1024.Slices ![262, 0, 0] S1x4x1024
  inb_S512x4x1024_S1x4x1024_262_0_0 : ∀ a, (![262, 0, 0] : Fin 3 → Nat) a + S1x4x1024.size a ≤ S512x4x1024.size a
  slices_S4x512_o0_263_S4x1 : S4x512.Slices ![0, 263] S4x1
  slices_S512x4x1024_o263_0_0_S1x4x1024 : S512x4x1024.Slices ![263, 0, 0] S1x4x1024
  inb_S512x4x1024_S1x4x1024_263_0_0 : ∀ a, (![263, 0, 0] : Fin 3 → Nat) a + S1x4x1024.size a ≤ S512x4x1024.size a
  slices_S4x512_o0_264_S4x1 : S4x512.Slices ![0, 264] S4x1
  slices_S512x4x1024_o264_0_0_S1x4x1024 : S512x4x1024.Slices ![264, 0, 0] S1x4x1024
  inb_S512x4x1024_S1x4x1024_264_0_0 : ∀ a, (![264, 0, 0] : Fin 3 → Nat) a + S1x4x1024.size a ≤ S512x4x1024.size a
  slices_S4x512_o0_265_S4x1 : S4x512.Slices ![0, 265] S4x1
  slices_S512x4x1024_o265_0_0_S1x4x1024 : S512x4x1024.Slices ![265, 0, 0] S1x4x1024
  inb_S512x4x1024_S1x4x1024_265_0_0 : ∀ a, (![265, 0, 0] : Fin 3 → Nat) a + S1x4x1024.size a ≤ S512x4x1024.size a
  slices_S4x512_o0_266_S4x1 : S4x512.Slices ![0, 266] S4x1
  slices_S512x4x1024_o266_0_0_S1x4x1024 : S512x4x1024.Slices ![266, 0, 0] S1x4x1024
  inb_S512x4x1024_S1x4x1024_266_0_0 : ∀ a, (![266, 0, 0] : Fin 3 → Nat) a + S1x4x1024.size a ≤ S512x4x1024.size a
  slices_S4x512_o0_267_S4x1 : S4x512.Slices ![0, 267] S4x1
  slices_S512x4x1024_o267_0_0_S1x4x1024 : S512x4x1024.Slices ![267, 0, 0] S1x4x1024
  inb_S512x4x1024_S1x4x1024_267_0_0 : ∀ a, (![267, 0, 0] : Fin 3 → Nat) a + S1x4x1024.size a ≤ S512x4x1024.size a
  slices_S4x512_o0_268_S4x1 : S4x512.Slices ![0, 268] S4x1
  slices_S512x4x1024_o268_0_0_S1x4x1024 : S512x4x1024.Slices ![268, 0, 0] S1x4x1024
  inb_S512x4x1024_S1x4x1024_268_0_0 : ∀ a, (![268, 0, 0] : Fin 3 → Nat) a + S1x4x1024.size a ≤ S512x4x1024.size a
  slices_S4x512_o0_269_S4x1 : S4x512.Slices ![0, 269] S4x1
  slices_S512x4x1024_o269_0_0_S1x4x1024 : S512x4x1024.Slices ![269, 0, 0] S1x4x1024
  inb_S512x4x1024_S1x4x1024_269_0_0 : ∀ a, (![269, 0, 0] : Fin 3 → Nat) a + S1x4x1024.size a ≤ S512x4x1024.size a
  slices_S4x512_o0_270_S4x1 : S4x512.Slices ![0, 270] S4x1
  slices_S512x4x1024_o270_0_0_S1x4x1024 : S512x4x1024.Slices ![270, 0, 0] S1x4x1024
  inb_S512x4x1024_S1x4x1024_270_0_0 : ∀ a, (![270, 0, 0] : Fin 3 → Nat) a + S1x4x1024.size a ≤ S512x4x1024.size a
  slices_S4x512_o0_271_S4x1 : S4x512.Slices ![0, 271] S4x1
  slices_S512x4x1024_o271_0_0_S1x4x1024 : S512x4x1024.Slices ![271, 0, 0] S1x4x1024
  inb_S512x4x1024_S1x4x1024_271_0_0 : ∀ a, (![271, 0, 0] : Fin 3 → Nat) a + S1x4x1024.size a ≤ S512x4x1024.size a
  slices_S4x512_o0_272_S4x1 : S4x512.Slices ![0, 272] S4x1
  slices_S512x4x1024_o272_0_0_S1x4x1024 : S512x4x1024.Slices ![272, 0, 0] S1x4x1024
  inb_S512x4x1024_S1x4x1024_272_0_0 : ∀ a, (![272, 0, 0] : Fin 3 → Nat) a + S1x4x1024.size a ≤ S512x4x1024.size a
  slices_S4x512_o0_273_S4x1 : S4x512.Slices ![0, 273] S4x1
  slices_S512x4x1024_o273_0_0_S1x4x1024 : S512x4x1024.Slices ![273, 0, 0] S1x4x1024
  inb_S512x4x1024_S1x4x1024_273_0_0 : ∀ a, (![273, 0, 0] : Fin 3 → Nat) a + S1x4x1024.size a ≤ S512x4x1024.size a
  slices_S4x512_o0_274_S4x1 : S4x512.Slices ![0, 274] S4x1
  slices_S512x4x1024_o274_0_0_S1x4x1024 : S512x4x1024.Slices ![274, 0, 0] S1x4x1024
  inb_S512x4x1024_S1x4x1024_274_0_0 : ∀ a, (![274, 0, 0] : Fin 3 → Nat) a + S1x4x1024.size a ≤ S512x4x1024.size a
  slices_S4x512_o0_275_S4x1 : S4x512.Slices ![0, 275] S4x1
  slices_S512x4x1024_o275_0_0_S1x4x1024 : S512x4x1024.Slices ![275, 0, 0] S1x4x1024
  inb_S512x4x1024_S1x4x1024_275_0_0 : ∀ a, (![275, 0, 0] : Fin 3 → Nat) a + S1x4x1024.size a ≤ S512x4x1024.size a
  slices_S4x512_o0_276_S4x1 : S4x512.Slices ![0, 276] S4x1
  slices_S512x4x1024_o276_0_0_S1x4x1024 : S512x4x1024.Slices ![276, 0, 0] S1x4x1024
  inb_S512x4x1024_S1x4x1024_276_0_0 : ∀ a, (![276, 0, 0] : Fin 3 → Nat) a + S1x4x1024.size a ≤ S512x4x1024.size a
  slices_S4x512_o0_277_S4x1 : S4x512.Slices ![0, 277] S4x1
  slices_S512x4x1024_o277_0_0_S1x4x1024 : S512x4x1024.Slices ![277, 0, 0] S1x4x1024
  inb_S512x4x1024_S1x4x1024_277_0_0 : ∀ a, (![277, 0, 0] : Fin 3 → Nat) a + S1x4x1024.size a ≤ S512x4x1024.size a
  slices_S4x512_o0_278_S4x1 : S4x512.Slices ![0, 278] S4x1
  slices_S512x4x1024_o278_0_0_S1x4x1024 : S512x4x1024.Slices ![278, 0, 0] S1x4x1024
  inb_S512x4x1024_S1x4x1024_278_0_0 : ∀ a, (![278, 0, 0] : Fin 3 → Nat) a + S1x4x1024.size a ≤ S512x4x1024.size a
  slices_S4x512_o0_279_S4x1 : S4x512.Slices ![0, 279] S4x1
  slices_S512x4x1024_o279_0_0_S1x4x1024 : S512x4x1024.Slices ![279, 0, 0] S1x4x1024
  inb_S512x4x1024_S1x4x1024_279_0_0 : ∀ a, (![279, 0, 0] : Fin 3 → Nat) a + S1x4x1024.size a ≤ S512x4x1024.size a
  slices_S4x512_o0_280_S4x1 : S4x512.Slices ![0, 280] S4x1
  slices_S512x4x1024_o280_0_0_S1x4x1024 : S512x4x1024.Slices ![280, 0, 0] S1x4x1024
  inb_S512x4x1024_S1x4x1024_280_0_0 : ∀ a, (![280, 0, 0] : Fin 3 → Nat) a + S1x4x1024.size a ≤ S512x4x1024.size a
  slices_S4x512_o0_281_S4x1 : S4x512.Slices ![0, 281] S4x1
  slices_S512x4x1024_o281_0_0_S1x4x1024 : S512x4x1024.Slices ![281, 0, 0] S1x4x1024
  inb_S512x4x1024_S1x4x1024_281_0_0 : ∀ a, (![281, 0, 0] : Fin 3 → Nat) a + S1x4x1024.size a ≤ S512x4x1024.size a
  slices_S4x512_o0_282_S4x1 : S4x512.Slices ![0, 282] S4x1
  slices_S512x4x1024_o282_0_0_S1x4x1024 : S512x4x1024.Slices ![282, 0, 0] S1x4x1024
  inb_S512x4x1024_S1x4x1024_282_0_0 : ∀ a, (![282, 0, 0] : Fin 3 → Nat) a + S1x4x1024.size a ≤ S512x4x1024.size a
  slices_S4x512_o0_283_S4x1 : S4x512.Slices ![0, 283] S4x1
  slices_S512x4x1024_o283_0_0_S1x4x1024 : S512x4x1024.Slices ![283, 0, 0] S1x4x1024
  inb_S512x4x1024_S1x4x1024_283_0_0 : ∀ a, (![283, 0, 0] : Fin 3 → Nat) a + S1x4x1024.size a ≤ S512x4x1024.size a
  slices_S4x512_o0_284_S4x1 : S4x512.Slices ![0, 284] S4x1
  slices_S512x4x1024_o284_0_0_S1x4x1024 : S512x4x1024.Slices ![284, 0, 0] S1x4x1024
  inb_S512x4x1024_S1x4x1024_284_0_0 : ∀ a, (![284, 0, 0] : Fin 3 → Nat) a + S1x4x1024.size a ≤ S512x4x1024.size a
  slices_S4x512_o0_285_S4x1 : S4x512.Slices ![0, 285] S4x1
  slices_S512x4x1024_o285_0_0_S1x4x1024 : S512x4x1024.Slices ![285, 0, 0] S1x4x1024
  inb_S512x4x1024_S1x4x1024_285_0_0 : ∀ a, (![285, 0, 0] : Fin 3 → Nat) a + S1x4x1024.size a ≤ S512x4x1024.size a
  slices_S4x512_o0_286_S4x1 : S4x512.Slices ![0, 286] S4x1
  slices_S512x4x1024_o286_0_0_S1x4x1024 : S512x4x1024.Slices ![286, 0, 0] S1x4x1024
  inb_S512x4x1024_S1x4x1024_286_0_0 : ∀ a, (![286, 0, 0] : Fin 3 → Nat) a + S1x4x1024.size a ≤ S512x4x1024.size a
  slices_S4x512_o0_287_S4x1 : S4x512.Slices ![0, 287] S4x1
  slices_S512x4x1024_o287_0_0_S1x4x1024 : S512x4x1024.Slices ![287, 0, 0] S1x4x1024
  inb_S512x4x1024_S1x4x1024_287_0_0 : ∀ a, (![287, 0, 0] : Fin 3 → Nat) a + S1x4x1024.size a ≤ S512x4x1024.size a
  slices_S4x512_o0_288_S4x1 : S4x512.Slices ![0, 288] S4x1
  slices_S512x4x1024_o288_0_0_S1x4x1024 : S512x4x1024.Slices ![288, 0, 0] S1x4x1024
  inb_S512x4x1024_S1x4x1024_288_0_0 : ∀ a, (![288, 0, 0] : Fin 3 → Nat) a + S1x4x1024.size a ≤ S512x4x1024.size a
  slices_S4x512_o0_289_S4x1 : S4x512.Slices ![0, 289] S4x1
  slices_S512x4x1024_o289_0_0_S1x4x1024 : S512x4x1024.Slices ![289, 0, 0] S1x4x1024
  inb_S512x4x1024_S1x4x1024_289_0_0 : ∀ a, (![289, 0, 0] : Fin 3 → Nat) a + S1x4x1024.size a ≤ S512x4x1024.size a
  slices_S4x512_o0_290_S4x1 : S4x512.Slices ![0, 290] S4x1
  slices_S512x4x1024_o290_0_0_S1x4x1024 : S512x4x1024.Slices ![290, 0, 0] S1x4x1024
  inb_S512x4x1024_S1x4x1024_290_0_0 : ∀ a, (![290, 0, 0] : Fin 3 → Nat) a + S1x4x1024.size a ≤ S512x4x1024.size a
  slices_S4x512_o0_291_S4x1 : S4x512.Slices ![0, 291] S4x1
  slices_S512x4x1024_o291_0_0_S1x4x1024 : S512x4x1024.Slices ![291, 0, 0] S1x4x1024
  inb_S512x4x1024_S1x4x1024_291_0_0 : ∀ a, (![291, 0, 0] : Fin 3 → Nat) a + S1x4x1024.size a ≤ S512x4x1024.size a
  slices_S4x512_o0_292_S4x1 : S4x512.Slices ![0, 292] S4x1
  slices_S512x4x1024_o292_0_0_S1x4x1024 : S512x4x1024.Slices ![292, 0, 0] S1x4x1024
  inb_S512x4x1024_S1x4x1024_292_0_0 : ∀ a, (![292, 0, 0] : Fin 3 → Nat) a + S1x4x1024.size a ≤ S512x4x1024.size a
  slices_S4x512_o0_293_S4x1 : S4x512.Slices ![0, 293] S4x1
  slices_S512x4x1024_o293_0_0_S1x4x1024 : S512x4x1024.Slices ![293, 0, 0] S1x4x1024
  inb_S512x4x1024_S1x4x1024_293_0_0 : ∀ a, (![293, 0, 0] : Fin 3 → Nat) a + S1x4x1024.size a ≤ S512x4x1024.size a
  slices_S4x512_o0_294_S4x1 : S4x512.Slices ![0, 294] S4x1
  slices_S512x4x1024_o294_0_0_S1x4x1024 : S512x4x1024.Slices ![294, 0, 0] S1x4x1024
  inb_S512x4x1024_S1x4x1024_294_0_0 : ∀ a, (![294, 0, 0] : Fin 3 → Nat) a + S1x4x1024.size a ≤ S512x4x1024.size a
  slices_S4x512_o0_295_S4x1 : S4x512.Slices ![0, 295] S4x1
  slices_S512x4x1024_o295_0_0_S1x4x1024 : S512x4x1024.Slices ![295, 0, 0] S1x4x1024
  inb_S512x4x1024_S1x4x1024_295_0_0 : ∀ a, (![295, 0, 0] : Fin 3 → Nat) a + S1x4x1024.size a ≤ S512x4x1024.size a
  slices_S4x512_o0_296_S4x1 : S4x512.Slices ![0, 296] S4x1
  slices_S512x4x1024_o296_0_0_S1x4x1024 : S512x4x1024.Slices ![296, 0, 0] S1x4x1024
  inb_S512x4x1024_S1x4x1024_296_0_0 : ∀ a, (![296, 0, 0] : Fin 3 → Nat) a + S1x4x1024.size a ≤ S512x4x1024.size a
  slices_S4x512_o0_297_S4x1 : S4x512.Slices ![0, 297] S4x1
  slices_S512x4x1024_o297_0_0_S1x4x1024 : S512x4x1024.Slices ![297, 0, 0] S1x4x1024
  inb_S512x4x1024_S1x4x1024_297_0_0 : ∀ a, (![297, 0, 0] : Fin 3 → Nat) a + S1x4x1024.size a ≤ S512x4x1024.size a
  slices_S4x512_o0_298_S4x1 : S4x512.Slices ![0, 298] S4x1
  slices_S512x4x1024_o298_0_0_S1x4x1024 : S512x4x1024.Slices ![298, 0, 0] S1x4x1024
  inb_S512x4x1024_S1x4x1024_298_0_0 : ∀ a, (![298, 0, 0] : Fin 3 → Nat) a + S1x4x1024.size a ≤ S512x4x1024.size a
  slices_S4x512_o0_299_S4x1 : S4x512.Slices ![0, 299] S4x1
  slices_S512x4x1024_o299_0_0_S1x4x1024 : S512x4x1024.Slices ![299, 0, 0] S1x4x1024
  inb_S512x4x1024_S1x4x1024_299_0_0 : ∀ a, (![299, 0, 0] : Fin 3 → Nat) a + S1x4x1024.size a ≤ S512x4x1024.size a
  slices_S4x512_o0_300_S4x1 : S4x512.Slices ![0, 300] S4x1
  slices_S512x4x1024_o300_0_0_S1x4x1024 : S512x4x1024.Slices ![300, 0, 0] S1x4x1024
  inb_S512x4x1024_S1x4x1024_300_0_0 : ∀ a, (![300, 0, 0] : Fin 3 → Nat) a + S1x4x1024.size a ≤ S512x4x1024.size a
  slices_S4x512_o0_301_S4x1 : S4x512.Slices ![0, 301] S4x1
  slices_S512x4x1024_o301_0_0_S1x4x1024 : S512x4x1024.Slices ![301, 0, 0] S1x4x1024
  inb_S512x4x1024_S1x4x1024_301_0_0 : ∀ a, (![301, 0, 0] : Fin 3 → Nat) a + S1x4x1024.size a ≤ S512x4x1024.size a
  slices_S4x512_o0_302_S4x1 : S4x512.Slices ![0, 302] S4x1
  slices_S512x4x1024_o302_0_0_S1x4x1024 : S512x4x1024.Slices ![302, 0, 0] S1x4x1024
  inb_S512x4x1024_S1x4x1024_302_0_0 : ∀ a, (![302, 0, 0] : Fin 3 → Nat) a + S1x4x1024.size a ≤ S512x4x1024.size a
  slices_S4x512_o0_303_S4x1 : S4x512.Slices ![0, 303] S4x1
  slices_S512x4x1024_o303_0_0_S1x4x1024 : S512x4x1024.Slices ![303, 0, 0] S1x4x1024
  inb_S512x4x1024_S1x4x1024_303_0_0 : ∀ a, (![303, 0, 0] : Fin 3 → Nat) a + S1x4x1024.size a ≤ S512x4x1024.size a
  slices_S4x512_o0_304_S4x1 : S4x512.Slices ![0, 304] S4x1
  slices_S512x4x1024_o304_0_0_S1x4x1024 : S512x4x1024.Slices ![304, 0, 0] S1x4x1024
  inb_S512x4x1024_S1x4x1024_304_0_0 : ∀ a, (![304, 0, 0] : Fin 3 → Nat) a + S1x4x1024.size a ≤ S512x4x1024.size a
  slices_S4x512_o0_305_S4x1 : S4x512.Slices ![0, 305] S4x1
  slices_S512x4x1024_o305_0_0_S1x4x1024 : S512x4x1024.Slices ![305, 0, 0] S1x4x1024
  inb_S512x4x1024_S1x4x1024_305_0_0 : ∀ a, (![305, 0, 0] : Fin 3 → Nat) a + S1x4x1024.size a ≤ S512x4x1024.size a
  slices_S4x512_o0_306_S4x1 : S4x512.Slices ![0, 306] S4x1
  slices_S512x4x1024_o306_0_0_S1x4x1024 : S512x4x1024.Slices ![306, 0, 0] S1x4x1024
  inb_S512x4x1024_S1x4x1024_306_0_0 : ∀ a, (![306, 0, 0] : Fin 3 → Nat) a + S1x4x1024.size a ≤ S512x4x1024.size a
  slices_S4x512_o0_307_S4x1 : S4x512.Slices ![0, 307] S4x1
  slices_S512x4x1024_o307_0_0_S1x4x1024 : S512x4x1024.Slices ![307, 0, 0] S1x4x1024
  inb_S512x4x1024_S1x4x1024_307_0_0 : ∀ a, (![307, 0, 0] : Fin 3 → Nat) a + S1x4x1024.size a ≤ S512x4x1024.size a
  slices_S4x512_o0_308_S4x1 : S4x512.Slices ![0, 308] S4x1
  slices_S512x4x1024_o308_0_0_S1x4x1024 : S512x4x1024.Slices ![308, 0, 0] S1x4x1024
  inb_S512x4x1024_S1x4x1024_308_0_0 : ∀ a, (![308, 0, 0] : Fin 3 → Nat) a + S1x4x1024.size a ≤ S512x4x1024.size a
  slices_S4x512_o0_309_S4x1 : S4x512.Slices ![0, 309] S4x1
  slices_S512x4x1024_o309_0_0_S1x4x1024 : S512x4x1024.Slices ![309, 0, 0] S1x4x1024
  inb_S512x4x1024_S1x4x1024_309_0_0 : ∀ a, (![309, 0, 0] : Fin 3 → Nat) a + S1x4x1024.size a ≤ S512x4x1024.size a
  slices_S4x512_o0_310_S4x1 : S4x512.Slices ![0, 310] S4x1
  slices_S512x4x1024_o310_0_0_S1x4x1024 : S512x4x1024.Slices ![310, 0, 0] S1x4x1024
  inb_S512x4x1024_S1x4x1024_310_0_0 : ∀ a, (![310, 0, 0] : Fin 3 → Nat) a + S1x4x1024.size a ≤ S512x4x1024.size a
  slices_S4x512_o0_311_S4x1 : S4x512.Slices ![0, 311] S4x1
  slices_S512x4x1024_o311_0_0_S1x4x1024 : S512x4x1024.Slices ![311, 0, 0] S1x4x1024
  inb_S512x4x1024_S1x4x1024_311_0_0 : ∀ a, (![311, 0, 0] : Fin 3 → Nat) a + S1x4x1024.size a ≤ S512x4x1024.size a
  slices_S4x512_o0_312_S4x1 : S4x512.Slices ![0, 312] S4x1
  slices_S512x4x1024_o312_0_0_S1x4x1024 : S512x4x1024.Slices ![312, 0, 0] S1x4x1024
  inb_S512x4x1024_S1x4x1024_312_0_0 : ∀ a, (![312, 0, 0] : Fin 3 → Nat) a + S1x4x1024.size a ≤ S512x4x1024.size a
  slices_S4x512_o0_313_S4x1 : S4x512.Slices ![0, 313] S4x1
  slices_S512x4x1024_o313_0_0_S1x4x1024 : S512x4x1024.Slices ![313, 0, 0] S1x4x1024
  inb_S512x4x1024_S1x4x1024_313_0_0 : ∀ a, (![313, 0, 0] : Fin 3 → Nat) a + S1x4x1024.size a ≤ S512x4x1024.size a
  slices_S4x512_o0_314_S4x1 : S4x512.Slices ![0, 314] S4x1
  slices_S512x4x1024_o314_0_0_S1x4x1024 : S512x4x1024.Slices ![314, 0, 0] S1x4x1024
  inb_S512x4x1024_S1x4x1024_314_0_0 : ∀ a, (![314, 0, 0] : Fin 3 → Nat) a + S1x4x1024.size a ≤ S512x4x1024.size a
  slices_S4x512_o0_315_S4x1 : S4x512.Slices ![0, 315] S4x1
  slices_S512x4x1024_o315_0_0_S1x4x1024 : S512x4x1024.Slices ![315, 0, 0] S1x4x1024
  inb_S512x4x1024_S1x4x1024_315_0_0 : ∀ a, (![315, 0, 0] : Fin 3 → Nat) a + S1x4x1024.size a ≤ S512x4x1024.size a
  slices_S4x512_o0_316_S4x1 : S4x512.Slices ![0, 316] S4x1
  slices_S512x4x1024_o316_0_0_S1x4x1024 : S512x4x1024.Slices ![316, 0, 0] S1x4x1024
  inb_S512x4x1024_S1x4x1024_316_0_0 : ∀ a, (![316, 0, 0] : Fin 3 → Nat) a + S1x4x1024.size a ≤ S512x4x1024.size a
  slices_S4x512_o0_317_S4x1 : S4x512.Slices ![0, 317] S4x1
  slices_S512x4x1024_o317_0_0_S1x4x1024 : S512x4x1024.Slices ![317, 0, 0] S1x4x1024
  inb_S512x4x1024_S1x4x1024_317_0_0 : ∀ a, (![317, 0, 0] : Fin 3 → Nat) a + S1x4x1024.size a ≤ S512x4x1024.size a
  slices_S4x512_o0_318_S4x1 : S4x512.Slices ![0, 318] S4x1
  slices_S512x4x1024_o318_0_0_S1x4x1024 : S512x4x1024.Slices ![318, 0, 0] S1x4x1024
  inb_S512x4x1024_S1x4x1024_318_0_0 : ∀ a, (![318, 0, 0] : Fin 3 → Nat) a + S1x4x1024.size a ≤ S512x4x1024.size a
  slices_S4x512_o0_319_S4x1 : S4x512.Slices ![0, 319] S4x1
  slices_S512x4x1024_o319_0_0_S1x4x1024 : S512x4x1024.Slices ![319, 0, 0] S1x4x1024
  inb_S512x4x1024_S1x4x1024_319_0_0 : ∀ a, (![319, 0, 0] : Fin 3 → Nat) a + S1x4x1024.size a ≤ S512x4x1024.size a
  slices_S4x512_o0_320_S4x1 : S4x512.Slices ![0, 320] S4x1
  slices_S512x4x1024_o320_0_0_S1x4x1024 : S512x4x1024.Slices ![320, 0, 0] S1x4x1024
  inb_S512x4x1024_S1x4x1024_320_0_0 : ∀ a, (![320, 0, 0] : Fin 3 → Nat) a + S1x4x1024.size a ≤ S512x4x1024.size a
  slices_S4x512_o0_321_S4x1 : S4x512.Slices ![0, 321] S4x1
  slices_S512x4x1024_o321_0_0_S1x4x1024 : S512x4x1024.Slices ![321, 0, 0] S1x4x1024
  inb_S512x4x1024_S1x4x1024_321_0_0 : ∀ a, (![321, 0, 0] : Fin 3 → Nat) a + S1x4x1024.size a ≤ S512x4x1024.size a
  slices_S4x512_o0_322_S4x1 : S4x512.Slices ![0, 322] S4x1
  slices_S512x4x1024_o322_0_0_S1x4x1024 : S512x4x1024.Slices ![322, 0, 0] S1x4x1024
  inb_S512x4x1024_S1x4x1024_322_0_0 : ∀ a, (![322, 0, 0] : Fin 3 → Nat) a + S1x4x1024.size a ≤ S512x4x1024.size a
  slices_S4x512_o0_323_S4x1 : S4x512.Slices ![0, 323] S4x1
  slices_S512x4x1024_o323_0_0_S1x4x1024 : S512x4x1024.Slices ![323, 0, 0] S1x4x1024
  inb_S512x4x1024_S1x4x1024_323_0_0 : ∀ a, (![323, 0, 0] : Fin 3 → Nat) a + S1x4x1024.size a ≤ S512x4x1024.size a
  slices_S4x512_o0_324_S4x1 : S4x512.Slices ![0, 324] S4x1
  slices_S512x4x1024_o324_0_0_S1x4x1024 : S512x4x1024.Slices ![324, 0, 0] S1x4x1024
  inb_S512x4x1024_S1x4x1024_324_0_0 : ∀ a, (![324, 0, 0] : Fin 3 → Nat) a + S1x4x1024.size a ≤ S512x4x1024.size a
  slices_S4x512_o0_325_S4x1 : S4x512.Slices ![0, 325] S4x1
  slices_S512x4x1024_o325_0_0_S1x4x1024 : S512x4x1024.Slices ![325, 0, 0] S1x4x1024

class Shapes2.Facts₀ : Prop where
  inb_S512x4x1024_S1x4x1024_325_0_0 : ∀ a, (![325, 0, 0] : Fin 3 → Nat) a + S1x4x1024.size a ≤ S512x4x1024.size a
  slices_S4x512_o0_326_S4x1 : S4x512.Slices ![0, 326] S4x1
  slices_S512x4x1024_o326_0_0_S1x4x1024 : S512x4x1024.Slices ![326, 0, 0] S1x4x1024
  inb_S512x4x1024_S1x4x1024_326_0_0 : ∀ a, (![326, 0, 0] : Fin 3 → Nat) a + S1x4x1024.size a ≤ S512x4x1024.size a
  slices_S4x512_o0_327_S4x1 : S4x512.Slices ![0, 327] S4x1
  slices_S512x4x1024_o327_0_0_S1x4x1024 : S512x4x1024.Slices ![327, 0, 0] S1x4x1024
  inb_S512x4x1024_S1x4x1024_327_0_0 : ∀ a, (![327, 0, 0] : Fin 3 → Nat) a + S1x4x1024.size a ≤ S512x4x1024.size a
  slices_S4x512_o0_328_S4x1 : S4x512.Slices ![0, 328] S4x1
  slices_S512x4x1024_o328_0_0_S1x4x1024 : S512x4x1024.Slices ![328, 0, 0] S1x4x1024
  inb_S512x4x1024_S1x4x1024_328_0_0 : ∀ a, (![328, 0, 0] : Fin 3 → Nat) a + S1x4x1024.size a ≤ S512x4x1024.size a
  slices_S4x512_o0_329_S4x1 : S4x512.Slices ![0, 329] S4x1
  slices_S512x4x1024_o329_0_0_S1x4x1024 : S512x4x1024.Slices ![329, 0, 0] S1x4x1024
  inb_S512x4x1024_S1x4x1024_329_0_0 : ∀ a, (![329, 0, 0] : Fin 3 → Nat) a + S1x4x1024.size a ≤ S512x4x1024.size a
  slices_S4x512_o0_330_S4x1 : S4x512.Slices ![0, 330] S4x1
  slices_S512x4x1024_o330_0_0_S1x4x1024 : S512x4x1024.Slices ![330, 0, 0] S1x4x1024
  inb_S512x4x1024_S1x4x1024_330_0_0 : ∀ a, (![330, 0, 0] : Fin 3 → Nat) a + S1x4x1024.size a ≤ S512x4x1024.size a
  slices_S4x512_o0_331_S4x1 : S4x512.Slices ![0, 331] S4x1
  slices_S512x4x1024_o331_0_0_S1x4x1024 : S512x4x1024.Slices ![331, 0, 0] S1x4x1024
  inb_S512x4x1024_S1x4x1024_331_0_0 : ∀ a, (![331, 0, 0] : Fin 3 → Nat) a + S1x4x1024.size a ≤ S512x4x1024.size a
  slices_S4x512_o0_332_S4x1 : S4x512.Slices ![0, 332] S4x1
  slices_S512x4x1024_o332_0_0_S1x4x1024 : S512x4x1024.Slices ![332, 0, 0] S1x4x1024
  inb_S512x4x1024_S1x4x1024_332_0_0 : ∀ a, (![332, 0, 0] : Fin 3 → Nat) a + S1x4x1024.size a ≤ S512x4x1024.size a
  slices_S4x512_o0_333_S4x1 : S4x512.Slices ![0, 333] S4x1
  slices_S512x4x1024_o333_0_0_S1x4x1024 : S512x4x1024.Slices ![333, 0, 0] S1x4x1024
  inb_S512x4x1024_S1x4x1024_333_0_0 : ∀ a, (![333, 0, 0] : Fin 3 → Nat) a + S1x4x1024.size a ≤ S512x4x1024.size a
  slices_S4x512_o0_334_S4x1 : S4x512.Slices ![0, 334] S4x1
  slices_S512x4x1024_o334_0_0_S1x4x1024 : S512x4x1024.Slices ![334, 0, 0] S1x4x1024
  inb_S512x4x1024_S1x4x1024_334_0_0 : ∀ a, (![334, 0, 0] : Fin 3 → Nat) a + S1x4x1024.size a ≤ S512x4x1024.size a
  slices_S4x512_o0_335_S4x1 : S4x512.Slices ![0, 335] S4x1
  slices_S512x4x1024_o335_0_0_S1x4x1024 : S512x4x1024.Slices ![335, 0, 0] S1x4x1024
  inb_S512x4x1024_S1x4x1024_335_0_0 : ∀ a, (![335, 0, 0] : Fin 3 → Nat) a + S1x4x1024.size a ≤ S512x4x1024.size a
  slices_S4x512_o0_336_S4x1 : S4x512.Slices ![0, 336] S4x1
  slices_S512x4x1024_o336_0_0_S1x4x1024 : S512x4x1024.Slices ![336, 0, 0] S1x4x1024
  inb_S512x4x1024_S1x4x1024_336_0_0 : ∀ a, (![336, 0, 0] : Fin 3 → Nat) a + S1x4x1024.size a ≤ S512x4x1024.size a
  slices_S4x512_o0_337_S4x1 : S4x512.Slices ![0, 337] S4x1
  slices_S512x4x1024_o337_0_0_S1x4x1024 : S512x4x1024.Slices ![337, 0, 0] S1x4x1024
  inb_S512x4x1024_S1x4x1024_337_0_0 : ∀ a, (![337, 0, 0] : Fin 3 → Nat) a + S1x4x1024.size a ≤ S512x4x1024.size a
  slices_S4x512_o0_338_S4x1 : S4x512.Slices ![0, 338] S4x1
  slices_S512x4x1024_o338_0_0_S1x4x1024 : S512x4x1024.Slices ![338, 0, 0] S1x4x1024
  inb_S512x4x1024_S1x4x1024_338_0_0 : ∀ a, (![338, 0, 0] : Fin 3 → Nat) a + S1x4x1024.size a ≤ S512x4x1024.size a
  slices_S4x512_o0_339_S4x1 : S4x512.Slices ![0, 339] S4x1
  slices_S512x4x1024_o339_0_0_S1x4x1024 : S512x4x1024.Slices ![339, 0, 0] S1x4x1024
  inb_S512x4x1024_S1x4x1024_339_0_0 : ∀ a, (![339, 0, 0] : Fin 3 → Nat) a + S1x4x1024.size a ≤ S512x4x1024.size a
  slices_S4x512_o0_340_S4x1 : S4x512.Slices ![0, 340] S4x1
  slices_S512x4x1024_o340_0_0_S1x4x1024 : S512x4x1024.Slices ![340, 0, 0] S1x4x1024
  inb_S512x4x1024_S1x4x1024_340_0_0 : ∀ a, (![340, 0, 0] : Fin 3 → Nat) a + S1x4x1024.size a ≤ S512x4x1024.size a
  slices_S4x512_o0_341_S4x1 : S4x512.Slices ![0, 341] S4x1
  slices_S512x4x1024_o341_0_0_S1x4x1024 : S512x4x1024.Slices ![341, 0, 0] S1x4x1024
  inb_S512x4x1024_S1x4x1024_341_0_0 : ∀ a, (![341, 0, 0] : Fin 3 → Nat) a + S1x4x1024.size a ≤ S512x4x1024.size a
  slices_S4x512_o0_342_S4x1 : S4x512.Slices ![0, 342] S4x1
  slices_S512x4x1024_o342_0_0_S1x4x1024 : S512x4x1024.Slices ![342, 0, 0] S1x4x1024
  inb_S512x4x1024_S1x4x1024_342_0_0 : ∀ a, (![342, 0, 0] : Fin 3 → Nat) a + S1x4x1024.size a ≤ S512x4x1024.size a
  slices_S4x512_o0_343_S4x1 : S4x512.Slices ![0, 343] S4x1
  slices_S512x4x1024_o343_0_0_S1x4x1024 : S512x4x1024.Slices ![343, 0, 0] S1x4x1024
  inb_S512x4x1024_S1x4x1024_343_0_0 : ∀ a, (![343, 0, 0] : Fin 3 → Nat) a + S1x4x1024.size a ≤ S512x4x1024.size a
  slices_S4x512_o0_344_S4x1 : S4x512.Slices ![0, 344] S4x1
  slices_S512x4x1024_o344_0_0_S1x4x1024 : S512x4x1024.Slices ![344, 0, 0] S1x4x1024
  inb_S512x4x1024_S1x4x1024_344_0_0 : ∀ a, (![344, 0, 0] : Fin 3 → Nat) a + S1x4x1024.size a ≤ S512x4x1024.size a
  slices_S4x512_o0_345_S4x1 : S4x512.Slices ![0, 345] S4x1
  slices_S512x4x1024_o345_0_0_S1x4x1024 : S512x4x1024.Slices ![345, 0, 0] S1x4x1024
  inb_S512x4x1024_S1x4x1024_345_0_0 : ∀ a, (![345, 0, 0] : Fin 3 → Nat) a + S1x4x1024.size a ≤ S512x4x1024.size a
  slices_S4x512_o0_346_S4x1 : S4x512.Slices ![0, 346] S4x1
  slices_S512x4x1024_o346_0_0_S1x4x1024 : S512x4x1024.Slices ![346, 0, 0] S1x4x1024
  inb_S512x4x1024_S1x4x1024_346_0_0 : ∀ a, (![346, 0, 0] : Fin 3 → Nat) a + S1x4x1024.size a ≤ S512x4x1024.size a
  slices_S4x512_o0_347_S4x1 : S4x512.Slices ![0, 347] S4x1
  slices_S512x4x1024_o347_0_0_S1x4x1024 : S512x4x1024.Slices ![347, 0, 0] S1x4x1024
  inb_S512x4x1024_S1x4x1024_347_0_0 : ∀ a, (![347, 0, 0] : Fin 3 → Nat) a + S1x4x1024.size a ≤ S512x4x1024.size a
  slices_S4x512_o0_348_S4x1 : S4x512.Slices ![0, 348] S4x1
  slices_S512x4x1024_o348_0_0_S1x4x1024 : S512x4x1024.Slices ![348, 0, 0] S1x4x1024
  inb_S512x4x1024_S1x4x1024_348_0_0 : ∀ a, (![348, 0, 0] : Fin 3 → Nat) a + S1x4x1024.size a ≤ S512x4x1024.size a
  slices_S4x512_o0_349_S4x1 : S4x512.Slices ![0, 349] S4x1
  slices_S512x4x1024_o349_0_0_S1x4x1024 : S512x4x1024.Slices ![349, 0, 0] S1x4x1024
  inb_S512x4x1024_S1x4x1024_349_0_0 : ∀ a, (![349, 0, 0] : Fin 3 → Nat) a + S1x4x1024.size a ≤ S512x4x1024.size a
  slices_S4x512_o0_350_S4x1 : S4x512.Slices ![0, 350] S4x1
  slices_S512x4x1024_o350_0_0_S1x4x1024 : S512x4x1024.Slices ![350, 0, 0] S1x4x1024
  inb_S512x4x1024_S1x4x1024_350_0_0 : ∀ a, (![350, 0, 0] : Fin 3 → Nat) a + S1x4x1024.size a ≤ S512x4x1024.size a
  slices_S4x512_o0_351_S4x1 : S4x512.Slices ![0, 351] S4x1
  slices_S512x4x1024_o351_0_0_S1x4x1024 : S512x4x1024.Slices ![351, 0, 0] S1x4x1024
  inb_S512x4x1024_S1x4x1024_351_0_0 : ∀ a, (![351, 0, 0] : Fin 3 → Nat) a + S1x4x1024.size a ≤ S512x4x1024.size a
  slices_S4x512_o0_352_S4x1 : S4x512.Slices ![0, 352] S4x1
  slices_S512x4x1024_o352_0_0_S1x4x1024 : S512x4x1024.Slices ![352, 0, 0] S1x4x1024
  inb_S512x4x1024_S1x4x1024_352_0_0 : ∀ a, (![352, 0, 0] : Fin 3 → Nat) a + S1x4x1024.size a ≤ S512x4x1024.size a
  slices_S4x512_o0_353_S4x1 : S4x512.Slices ![0, 353] S4x1
  slices_S512x4x1024_o353_0_0_S1x4x1024 : S512x4x1024.Slices ![353, 0, 0] S1x4x1024
  inb_S512x4x1024_S1x4x1024_353_0_0 : ∀ a, (![353, 0, 0] : Fin 3 → Nat) a + S1x4x1024.size a ≤ S512x4x1024.size a
  slices_S4x512_o0_354_S4x1 : S4x512.Slices ![0, 354] S4x1
  slices_S512x4x1024_o354_0_0_S1x4x1024 : S512x4x1024.Slices ![354, 0, 0] S1x4x1024
  inb_S512x4x1024_S1x4x1024_354_0_0 : ∀ a, (![354, 0, 0] : Fin 3 → Nat) a + S1x4x1024.size a ≤ S512x4x1024.size a
  slices_S4x512_o0_355_S4x1 : S4x512.Slices ![0, 355] S4x1
  slices_S512x4x1024_o355_0_0_S1x4x1024 : S512x4x1024.Slices ![355, 0, 0] S1x4x1024
  inb_S512x4x1024_S1x4x1024_355_0_0 : ∀ a, (![355, 0, 0] : Fin 3 → Nat) a + S1x4x1024.size a ≤ S512x4x1024.size a
  slices_S4x512_o0_356_S4x1 : S4x512.Slices ![0, 356] S4x1
  slices_S512x4x1024_o356_0_0_S1x4x1024 : S512x4x1024.Slices ![356, 0, 0] S1x4x1024
  inb_S512x4x1024_S1x4x1024_356_0_0 : ∀ a, (![356, 0, 0] : Fin 3 → Nat) a + S1x4x1024.size a ≤ S512x4x1024.size a
  slices_S4x512_o0_357_S4x1 : S4x512.Slices ![0, 357] S4x1
  slices_S512x4x1024_o357_0_0_S1x4x1024 : S512x4x1024.Slices ![357, 0, 0] S1x4x1024
  inb_S512x4x1024_S1x4x1024_357_0_0 : ∀ a, (![357, 0, 0] : Fin 3 → Nat) a + S1x4x1024.size a ≤ S512x4x1024.size a
  slices_S4x512_o0_358_S4x1 : S4x512.Slices ![0, 358] S4x1
  slices_S512x4x1024_o358_0_0_S1x4x1024 : S512x4x1024.Slices ![358, 0, 0] S1x4x1024
  inb_S512x4x1024_S1x4x1024_358_0_0 : ∀ a, (![358, 0, 0] : Fin 3 → Nat) a + S1x4x1024.size a ≤ S512x4x1024.size a
  slices_S4x512_o0_359_S4x1 : S4x512.Slices ![0, 359] S4x1
  slices_S512x4x1024_o359_0_0_S1x4x1024 : S512x4x1024.Slices ![359, 0, 0] S1x4x1024
  inb_S512x4x1024_S1x4x1024_359_0_0 : ∀ a, (![359, 0, 0] : Fin 3 → Nat) a + S1x4x1024.size a ≤ S512x4x1024.size a
  slices_S4x512_o0_360_S4x1 : S4x512.Slices ![0, 360] S4x1
  slices_S512x4x1024_o360_0_0_S1x4x1024 : S512x4x1024.Slices ![360, 0, 0] S1x4x1024
  inb_S512x4x1024_S1x4x1024_360_0_0 : ∀ a, (![360, 0, 0] : Fin 3 → Nat) a + S1x4x1024.size a ≤ S512x4x1024.size a
  slices_S4x512_o0_361_S4x1 : S4x512.Slices ![0, 361] S4x1
  slices_S512x4x1024_o361_0_0_S1x4x1024 : S512x4x1024.Slices ![361, 0, 0] S1x4x1024
  inb_S512x4x1024_S1x4x1024_361_0_0 : ∀ a, (![361, 0, 0] : Fin 3 → Nat) a + S1x4x1024.size a ≤ S512x4x1024.size a
  slices_S4x512_o0_362_S4x1 : S4x512.Slices ![0, 362] S4x1
  slices_S512x4x1024_o362_0_0_S1x4x1024 : S512x4x1024.Slices ![362, 0, 0] S1x4x1024
  inb_S512x4x1024_S1x4x1024_362_0_0 : ∀ a, (![362, 0, 0] : Fin 3 → Nat) a + S1x4x1024.size a ≤ S512x4x1024.size a
  slices_S4x512_o0_363_S4x1 : S4x512.Slices ![0, 363] S4x1
  slices_S512x4x1024_o363_0_0_S1x4x1024 : S512x4x1024.Slices ![363, 0, 0] S1x4x1024
  inb_S512x4x1024_S1x4x1024_363_0_0 : ∀ a, (![363, 0, 0] : Fin 3 → Nat) a + S1x4x1024.size a ≤ S512x4x1024.size a
  slices_S4x512_o0_364_S4x1 : S4x512.Slices ![0, 364] S4x1
  slices_S512x4x1024_o364_0_0_S1x4x1024 : S512x4x1024.Slices ![364, 0, 0] S1x4x1024
  inb_S512x4x1024_S1x4x1024_364_0_0 : ∀ a, (![364, 0, 0] : Fin 3 → Nat) a + S1x4x1024.size a ≤ S512x4x1024.size a
  slices_S4x512_o0_365_S4x1 : S4x512.Slices ![0, 365] S4x1
  slices_S512x4x1024_o365_0_0_S1x4x1024 : S512x4x1024.Slices ![365, 0, 0] S1x4x1024
  inb_S512x4x1024_S1x4x1024_365_0_0 : ∀ a, (![365, 0, 0] : Fin 3 → Nat) a + S1x4x1024.size a ≤ S512x4x1024.size a
  slices_S4x512_o0_366_S4x1 : S4x512.Slices ![0, 366] S4x1
  slices_S512x4x1024_o366_0_0_S1x4x1024 : S512x4x1024.Slices ![366, 0, 0] S1x4x1024
  inb_S512x4x1024_S1x4x1024_366_0_0 : ∀ a, (![366, 0, 0] : Fin 3 → Nat) a + S1x4x1024.size a ≤ S512x4x1024.size a
  slices_S4x512_o0_367_S4x1 : S4x512.Slices ![0, 367] S4x1
  slices_S512x4x1024_o367_0_0_S1x4x1024 : S512x4x1024.Slices ![367, 0, 0] S1x4x1024
  inb_S512x4x1024_S1x4x1024_367_0_0 : ∀ a, (![367, 0, 0] : Fin 3 → Nat) a + S1x4x1024.size a ≤ S512x4x1024.size a
  slices_S4x512_o0_368_S4x1 : S4x512.Slices ![0, 368] S4x1
  slices_S512x4x1024_o368_0_0_S1x4x1024 : S512x4x1024.Slices ![368, 0, 0] S1x4x1024
  inb_S512x4x1024_S1x4x1024_368_0_0 : ∀ a, (![368, 0, 0] : Fin 3 → Nat) a + S1x4x1024.size a ≤ S512x4x1024.size a
  slices_S4x512_o0_369_S4x1 : S4x512.Slices ![0, 369] S4x1
  slices_S512x4x1024_o369_0_0_S1x4x1024 : S512x4x1024.Slices ![369, 0, 0] S1x4x1024
  inb_S512x4x1024_S1x4x1024_369_0_0 : ∀ a, (![369, 0, 0] : Fin 3 → Nat) a + S1x4x1024.size a ≤ S512x4x1024.size a
  slices_S4x512_o0_370_S4x1 : S4x512.Slices ![0, 370] S4x1
  slices_S512x4x1024_o370_0_0_S1x4x1024 : S512x4x1024.Slices ![370, 0, 0] S1x4x1024
  inb_S512x4x1024_S1x4x1024_370_0_0 : ∀ a, (![370, 0, 0] : Fin 3 → Nat) a + S1x4x1024.size a ≤ S512x4x1024.size a
  slices_S4x512_o0_371_S4x1 : S4x512.Slices ![0, 371] S4x1
  slices_S512x4x1024_o371_0_0_S1x4x1024 : S512x4x1024.Slices ![371, 0, 0] S1x4x1024
  inb_S512x4x1024_S1x4x1024_371_0_0 : ∀ a, (![371, 0, 0] : Fin 3 → Nat) a + S1x4x1024.size a ≤ S512x4x1024.size a
  slices_S4x512_o0_372_S4x1 : S4x512.Slices ![0, 372] S4x1
  slices_S512x4x1024_o372_0_0_S1x4x1024 : S512x4x1024.Slices ![372, 0, 0] S1x4x1024
  inb_S512x4x1024_S1x4x1024_372_0_0 : ∀ a, (![372, 0, 0] : Fin 3 → Nat) a + S1x4x1024.size a ≤ S512x4x1024.size a
  slices_S4x512_o0_373_S4x1 : S4x512.Slices ![0, 373] S4x1
  slices_S512x4x1024_o373_0_0_S1x4x1024 : S512x4x1024.Slices ![373, 0, 0] S1x4x1024
  inb_S512x4x1024_S1x4x1024_373_0_0 : ∀ a, (![373, 0, 0] : Fin 3 → Nat) a + S1x4x1024.size a ≤ S512x4x1024.size a
  slices_S4x512_o0_374_S4x1 : S4x512.Slices ![0, 374] S4x1
  slices_S512x4x1024_o374_0_0_S1x4x1024 : S512x4x1024.Slices ![374, 0, 0] S1x4x1024
  inb_S512x4x1024_S1x4x1024_374_0_0 : ∀ a, (![374, 0, 0] : Fin 3 → Nat) a + S1x4x1024.size a ≤ S512x4x1024.size a
  slices_S4x512_o0_375_S4x1 : S4x512.Slices ![0, 375] S4x1
  slices_S512x4x1024_o375_0_0_S1x4x1024 : S512x4x1024.Slices ![375, 0, 0] S1x4x1024
  inb_S512x4x1024_S1x4x1024_375_0_0 : ∀ a, (![375, 0, 0] : Fin 3 → Nat) a + S1x4x1024.size a ≤ S512x4x1024.size a
  slices_S4x512_o0_376_S4x1 : S4x512.Slices ![0, 376] S4x1
  slices_S512x4x1024_o376_0_0_S1x4x1024 : S512x4x1024.Slices ![376, 0, 0] S1x4x1024
  inb_S512x4x1024_S1x4x1024_376_0_0 : ∀ a, (![376, 0, 0] : Fin 3 → Nat) a + S1x4x1024.size a ≤ S512x4x1024.size a
  slices_S4x512_o0_377_S4x1 : S4x512.Slices ![0, 377] S4x1
  slices_S512x4x1024_o377_0_0_S1x4x1024 : S512x4x1024.Slices ![377, 0, 0] S1x4x1024
  inb_S512x4x1024_S1x4x1024_377_0_0 : ∀ a, (![377, 0, 0] : Fin 3 → Nat) a + S1x4x1024.size a ≤ S512x4x1024.size a
  slices_S4x512_o0_378_S4x1 : S4x512.Slices ![0, 378] S4x1
  slices_S512x4x1024_o378_0_0_S1x4x1024 : S512x4x1024.Slices ![378, 0, 0] S1x4x1024
  inb_S512x4x1024_S1x4x1024_378_0_0 : ∀ a, (![378, 0, 0] : Fin 3 → Nat) a + S1x4x1024.size a ≤ S512x4x1024.size a
  slices_S4x512_o0_379_S4x1 : S4x512.Slices ![0, 379] S4x1
  slices_S512x4x1024_o379_0_0_S1x4x1024 : S512x4x1024.Slices ![379, 0, 0] S1x4x1024
  inb_S512x4x1024_S1x4x1024_379_0_0 : ∀ a, (![379, 0, 0] : Fin 3 → Nat) a + S1x4x1024.size a ≤ S512x4x1024.size a
  slices_S4x512_o0_380_S4x1 : S4x512.Slices ![0, 380] S4x1
  slices_S512x4x1024_o380_0_0_S1x4x1024 : S512x4x1024.Slices ![380, 0, 0] S1x4x1024
  inb_S512x4x1024_S1x4x1024_380_0_0 : ∀ a, (![380, 0, 0] : Fin 3 → Nat) a + S1x4x1024.size a ≤ S512x4x1024.size a
  slices_S4x512_o0_381_S4x1 : S4x512.Slices ![0, 381] S4x1
  slices_S512x4x1024_o381_0_0_S1x4x1024 : S512x4x1024.Slices ![381, 0, 0] S1x4x1024
  inb_S512x4x1024_S1x4x1024_381_0_0 : ∀ a, (![381, 0, 0] : Fin 3 → Nat) a + S1x4x1024.size a ≤ S512x4x1024.size a
  slices_S4x512_o0_382_S4x1 : S4x512.Slices ![0, 382] S4x1
  slices_S512x4x1024_o382_0_0_S1x4x1024 : S512x4x1024.Slices ![382, 0, 0] S1x4x1024
  inb_S512x4x1024_S1x4x1024_382_0_0 : ∀ a, (![382, 0, 0] : Fin 3 → Nat) a + S1x4x1024.size a ≤ S512x4x1024.size a
  slices_S4x512_o0_383_S4x1 : S4x512.Slices ![0, 383] S4x1
  slices_S512x4x1024_o383_0_0_S1x4x1024 : S512x4x1024.Slices ![383, 0, 0] S1x4x1024
  inb_S512x4x1024_S1x4x1024_383_0_0 : ∀ a, (![383, 0, 0] : Fin 3 → Nat) a + S1x4x1024.size a ≤ S512x4x1024.size a
  slices_S4x512_o0_384_S4x1 : S4x512.Slices ![0, 384] S4x1
  slices_S512x4x1024_o384_0_0_S1x4x1024 : S512x4x1024.Slices ![384, 0, 0] S1x4x1024
  inb_S512x4x1024_S1x4x1024_384_0_0 : ∀ a, (![384, 0, 0] : Fin 3 → Nat) a + S1x4x1024.size a ≤ S512x4x1024.size a
  slices_S4x512_o0_385_S4x1 : S4x512.Slices ![0, 385] S4x1
  slices_S512x4x1024_o385_0_0_S1x4x1024 : S512x4x1024.Slices ![385, 0, 0] S1x4x1024
  inb_S512x4x1024_S1x4x1024_385_0_0 : ∀ a, (![385, 0, 0] : Fin 3 → Nat) a + S1x4x1024.size a ≤ S512x4x1024.size a
  slices_S4x512_o0_386_S4x1 : S4x512.Slices ![0, 386] S4x1
  slices_S512x4x1024_o386_0_0_S1x4x1024 : S512x4x1024.Slices ![386, 0, 0] S1x4x1024
  inb_S512x4x1024_S1x4x1024_386_0_0 : ∀ a, (![386, 0, 0] : Fin 3 → Nat) a + S1x4x1024.size a ≤ S512x4x1024.size a
  slices_S4x512_o0_387_S4x1 : S4x512.Slices ![0, 387] S4x1
  slices_S512x4x1024_o387_0_0_S1x4x1024 : S512x4x1024.Slices ![387, 0, 0] S1x4x1024
  inb_S512x4x1024_S1x4x1024_387_0_0 : ∀ a, (![387, 0, 0] : Fin 3 → Nat) a + S1x4x1024.size a ≤ S512x4x1024.size a
  slices_S4x512_o0_388_S4x1 : S4x512.Slices ![0, 388] S4x1
  slices_S512x4x1024_o388_0_0_S1x4x1024 : S512x4x1024.Slices ![388, 0, 0] S1x4x1024
  inb_S512x4x1024_S1x4x1024_388_0_0 : ∀ a, (![388, 0, 0] : Fin 3 → Nat) a + S1x4x1024.size a ≤ S512x4x1024.size a
  slices_S4x512_o0_389_S4x1 : S4x512.Slices ![0, 389] S4x1
  slices_S512x4x1024_o389_0_0_S1x4x1024 : S512x4x1024.Slices ![389, 0, 0] S1x4x1024
  inb_S512x4x1024_S1x4x1024_389_0_0 : ∀ a, (![389, 0, 0] : Fin 3 → Nat) a + S1x4x1024.size a ≤ S512x4x1024.size a
  slices_S4x512_o0_390_S4x1 : S4x512.Slices ![0, 390] S4x1
  slices_S512x4x1024_o390_0_0_S1x4x1024 : S512x4x1024.Slices ![390, 0, 0] S1x4x1024
  inb_S512x4x1024_S1x4x1024_390_0_0 : ∀ a, (![390, 0, 0] : Fin 3 → Nat) a + S1x4x1024.size a ≤ S512x4x1024.size a
  slices_S4x512_o0_391_S4x1 : S4x512.Slices ![0, 391] S4x1
  slices_S512x4x1024_o391_0_0_S1x4x1024 : S512x4x1024.Slices ![391, 0, 0] S1x4x1024
  inb_S512x4x1024_S1x4x1024_391_0_0 : ∀ a, (![391, 0, 0] : Fin 3 → Nat) a + S1x4x1024.size a ≤ S512x4x1024.size a
  slices_S4x512_o0_392_S4x1 : S4x512.Slices ![0, 392] S4x1
  slices_S512x4x1024_o392_0_0_S1x4x1024 : S512x4x1024.Slices ![392, 0, 0] S1x4x1024
  inb_S512x4x1024_S1x4x1024_392_0_0 : ∀ a, (![392, 0, 0] : Fin 3 → Nat) a + S1x4x1024.size a ≤ S512x4x1024.size a
  slices_S4x512_o0_393_S4x1 : S4x512.Slices ![0, 393] S4x1
  slices_S512x4x1024_o393_0_0_S1x4x1024 : S512x4x1024.Slices ![393, 0, 0] S1x4x1024
  inb_S512x4x1024_S1x4x1024_393_0_0 : ∀ a, (![393, 0, 0] : Fin 3 → Nat) a + S1x4x1024.size a ≤ S512x4x1024.size a
  slices_S4x512_o0_394_S4x1 : S4x512.Slices ![0, 394] S4x1
  slices_S512x4x1024_o394_0_0_S1x4x1024 : S512x4x1024.Slices ![394, 0, 0] S1x4x1024
  inb_S512x4x1024_S1x4x1024_394_0_0 : ∀ a, (![394, 0, 0] : Fin 3 → Nat) a + S1x4x1024.size a ≤ S512x4x1024.size a
  slices_S4x512_o0_395_S4x1 : S4x512.Slices ![0, 395] S4x1
  slices_S512x4x1024_o395_0_0_S1x4x1024 : S512x4x1024.Slices ![395, 0, 0] S1x4x1024
  inb_S512x4x1024_S1x4x1024_395_0_0 : ∀ a, (![395, 0, 0] : Fin 3 → Nat) a + S1x4x1024.size a ≤ S512x4x1024.size a
  slices_S4x512_o0_396_S4x1 : S4x512.Slices ![0, 396] S4x1
  slices_S512x4x1024_o396_0_0_S1x4x1024 : S512x4x1024.Slices ![396, 0, 0] S1x4x1024
  inb_S512x4x1024_S1x4x1024_396_0_0 : ∀ a, (![396, 0, 0] : Fin 3 → Nat) a + S1x4x1024.size a ≤ S512x4x1024.size a
  slices_S4x512_o0_397_S4x1 : S4x512.Slices ![0, 397] S4x1
  slices_S512x4x1024_o397_0_0_S1x4x1024 : S512x4x1024.Slices ![397, 0, 0] S1x4x1024
  inb_S512x4x1024_S1x4x1024_397_0_0 : ∀ a, (![397, 0, 0] : Fin 3 → Nat) a + S1x4x1024.size a ≤ S512x4x1024.size a
  slices_S4x512_o0_398_S4x1 : S4x512.Slices ![0, 398] S4x1
  slices_S512x4x1024_o398_0_0_S1x4x1024 : S512x4x1024.Slices ![398, 0, 0] S1x4x1024
  inb_S512x4x1024_S1x4x1024_398_0_0 : ∀ a, (![398, 0, 0] : Fin 3 → Nat) a + S1x4x1024.size a ≤ S512x4x1024.size a
  slices_S4x512_o0_399_S4x1 : S4x512.Slices ![0, 399] S4x1
  slices_S512x4x1024_o399_0_0_S1x4x1024 : S512x4x1024.Slices ![399, 0, 0] S1x4x1024
  inb_S512x4x1024_S1x4x1024_399_0_0 : ∀ a, (![399, 0, 0] : Fin 3 → Nat) a + S1x4x1024.size a ≤ S512x4x1024.size a
  slices_S4x512_o0_400_S4x1 : S4x512.Slices ![0, 400] S4x1
  slices_S512x4x1024_o400_0_0_S1x4x1024 : S512x4x1024.Slices ![400, 0, 0] S1x4x1024
  inb_S512x4x1024_S1x4x1024_400_0_0 : ∀ a, (![400, 0, 0] : Fin 3 → Nat) a + S1x4x1024.size a ≤ S512x4x1024.size a
  slices_S4x512_o0_401_S4x1 : S4x512.Slices ![0, 401] S4x1
  slices_S512x4x1024_o401_0_0_S1x4x1024 : S512x4x1024.Slices ![401, 0, 0] S1x4x1024
  inb_S512x4x1024_S1x4x1024_401_0_0 : ∀ a, (![401, 0, 0] : Fin 3 → Nat) a + S1x4x1024.size a ≤ S512x4x1024.size a
  slices_S4x512_o0_402_S4x1 : S4x512.Slices ![0, 402] S4x1
  slices_S512x4x1024_o402_0_0_S1x4x1024 : S512x4x1024.Slices ![402, 0, 0] S1x4x1024
  inb_S512x4x1024_S1x4x1024_402_0_0 : ∀ a, (![402, 0, 0] : Fin 3 → Nat) a + S1x4x1024.size a ≤ S512x4x1024.size a
  slices_S4x512_o0_403_S4x1 : S4x512.Slices ![0, 403] S4x1
  slices_S512x4x1024_o403_0_0_S1x4x1024 : S512x4x1024.Slices ![403, 0, 0] S1x4x1024
  inb_S512x4x1024_S1x4x1024_403_0_0 : ∀ a, (![403, 0, 0] : Fin 3 → Nat) a + S1x4x1024.size a ≤ S512x4x1024.size a
  slices_S4x512_o0_404_S4x1 : S4x512.Slices ![0, 404] S4x1
  slices_S512x4x1024_o404_0_0_S1x4x1024 : S512x4x1024.Slices ![404, 0, 0] S1x4x1024
  inb_S512x4x1024_S1x4x1024_404_0_0 : ∀ a, (![404, 0, 0] : Fin 3 → Nat) a + S1x4x1024.size a ≤ S512x4x1024.size a
  slices_S4x512_o0_405_S4x1 : S4x512.Slices ![0, 405] S4x1
  slices_S512x4x1024_o405_0_0_S1x4x1024 : S512x4x1024.Slices ![405, 0, 0] S1x4x1024
  inb_S512x4x1024_S1x4x1024_405_0_0 : ∀ a, (![405, 0, 0] : Fin 3 → Nat) a + S1x4x1024.size a ≤ S512x4x1024.size a
  slices_S4x512_o0_406_S4x1 : S4x512.Slices ![0, 406] S4x1
  slices_S512x4x1024_o406_0_0_S1x4x1024 : S512x4x1024.Slices ![406, 0, 0] S1x4x1024
  inb_S512x4x1024_S1x4x1024_406_0_0 : ∀ a, (![406, 0, 0] : Fin 3 → Nat) a + S1x4x1024.size a ≤ S512x4x1024.size a
  slices_S4x512_o0_407_S4x1 : S4x512.Slices ![0, 407] S4x1
  slices_S512x4x1024_o407_0_0_S1x4x1024 : S512x4x1024.Slices ![407, 0, 0] S1x4x1024
  inb_S512x4x1024_S1x4x1024_407_0_0 : ∀ a, (![407, 0, 0] : Fin 3 → Nat) a + S1x4x1024.size a ≤ S512x4x1024.size a
  slices_S4x512_o0_408_S4x1 : S4x512.Slices ![0, 408] S4x1
  slices_S512x4x1024_o408_0_0_S1x4x1024 : S512x4x1024.Slices ![408, 0, 0] S1x4x1024
  inb_S512x4x1024_S1x4x1024_408_0_0 : ∀ a, (![408, 0, 0] : Fin 3 → Nat) a + S1x4x1024.size a ≤ S512x4x1024.size a
  slices_S4x512_o0_409_S4x1 : S4x512.Slices ![0, 409] S4x1
  slices_S512x4x1024_o409_0_0_S1x4x1024 : S512x4x1024.Slices ![409, 0, 0] S1x4x1024
  inb_S512x4x1024_S1x4x1024_409_0_0 : ∀ a, (![409, 0, 0] : Fin 3 → Nat) a + S1x4x1024.size a ≤ S512x4x1024.size a
  slices_S4x512_o0_410_S4x1 : S4x512.Slices ![0, 410] S4x1
  slices_S512x4x1024_o410_0_0_S1x4x1024 : S512x4x1024.Slices ![410, 0, 0] S1x4x1024
  inb_S512x4x1024_S1x4x1024_410_0_0 : ∀ a, (![410, 0, 0] : Fin 3 → Nat) a + S1x4x1024.size a ≤ S512x4x1024.size a
  slices_S4x512_o0_411_S4x1 : S4x512.Slices ![0, 411] S4x1
  slices_S512x4x1024_o411_0_0_S1x4x1024 : S512x4x1024.Slices ![411, 0, 0] S1x4x1024
  inb_S512x4x1024_S1x4x1024_411_0_0 : ∀ a, (![411, 0, 0] : Fin 3 → Nat) a + S1x4x1024.size a ≤ S512x4x1024.size a
  slices_S4x512_o0_412_S4x1 : S4x512.Slices ![0, 412] S4x1
  slices_S512x4x1024_o412_0_0_S1x4x1024 : S512x4x1024.Slices ![412, 0, 0] S1x4x1024
  inb_S512x4x1024_S1x4x1024_412_0_0 : ∀ a, (![412, 0, 0] : Fin 3 → Nat) a + S1x4x1024.size a ≤ S512x4x1024.size a
  slices_S4x512_o0_413_S4x1 : S4x512.Slices ![0, 413] S4x1
  slices_S512x4x1024_o413_0_0_S1x4x1024 : S512x4x1024.Slices ![413, 0, 0] S1x4x1024
  inb_S512x4x1024_S1x4x1024_413_0_0 : ∀ a, (![413, 0, 0] : Fin 3 → Nat) a + S1x4x1024.size a ≤ S512x4x1024.size a
  slices_S4x512_o0_414_S4x1 : S4x512.Slices ![0, 414] S4x1
  slices_S512x4x1024_o414_0_0_S1x4x1024 : S512x4x1024.Slices ![414, 0, 0] S1x4x1024
  inb_S512x4x1024_S1x4x1024_414_0_0 : ∀ a, (![414, 0, 0] : Fin 3 → Nat) a + S1x4x1024.size a ≤ S512x4x1024.size a
  slices_S4x512_o0_415_S4x1 : S4x512.Slices ![0, 415] S4x1
  slices_S512x4x1024_o415_0_0_S1x4x1024 : S512x4x1024.Slices ![415, 0, 0] S1x4x1024
  inb_S512x4x1024_S1x4x1024_415_0_0 : ∀ a, (![415, 0, 0] : Fin 3 → Nat) a + S1x4x1024.size a ≤ S512x4x1024.size a
  slices_S4x512_o0_416_S4x1 : S4x512.Slices ![0, 416] S4x1
  slices_S512x4x1024_o416_0_0_S1x4x1024 : S512x4x1024.Slices ![416, 0, 0] S1x4x1024
  inb_S512x4x1024_S1x4x1024_416_0_0 : ∀ a, (![416, 0, 0] : Fin 3 → Nat) a + S1x4x1024.size a ≤ S512x4x1024.size a
  slices_S4x512_o0_417_S4x1 : S4x512.Slices ![0, 417] S4x1
  slices_S512x4x1024_o417_0_0_S1x4x1024 : S512x4x1024.Slices ![417, 0, 0] S1x4x1024
  inb_S512x4x1024_S1x4x1024_417_0_0 : ∀ a, (![417, 0, 0] : Fin 3 → Nat) a + S1x4x1024.size a ≤ S512x4x1024.size a
  slices_S4x512_o0_418_S4x1 : S4x512.Slices ![0, 418] S4x1
  slices_S512x4x1024_o418_0_0_S1x4x1024 : S512x4x1024.Slices ![418, 0, 0] S1x4x1024
  inb_S512x4x1024_S1x4x1024_418_0_0 : ∀ a, (![418, 0, 0] : Fin 3 → Nat) a + S1x4x1024.size a ≤ S512x4x1024.size a
  slices_S4x512_o0_419_S4x1 : S4x512.Slices ![0, 419] S4x1
  slices_S512x4x1024_o419_0_0_S1x4x1024 : S512x4x1024.Slices ![419, 0, 0] S1x4x1024
  inb_S512x4x1024_S1x4x1024_419_0_0 : ∀ a, (![419, 0, 0] : Fin 3 → Nat) a + S1x4x1024.size a ≤ S512x4x1024.size a
  slices_S4x512_o0_420_S4x1 : S4x512.Slices ![0, 420] S4x1
  slices_S512x4x1024_o420_0_0_S1x4x1024 : S512x4x1024.Slices ![420, 0, 0] S1x4x1024
  inb_S512x4x1024_S1x4x1024_420_0_0 : ∀ a, (![420, 0, 0] : Fin 3 → Nat) a + S1x4x1024.size a ≤ S512x4x1024.size a
  slices_S4x512_o0_421_S4x1 : S4x512.Slices ![0, 421] S4x1
  slices_S512x4x1024_o421_0_0_S1x4x1024 : S512x4x1024.Slices ![421, 0, 0] S1x4x1024
  inb_S512x4x1024_S1x4x1024_421_0_0 : ∀ a, (![421, 0, 0] : Fin 3 → Nat) a + S1x4x1024.size a ≤ S512x4x1024.size a
  slices_S4x512_o0_422_S4x1 : S4x512.Slices ![0, 422] S4x1
  slices_S512x4x1024_o422_0_0_S1x4x1024 : S512x4x1024.Slices ![422, 0, 0] S1x4x1024
  inb_S512x4x1024_S1x4x1024_422_0_0 : ∀ a, (![422, 0, 0] : Fin 3 → Nat) a + S1x4x1024.size a ≤ S512x4x1024.size a
  slices_S4x512_o0_423_S4x1 : S4x512.Slices ![0, 423] S4x1
  slices_S512x4x1024_o423_0_0_S1x4x1024 : S512x4x1024.Slices ![423, 0, 0] S1x4x1024
  inb_S512x4x1024_S1x4x1024_423_0_0 : ∀ a, (![423, 0, 0] : Fin 3 → Nat) a + S1x4x1024.size a ≤ S512x4x1024.size a
  slices_S4x512_o0_424_S4x1 : S4x512.Slices ![0, 424] S4x1
  slices_S512x4x1024_o424_0_0_S1x4x1024 : S512x4x1024.Slices ![424, 0, 0] S1x4x1024
  inb_S512x4x1024_S1x4x1024_424_0_0 : ∀ a, (![424, 0, 0] : Fin 3 → Nat) a + S1x4x1024.size a ≤ S512x4x1024.size a
  slices_S4x512_o0_425_S4x1 : S4x512.Slices ![0, 425] S4x1
  slices_S512x4x1024_o425_0_0_S1x4x1024 : S512x4x1024.Slices ![425, 0, 0] S1x4x1024
  inb_S512x4x1024_S1x4x1024_425_0_0 : ∀ a, (![425, 0, 0] : Fin 3 → Nat) a + S1x4x1024.size a ≤ S512x4x1024.size a
  slices_S4x512_o0_426_S4x1 : S4x512.Slices ![0, 426] S4x1
  slices_S512x4x1024_o426_0_0_S1x4x1024 : S512x4x1024.Slices ![426, 0, 0] S1x4x1024
  inb_S512x4x1024_S1x4x1024_426_0_0 : ∀ a, (![426, 0, 0] : Fin 3 → Nat) a + S1x4x1024.size a ≤ S512x4x1024.size a
  slices_S4x512_o0_427_S4x1 : S4x512.Slices ![0, 427] S4x1
  slices_S512x4x1024_o427_0_0_S1x4x1024 : S512x4x1024.Slices ![427, 0, 0] S1x4x1024
  inb_S512x4x1024_S1x4x1024_427_0_0 : ∀ a, (![427, 0, 0] : Fin 3 → Nat) a + S1x4x1024.size a ≤ S512x4x1024.size a
  slices_S4x512_o0_428_S4x1 : S4x512.Slices ![0, 428] S4x1
  slices_S512x4x1024_o428_0_0_S1x4x1024 : S512x4x1024.Slices ![428, 0, 0] S1x4x1024
  inb_S512x4x1024_S1x4x1024_428_0_0 : ∀ a, (![428, 0, 0] : Fin 3 → Nat) a + S1x4x1024.size a ≤ S512x4x1024.size a
  slices_S4x512_o0_429_S4x1 : S4x512.Slices ![0, 429] S4x1
  slices_S512x4x1024_o429_0_0_S1x4x1024 : S512x4x1024.Slices ![429, 0, 0] S1x4x1024
  inb_S512x4x1024_S1x4x1024_429_0_0 : ∀ a, (![429, 0, 0] : Fin 3 → Nat) a + S1x4x1024.size a ≤ S512x4x1024.size a
  slices_S4x512_o0_430_S4x1 : S4x512.Slices ![0, 430] S4x1
  slices_S512x4x1024_o430_0_0_S1x4x1024 : S512x4x1024.Slices ![430, 0, 0] S1x4x1024
  inb_S512x4x1024_S1x4x1024_430_0_0 : ∀ a, (![430, 0, 0] : Fin 3 → Nat) a + S1x4x1024.size a ≤ S512x4x1024.size a
  slices_S4x512_o0_431_S4x1 : S4x512.Slices ![0, 431] S4x1
  slices_S512x4x1024_o431_0_0_S1x4x1024 : S512x4x1024.Slices ![431, 0, 0] S1x4x1024
  inb_S512x4x1024_S1x4x1024_431_0_0 : ∀ a, (![431, 0, 0] : Fin 3 → Nat) a + S1x4x1024.size a ≤ S512x4x1024.size a
  slices_S4x512_o0_432_S4x1 : S4x512.Slices ![0, 432] S4x1
  slices_S512x4x1024_o432_0_0_S1x4x1024 : S512x4x1024.Slices ![432, 0, 0] S1x4x1024
  inb_S512x4x1024_S1x4x1024_432_0_0 : ∀ a, (![432, 0, 0] : Fin 3 → Nat) a + S1x4x1024.size a ≤ S512x4x1024.size a
  slices_S4x512_o0_433_S4x1 : S4x512.Slices ![0, 433] S4x1
  slices_S512x4x1024_o433_0_0_S1x4x1024 : S512x4x1024.Slices ![433, 0, 0] S1x4x1024
  inb_S512x4x1024_S1x4x1024_433_0_0 : ∀ a, (![433, 0, 0] : Fin 3 → Nat) a + S1x4x1024.size a ≤ S512x4x1024.size a
  slices_S4x512_o0_434_S4x1 : S4x512.Slices ![0, 434] S4x1
  slices_S512x4x1024_o434_0_0_S1x4x1024 : S512x4x1024.Slices ![434, 0, 0] S1x4x1024
  inb_S512x4x1024_S1x4x1024_434_0_0 : ∀ a, (![434, 0, 0] : Fin 3 → Nat) a + S1x4x1024.size a ≤ S512x4x1024.size a
  slices_S4x512_o0_435_S4x1 : S4x512.Slices ![0, 435] S4x1
  slices_S512x4x1024_o435_0_0_S1x4x1024 : S512x4x1024.Slices ![435, 0, 0] S1x4x1024
  inb_S512x4x1024_S1x4x1024_435_0_0 : ∀ a, (![435, 0, 0] : Fin 3 → Nat) a + S1x4x1024.size a ≤ S512x4x1024.size a
  slices_S4x512_o0_436_S4x1 : S4x512.Slices ![0, 436] S4x1
  slices_S512x4x1024_o436_0_0_S1x4x1024 : S512x4x1024.Slices ![436, 0, 0] S1x4x1024
  inb_S512x4x1024_S1x4x1024_436_0_0 : ∀ a, (![436, 0, 0] : Fin 3 → Nat) a + S1x4x1024.size a ≤ S512x4x1024.size a
  slices_S4x512_o0_437_S4x1 : S4x512.Slices ![0, 437] S4x1
  slices_S512x4x1024_o437_0_0_S1x4x1024 : S512x4x1024.Slices ![437, 0, 0] S1x4x1024
  inb_S512x4x1024_S1x4x1024_437_0_0 : ∀ a, (![437, 0, 0] : Fin 3 → Nat) a + S1x4x1024.size a ≤ S512x4x1024.size a
  slices_S4x512_o0_438_S4x1 : S4x512.Slices ![0, 438] S4x1
  slices_S512x4x1024_o438_0_0_S1x4x1024 : S512x4x1024.Slices ![438, 0, 0] S1x4x1024
  inb_S512x4x1024_S1x4x1024_438_0_0 : ∀ a, (![438, 0, 0] : Fin 3 → Nat) a + S1x4x1024.size a ≤ S512x4x1024.size a
  slices_S4x512_o0_439_S4x1 : S4x512.Slices ![0, 439] S4x1
  slices_S512x4x1024_o439_0_0_S1x4x1024 : S512x4x1024.Slices ![439, 0, 0] S1x4x1024
  inb_S512x4x1024_S1x4x1024_439_0_0 : ∀ a, (![439, 0, 0] : Fin 3 → Nat) a + S1x4x1024.size a ≤ S512x4x1024.size a
  slices_S4x512_o0_440_S4x1 : S4x512.Slices ![0, 440] S4x1
  slices_S512x4x1024_o440_0_0_S1x4x1024 : S512x4x1024.Slices ![440, 0, 0] S1x4x1024
  inb_S512x4x1024_S1x4x1024_440_0_0 : ∀ a, (![440, 0, 0] : Fin 3 → Nat) a + S1x4x1024.size a ≤ S512x4x1024.size a
  slices_S4x512_o0_441_S4x1 : S4x512.Slices ![0, 441] S4x1
  slices_S512x4x1024_o441_0_0_S1x4x1024 : S512x4x1024.Slices ![441, 0, 0] S1x4x1024
  inb_S512x4x1024_S1x4x1024_441_0_0 : ∀ a, (![441, 0, 0] : Fin 3 → Nat) a + S1x4x1024.size a ≤ S512x4x1024.size a
  slices_S4x512_o0_442_S4x1 : S4x512.Slices ![0, 442] S4x1
  slices_S512x4x1024_o442_0_0_S1x4x1024 : S512x4x1024.Slices ![442, 0, 0] S1x4x1024
  inb_S512x4x1024_S1x4x1024_442_0_0 : ∀ a, (![442, 0, 0] : Fin 3 → Nat) a + S1x4x1024.size a ≤ S512x4x1024.size a
  slices_S4x512_o0_443_S4x1 : S4x512.Slices ![0, 443] S4x1
  slices_S512x4x1024_o443_0_0_S1x4x1024 : S512x4x1024.Slices ![443, 0, 0] S1x4x1024
  inb_S512x4x1024_S1x4x1024_443_0_0 : ∀ a, (![443, 0, 0] : Fin 3 → Nat) a + S1x4x1024.size a ≤ S512x4x1024.size a
  slices_S4x512_o0_444_S4x1 : S4x512.Slices ![0, 444] S4x1
  slices_S512x4x1024_o444_0_0_S1x4x1024 : S512x4x1024.Slices ![444, 0, 0] S1x4x1024
  inb_S512x4x1024_S1x4x1024_444_0_0 : ∀ a, (![444, 0, 0] : Fin 3 → Nat) a + S1x4x1024.size a ≤ S512x4x1024.size a
  slices_S4x512_o0_445_S4x1 : S4x512.Slices ![0, 445] S4x1
  slices_S512x4x1024_o445_0_0_S1x4x1024 : S512x4x1024.Slices ![445, 0, 0] S1x4x1024
  inb_S512x4x1024_S1x4x1024_445_0_0 : ∀ a, (![445, 0, 0] : Fin 3 → Nat) a + S1x4x1024.size a ≤ S512x4x1024.size a
  slices_S4x512_o0_446_S4x1 : S4x512.Slices ![0, 446] S4x1
  slices_S512x4x1024_o446_0_0_S1x4x1024 : S512x4x1024.Slices ![446, 0, 0] S1x4x1024
  inb_S512x4x1024_S1x4x1024_446_0_0 : ∀ a, (![446, 0, 0] : Fin 3 → Nat) a + S1x4x1024.size a ≤ S512x4x1024.size a
  slices_S4x512_o0_447_S4x1 : S4x512.Slices ![0, 447] S4x1
  slices_S512x4x1024_o447_0_0_S1x4x1024 : S512x4x1024.Slices ![447, 0, 0] S1x4x1024
  inb_S512x4x1024_S1x4x1024_447_0_0 : ∀ a, (![447, 0, 0] : Fin 3 → Nat) a + S1x4x1024.size a ≤ S512x4x1024.size a
  slices_S4x512_o0_448_S4x1 : S4x512.Slices ![0, 448] S4x1
  slices_S512x4x1024_o448_0_0_S1x4x1024 : S512x4x1024.Slices ![448, 0, 0] S1x4x1024
  inb_S512x4x1024_S1x4x1024_448_0_0 : ∀ a, (![448, 0, 0] : Fin 3 → Nat) a + S1x4x1024.size a ≤ S512x4x1024.size a
  slices_S4x512_o0_449_S4x1 : S4x512.Slices ![0, 449] S4x1
  slices_S512x4x1024_o449_0_0_S1x4x1024 : S512x4x1024.Slices ![449, 0, 0] S1x4x1024
  inb_S512x4x1024_S1x4x1024_449_0_0 : ∀ a, (![449, 0, 0] : Fin 3 → Nat) a + S1x4x1024.size a ≤ S512x4x1024.size a
  slices_S4x512_o0_450_S4x1 : S4x512.Slices ![0, 450] S4x1
  slices_S512x4x1024_o450_0_0_S1x4x1024 : S512x4x1024.Slices ![450, 0, 0] S1x4x1024
  inb_S512x4x1024_S1x4x1024_450_0_0 : ∀ a, (![450, 0, 0] : Fin 3 → Nat) a + S1x4x1024.size a ≤ S512x4x1024.size a
  slices_S4x512_o0_451_S4x1 : S4x512.Slices ![0, 451] S4x1
  slices_S512x4x1024_o451_0_0_S1x4x1024 : S512x4x1024.Slices ![451, 0, 0] S1x4x1024
  inb_S512x4x1024_S1x4x1024_451_0_0 : ∀ a, (![451, 0, 0] : Fin 3 → Nat) a + S1x4x1024.size a ≤ S512x4x1024.size a
  slices_S4x512_o0_452_S4x1 : S4x512.Slices ![0, 452] S4x1
  slices_S512x4x1024_o452_0_0_S1x4x1024 : S512x4x1024.Slices ![452, 0, 0] S1x4x1024
  inb_S512x4x1024_S1x4x1024_452_0_0 : ∀ a, (![452, 0, 0] : Fin 3 → Nat) a + S1x4x1024.size a ≤ S512x4x1024.size a
  slices_S4x512_o0_453_S4x1 : S4x512.Slices ![0, 453] S4x1
  slices_S512x4x1024_o453_0_0_S1x4x1024 : S512x4x1024.Slices ![453, 0, 0] S1x4x1024
  inb_S512x4x1024_S1x4x1024_453_0_0 : ∀ a, (![453, 0, 0] : Fin 3 → Nat) a + S1x4x1024.size a ≤ S512x4x1024.size a
  slices_S4x512_o0_454_S4x1 : S4x512.Slices ![0, 454] S4x1
  slices_S512x4x1024_o454_0_0_S1x4x1024 : S512x4x1024.Slices ![454, 0, 0] S1x4x1024
  inb_S512x4x1024_S1x4x1024_454_0_0 : ∀ a, (![454, 0, 0] : Fin 3 → Nat) a + S1x4x1024.size a ≤ S512x4x1024.size a
  slices_S4x512_o0_455_S4x1 : S4x512.Slices ![0, 455] S4x1
  slices_S512x4x1024_o455_0_0_S1x4x1024 : S512x4x1024.Slices ![455, 0, 0] S1x4x1024
  inb_S512x4x1024_S1x4x1024_455_0_0 : ∀ a, (![455, 0, 0] : Fin 3 → Nat) a + S1x4x1024.size a ≤ S512x4x1024.size a
  slices_S4x512_o0_456_S4x1 : S4x512.Slices ![0, 456] S4x1
  slices_S512x4x1024_o456_0_0_S1x4x1024 : S512x4x1024.Slices ![456, 0, 0] S1x4x1024
  inb_S512x4x1024_S1x4x1024_456_0_0 : ∀ a, (![456, 0, 0] : Fin 3 → Nat) a + S1x4x1024.size a ≤ S512x4x1024.size a
  slices_S4x512_o0_457_S4x1 : S4x512.Slices ![0, 457] S4x1
  slices_S512x4x1024_o457_0_0_S1x4x1024 : S512x4x1024.Slices ![457, 0, 0] S1x4x1024
  inb_S512x4x1024_S1x4x1024_457_0_0 : ∀ a, (![457, 0, 0] : Fin 3 → Nat) a + S1x4x1024.size a ≤ S512x4x1024.size a
  slices_S4x512_o0_458_S4x1 : S4x512.Slices ![0, 458] S4x1
  slices_S512x4x1024_o458_0_0_S1x4x1024 : S512x4x1024.Slices ![458, 0, 0] S1x4x1024
  inb_S512x4x1024_S1x4x1024_458_0_0 : ∀ a, (![458, 0, 0] : Fin 3 → Nat) a + S1x4x1024.size a ≤ S512x4x1024.size a
  slices_S4x512_o0_459_S4x1 : S4x512.Slices ![0, 459] S4x1
  slices_S512x4x1024_o459_0_0_S1x4x1024 : S512x4x1024.Slices ![459, 0, 0] S1x4x1024
  inb_S512x4x1024_S1x4x1024_459_0_0 : ∀ a, (![459, 0, 0] : Fin 3 → Nat) a + S1x4x1024.size a ≤ S512x4x1024.size a
  slices_S4x512_o0_460_S4x1 : S4x512.Slices ![0, 460] S4x1
  slices_S512x4x1024_o460_0_0_S1x4x1024 : S512x4x1024.Slices ![460, 0, 0] S1x4x1024
  inb_S512x4x1024_S1x4x1024_460_0_0 : ∀ a, (![460, 0, 0] : Fin 3 → Nat) a + S1x4x1024.size a ≤ S512x4x1024.size a
  slices_S4x512_o0_461_S4x1 : S4x512.Slices ![0, 461] S4x1
  slices_S512x4x1024_o461_0_0_S1x4x1024 : S512x4x1024.Slices ![461, 0, 0] S1x4x1024
  inb_S512x4x1024_S1x4x1024_461_0_0 : ∀ a, (![461, 0, 0] : Fin 3 → Nat) a + S1x4x1024.size a ≤ S512x4x1024.size a
  slices_S4x512_o0_462_S4x1 : S4x512.Slices ![0, 462] S4x1
  slices_S512x4x1024_o462_0_0_S1x4x1024 : S512x4x1024.Slices ![462, 0, 0] S1x4x1024
  inb_S512x4x1024_S1x4x1024_462_0_0 : ∀ a, (![462, 0, 0] : Fin 3 → Nat) a + S1x4x1024.size a ≤ S512x4x1024.size a
  slices_S4x512_o0_463_S4x1 : S4x512.Slices ![0, 463] S4x1
  slices_S512x4x1024_o463_0_0_S1x4x1024 : S512x4x1024.Slices ![463, 0, 0] S1x4x1024
  inb_S512x4x1024_S1x4x1024_463_0_0 : ∀ a, (![463, 0, 0] : Fin 3 → Nat) a + S1x4x1024.size a ≤ S512x4x1024.size a
  slices_S4x512_o0_464_S4x1 : S4x512.Slices ![0, 464] S4x1
  slices_S512x4x1024_o464_0_0_S1x4x1024 : S512x4x1024.Slices ![464, 0, 0] S1x4x1024
  inb_S512x4x1024_S1x4x1024_464_0_0 : ∀ a, (![464, 0, 0] : Fin 3 → Nat) a + S1x4x1024.size a ≤ S512x4x1024.size a
  slices_S4x512_o0_465_S4x1 : S4x512.Slices ![0, 465] S4x1
  slices_S512x4x1024_o465_0_0_S1x4x1024 : S512x4x1024.Slices ![465, 0, 0] S1x4x1024
  inb_S512x4x1024_S1x4x1024_465_0_0 : ∀ a, (![465, 0, 0] : Fin 3 → Nat) a + S1x4x1024.size a ≤ S512x4x1024.size a
  slices_S4x512_o0_466_S4x1 : S4x512.Slices ![0, 466] S4x1
  slices_S512x4x1024_o466_0_0_S1x4x1024 : S512x4x1024.Slices ![466, 0, 0] S1x4x1024
  inb_S512x4x1024_S1x4x1024_466_0_0 : ∀ a, (![466, 0, 0] : Fin 3 → Nat) a + S1x4x1024.size a ≤ S512x4x1024.size a
  slices_S4x512_o0_467_S4x1 : S4x512.Slices ![0, 467] S4x1
  slices_S512x4x1024_o467_0_0_S1x4x1024 : S512x4x1024.Slices ![467, 0, 0] S1x4x1024
  inb_S512x4x1024_S1x4x1024_467_0_0 : ∀ a, (![467, 0, 0] : Fin 3 → Nat) a + S1x4x1024.size a ≤ S512x4x1024.size a
  slices_S4x512_o0_468_S4x1 : S4x512.Slices ![0, 468] S4x1
  slices_S512x4x1024_o468_0_0_S1x4x1024 : S512x4x1024.Slices ![468, 0, 0] S1x4x1024
  inb_S512x4x1024_S1x4x1024_468_0_0 : ∀ a, (![468, 0, 0] : Fin 3 → Nat) a + S1x4x1024.size a ≤ S512x4x1024.size a
  slices_S4x512_o0_469_S4x1 : S4x512.Slices ![0, 469] S4x1
  slices_S512x4x1024_o469_0_0_S1x4x1024 : S512x4x1024.Slices ![469, 0, 0] S1x4x1024
  inb_S512x4x1024_S1x4x1024_469_0_0 : ∀ a, (![469, 0, 0] : Fin 3 → Nat) a + S1x4x1024.size a ≤ S512x4x1024.size a
  slices_S4x512_o0_470_S4x1 : S4x512.Slices ![0, 470] S4x1
  slices_S512x4x1024_o470_0_0_S1x4x1024 : S512x4x1024.Slices ![470, 0, 0] S1x4x1024
  inb_S512x4x1024_S1x4x1024_470_0_0 : ∀ a, (![470, 0, 0] : Fin 3 → Nat) a + S1x4x1024.size a ≤ S512x4x1024.size a
  slices_S4x512_o0_471_S4x1 : S4x512.Slices ![0, 471] S4x1
  slices_S512x4x1024_o471_0_0_S1x4x1024 : S512x4x1024.Slices ![471, 0, 0] S1x4x1024
  inb_S512x4x1024_S1x4x1024_471_0_0 : ∀ a, (![471, 0, 0] : Fin 3 → Nat) a + S1x4x1024.size a ≤ S512x4x1024.size a
  slices_S4x512_o0_472_S4x1 : S4x512.Slices ![0, 472] S4x1
  slices_S512x4x1024_o472_0_0_S1x4x1024 : S512x4x1024.Slices ![472, 0, 0] S1x4x1024
  inb_S512x4x1024_S1x4x1024_472_0_0 : ∀ a, (![472, 0, 0] : Fin 3 → Nat) a + S1x4x1024.size a ≤ S512x4x1024.size a
  slices_S4x512_o0_473_S4x1 : S4x512.Slices ![0, 473] S4x1
  slices_S512x4x1024_o473_0_0_S1x4x1024 : S512x4x1024.Slices ![473, 0, 0] S1x4x1024
  inb_S512x4x1024_S1x4x1024_473_0_0 : ∀ a, (![473, 0, 0] : Fin 3 → Nat) a + S1x4x1024.size a ≤ S512x4x1024.size a
  slices_S4x512_o0_474_S4x1 : S4x512.Slices ![0, 474] S4x1
  slices_S512x4x1024_o474_0_0_S1x4x1024 : S512x4x1024.Slices ![474, 0, 0] S1x4x1024
  inb_S512x4x1024_S1x4x1024_474_0_0 : ∀ a, (![474, 0, 0] : Fin 3 → Nat) a + S1x4x1024.size a ≤ S512x4x1024.size a
  slices_S4x512_o0_475_S4x1 : S4x512.Slices ![0, 475] S4x1
  slices_S512x4x1024_o475_0_0_S1x4x1024 : S512x4x1024.Slices ![475, 0, 0] S1x4x1024
  inb_S512x4x1024_S1x4x1024_475_0_0 : ∀ a, (![475, 0, 0] : Fin 3 → Nat) a + S1x4x1024.size a ≤ S512x4x1024.size a
  slices_S4x512_o0_476_S4x1 : S4x512.Slices ![0, 476] S4x1
  slices_S512x4x1024_o476_0_0_S1x4x1024 : S512x4x1024.Slices ![476, 0, 0] S1x4x1024
  inb_S512x4x1024_S1x4x1024_476_0_0 : ∀ a, (![476, 0, 0] : Fin 3 → Nat) a + S1x4x1024.size a ≤ S512x4x1024.size a
  slices_S4x512_o0_477_S4x1 : S4x512.Slices ![0, 477] S4x1
  slices_S512x4x1024_o477_0_0_S1x4x1024 : S512x4x1024.Slices ![477, 0, 0] S1x4x1024
  inb_S512x4x1024_S1x4x1024_477_0_0 : ∀ a, (![477, 0, 0] : Fin 3 → Nat) a + S1x4x1024.size a ≤ S512x4x1024.size a
  slices_S4x512_o0_478_S4x1 : S4x512.Slices ![0, 478] S4x1
  slices_S512x4x1024_o478_0_0_S1x4x1024 : S512x4x1024.Slices ![478, 0, 0] S1x4x1024
  inb_S512x4x1024_S1x4x1024_478_0_0 : ∀ a, (![478, 0, 0] : Fin 3 → Nat) a + S1x4x1024.size a ≤ S512x4x1024.size a
  slices_S4x512_o0_479_S4x1 : S4x512.Slices ![0, 479] S4x1
  slices_S512x4x1024_o479_0_0_S1x4x1024 : S512x4x1024.Slices ![479, 0, 0] S1x4x1024
  inb_S512x4x1024_S1x4x1024_479_0_0 : ∀ a, (![479, 0, 0] : Fin 3 → Nat) a + S1x4x1024.size a ≤ S512x4x1024.size a
  slices_S4x512_o0_480_S4x1 : S4x512.Slices ![0, 480] S4x1
  slices_S512x4x1024_o480_0_0_S1x4x1024 : S512x4x1024.Slices ![480, 0, 0] S1x4x1024
  inb_S512x4x1024_S1x4x1024_480_0_0 : ∀ a, (![480, 0, 0] : Fin 3 → Nat) a + S1x4x1024.size a ≤ S512x4x1024.size a
  slices_S4x512_o0_481_S4x1 : S4x512.Slices ![0, 481] S4x1
  slices_S512x4x1024_o481_0_0_S1x4x1024 : S512x4x1024.Slices ![481, 0, 0] S1x4x1024
  inb_S512x4x1024_S1x4x1024_481_0_0 : ∀ a, (![481, 0, 0] : Fin 3 → Nat) a + S1x4x1024.size a ≤ S512x4x1024.size a
  slices_S4x512_o0_482_S4x1 : S4x512.Slices ![0, 482] S4x1
  slices_S512x4x1024_o482_0_0_S1x4x1024 : S512x4x1024.Slices ![482, 0, 0] S1x4x1024
  inb_S512x4x1024_S1x4x1024_482_0_0 : ∀ a, (![482, 0, 0] : Fin 3 → Nat) a + S1x4x1024.size a ≤ S512x4x1024.size a
  slices_S4x512_o0_483_S4x1 : S4x512.Slices ![0, 483] S4x1
  slices_S512x4x1024_o483_0_0_S1x4x1024 : S512x4x1024.Slices ![483, 0, 0] S1x4x1024
  inb_S512x4x1024_S1x4x1024_483_0_0 : ∀ a, (![483, 0, 0] : Fin 3 → Nat) a + S1x4x1024.size a ≤ S512x4x1024.size a
  slices_S4x512_o0_484_S4x1 : S4x512.Slices ![0, 484] S4x1
  slices_S512x4x1024_o484_0_0_S1x4x1024 : S512x4x1024.Slices ![484, 0, 0] S1x4x1024
  inb_S512x4x1024_S1x4x1024_484_0_0 : ∀ a, (![484, 0, 0] : Fin 3 → Nat) a + S1x4x1024.size a ≤ S512x4x1024.size a
  slices_S4x512_o0_485_S4x1 : S4x512.Slices ![0, 485] S4x1
  slices_S512x4x1024_o485_0_0_S1x4x1024 : S512x4x1024.Slices ![485, 0, 0] S1x4x1024
  inb_S512x4x1024_S1x4x1024_485_0_0 : ∀ a, (![485, 0, 0] : Fin 3 → Nat) a + S1x4x1024.size a ≤ S512x4x1024.size a
  slices_S4x512_o0_486_S4x1 : S4x512.Slices ![0, 486] S4x1
  slices_S512x4x1024_o486_0_0_S1x4x1024 : S512x4x1024.Slices ![486, 0, 0] S1x4x1024
  inb_S512x4x1024_S1x4x1024_486_0_0 : ∀ a, (![486, 0, 0] : Fin 3 → Nat) a + S1x4x1024.size a ≤ S512x4x1024.size a
  slices_S4x512_o0_487_S4x1 : S4x512.Slices ![0, 487] S4x1
  slices_S512x4x1024_o487_0_0_S1x4x1024 : S512x4x1024.Slices ![487, 0, 0] S1x4x1024
  inb_S512x4x1024_S1x4x1024_487_0_0 : ∀ a, (![487, 0, 0] : Fin 3 → Nat) a + S1x4x1024.size a ≤ S512x4x1024.size a
  slices_S4x512_o0_488_S4x1 : S4x512.Slices ![0, 488] S4x1
  slices_S512x4x1024_o488_0_0_S1x4x1024 : S512x4x1024.Slices ![488, 0, 0] S1x4x1024
  inb_S512x4x1024_S1x4x1024_488_0_0 : ∀ a, (![488, 0, 0] : Fin 3 → Nat) a + S1x4x1024.size a ≤ S512x4x1024.size a
  slices_S4x512_o0_489_S4x1 : S4x512.Slices ![0, 489] S4x1
  slices_S512x4x1024_o489_0_0_S1x4x1024 : S512x4x1024.Slices ![489, 0, 0] S1x4x1024
  inb_S512x4x1024_S1x4x1024_489_0_0 : ∀ a, (![489, 0, 0] : Fin 3 → Nat) a + S1x4x1024.size a ≤ S512x4x1024.size a
  slices_S4x512_o0_490_S4x1 : S4x512.Slices ![0, 490] S4x1
  slices_S512x4x1024_o490_0_0_S1x4x1024 : S512x4x1024.Slices ![490, 0, 0] S1x4x1024
  inb_S512x4x1024_S1x4x1024_490_0_0 : ∀ a, (![490, 0, 0] : Fin 3 → Nat) a + S1x4x1024.size a ≤ S512x4x1024.size a
  slices_S4x512_o0_491_S4x1 : S4x512.Slices ![0, 491] S4x1
  slices_S512x4x1024_o491_0_0_S1x4x1024 : S512x4x1024.Slices ![491, 0, 0] S1x4x1024
  inb_S512x4x1024_S1x4x1024_491_0_0 : ∀ a, (![491, 0, 0] : Fin 3 → Nat) a + S1x4x1024.size a ≤ S512x4x1024.size a
  slices_S4x512_o0_492_S4x1 : S4x512.Slices ![0, 492] S4x1
  slices_S512x4x1024_o492_0_0_S1x4x1024 : S512x4x1024.Slices ![492, 0, 0] S1x4x1024
  inb_S512x4x1024_S1x4x1024_492_0_0 : ∀ a, (![492, 0, 0] : Fin 3 → Nat) a + S1x4x1024.size a ≤ S512x4x1024.size a
  slices_S4x512_o0_493_S4x1 : S4x512.Slices ![0, 493] S4x1
  slices_S512x4x1024_o493_0_0_S1x4x1024 : S512x4x1024.Slices ![493, 0, 0] S1x4x1024
  inb_S512x4x1024_S1x4x1024_493_0_0 : ∀ a, (![493, 0, 0] : Fin 3 → Nat) a + S1x4x1024.size a ≤ S512x4x1024.size a
  slices_S4x512_o0_494_S4x1 : S4x512.Slices ![0, 494] S4x1
  slices_S512x4x1024_o494_0_0_S1x4x1024 : S512x4x1024.Slices ![494, 0, 0] S1x4x1024
  inb_S512x4x1024_S1x4x1024_494_0_0 : ∀ a, (![494, 0, 0] : Fin 3 → Nat) a + S1x4x1024.size a ≤ S512x4x1024.size a
  slices_S4x512_o0_495_S4x1 : S4x512.Slices ![0, 495] S4x1
  slices_S512x4x1024_o495_0_0_S1x4x1024 : S512x4x1024.Slices ![495, 0, 0] S1x4x1024
  inb_S512x4x1024_S1x4x1024_495_0_0 : ∀ a, (![495, 0, 0] : Fin 3 → Nat) a + S1x4x1024.size a ≤ S512x4x1024.size a
  slices_S4x512_o0_496_S4x1 : S4x512.Slices ![0, 496] S4x1
  slices_S512x4x1024_o496_0_0_S1x4x1024 : S512x4x1024.Slices ![496, 0, 0] S1x4x1024
  inb_S512x4x1024_S1x4x1024_496_0_0 : ∀ a, (![496, 0, 0] : Fin 3 → Nat) a + S1x4x1024.size a ≤ S512x4x1024.size a
  slices_S4x512_o0_497_S4x1 : S4x512.Slices ![0, 497] S4x1
  slices_S512x4x1024_o497_0_0_S1x4x1024 : S512x4x1024.Slices ![497, 0, 0] S1x4x1024
  inb_S512x4x1024_S1x4x1024_497_0_0 : ∀ a, (![497, 0, 0] : Fin 3 → Nat) a + S1x4x1024.size a ≤ S512x4x1024.size a
  slices_S4x512_o0_498_S4x1 : S4x512.Slices ![0, 498] S4x1
  slices_S512x4x1024_o498_0_0_S1x4x1024 : S512x4x1024.Slices ![498, 0, 0] S1x4x1024
  inb_S512x4x1024_S1x4x1024_498_0_0 : ∀ a, (![498, 0, 0] : Fin 3 → Nat) a + S1x4x1024.size a ≤ S512x4x1024.size a
  slices_S4x512_o0_499_S4x1 : S4x512.Slices ![0, 499] S4x1
  slices_S512x4x1024_o499_0_0_S1x4x1024 : S512x4x1024.Slices ![499, 0, 0] S1x4x1024
  inb_S512x4x1024_S1x4x1024_499_0_0 : ∀ a, (![499, 0, 0] : Fin 3 → Nat) a + S1x4x1024.size a ≤ S512x4x1024.size a
  slices_S4x512_o0_500_S4x1 : S4x512.Slices ![0, 500] S4x1
  slices_S512x4x1024_o500_0_0_S1x4x1024 : S512x4x1024.Slices ![500, 0, 0] S1x4x1024
  inb_S512x4x1024_S1x4x1024_500_0_0 : ∀ a, (![500, 0, 0] : Fin 3 → Nat) a + S1x4x1024.size a ≤ S512x4x1024.size a
  slices_S4x512_o0_501_S4x1 : S4x512.Slices ![0, 501] S4x1
  slices_S512x4x1024_o501_0_0_S1x4x1024 : S512x4x1024.Slices ![501, 0, 0] S1x4x1024
  inb_S512x4x1024_S1x4x1024_501_0_0 : ∀ a, (![501, 0, 0] : Fin 3 → Nat) a + S1x4x1024.size a ≤ S512x4x1024.size a
  slices_S4x512_o0_502_S4x1 : S4x512.Slices ![0, 502] S4x1
  slices_S512x4x1024_o502_0_0_S1x4x1024 : S512x4x1024.Slices ![502, 0, 0] S1x4x1024
  inb_S512x4x1024_S1x4x1024_502_0_0 : ∀ a, (![502, 0, 0] : Fin 3 → Nat) a + S1x4x1024.size a ≤ S512x4x1024.size a
  slices_S4x512_o0_503_S4x1 : S4x512.Slices ![0, 503] S4x1
  slices_S512x4x1024_o503_0_0_S1x4x1024 : S512x4x1024.Slices ![503, 0, 0] S1x4x1024
  inb_S512x4x1024_S1x4x1024_503_0_0 : ∀ a, (![503, 0, 0] : Fin 3 → Nat) a + S1x4x1024.size a ≤ S512x4x1024.size a
  slices_S4x512_o0_504_S4x1 : S4x512.Slices ![0, 504] S4x1
  slices_S512x4x1024_o504_0_0_S1x4x1024 : S512x4x1024.Slices ![504, 0, 0] S1x4x1024
  inb_S512x4x1024_S1x4x1024_504_0_0 : ∀ a, (![504, 0, 0] : Fin 3 → Nat) a + S1x4x1024.size a ≤ S512x4x1024.size a
  slices_S4x512_o0_505_S4x1 : S4x512.Slices ![0, 505] S4x1
  slices_S512x4x1024_o505_0_0_S1x4x1024 : S512x4x1024.Slices ![505, 0, 0] S1x4x1024
  inb_S512x4x1024_S1x4x1024_505_0_0 : ∀ a, (![505, 0, 0] : Fin 3 → Nat) a + S1x4x1024.size a ≤ S512x4x1024.size a
  slices_S4x512_o0_506_S4x1 : S4x512.Slices ![0, 506] S4x1
  slices_S512x4x1024_o506_0_0_S1x4x1024 : S512x4x1024.Slices ![506, 0, 0] S1x4x1024
  inb_S512x4x1024_S1x4x1024_506_0_0 : ∀ a, (![506, 0, 0] : Fin 3 → Nat) a + S1x4x1024.size a ≤ S512x4x1024.size a
  slices_S4x512_o0_507_S4x1 : S4x512.Slices ![0, 507] S4x1
  slices_S512x4x1024_o507_0_0_S1x4x1024 : S512x4x1024.Slices ![507, 0, 0] S1x4x1024
  inb_S512x4x1024_S1x4x1024_507_0_0 : ∀ a, (![507, 0, 0] : Fin 3 → Nat) a + S1x4x1024.size a ≤ S512x4x1024.size a
  slices_S4x512_o0_508_S4x1 : S4x512.Slices ![0, 508] S4x1
  slices_S512x4x1024_o508_0_0_S1x4x1024 : S512x4x1024.Slices ![508, 0, 0] S1x4x1024
  inb_S512x4x1024_S1x4x1024_508_0_0 : ∀ a, (![508, 0, 0] : Fin 3 → Nat) a + S1x4x1024.size a ≤ S512x4x1024.size a
  slices_S4x512_o0_509_S4x1 : S4x512.Slices ![0, 509] S4x1
  slices_S512x4x1024_o509_0_0_S1x4x1024 : S512x4x1024.Slices ![509, 0, 0] S1x4x1024
  inb_S512x4x1024_S1x4x1024_509_0_0 : ∀ a, (![509, 0, 0] : Fin 3 → Nat) a + S1x4x1024.size a ≤ S512x4x1024.size a
  slices_S4x512_o0_510_S4x1 : S4x512.Slices ![0, 510] S4x1
  slices_S512x4x1024_o510_0_0_S1x4x1024 : S512x4x1024.Slices ![510, 0, 0] S1x4x1024
  inb_S512x4x1024_S1x4x1024_510_0_0 : ∀ a, (![510, 0, 0] : Fin 3 → Nat) a + S1x4x1024.size a ≤ S512x4x1024.size a
  slices_S4x512_o0_511_S4x1 : S4x512.Slices ![0, 511] S4x1
  slices_S512x4x1024_o511_0_0_S1x4x1024 : S512x4x1024.Slices ![511, 0, 0] S1x4x1024
  inb_S512x4x1024_S1x4x1024_511_0_0 : ∀ a, (![511, 0, 0] : Fin 3 → Nat) a + S1x4x1024.size a ≤ S512x4x1024.size a
  hcc0_scoped0 : 0 + S_.numel ≤ 10
  hcc0_scoped1 : 1 + S_.numel ≤ 10
  hscKind : ∀ q, scKind q ≠ .tc
  hscCore : ∀ q, scNCore q ≤ τ.nSC
  hscSub : ∀ q, scNSub q ≤ τ.nSub

class Facts₀ : Prop where
  k0 : K0.Facts₀
  k1 : K1.Facts₀
  shapes1 : Shapes1.Facts₀
  shapes2 : Shapes2.Facts₀
attribute [instance] Facts₀.k0 Facts₀.k1 Facts₀.shapes1 Facts₀.shapes2

variable [Facts₀]

abbrev cc0_scoped0 : DmaSems sig S_ := SemArray.consecutive 0 S_ hcc0_scoped0
abbrev cc0_scoped1 : DmaSems sig S_ := SemArray.consecutive 1 S_ hcc0_scoped1

abbrev win1_0 : Pipeline.Window sig grid1 :=
  Pipeline.Window.ofSpec (Memref.whole main_v0) S4x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x4x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x4x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x4x1024 : Shape := ⟨3, ![8192, 4, 1024]⟩
abbrev S4x4096 : Shape := ⟨2, ![4, 4096]⟩
abbrev S1024 : Shape := ⟨1, ![1024]⟩
abbrev S4096x4 : Shape := ⟨2, ![4096, 4]⟩
abbrev S4 : Shape := ⟨1, ![4]⟩
abbrev S1x4 : Shape := ⟨2, ![1, 4]⟩
abbrev S_ : Shape := ⟨0, ![]⟩
abbrev S4096x4x1 : Shape := ⟨3, ![4096, 4, 1]⟩
abbrev S4096x4x2 : Shape := ⟨3, ![4096, 4, 2]⟩
abbrev S4096x4x1024 : Shape := ⟨3, ![4096, 4, 1024]⟩
abbrev S1x1x1024 : Shape := ⟨3, ![1, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8192x4x1024, .f32⟩
  | .hbm, ⟨1, _⟩ => ⟨S4x4096, .i32⟩
  | .hbm, ⟨2, _⟩ => ⟨S1024, .f32⟩
  | .hbm, ⟨3, _⟩ => ⟨S1024, .f32⟩
  | .hbm, ⟨4, _⟩ => ⟨S4096x4, .i32⟩
  | .hbm, ⟨5, _⟩ => ⟨S4, .i32⟩
  | .hbm, ⟨6, _⟩ => ⟨S1x4, .i32⟩
  | .hbm, ⟨7, _⟩ => ⟨S_, .i32⟩
  | .hbm, ⟨8, _⟩ => ⟨S4096x4, .i32⟩
  | .hbm, ⟨9, _⟩ => ⟨S4096x4, .i1⟩
  | .hbm, ⟨10, _⟩ => ⟨S_, .i32⟩
  | .hbm, ⟨11, _⟩ => ⟨S4096x4, .i32⟩
  | .hbm, ⟨12, _⟩ => ⟨S4096x4, .i32⟩
  | .hbm, ⟨13, _⟩ => ⟨S4096x4, .i32⟩
  | .hbm, ⟨14, _⟩ => ⟨S_, .i32⟩
  | .hbm, ⟨15, _⟩ => ⟨S1x4, .i32⟩
  | .hbm, ⟨16, _⟩ => ⟨S1x4, .i1⟩
  | .hbm, ⟨17, _⟩ => ⟨S_, .i32⟩
  | .hbm, ⟨18, _⟩ => ⟨S1x4, .i32⟩
  | .hbm, ⟨19, _⟩ => ⟨S1x4, .i32⟩
  | .hbm, ⟨20, _⟩ => ⟨S1x4, .i32⟩
  | .hbm, ⟨21, _⟩ => ⟨S4096x4, .i32⟩
  | .hbm, ⟨22, _⟩ => ⟨S4096x4x1, .i32⟩
  | .hbm, ⟨23, _⟩ => ⟨S4096x4x1, .i32⟩
  | .hbm, ⟨24, _⟩ => ⟨S4096x4x2, .i32⟩
  | .hbm, ⟨25, _⟩ => ⟨S4096x4x1024, .f32⟩
  | .hbm, ⟨26, _⟩ => ⟨S_, .f32⟩
  | .hbm, ⟨27, _⟩ => ⟨S4096x4, .f32⟩
  | .hbm, ⟨28, _⟩ => ⟨S4096x4x1, .f32⟩
  | .hbm, ⟨29, _⟩ => ⟨S_, .f32⟩
  | .hbm, ⟨30, _⟩ => ⟨S4096x4x1, .f32⟩
  | .hbm, ⟨31, _⟩ => ⟨S4096x4x1, .f32⟩
  | .hbm, ⟨32, _⟩ => ⟨S4096x4x1024, .f32⟩
  | .hbm, ⟨33, _⟩ => ⟨S4096x4x1024, .f32⟩
  | .hbm, ⟨34, _⟩ => ⟨S4096x4x1024, .f32⟩
  | .hbm, ⟨35, _⟩ => ⟨S_, .f32⟩
  | .hbm, ⟨36, _⟩ => ⟨S4096x4, .f32⟩
  | .hbm, ⟨37, _⟩ => ⟨S4096x4x1, .f32⟩
  | .hbm, ⟨38, _⟩ => ⟨S_, .f32⟩
  | .hbm, ⟨39, _⟩ => ⟨S4096x4x1, .f32⟩
  | .hbm, ⟨40, _⟩ => ⟨S4096x4x1, .f32⟩
  | .hbm, ⟨41, _⟩ => ⟨S4096x4x1024, .f32⟩
  | .hbm, ⟨42, _⟩ => ⟨S4096x4x1024, .f32⟩
  | .hbm, ⟨43, _⟩ => ⟨S_, .f32⟩
  | .hbm, ⟨44, _⟩ => ⟨S4096x4x1, .f32⟩
  | .hbm, ⟨45, _⟩ => ⟨S4096x4x1, .f32⟩
  | .hbm, ⟨46, _⟩ => ⟨S4096x4x1, .f32⟩
  | .hbm, ⟨47, _⟩ => ⟨S4096x4x1024, .f32⟩
  | .hbm, ⟨48, _⟩ => ⟨S4096x4x1024, .f32⟩
  | .hbm, ⟨49, _⟩ => ⟨S1x1x1024, .f32⟩
  | .hbm, ⟨50, _⟩ => ⟨S4096x4x1024, .f32⟩
  | .hbm, ⟨51, _⟩ => ⟨S4096x4x1024, .f32⟩
  | .hbm, ⟨52, _⟩ => ⟨S1x1x1024, .f32⟩
  | .hbm, ⟨53, _⟩ => ⟨S4096x4x1024, .f32⟩
  | .hbm, ⟨54, _⟩ => ⟨S4096x4x1024, .f32⟩
  | .hbm, ⟨55, _⟩ => ⟨S_, .i32⟩
  | .hbm, ⟨56, _⟩ => ⟨S4096x4, .i32⟩
  | .hbm, ⟨57, _⟩ => ⟨S4096x4, .i1⟩
  | .hbm, ⟨58, _⟩ => ⟨S_, .i32⟩
  | .hbm, ⟨59, _⟩ => ⟨S4096x4, .i32⟩
  | .hbm, ⟨60, _⟩ => ⟨S4096x4, .i32⟩
  | .hbm, ⟨61, _⟩ => ⟨S4096x4, .i32⟩
  | .hbm, ⟨62, _⟩ => ⟨S_, .i32⟩
  | .hbm, ⟨63, _⟩ => ⟨S1x4, .i32⟩
  | .hbm, ⟨64, _⟩ => ⟨S1x4, .i1⟩
  | .hbm, ⟨65, _⟩ => ⟨S_, .i32⟩
  | .hbm, ⟨66, _⟩ => ⟨S1x4, .i32⟩
  | .hbm, ⟨67, _⟩ => ⟨S1x4, .i32⟩
  | .hbm, ⟨68, _⟩ => ⟨S1x4, .i32⟩
  | .hbm, ⟨69, _⟩ => ⟨S4096x4, .i32⟩
  | .hbm, ⟨70, _⟩ => ⟨S4096x4x1, .i32⟩
  | .hbm, ⟨71, _⟩ => ⟨S4096x4x1, .i32⟩
  | .hbm, ⟨72, _⟩ => ⟨S4096x4x2, .i32⟩
  | .hbm, ⟨73, _⟩ => ⟨S8192x4x1024, .f32⟩
  | _, _ => ⟨S8192x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_7 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  transposes_S4x4096_S4096x4_1_0 : S4x4096.Transposes [1, 0] S4096x4
  bcast_S4_S1x4_1 : S4.BroadcastsInDim S1x4 (![1] : Fin 1 → Fin S1x4.rank)
  bcast_S_S4096x4 : S_.BroadcastsInDim S4096x4 (![] : Fin 0 → Fin S4096x4.rank)
  bcast_S_S1x4 : S_.BroadcastsInDim S1x4 (![] : Fin 0 → Fin S1x4.rank)
  bcast_S1x4_S4096x4_0_1 : S1x4.BroadcastsInDim S4096x4 (![0, 1] : Fin 2 → Fin S4096x4.rank)
  bcast_S4096x4_S4096x4x1_0_1 : S4096x4.BroadcastsInDim S4096x4x1 (![0, 1] : Fin 2 → Fin S4096x4x1.rank)
  concatenates_S4096x4x1_S4096x4x1_S4096x4x2_d2 : Shape.Concatenates [S4096x4x1, S4096x4x1] S4096x4x2 2
  reducesTo_S4096x4x1024_S4096x4_d2 : S4096x4x1024.ReducesTo [2] S4096x4
  h_S_ : 0 < S_.numel
  bcast_S_S4096x4x1 : S_.BroadcastsInDim S4096x4x1 (![] : Fin 0 → Fin S4096x4x1.rank)
  bcast_S4096x4x1_S4096x4x1024_0_1_2 : S4096x4x1.BroadcastsInDim S4096x4x1024 (![0, 1, 2] : Fin 3 → Fin S4096x4x1024.rank)
  bcast_S1024_S1x1x1024_2 : S1024.BroadcastsInDim S1x1x1024 (![2] : Fin 1 → Fin S1x1x1024.rank)
  bcast_S1x1x1024_S4096x4x1024_0_1_2 : S1x1x1024.BroadcastsInDim S4096x4x1024 (![0, 1, 2] : Fin 3 → Fin S4096x4x1024.rank)
  gather_S8192x4x1024_S4096x4x2_S4096x4x1024_2_01_n_n_01_2_111024_wf : GatherDims.WF S8192x4x1024 S4096x4x2 S4096x4x1024 [2] [0, 1] [] [0, 1] [] 2 ![1, 1, 1024]
  scatter_S8192x4x1024_S4096x4x2_S4096x4x1024_2_01_01_2_wf : ScatterDims.WF S8192x4x1024 S4096x4x2 S4096x4x1024 [2] [0, 1] [0, 1] 2

variable [Facts₀]

def gather_S8192x4x1024_S4096x4x2_S4096x4x1024_2_01_n_n_01_2_111024 : GatherDims S8192x4x1024 S4096x4x2 S4096x4x1024 where
  offsetDims := [2]
  collapsedSliceDims := [0, 1]
  operandBatchingDims := []
  startIndicesBatchingDims := []
  startIndexMap := [0, 1]
  indexVectorDim := 2
  sliceSizes := ![1, 1, 1024]
  wf := gather_S8192x4x1024_S4096x4x2_S4096x4x1024_2_01_n_n_01_2_111024_wf
def scatter_S8192x4x1024_S4096x4x2_S4096x4x1024_2_01_01_2 : ScatterDims S8192x4x1024 S4096x4x2 S4096x4x1024 where
  updateWindowDims := [2]
  insertedWindowDims := [0, 1]
  scatterDimsToOperandDims := [0, 1]
  indexVectorDim := 2
  wf := scatter_S8192x4x1024_S4096x4x2_S4096x4x1024_2_01_01_2_wf

class Facts : Prop extends Facts₀ where

variable [Facts]
-- ==== Proof.MaskSpec.lean ====
/-
  Pure facts about the mask task, apart from any program.

  A fetched position `v` is tested against the segment start `s0`: with `l = v − s0` (32-bit), the lane is ACTIVE when
  `0 ≤ l < 1024` as signed numbers, and the index written is `l` clipped to `[0, 1023]`, which is therefore always a valid
  index into the 1024-entry scratch whatever `v` is. An indexed store of one constant through several lanes leaves that
  constant at every index some active lane names and the old contents elsewhere, whatever the order of the lanes.
-/
import Idealize.ShloMosaic.PureOps.ShapeOps
import Idealize.ShloMosaic.PureOps.Vector

noncomputable section

namespace Cert.MaskSpec

open Idealize.ShloMosaic

/-- The lane's activity bit: `0 ≤ v − s0 < 1024`, signed. -/
def inr (s0 v : BitVec 32) : BitVec 1 :=
  IntOp.andi (IntOp.cmpi .sge (IntOp.subi v s0) 0#32) (IntOp.cmpi .slt (IntOp.subi v s0) 1024#32)

/-- The lane's index: `v − s0` clipped to `[0, 1023]`. -/
def pos (s0 v : BitVec 32) : BitVec 32 := IntOp.minsi 1023#32 (IntOp.maxsi 0#32 (IntOp.subi v s0))

/-- The clipped index is below 1024. -/
theorem pos_lt (s0 v : BitVec 32) : (pos s0 v).toNat < 1024 := by
  unfold pos IntOp.minsi IntOp.maxsi
  generalize IntOp.subi v s0 = l
  simp only [BitVec.slt_eq_decide, BitVec.toInt_eq_toNat_cond, BitVec.toNat_ofNat, Nat.reducePow, Nat.reduceMod]
  have hl := l.isLt
  split_ifs <;> simp_all <;> omega

/-- A fetched position `v` marks offset `j` of the segment starting at `s0`. -/
def hit (s0 v : BitVec 32) (j : Nat) : Prop := inr s0 v = 1#1 ∧ (pos s0 v).toNat = j

open Classical in
/-- The scratch after the first `n` fetched positions have been treated: `one` where one of them marks the offset. -/
def bufAfter {α : Type} (one zero : α) (s0 : BitVec 32) (iv : Fin 4096 → BitVec 32) (n : Nat) (j : Fin 1024) : α :=
  if ∃ r : Fin 4096, r.val < n ∧ hit s0 (iv r) j.val then one else zero

theorem bufAfter_zero {α : Type} (one zero : α) (s0 : BitVec 32) (iv : Fin 4096 → BitVec 32) (j : Fin 1024) :
    bufAfter one zero s0 iv 0 j = zero := by
  unfold bufAfter; rw [if_neg]; rintro ⟨r, h, -⟩; omega

/-- The mask as ONE function of the positions' array `I` (4 lists of 4096 words): entry `(b, s)` is `one` when some position of
    list `b` marks offset `s mod 1024` of the segment that starts at `1024 ⌊s / 1024⌋`. -/
def maskArr {α : Type} (one zero : α) (I : Fin 4 → Fin 4096 → BitVec 32) (b : Fin 4) (s : Fin 8192) : α :=
  bufAfter one zero (BitVec.ofNat 32 (s.val / 1024 * 1024)) (I b) 4096 ⟨s.val % 1024, Nat.mod_lt _ (by decide)⟩

/-- A conditional depends on its condition only up to equivalence, whatever decision procedures are attached. -/
theorem ite_iff_congr {α : Type} {A B : Prop} {dA : Decidable A} {dB : Decidable B} (h : A ↔ B) (x y : α) :
    @ite α A dA x y = @ite α B dB x y := by
  by_cases hA : A
  · rw [if_pos hA, if_pos (h.mp hA)]
  · rw [if_neg hA, if_neg (fun hB => hA (h.mpr hB))]

/-- Sixteen more fetched positions treated: the offsets they mark are added. -/
theorem bufAfter_step {α : Type} (one zero : α) (s0 : BitVec 32) (iv : Fin 4096 → BitVec 32) (k : Nat) (hk : 16 * k + 16 ≤ 4096)
    (v : Fin 16 → BitVec 32) (hv : ∀ x : Fin 16, v x = iv ⟨16 * k + x.val, by omega⟩) (j : Fin 1024) :
    (open Classical in if ∃ x : Fin 16, inr s0 (v x) = 1#1 ∧ j.val = (pos s0 (v x)).toNat then one else bufAfter one zero s0 iv (16 * k) j)
      = bufAfter one zero s0 iv (16 * (k + 1)) j := by
  classical
  unfold bufAfter hit
  have key : (∃ r : Fin 4096, r.val < 16 * (k + 1) ∧ inr s0 (iv r) = 1#1 ∧ (pos s0 (iv r)).toNat = j.val)
      ↔ ((∃ x : Fin 16, inr s0 (v x) = 1#1 ∧ j.val = (pos s0 (v x)).toNat)
          ∨ ∃ r : Fin 4096, r.val < 16 * k ∧ inr s0 (iv r) = 1#1 ∧ (pos s0 (iv r)).toNat = j.val) := by
    constructor
    · rintro ⟨r, hr, h1, h2⟩
      by_cases hlt : r.val < 16 * k
      · exact .inr ⟨r, hlt, h1, h2⟩
      · refine .inl ⟨⟨r.val - 16 * k, by omega⟩, ?_⟩
        have e : v ⟨r.val - 16 * k, by omega⟩ = iv r := by
          rw [hv]; congr 1; apply Fin.ext; show 16 * k + (r.val - 16 * k) = r.val; omega
        rw [e]; exact ⟨h1, h2.symm⟩
    · rintro (⟨x, h1, h2⟩ | ⟨r, hr, h1, h2⟩)
      · refine ⟨⟨16 * k + x.val, by omega⟩, by show 16 * k + x.val < 16 * (k + 1); omega, ?_⟩
        rw [← hv]; exact ⟨h1, h2.symm⟩
      · exact ⟨r, by omega, h1, h2⟩
  by_cases hA : ∃ x : Fin 16, inr s0 (v x) = 1#1 ∧ j.val = (pos s0 (v x)).toNat
  · rw [if_pos hA, if_pos (key.mpr (.inl hA))]
  · rw [if_neg hA]
    by_cases hB : ∃ r : Fin 4096, r.val < 16 * k ∧ inr s0 (iv r) = 1#1 ∧ (pos s0 (iv r)).toNat = j.val
    · rw [if_pos hB, if_pos (key.mpr (.inr hB))]
    · rw [if_neg hB, if_neg (fun h => (key.mp h).elim hA hB)]

/-- A fold of steps each of which overwrites, with one common value `c`, the positions a predicate of the step selects:
    afterwards `c` stands wherever some step selected, and the start contents elsewhere — in whatever order. -/
theorem foldl_pick {α β ι : Type} (P : ι → α → Prop) [∀ k a, Decidable (P k a)] (val : ι → β) (c : β) (hv : ∀ k, val k = c) (j : α) :
    ∀ (l : List ι) (g : α → β),
      (l.foldl (fun g k => fun a => if P k a then val k else g a) g) j
        = (open Classical in if ∃ k, k ∈ l ∧ P k j then c else g j) := by
  intro l
  induction l with
  | nil => intro g; simp
  | cons k t ih =>
    intro g
    rw [List.foldl_cons, ih]
    by_cases hk : P k j <;> by_cases ht : ∃ k', k' ∈ t ∧ P k' j <;>
      simp [hk, ht, hv, List.mem_cons, exists_eq_or_imp]

/-- An indexed store of one constant `c` through the lanes of a vector: afterwards `c` stands at every index that some lane
    whose mask bit is set names, and the old contents `f` everywhere else. -/
theorem storeIdx_const {F : FTy → Type} [FloatOps F] {s : Shape} {e : EltTy} {d : Fin 1 → Nat}
    (f : Vec F s e) (idxs : Fin s.rank → IVec ⟨1, d⟩ 32) (v : Vec F ⟨1, d⟩ e) (mask : IVec ⟨1, d⟩ 1)
    (h : ∀ a x, (idxs a x).toNat < s.size a) (c : Elt F e) (hv : ∀ x, v x = c) (j : s.Idx) :
    storeIdx f idxs v mask false h j
      = (open Classical in if ∃ k : Fin (d 0), mask (Shape.ofLane k) = 1 ∧ ∀ a, (j a).val = (idxs a (Shape.ofLane k)).toNat then c else f j) := by
  classical
  have hstep : (fun (g : Vec F s e) (k : Fin (d 0)) =>
        let x := Shape.ofLane k
        if mask x = 1 then
          let i := idxAt idxs h x
          let y := if false = true then Elt.idxAdd e (g i) (v x) else v x
          fun j => if (∀ a, (j a).val = (i a).val) then y else g j
        else g)
      = (fun g k => fun a => if (mask (Shape.ofLane k) = 1 ∧ ∀ b, (a b).val = (idxs b (Shape.ofLane k)).toNat) then v (Shape.ofLane k) else g a) := by
    funext g k a
    by_cases hm : mask (Shape.ofLane k) = 1
    · simp only [hm, if_true, true_and, Bool.false_eq_true, if_false]; rfl
    · simp only [hm, if_false, false_and]
  unfold storeIdx
  rw [hstep]
  have := foldl_pick (fun (k : Fin (d 0)) (a : s.Idx) => mask (Shape.ofLane k) = 1 ∧ ∀ b, (a b).val = (idxs b (Shape.ofLane k)).toNat)
    (fun k => v (Shape.ofLane k)) c (fun k => hv _) j (List.finRange (d 0)) f
  simp only [List.mem_finRange, true_and] at this
  exact this

end Cert.MaskSpec

end
-- ==== Proof.MaskTileKI.lean ====
/-
  The mask kernel's task on one vector subcore: it fetches batch `b`'s 4096 sampled positions into its own scratch, clears
  a scratch of 1024 numbers, and for every fetched position that falls in its segment `[s0, s0 + 1024)` of the sequence
  writes a one at the position's offset in the segment; the scratch is then copied to the segment of row `b` of the mask.
  Subcore `s` of SparseCore `c` is worker `w = 2 s + c`; its batch is `w / 8` and its segment starts at `1024 (w mod 8)`.
  Each of the two copies is started and waited for by the task itself on a semaphore of its own, so no other thread's
  step matters to it.
-/
import proofs.«214348_g62886911148048_cont_9to1c4b_763_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«214348_g62886911148048_cont_9to1c4b_763_21_alg».proof.Proof.Gen.KernelIdeal
import proofs.«214348_g62886911148048_cont_9to1c4b_763_21_alg».proof.Proof.Gen.KernelIdeal.Skeleton
import proofs.«214348_g62886911148048_cont_9to1c4b_763_21_alg».proof.Proof.MaskSpec
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

local notation "iW" => (Memref.whole Cert.KernelIdeal.main_arg1_scv : Memref Cert.KernelIdeal.sig Kind.scVector Space.hbm Cert.KernelIdeal.S4x4096 EltTy.i32)
local notation "mW" => (Memref.whole Cert.KernelIdeal.main_v0_scv : Memref Cert.KernelIdeal.sig Kind.scVector Space.hbm Cert.KernelIdeal.S4x8192 EltTy.f32)
local notation "sI" => (Memref.whole Cert.KernelIdeal.cc0_scratch0 : Memref Cert.KernelIdeal.sig Kind.scVector Space.vmem Cert.KernelIdeal.S4096 EltTy.i32)
local notation "sB" => (Memref.whole Cert.KernelIdeal.cc0_scratch1 : Memref Cert.KernelIdeal.sig Kind.scVector Space.vmem Cert.KernelIdeal.S1024 EltTy.f32)

abbrev iLoc (d : Dev nD) : Loc nD τ sig := (SparseCore.T d).loc main_arg1
abbrev mLoc (d : Dev nD) : Loc nD τ sig := (SparseCore.T d).loc main_v0

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The task's segment of the mask, as the task slices it. -/
abbrev mSeg (L : grid0.Coords) : Memref sig .scVector .hbm S1024 .f32 :=
  ((mW).slice (Rect.unit (s := S4x8192) (k0_off4 L) S1x1024.size (k0_off4_inb L)) (fun _ => rfl)).squeeze S1024 squeezes_S1x1024_S1024
/-- The batch's list of positions, as the task slices it out of the positions' array. -/
abbrev iRow (L : grid0.Coords) : Memref sig .scVector .hbm S4096 .i32 :=
  ((iW).slice (Rect.unit (s := S4x4096) (k0_off1 L) S1x4096.size (k0_off1_inb L)) (fun _ => rfl)).squeeze S4096 squeezes_S1x4096_S4096
abbrev segSet (L : grid0.Coords) : Finset S4x8192.Idx := (mSeg L).view.set

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The thread. -/
abbrev thr (d : Dev nD) (L : grid0.Coords) : Thread nD τ := V d (cV L) (jV L)

/-- A share of the positions' array at its launch contents; the task's segment of the mask at `f`. -/
abbrev iPts (q : PosShare TreeShare) (d : Dev nD) : sProp 𝕄 := iLoc d ↦{q} m (iLoc d)
abbrev segPts (d : Dev nD) (L : grid0.Coords) (f : Buf (Elt F) (mLoc d)) : sProp 𝕄 := mLoc d ↦[segSet L]{fullShare} f

omit [FloatOps F] in
theorem pts_i (q : PosShare TreeShare) (f : Buf (Elt F) (iLoc d)) :
    ((iW).view.loc (thr d L) ↦{q} f : sProp 𝕄) = iLoc d ↦{q} f := by
  simp only [Memref.view_whole, View.set_whole]
omit [FloatOps F] in
theorem pts_sI (f : Buf (Elt F) ((thr d L).loc cc0_scratch0)) :
    ((sI).view.loc (thr d L) ↦{fullShare} f : sProp 𝕄) = (thr d L).loc cc0_scratch0 ↦{fullShare} f := rfl
omit [FloatOps F] in
theorem pts_sB (f : Buf (Elt F) ((thr d L).loc cc0_scratch1)) :
    ((sB).view.loc (thr d L) ↦{fullShare} f : sProp 𝕄) = (thr d L).loc cc0_scratch1 ↦{fullShare} f := rfl
omit [FloatOps F] in
theorem pts_seg (f : Buf (Elt F) (mLoc d)) :
    ((mSeg L).view.loc (thr d L) ↦[(mSeg L).view.set]{fullShare} f : sProp 𝕄) = segPts d L f := rfl

/-- The two words the task writes. -/
abbrev zeroE : Elt F .f32 := (Scalar.ofBits .f32 0x00000000#32 : F .f32)
abbrev oneE : Elt F .f32 := (Scalar.ofBits .f32 0x3F800000#32 : F .f32)

/-- While the scratch is cleared: its first `16 k` entries are zero after `k` trips. -/
def inv1 (d : Dev nD) (L : grid0.Coords) (k : Nat) (_ : PUnit) : sProp 𝕄 :=
  iprop(∃ fb : Buf (Elt F) ((thr d L).loc cc0_scratch1), ⌜∀ j : S1024.Idx, (j 0).val < 16 * k → fb j = zeroE⌝
    ∗ ((sB).view.loc (thr d L) ↦{fullShare} fb))

/-- One more sixteen entries cleared. -/
theorem clear_step (k : Fin k0_t1_loop.trips) (fb1 : Buf (Elt F) ((thr d L).loc cc0_scratch1))
    (hfb1 : ∀ j : S1024.Idx, (j 0).val < 16 * k.val → fb1 j = zeroE) (j : S1024.Idx) (hj : (j 0).val < 16 * (k.val + 1)) :
    ((sB).view.writes (Elt F) fb1 [⟨Rect.unit (s := S1024) (k0_off2 k) S16.size (k0_off2_inb k), k0_pay1⟩]) j = zeroE := by
  by_cases hin : j ∈ (Rect.unit (s := S1024) (k0_off2 k) S16.size (k0_off2_inb k)).set
  · have h := View.read_writes_apply_of_pieces (sB).view fb1 (fun _ => (zeroE : Elt F .f32))
      [⟨Rect.unit (s := S1024) (k0_off2 k) S16.size (k0_off2_inb k), k0_pay1⟩]
      (by intro p hp x; obtain rfl := List.mem_singleton.mp hp; rfl) j ⟨_, List.mem_singleton_self _, hin⟩
    simpa only [Memref.view_whole, View.read_whole] using h
  · have h := View.read_writes_apply_of_forall_not_mem (sB).view fb1 j
      [⟨Rect.unit (s := S1024) (k0_off2 k) S16.size (k0_off2_inb k), k0_pay1⟩]
      (by intro p hp; obtain rfl := List.mem_singleton.mp hp; exact hin)
    simp only [Memref.view_whole, View.read_whole] at h
    rw [h]; apply hfb1
    rw [Rect.mem_set_unit, k0_off2_eq] at hin
    by_contra hlt
    apply hin
    intro a
    obtain rfl : a = 0 := Subsingleton.elim _ _
    simp only [Matrix.cons_val_zero]
    constructor
    · omega
    · show (j 0).val < 16 * k.val + 16; omega

/-- The one coordinate of an index into the 1024-entry scratch. -/
abbrev c0 (j : S1024.Idx) : Fin 1024 := ⟨(j 0).val, (j 0).isLt⟩

/-- The fetched positions, as a list of 4096 words. -/
abbrev ivOf (fI : Buf (Elt F) ((thr d L).loc cc0_scratch0)) : Fin 4096 → BitVec 32 := fun r => fI (ValueIdx.ix1 r)

/-- While the fetched positions are treated: after `k` trips the scratch marks exactly the first `16 k` of them. -/
def inv2 (d : Dev nD) (L : grid0.Coords) (s0 : BitVec 32) (fI : Buf (Elt F) ((thr d L).loc cc0_scratch0)) (k : Nat) (_ : PUnit) : sProp 𝕄 :=
  iprop((∃ fb : Buf (Elt F) ((thr d L).loc cc0_scratch1),
      ⌜∀ j : S1024.Idx, fb j = Cert.MaskSpec.bufAfter (oneE : Elt F .f32) zeroE s0 (ivOf d L fI) (16 * k) (c0 j)⌝
      ∗ ((sB).view.loc (thr d L) ↦{fullShare} fb))
    ∗ ((sI).view.loc (thr d L) ↦{fullShare} fI))

omit [FloatOps F] in
/-- The clipped index is always inside the scratch: the side condition of the indexed store. -/
theorem chk_all (s0 : BitVec 32) (v35 : Vec F S16 .i32) : k0_chk1 (k0_pay5 (F := F) s0 v35) := by
  intro a x
  obtain rfl : a = 0 := Subsingleton.elim _ _
  exact Cert.MaskSpec.pos_lt s0 (v35 x)

omit [FloatOps F] in
theorem pts_sB_access (f : Buf (Elt F) ((thr d L).loc cc0_scratch1)) :
    ((((sB).access (.whole S1024)).loc (thr d L)) ↦[((sB).access (.whole S1024)).set]{fullShare} f : sProp 𝕄)
      = ((sB).view.loc (thr d L) ↦{fullShare} f) := by
  have h : ((sB).access (.whole S1024)).set = Finset.univ := Memref.set_access_whole cc0_scratch1
  rw [h]

omit [FloatOps F] in
theorem trips1 : Scf.trips k0_t1_loop.lb k0_t1_loop.ub k0_t1_loop.st = 64 := by decide +kernel
omit [FloatOps F] in
theorem trips2 : Scf.trips k0_t2_loop.lb k0_t2_loop.ub k0_t2_loop.st = 256 := by decide +kernel

/-- The sixteen positions trip `k` loads. -/
abbrev lanes (k : Fin k0_t2_loop.trips) (fI : Buf (Elt F) ((thr d L).loc cc0_scratch0)) : Vec F S16 .i32 :=
  View.readAt (Elt F) (sI).view (Rect.unit (s := S4096) (k0_off3 k) S16.size (k0_off3_inb k)).toLoadRect fI

omit [FloatOps F] in
theorem lanes_apply (k : Fin k0_t2_loop.trips) (fI : Buf (Elt F) ((thr d L).loc cc0_scratch0)) (x : Fin 16) (hx : 16 * k.val + x.val < 4096) :
    lanes d L k fI (Shape.ofLane x) = ivOf d L fI ⟨16 * k.val + x.val, hx⟩ := by
  unfold lanes ivOf
  simp only [View.readAt_apply, Memref.view_whole, View.read_whole]
  congr 1
  refine funext fun a => Fin.ext ?_
  have ha : a = (0 : Fin 1) := Subsingleton.elim (α := Fin 1) a 0
  subst ha
  rw [LoadRect.idx_apply]
  show k0_off3 k 0 + 1 * x.val = 16 * k.val + x.val
  rw [k0_off3_eq]; simp

/-- The indexed store of ones through the trip's active lanes adds exactly the offsets the trip's positions mark. -/
theorem scatter_step (s0 : BitVec 32) (fI : Buf (Elt F) ((thr d L).loc cc0_scratch0)) (k : Fin k0_t2_loop.trips)
    (fb2 : Buf (Elt F) ((thr d L).loc cc0_scratch1))
    (hfb2 : ∀ j : S1024.Idx, fb2 j = Cert.MaskSpec.bufAfter (oneE : Elt F .f32) zeroE s0 (ivOf d L fI) (16 * k.val) (c0 j))
    (h : ∀ a x, ((![k0_pay5 (F := F) s0 (lanes d L k fI)] : Fin 1 → IVec S16 32) a x).toNat < S1024.size a) (j : S1024.Idx) :
    storeIdx (F := F) (e := .f32) fb2 ![k0_pay5 (F := F) s0 (lanes d L k fI)] (k0_pay2 (F := F)) (k0_pay4 (F := F) s0 (lanes d L k fI)) false h j
      = Cert.MaskSpec.bufAfter (oneE : Elt F .f32) zeroE s0 (ivOf d L fI) (16 * (k.val + 1)) (c0 j) := by
  classical
  have hk : k.val < 256 := by have := k.isLt; have := trips2; unfold Scf.Loop.trips at *; omega
  rw [Cert.MaskSpec.storeIdx_const fb2 _ (k0_pay2 (F := F)) _ h oneE (fun _ => rfl) j, hfb2 j,
    ← Cert.MaskSpec.bufAfter_step oneE zeroE s0 (ivOf d L fI) k.val (by omega)
      (fun x => lanes d L k fI (Shape.ofLane x)) (fun x => lanes_apply (F := F) d L k fI x (by have := x.isLt; omega)) (c0 j)]
  refine Cert.MaskSpec.ite_iff_congr ⟨?_, ?_⟩ _ _
  · rintro ⟨x, h1, h2⟩; exact ⟨x, h1, h2 0⟩
  · rintro ⟨x, h1, h2⟩
    refine ⟨x, h1, fun a => ?_⟩
    have ha : a = (0 : Fin 1) := Subsingleton.elim (α := Fin 1) a 0
    subst ha; exact h2

theorem pts_sB_storeIdx (fb : Buf (Elt F) ((thr d L).loc cc0_scratch1)) (idxs : Fin S1024.rank → IVec S16 32) (v : Vec F S16 .f32)
    (mask : IVec S16 1) (h : ∀ a x, (idxs a x).toNat < S1024.size a) :
    ((((sB).access (.whole S1024)).loc (thr d L)) ↦[((sB).access (.whole S1024)).set]{fullShare}
        (((sB).access (.whole S1024)).write (Elt F) fb
          (storeIdx (((sB).access (.whole S1024)).read (Elt F) fb) idxs v mask false h) Finset.univ) : sProp 𝕄)
      = ((sB).view.loc (thr d L) ↦{fullShare} storeIdx (F := F) (e := .f32) fb idxs v mask false h) := by
  have h1 : ((sB).access (.whole S1024)).read (Elt F) fb = fb := Memref.read_access_whole (Elt F) cc0_scratch1 fb
  rw [h1]
  have h2 : ((sB).access (.whole S1024)).write (Elt F) fb (storeIdx (F := F) (e := .f32) fb idxs v mask false h) Finset.univ
      = storeIdx (F := F) (e := .f32) fb idxs v mask false h := Memref.write_access_whole_univ (Elt F) cc0_scratch1 fb _
  rw [h2, pts_sB_access]

/-- What the task leaves at entry `y` of its segment: a one exactly when one of its batch's positions marks `y`. -/
def segRaw (d : Dev nD) (L : grid0.Coords) (y : S1024.Idx) : Elt F .f32 :=
  Cert.MaskSpec.bufAfter (oneE : Elt F .f32) zeroE (BitVec.ofNat 32 (k0_off4 L 1))
    (fun r => m (iLoc d) ((iRow L).view.emb (ValueIdx.ix1 r))) 4096 (c0 y)

theorem tile_body (hF : (K (F := F)).Facts) (q : PosShare TreeShare) (O : CellTallies nD τ sig (HIx 1)) (W : Waits sig (HIx 1)) (hO : ∀ g, O g none = 0)
    (f0 : Buf (Elt F) (mLoc d)) :
    iprop(levAts (K (F := F)).L (K (F := F)).lev ∗ emp
        ∗ (iPts m q d ∗ segPts d L f0)
        ∗ scopedBufs (thr d L) ∗ scopedSems0 (thr d L) ∗ owes (thr d L) O W)
      ⊢ wp frame (wpE (defs₀ (F := F)) 𝒱₀ (thr d L) none) Set.univ
          (cc0__mask_body L iW (Memref.isWhole_whole _) mW (Memref.isWhole_whole _) sI (Memref.isWhole_whole _) sB (Memref.isWhole_whole _) cc0_scoped0 cc0_scoped1)
          fun _ => iprop((iPts m q d ∗ ∃ f, ⌜∀ y : S1024.Idx, f ((mSeg L).view.emb y) = segRaw m d L y⌝ ∗ segPts d L f)
            ∗ scopedBufs (thr d L) ∗ scopedSems0 (thr d L) ∗ ∃ W', ⌜∀ p ∈ W', p ∈ W ∨ p.2 = none⌝ ∗ owes (thr d L) O W') := by
  simp only [cc0__mask_body_eq_skeleton]; unfold cc0__mask_body_skel
  rw [(K (F := F)).scopedBufs_V hF d (cV L) (jV L), SparseCore.Cfg.scopedSems0_V (Val := Elt F) d (cV L) (jV L), ownSems0_V, ownBufs_V]
  iintro ⟨#Hlv, -, ⟨Hi, Hm⟩, ⟨⟨%fs, Hs⟩, ⟨%fb, Hb⟩, Hbufs⟩, ⟨Hsem0, Hsem1, Hsems⟩, HO⟩
  ihave Hmw := ((K (F := F)).mayWaits_none (thr := thr d L) hO) $$ Hlv
  ihave Hi' := (Entails.of_eq (pts_i (F := F) d L q _).symm) $$ Hi
  ihave Hs' := (Entails.of_eq (pts_sI (F := F) d L _).symm) $$ Hs
  ihave Hb' := (Entails.of_eq (pts_sB (F := F) d L _).symm) $$ Hb
  ihave Hm' := (Entails.of_eq (pts_seg (F := F) d L _).symm) $$ Hm
  sl_exec
  sl_for (inv1 (F := F) d L) $$ [Hb']
  case region =>
    intro k _
    unfold inv1
    iintro ⟨%fb1, %hfb1, Hb⟩
    sl_exec
    sl_step
    iexists _; isplitr
    · ipureintro; exact clear_step (F := F) d L k fb1 hfb1
    · iexact Hb
  · unfold inv1
    iexists fb; isplitr
    · ipureintro; intro j hj; omega
    · iexact Hb'
  iintro %_ HI
  unfold inv1
  icases HI with ⟨%fb1, %hfb1, Hb⟩
  sl_for (inv2 (F := F) d L (tile_body.sl.v29 L) (View.write (Elt F) (sI).view fs (tile_body.sl.dma0 m d L) Finset.univ)) $$ [Hb Hs']
  case region =>
    intro k _
    unfold inv2
    iintro ⟨⟨%fb2, %hfb2, Hb⟩, Hs⟩
    sl_exec (disch := exact chk_all (F := F) _ _)
    ihave Hb' := (Entails.of_eq (pts_sB_access (F := F) d L _).symm) $$ Hb
    iapply (SparseCore.wp_vectorStoreIdx 𝒱₀ (thr d L) none Set.univ (base := sB)) $$ Hb'; iintro Hb'
    ihave Hb := (Entails.of_eq (pts_sB_storeIdx (F := F) d L fb2 _ _ _ _)) $$ Hb'
    sl_step
    isplitl [Hb]
    · iexists _; isplitr
      rotate_left
      · iexact Hb
      · ipureintro; intro j; exact scatter_step (F := F) d L _ _ k fb2 hfb2 _ j
    · iexact Hs
  · unfold inv2
    isplitl [Hb]
    · iexists fb1; isplitr
      · ipureintro; intro j
        exact (hfb1 j (by have h1 : (j 0).val < 1024 := (j 0).isLt; have h3 := trips1; omega)).trans
          (Cert.MaskSpec.bufAfter_zero (oneE : Elt F .f32) zeroE _ _ (c0 j)).symm
      · iexact Hb
    · iexact Hs'
  iintro %_ HI
  unfold inv2
  icases HI with ⟨⟨%fb2, %hfb2, Hb⟩, Hs⟩
  sl_exec
  sl_step
  isplitl [Hi' Hm']
  · isplitl [Hi']
    · iapply (Entails.of_eq (pts_i (F := F) d L q _)); iexact Hi'
    · iexists _; isplitr
      rotate_left
      · iapply (Entails.of_eq (pts_seg (F := F) d L _)); iexact Hm'
      · ipureintro; intro y
        have hv29 : ∀ L' : grid0.Coords, tile_body.sl.v29 L' = BitVec.ofNat 32 (k0_off4 L' 1) := by decide +kernel
        have h1 := View.read_writes_cons_emb (mSeg L).view f0 (Rect.whole S1024) (tile_body.sl.dma0_1 d L fb2) [] y
        rw [Rect.emb_whole_apply, View.read_apply] at h1
        refine (cast_eq _ _).symm.trans (h1.trans ?_)
        unfold tile_body.sl.dma0_1
        show fb2 y = _
        rw [hfb2 y, hv29 L]
        unfold segRaw
        have ht : 16 * Scf.trips k0_t2_loop.lb k0_t2_loop.ub k0_t2_loop.st = 4096 := by rw [trips2]
        rw [ht]
        congr 1
        funext r
        unfold ivOf tile_body.sl.dma0
        rw [View.write_whole_univ]
        show View.read (Elt F) (iRow L).view (m (iLoc d)) (ValueIdx.ix1 r) = _
        rw [View.read_apply]; exact cast_eq _ _
  isplitl [Hs Hb Hbufs]
  · isplitl [Hs]; · iexists _; iexact Hs
    isplitl [Hb]; · iexists _; iexact Hb
    iexact Hbufs
  isplitl [Hsem0 Hsem1 Hsems]
  · isplitl [Hsem0]; · iexact Hsem0
    isplitl [Hsem1]; · iexact Hsem1
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact .inl hp

end Tile

end Cert.Proof.KI

end
-- ==== Proof.LnDefs.lean ====
/-
  The layer-normalisation region's result as a pure function of the blocks it reads.

  At a grid point the body reads a block of 512 positions of the hidden states (each position four rows of 1024
  numbers), the matching 4 x 512 block of the 0/1 mask, and the scale and shift rows. Position `k` of the result
  block is, row by row, the normalised row where the mask exceeds one half and the input row elsewhere.
-/
import proofs.«214348_g62886911148048_cont_9to1c4b_763_21_alg».proof.Proof.Gen.KernelIdeal.Skeleton
import Idealize.ShloMosaic.Lib.Pipeline.FrameBody

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Column `k` of the mask block is a 4 x 1 slice of it. -/
theorem slices_mask (k : ℕ) (hk : k < 512) : S4x512.Slices ![0, k] S4x1 :=
  ⟨rfl, fun a => by
    fin_cases a
    · show 0 + 4 ≤ 4; omega
    · show k + 1 ≤ 512; omega⟩

/-- Position `k` of a block of 512 positions is a 1 x 4 x 1024 slice of it. -/
theorem slices_row (k : ℕ) (hk : k < 512) : S512x4x1024.Slices ![k, 0, 0] S1x4x1024 :=
  ⟨rfl, fun a => by
    fin_cases a
    · show k + 1 ≤ 512; omega
    · show 0 + 4 ≤ 4; omega
    · show 0 + 1024 ≤ 1024; omega⟩

/-- Position `k` of a block of 512 positions is a unit rectangle of it. -/
theorem inb_row (k : ℕ) (hk : k < 512) : ∀ a, (![k, 0, 0] : Fin 3 → Nat) a + S1x4x1024.size a ≤ S512x4x1024.size a := fun a => by
  fin_cases a
  · show k + 1 ≤ 512; omega
  · show 0 + 4 ≤ 4; omega
  · show 0 + 1024 ≤ 1024; omega

/-- What is stored at position `k` of the result block, from the input block `v0`, the mask block `v2` and the block of
    normalised rows `v33`: per row, the normalised row where the mask's entry for (row, `k`) exceeds one half, the input
    row elsewhere. -/
def rowPay (v0 : Vec F S512x4x1024 .f32) (v2 : FVec F S4x512 .f32) (v33 : FVec F S512x4x1024 .f32) (k : ℕ) (hk : k < 512) :
    FVec F S1x4x1024 .f32 :=
  shapeCast S1x4x1024
    (select
      (broadcastTo S4x1024
        (shapeCast S4x1 (cmpf .ogt (extractStridedSlice S4x1 ![0, k] v2 (slices_mask k hk)) (broadcast S4x1 (Scalar.ofBits .f32 0x3F000000#32)))
          shapeCasts_S4x1_S4x1)
        broadcasts_S4x1_S4x1024)
      (shapeCast S4x1024 (extractStridedSlice S1x4x1024 ![k, 0, 0] v33 (slices_row k hk)) shapeCasts_S1x4x1024_S4x1024)
      (shapeCast S4x1024 (extractStridedSlice S1x4x1024 ![k, 0, 0] v0 (slices_row k hk)) shapeCasts_S1x4x1024_S4x1024))
    shapeCasts_S4x1024_S1x4x1024

/-- An index of the block, read as an index of its position's 1 x 4 x 1024 slice. -/
def rowIdx (y : S512x4x1024.Idx) : S1x4x1024.Idx := fun a =>
  match a with
  | ⟨0, _⟩ => ⟨0, by show 0 < 1; omega⟩
  | ⟨1, _⟩ => y 1
  | ⟨2, _⟩ => y 2

/-- The unit rectangle of position `k`. -/
abbrev rowRect (k : ℕ) (hk : k < 512) : Rect S512x4x1024 := Rect.unit (s := S512x4x1024) ![k, 0, 0] S1x4x1024.size (inb_row k hk)

/-- An index lies in the rectangle of its own position, at its `rowIdx`. -/
theorem emb_rowIdx (y : S512x4x1024.Idx) : (rowRect (y 0).val (y 0).isLt).emb (rowIdx y) = y := by
  funext a
  apply Fin.ext
  rw [Rect.emb_apply]
  fin_cases a
  · show (y 0).val + 1 * 0 = (y 0).val; omega
  · show 0 + 1 * (y 1).val = (y 1).val; omega
  · show 0 + 1 * (y 2).val = (y 2).val; omega

/-- THE RESULT BLOCK: from the mask block `mb`, the input block `xb`, the scale row `gb` and the shift row `bb`. -/
def lnBlk (mb : Vec F S4x512 .f32) (xb : Vec F S512x4x1024 .f32) (gb bb : Vec F S1x1024 .f32) : Vec F S512x4x1024 .f32 :=
  fun y => rowPay xb (k1_pay1 mb) (k1_pay2 xb gb bb) (y 0).val (y 0).isLt (rowIdx y)

end Cert.KernelIdeal.Ln

end
-- ==== Proof.LnDat.lean ====
/-
  The proof data of the layer-normalisation region on one device: the five arrays at the contents the region is entered
  with, and what each window's staging buffer holds after the body at a grid point — the four inputs' buffers their
  blocks, the result's buffer the result block `lnBlk` of those four blocks.
-/
import proofs.«214348_g62886911148048_cont_9to1c4b_763_21_alg».proof.Proof.LnDefs
import proofs.«214348_g62886911148048_cont_9to1c4b_763_21_alg».proof.Proof.Gen.KernelIdeal.Launch
import proofs.«214348_g62886911148048_cont_9to1c4b_763_21_alg».proof.Proof.Gen.KernelIdeal.Points
import Idealize.ShloMosaic.Lib.Pipeline.FrameBody
import Idealize.ShloMosaic.Lib.Pipeline.Regions
import Idealize.ShloMosaic.Lib.SparseCore.Launch

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable {U : Type} [URA U]

local notation "ℍ" => SparseCore.Cfg.HIx 1
local notation "𝕄" => MT nD τ sig (SparseCore.Cfg.HIx 1) (Elt F) ℕ U ℕ

/-- What the five arrays hold, device by device, when the region is entered: the mask, the hidden states, the scale and
    shift rows, the result array (at anything), and the pairs its waits have recorded so far. -/
structure Entry (F : FTy → Type) where
  M : Dev nD → Vec F S4x8192 .f32
  X : Dev nD → Vec F S8192x4x1024 .f32
  G : Dev nD → Vec F S1x1024 .f32
  B : Dev nD → Vec F S1x1024 .f32
  O : Dev nD → Vec F S8192x4x1024 .f32
  /-- The (semaphore, index) pairs the thread's waits have recorded before the region. -/
  W : Dev nD → Waits sig (SparseCore.Cfg.HIx 1)

variable (e : Entry F)

/-- The arrays at entry, window by window. -/
def arrA (c : Dev nD) (w : Fin cfg1.W) : Buf (Elt F) ((cfg1.win w).arr.view.loc (c.tc : Thread nD τ)) :=
  match w with
  | ⟨0, _⟩ => e.M c
  | ⟨1, _⟩ => e.X c
  | ⟨2, _⟩ => e.G c
  | ⟨3, _⟩ => e.B c
  | ⟨4, _⟩ => e.O c

/-- Window `w`'s block at point `t`, read off its array at entry. -/
def iblk (c : Dev nD) (w : Fin cfg1.W) (t : Fin cfg1.N) : ((cfg1.win w).xblock (cfg1.grid.coords t)).Idx → Elt F (cfg1.win w).elt :=
  ((cfg1.win w).blk t).view.read (Elt F) (arrA e c w)

/-- The proof data: the arrays at entry; after the body each input's buffer at its block and the result's at `lnBlk` of
    the input blocks; no invariant; nothing owed; the recorded pairs those at entry (the body waits for nothing); full shares. -/
def dat1 (c : Dev nD) : Dat τ (Elt F) ℍ ℕ U ℕ cfg1 c where
  A w := arrA e c w
  after w t := match w with
    | ⟨0, _⟩ => iblk e c 0 t
    | ⟨1, _⟩ => iblk e c 1 t
    | ⟨2, _⟩ => iblk e c 2 t
    | ⟨3, _⟩ => iblk e c 3 t
    | ⟨4, _⟩ => lnBlk (iblk e c 0 t) (iblk e c 1 t) (iblk e c 2 t) (iblk e c 3 t)
  Φ _ := iprop(emp)
  q _ := fullShare
  owed _ := 0
  recorded _ := ↑(e.W c)

abbrev adm : (p : Fin 1) → (pcfgs (F := F) p).Adm := fun p => (cfgs p).toPCfg_adm

/-- The same, as the family over the program's pipelines (there is one). -/
def pdats : (p : Fin 1) → (c : Dev nD) → Dat τ (Elt F) ℍ ℕ U ℕ (Pipeline.pin (pcfgs (F := F)) adm p) c
  | 0 => dat1 (U := U) e

theorem A_eq (c : Dev nD) (w : Fin cfg1.W) : (dat1 (U := U) e c).A w = arrA e c w := by dsimp only [dat1]
theorem after1_0 (c : Dev nD) (t : Fin cfg1.N) : (dat1 (U := U) e c).after 0 t = iblk e c 0 t := by dsimp only [dat1]
theorem after1_1 (c : Dev nD) (t : Fin cfg1.N) : (dat1 (U := U) e c).after 1 t = iblk e c 1 t := by dsimp only [dat1]
theorem after1_2 (c : Dev nD) (t : Fin cfg1.N) : (dat1 (U := U) e c).after 2 t = iblk e c 2 t := by dsimp only [dat1]
theorem after1_3 (c : Dev nD) (t : Fin cfg1.N) : (dat1 (U := U) e c).after 3 t = iblk e c 3 t := by dsimp only [dat1]
theorem after1_4 (c : Dev nD) (t : Fin cfg1.N) :
    (dat1 (U := U) e c).after 4 t = lnBlk (iblk e c 0 t) (iblk e c 1 t) (iblk e c 2 t) (iblk e c 3 t) := by dsimp only [dat1]

end Cert.KernelIdeal.Ln

end
-- ==== Proof.LaunchKI.lean ====
/-
  The launch of the mask kernel on the two SparseCores' thirty-two vector subcores. Every task reads its batch's list out
  of the positions' array, which eight tasks share: the array goes out as read shares, one per SparseCore and, of that,
  one per task; nothing of it needs to come back, a share kept by the TensorCore witnesses that it never changes. The
  mask goes out in thirty-two disjoint segments, one per task, and comes back with each segment at what its task left.
-/
import proofs.«214348_g62886911148048_cont_9to1c4b_763_21_alg».proof.Proof.MaskTileKI
import proofs.«214348_g62886911148048_cont_9to1c4b_763_21_alg».proof.Proof.LnDat

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

variable [FloatOps F]

theorem nCore_zero : (K (F := F)).nCore 0 = 2 := rfl
theorem nSub_zero : (K (F := F)).nSub 0 = 16 := rfl

/-- The task of subcore `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- SparseCore `c`'s share of the positions' array, and task `i`'s share of that. -/
abbrev qC (c : Fin 2) : PosShare TreeShare := shareTok fullShare 2 c
abbrev qT (c : Fin 2) (i : Fin 16) : PosShare TreeShare := shareTok (qC c) 16 i

/-- What a task is handed, and what it hands back. -/
abbrev goRes (d : Dev nD) (c : Fin 2) (i : Fin 16) : sProp 𝕄 :=
  iprop(iPts m (qT c i) d ∗ segPts d (coordsV c i) (m (mLoc d)))
abbrev tdRes (d : Dev nD) (c : Fin 2) (i : Fin 16) : sProp 𝕄 :=
  iprop(iPts m (qT c i) d ∗ ∃ f, ⌜∀ y : S1024.Idx, f ((mSeg (coordsV c i)).view.emb y) = segRaw m d (coordsV c i) y⌝ ∗ segPts d (coordsV c i) f)

def P : (K (F := F)).Pay (nD := nD) (Val := Elt F) (Name := ℕ) (U := UU) where
  st := fun q d c => match q with
    | 0 => iprop(iPts m (qC (Fin.cast nCore_zero c)) d ∗ bigSep Finset.univ fun i : Fin 16 => segPts d (coordsV (Fin.cast nCore_zero c) i) (m (mLoc d)))
  dn := fun q d c => match q with
    | 0 => bigSep Finset.univ fun i : Fin 16 => tdRes m d (Fin.cast nCore_zero c) i
  go := fun q d c i => match q with
    | 0 => goRes m d (Fin.cast nCore_zero c) (Fin.cast nSub_zero i)
  td := fun q d c i => match q with
    | 0 => tdRes m d (Fin.cast nCore_zero c) (Fin.cast nSub_zero i)
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

theorem defs₀_vector (c : Fin τ.nSC) (s : Fin τ.nSub) :
    defs₀ (F := F) (.scVector c s) 0 ()
      = SparseCore.onTile hcore0 hsub0 (fun c s => cc0__mask_body (coordsV c s)
          (Memref.whole main_arg1_scv) (Memref.isWhole_whole _) (Memref.whole main_v0_scv) (Memref.isWhole_whole _)
          (Memref.whole cc0_scratch0) (Memref.isWhole_whole _) (Memref.whole cc0_scratch1) (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF _ O W hO _).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share of the positions' array splits into its sixteen tasks' shares; each task takes one with its own
    segment of the mask; what the tasks hand back is what the SparseCore hands back. -/
theorem vecSplit : (K (F := F)).VecSplit' (P m) 0 := by
  intro d c
  show iprop(iPts m (qC (Fin.cast nCore_zero c)) d ∗ bigSep Finset.univ fun i : Fin 16 => segPts d (coordsV (Fin.cast nCore_zero c) i) (m (mLoc d)))
    ⊢ |={Set.univ}=> iprop((bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ bigSep Finset.univ fun i : Fin 16 => tdRes m d (Fin.cast nCore_zero c) i))
  rw [bigSep_tasks (F := F) (fun i => goRes m d (Fin.cast nCore_zero c) i), bigSep_tasks (F := F) (fun i => tdRes m d (Fin.cast nCore_zero c) i)]
  iintro ⟨Hi, Hsegs⟩
  ihave Hi' := (Transfers.pointsTo_toks_split (qC (Fin.cast nCore_zero c)) 16) $$ Hi
  icases Hi' with ⟨-, Htoks⟩
  imodintro
  isplitl [Htoks Hsegs]
  · rw [bigSep_sep']
    isplitl [Htoks]; · iexact Htoks
    iexact Hsegs
  · iintro H; iexact H

/-! ## The launch element: the handshakes' rounds, the pipeline's staging cells' rounds; no cell of the kernel's own -/

/-- The staging cells' rounds, as a factor of the user algebra. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

abbrev pinned : Fin 1 → Pipeline.Cfg sig Λ₀ := Pipeline.pin (pcfgs (F := F)) Cert.KernelIdeal.Ln.adm

def u₀ : UU :=
  (initOf (K (F := F)).hsCells (K (F := F)).hsToks,
    (initOf (Pipeline.cells (pinned (F := F)) cellOf_inj) (Pipeline.launchToks (pinned (F := F)) cellOf_inj), 1))

/-- What the launch deals a device for the region: its staging cells' ghost state and duty tokens. -/
abbrev GD (d : Dev nD) : sProp 𝕄 :=
  iprop(Pipeline.cellsGhost (pinned (F := F)) EP 0 d ∗ Pipeline.toksInit (pinned (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GD (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (pinned (F := F)) EP cellOf_inj) $$ HP with ⟨Hg, Ht⟩
  imodintro
  isplitl [HH]; · iexact HH
  isplitl [Hg Ht]
  · unfold GD
    rw [bigSep_sep']
    isplitl [Hg]
    · ihave Hg' := (Entails.of_eq (bigSep_congr fun d _ => (bigSep_univ_of_subsingleton (0 : Fin 1)))) $$ Hg
      iexact Hg'
    · ihave Ht' := (Entails.of_eq (bigSep_congr fun d _ => (bigSep_univ_of_subsingleton (0 : Fin 1)))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.LnEntryCore.lean ====
/-
  Entering the layer-normalisation region from the TensorCore's thread of a program that also runs a SparseCore kernel:
  from the region-boundary holdings, the pipeline's launch ghost state for its staging cells, the five arrays held whole
  and the thread owing nothing, the region's call runs to the boundary again with the four inputs unchanged and the
  result array at what the proof data computes. The body obligation is a hypothesis here.
-/
import proofs.«214348_g62886911148048_cont_9to1c4b_763_21_alg».proof.Proof.LnDat

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable {U : Type} [URA U]

local notation "ℍ" => SparseCore.Cfg.HIx 1
local notation "𝕄" => MT nD τ sig (SparseCore.Cfg.HIx 1) (Elt F) ℕ U ℕ

variable (e : Entry F) (L : GSem nD τ sig → Finset ℍ) (lv : GSem nD τ sig → ℍ → ℕ)

/-- A TensorCore buffer held whole at the full share. -/
abbrev pl (c : Dev nD) (b : Ref sig .tc) (f : Buf (Elt F) ((c : Thread nD τ).loc b)) : sProp 𝕄 :=
  (((c : Thread nD τ).loc b) ↦{fullShare} f)

/-- The region's arrays at contents `Fa` are the five buffers held. -/
theorem arrays_eq (c : Dev nD) (Fa) : ((pdats (U := U) e 0 c).arrays Fa : sProp 𝕄)
    = iprop(pl c main_v0 (Fa 0) ∗ pl c main_arg0 (Fa 1) ∗ pl c main_v1 (Fa 2) ∗ pl c main_v2 (Fa 3) ∗ pl c main_v3 (Fa 4)) := by
  rw [Pipeline.arrays_eq (Pipeline.pin (pcfgs (F := F)) adm) (pdats e) 0 c launch1.arr_whole ((pdats e 0 c).share_full fun _ => rfl) Fa, bigSep_W1]

/-- What the thread holds of the region's arrays before it, -/
def regPre (c : Dev nD) : sProp 𝕄 :=
  iprop(pl c main_v0 (e.M c) ∗ pl c main_arg0 (e.X c) ∗ pl c main_v1 (e.G c) ∗ pl c main_v2 (e.B c) ∗ pl c main_v3 (e.O c)
    ∗ owes (c : Thread nD τ) (0 : CellTallies nD τ sig ℍ) (e.W c))

/-- and after it: the pairs its waits have recorded are those at entry and pairs at the index `none`. -/
def regPost (c : Dev nD) : sProp 𝕄 :=
  iprop(pl c main_v0 ((dat1 (U := U) e c).arrAt 0 cfg1.N) ∗ pl c main_arg0 ((dat1 (U := U) e c).arrAt 1 cfg1.N)
    ∗ pl c main_v1 ((dat1 (U := U) e c).arrAt 2 cfg1.N) ∗ pl c main_v2 ((dat1 (U := U) e c).arrAt 3 cfg1.N)
    ∗ pl c main_v3 ((dat1 (U := U) e c).arrAt 4 cfg1.N)
    ∗ ∃ W', ⌜∀ p ∈ W', p ∈ e.W c ∨ p.2 = none⌝ ∗ owes (c : Thread nD τ) (0 : CellTallies nD τ sig ℍ) W')

/-- THE REGION as the library's record: the five arrays into the pipeline, nothing beside. -/
def reg1 (hbody : ∀ c, BodyObligationLoose (pdats (U := U) e 0 c) (defs₀ (F := F)) Variants.none none Set.univ) :
    Pipeline.RegionSeg (pcfgs (F := F)) adm (pdats (U := U) e) none defs₀ Variants.none L lv 0 where
  win := launch1.win.to₀
  block_pos := launch1.block_pos
  stage_whole := launch1.stage_whole
  K := PEmpty
  osem k := k.elim
  ho := Pipeline.OwnSemFacts.none _
  hbody := hbody
  hwaits c := (show (levAts L lv : sProp 𝕄) ⊢ BI.emp from by iintro -; iempintro).trans
    (Pipeline.cellsWaits_of_owed_zero _ (pdats e) none 0 c fun _ => rfl)
  pre := regPre e
  post := regPost e
  X _ := iprop(emp)
  Y _ := iprop(emp)
  Z _ := iprop(emp)
  hentry c := by
    rw [Pipeline.ownSems0_none, arrays_eq]
    unfold regPre
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      iexists (e.W c); isplitr; · ipureintro; exact fun _ hp => Or.inl hp
      iexact HO
    isplitr <;> iempintro
  hin c := by iintro -; iempintro
  hout c := by
    rw [Pipeline.ownSems0_none, scopedRest1_eq]
    iintro -; isplitr; · iempintro
    isplitr <;> iempintro
  hexit c := by
    rw [arrays_eq]
    unfold regPost
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    unfold Pipeline.Dat.owesAt Pipeline.owesWithin
    icases HO with ⟨%W, %hW, HO⟩; iexists W
    isplitr
    · ipureintro
      intro p hp
      rcases hW hp with h | ⟨w, s, rfl⟩
      · exact Or.inl h
      · exact Or.inr rfl
    iexact HO

variable (EP : Emb (URounds (GSem nD τ sig) Unit) (MT nD τ sig (SparseCore.Cfg.HIx 1) (Elt F) ℕ U ℕ))

set_option maxHeartbeats 1600000 in
set_option backward.isDefEq.respectTransparency.types false in
/-- The entry in the pipeline library's own signature, the body obligation assumed. -/
theorem entry_core0 [EP.LandsIn (upEmb : UEmb _ 𝕄)]
    (hbody : ∀ c, BodyObligationLoose (pdats (U := U) e 0 c) (defs₀ (F := F)) Variants.none none Set.univ) (d : Dev nD) :
    iprop(boundary (d.tc : Thread nD τ) ∗ levAts L lv
        ∗ Pipeline.cellsGhost (Pipeline.pin (pcfgs (F := F)) adm) EP 0 d ∗ Pipeline.toksInit (Pipeline.pin (pcfgs (F := F)) adm) EP 0 d
        ∗ regPre e d)
      ⊢ wp frame (wpE (Pipeline.defs (pcfgs (F := F)) defs₀) (Variants.lift Variants.none) (d.tc : Thread nD τ) none) Set.univ
          (Prog.lift (.customCall (Pipeline.entry 0) ()))
          (fun _ => iprop(boundary (d.tc : Thread nD τ) ∗ regPost e d)) := by
  have h := Pipeline.RegionSeg.wp (pcfgs (F := F)) adm (pdats e) none cellOf_inj EP defs₀ Variants.none L lv (reg1 e L lv hbody) d none
    (fun _ h => by cases h) (fun _ => Prog.ret PUnit.unit) (fun _ => iprop(boundary (d.tc : Thread nD τ) ∗ regPost e d))
  rw [show (reg1 e L lv hbody).post d = regPost e d from rfl, show (reg1 e L lv hbody).pre d = regPre e d from rfl] at h
  refine BIBase.Entails.trans ?_ h
  iintro ⟨Hb, Hl, Hg, Ht, Hpre⟩
  isplitr
  · iintro ⟨Hb, Hpost⟩
    rw [wp_ret]
    imodintro
    isplitl [Hb]; · iexact Hb
    iexact Hpost
  isplitl [Hb]; · iexact Hb
  isplitl [Hpre]; · iexact Hpre
  isplitl [Hl]; · iexact Hl
  isplitl [Hg]; · iexact Hg
  iexact Ht

/-- The region's call, lifted to the signature extended by the SparseCore launch's labels, is the call the program makes. -/
theorem lift_call : SparseCore.liftProg (Q := 1)
      (Prog.lift (.customCall (Pipeline.entry 0) ()) : Prog (TpuEff nD τ sig (Elt F) (Pipeline.Sig Λ₀ (Fin 1) fun p => (pcfgs (F := F) p).Adm) .tc) PUnit)
    = Prog.lift (.customCall (SparseCore.inner (Pipeline.entry 0)) ()) := rfl

set_option backward.isDefEq.respectTransparency.types false in
/-- THE ENTRY, the body obligation assumed. -/
theorem entry_core [EP.LandsIn (upEmb : UEmb _ 𝕄)]
    (hbody : ∀ c, BodyObligationLoose (pdats (U := U) e 0 c) (defs₀ (F := F)) Variants.none none Set.univ) (d : Dev nD) :
    iprop(boundary (d.tc : Thread nD τ) ∗ levAts L lv
        ∗ Pipeline.cellsGhost (Pipeline.pin (pcfgs (F := F)) adm) EP 0 d ∗ Pipeline.toksInit (Pipeline.pin (pcfgs (F := F)) adm) EP 0 d
        ∗ regPre e d)
      ⊢ wp frame (wpE ((sc (F := F)).defs (Pipeline.defs pcfgs defs₀)) (Variants.lift Variants.none) (d.tc : Thread nD τ) none) Set.univ
          (Prog.lift (.customCall (SparseCore.inner (Pipeline.entry 0)) ()))
          (fun _ => iprop(boundary (d.tc : Thread nD τ) ∗ regPost e d)) := by
  have h := (sc (F := F)).wp_liftProg (Name := ℕ) (U := U) (Pipeline.defs pcfgs defs₀) (Variants.lift Variants.none) (d.tc : Thread nD τ) Set.univ none
    (Prog.lift (.customCall (Pipeline.entry 0) ())) (fun _ => iprop(boundary (d.tc : Thread nD τ) ∗ regPost e d))
  rw [lift_call] at h
  exact BIBase.Entails.trans (entry_core0 e L lv EP hbody d) h

end Cert.KernelIdeal.Ln

end
-- ==== Proof.LnArr.lean ====
/-
  From blocks to the array: the result array after the region is ONE function `lnArr` of the mask, the hidden states and
  the scale and shift rows. Row `r` of the array lies in block `r / 512`; that block is `lnBlk` of the mask's columns
  `512 (r / 512) …`, the hidden states' rows `512 (r / 512) …`, and the two rows.
-/
import proofs.«214348_g62886911148048_cont_9to1c4b_763_21_alg».proof.Proof.LnDat
import Idealize.ShloMosaic.Lib.ValueIdx
import Idealize.ShloMosaic.Lib.Pipeline.Value

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
variable {F : FTy → Type} [FloatOps F]

variable {U : Type} [URA U]

local notation "ℍ" => SparseCore.Cfg.HIx 1
local notation "𝕄" => MT nD τ sig (SparseCore.Cfg.HIx 1) (Elt F) ℕ U ℕ

/-- Columns `512 q, …, 512 q + 511` of the mask. -/
def maskBlk (M : Vec F S4x8192 .f32) (q : ℕ) (hq : q < 16) : Vec F S4x512 .f32 :=
  fun j => M (ix2 (n0 := 4) (n1 := 8192) ⟨(j 0).val, (j 0).isLt⟩ ⟨512 * q + (j 1).val, by have := (j 1).isLt; show 512 * q + (j 1).val < 8192; have h1 : (j 1).val < 512 := this; omega⟩)

/-- Rows `512 q, …, 512 q + 511` of the hidden states. -/
def xBlk (X : Vec F S8192x4x1024 .f32) (q : ℕ) (hq : q < 16) : Vec F S512x4x1024 .f32 :=
  fun j => X (ix3 (n0 := 8192) (n1 := 4) (n2 := 1024) ⟨512 * q + (j 0).val, by have h0 : (j 0).val < 512 := (j 0).isLt; omega⟩ ⟨(j 1).val, (j 1).isLt⟩ ⟨(j 2).val, (j 2).isLt⟩)

/-- A row number's block. -/
theorem div_lt (i : S8192x4x1024.Idx) : (i 0).val / 512 < 16 := by
  have h : (i 0).val < 8192 := (i 0).isLt
  omega

/-- THE RESULT ARRAY: entry `(r, b, h)` is entry `(r % 512, b, h)` of the result block of block `r / 512`. -/
def lnArr (M : Vec F S4x8192 .f32) (X : Vec F S8192x4x1024 .f32) (G B : Vec F S1x1024 .f32) : Vec F S8192x4x1024 .f32 :=
  fun i => lnBlk (maskBlk M ((i 0).val / 512) (div_lt i)) (xBlk X ((i 0).val / 512) (div_lt i)) G B
    (ix3 (n0 := 512) (n1 := 4) (n2 := 1024) ⟨(i 0).val % 512, Nat.mod_lt _ (by omega)⟩ ⟨(i 1).val, (i 1).isLt⟩ ⟨(i 2).val, (i 2).isLt⟩)

/-- The block equation, as the definition reads. -/
theorem lnArr_apply (M : Vec F S4x8192 .f32) (X : Vec F S8192x4x1024 .f32) (G B : Vec F S1x1024 .f32) (i : S8192x4x1024.Idx) :
    lnArr M X G B i = lnBlk (maskBlk M ((i 0).val / 512) (div_lt i)) (xBlk X ((i 0).val / 512) (div_lt i)) G B
      (ix3 (n0 := 512) (n1 := 4) (n2 := 1024) ⟨(i 0).val % 512, Nat.mod_lt _ (by omega)⟩ ⟨(i 1).val, (i 1).isLt⟩ ⟨(i 2).val, (i 2).isLt⟩) := rfl

variable (e : Entry F)

/-- The printed index maps, decided over the grid: the mask's block moves along its columns, the hidden states' and the
    result's along their rows, with the point; the two rows stay. -/
theorem idx_facts : ∀ t : Fin cfg1.N, win1_0.index t (0 : Fin 2) = 0 ∧ win1_0.index t (1 : Fin 2) = t.val
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 ∧ t.val < 16 :=
  (by decide +kernel : ∀ t : Fin grid1.N, _)

/-- THE BLOCK EQUATION: at an index `i` whose row is `512 q + j 0` and whose other coordinates are `j`'s, the result array
    is the result block of block `q` at `j`. -/
theorem lnArr_emb (M : Vec F S4x8192 .f32) (X : Vec F S8192x4x1024 .f32) (G B : Vec F S1x1024 .f32) (q : ℕ) (hq : q < 16)
    (j : S512x4x1024.Idx) (i : S8192x4x1024.Idx) (h0 : (i 0).val = 512 * q + (j 0).val) (h1 : (i 1).val = (j 1).val) (h2 : (i 2).val = (j 2).val) :
    lnArr M X G B i = lnBlk (maskBlk M q hq) (xBlk X q hq) G B j := by
  have hj : (j 0).val < 512 := (j 0).isLt
  have hd : (i 0).val / 512 = q := by omega
  have hi : (ix3 (n0 := 512) (n1 := 4) (n2 := 1024) ⟨(i 0).val % 512, Nat.mod_lt _ (by omega)⟩ ⟨(i 1).val, (i 1).isLt⟩ ⟨(i 2).val, (i 2).isLt⟩ : S512x4x1024.Idx) = j := by
    funext a; apply Fin.ext
    match a with
    | ⟨0, _⟩ => show (i 0).val % 512 = (j 0).val; omega
    | ⟨1, _⟩ => exact h1
    | ⟨2, _⟩ => exact h2
  rw [lnArr_apply, hi]
  subst hd
  rfl

/-- The mask's block at point `t`: its columns `512 t …`. -/
theorem iblk0_eq (c : Dev nD) (t : Fin cfg1.N) (ht : t.val < 16) : iblk e c 0 t = maskBlk (e.M c) t.val ht := by
  obtain ⟨e0, e1, -⟩ := idx_facts t
  funext j
  show e.M c (((cfg1.win 0).blk t).view.emb j) = e.M c _
  congr 1
  funext a; apply Fin.ext
  match a with
  | ⟨0, _⟩ => show win1_0.index t (0 : Fin 2) * 4 + 1 * (j 0).val = (j 0).val; omega
  | ⟨1, _⟩ => show win1_0.index t (1 : Fin 2) * 512 + 1 * (j 1).val = 512 * t.val + (j 1).val; omega

/-- The hidden states' block at point `t`: their rows `512 t …`. -/
theorem iblk1_eq (c : Dev nD) (t : Fin cfg1.N) (ht : t.val < 16) : iblk e c 1 t = xBlk (e.X c) t.val ht := by
  obtain ⟨-, -, e2, e3, e4, -⟩ := idx_facts t
  funext j
  show e.X c (((cfg1.win 1).blk t).view.emb j) = e.X c _
  congr 1
  funext a; apply Fin.ext
  match a with
  | ⟨0, _⟩ => show win1_1.index t (0 : Fin 3) * 512 + 1 * (j 0).val = 512 * t.val + (j 0).val; omega
  | ⟨1, _⟩ => show win1_1.index t (1 : Fin 3) * 4 + 1 * (j 1).val = (j 1).val; omega
  | ⟨2, _⟩ => show win1_1.index t (2 : Fin 3) * 1024 + 1 * (j 2).val = (j 2).val; omega

/-- The scale row's block is the row. -/
theorem iblk2_eq (c : Dev nD) (t : Fin cfg1.N) : iblk e c 2 t = e.G c := by
  obtain ⟨-, -, -, -, -, e5, e6, -⟩ := idx_facts t
  funext j
  show e.G c (((cfg1.win 2).blk t).view.emb j) = e.G c j
  congr 1
  funext a; apply Fin.ext
  match a with
  | ⟨0, _⟩ => show win1_2.index t (0 : Fin 2) * 1 + 1 * (j 0).val = (j 0).val; omega
  | ⟨1, _⟩ => show win1_2.index t (1 : Fin 2) * 1024 + 1 * (j 1).val = (j 1).val; omega

/-- The shift row's block is the row. -/
theorem iblk3_eq (c : Dev nD) (t : Fin cfg1.N) : iblk e c 3 t = e.B c := by
  obtain ⟨-, -, -, -, -, -, -, e7, e8, -⟩ := idx_facts t
  funext j
  show e.B c (((cfg1.win 3).blk t).view.emb j) = e.B c j
  congr 1
  funext a; apply Fin.ext
  match a with
  | ⟨0, _⟩ => show win1_3.index t (0 : Fin 2) * 1 + 1 * (j 0).val = (j 0).val; omega
  | ⟨1, _⟩ => show win1_3.index t (1 : Fin 2) * 1024 + 1 * (j 1).val = (j 1).val; omega

/-- WHAT POINT `t` WRITES BACK is block `t` of `lnArr` of the arrays at entry. -/
theorem flushed4_eq (c : Dev nD) (t : Fin cfg1.N) :
    (dat1 (U := U) e c).flushed 4 t = ((cfg1.win 4).blk t).view.read (Elt F) (lnArr (e.M c) (e.X c) (e.G c) (e.B c)) := by
  show (cfg1.win 4).cut (grid1.coords t) ((dat1 (U := U) e c).after 4 t) = _
  obtain ⟨-, -, -, -, -, -, -, -, -, e9, e10, e11, ht⟩ := idx_facts t
  rw [after1_4, iblk0_eq e c t ht, iblk1_eq e c t ht, iblk2_eq, iblk3_eq]
  funext j
  show _ = lnArr (e.M c) (e.X c) (e.G c) (e.B c) (((cfg1.win 4).blk t).view.emb j)
  refine (lnArr_emb _ _ _ _ t.val ht j _ ?_ ?_ ?_).symm
  · show win1_4.index t (0 : Fin 3) * 512 + 1 * (j 0).val = 512 * t.val + (j 0).val; omega
  · show win1_4.index t (1 : Fin 3) * 4 + 1 * (j 1).val = (j 1).val; omega
  · show win1_4.index t (2 : Fin 3) * 1024 + 1 * (j 2).val = (j 2).val; omega

/-- An index of the array is in point `t`'s block iff each coordinate is in the block's range on its axis. -/
theorem mem_blk4 (t : Fin cfg1.N) (i : S8192x4x1024.Idx) :
    i ∈ ((cfg1.win 4).blk t).view.set ↔ ∀ a : Fin 3, win1_4.index t a * S512x4x1024.size a ≤ (i a).val ∧ (i a).val < win1_4.index t a * S512x4x1024.size a + S512x4x1024.size a := by
  show i ∈ ((View.whole main_v3).slice (win1_4.rect t)).set ↔ _
  rw [View.set_slice_whole, Rect.mem_set_unit]
  exact Iff.rfl

/-- Every row lies in the block of the point `row / 512`. -/
theorem cover4 (i : S8192x4x1024.Idx) : ∃ t : Fin cfg1.N, (cfg1.win 4).flush t = true ∧ i ∈ ((cfg1.win 4).blk t).view.set := by
  have hi0 : (i 0).val < 8192 := (i 0).isLt
  have hi1 : (i 1).val < 4 := (i 1).isLt
  have hi2 : (i 2).val < 1024 := (i 2).isLt
  have hN : (i 0).val / 512 < cfg1.N := by rw [show cfg1.N = 16 from N_1]; omega
  refine ⟨⟨(i 0).val / 512, hN⟩, flush1_4 _, ?_⟩
  rw [mem_blk4]
  obtain ⟨-, -, -, -, -, -, -, -, -, e9, e10, e11, -⟩ := idx_facts ⟨(i 0).val / 512, hN⟩
  have e9' : win1_4.index ⟨(i 0).val / 512, hN⟩ (0 : Fin 3) = (i 0).val / 512 := e9
  intro a
  match a with
  | ⟨0, _⟩ => show win1_4.index ⟨(i 0).val / 512, hN⟩ (0 : Fin 3) * 512 ≤ (i 0).val ∧ (i 0).val < win1_4.index ⟨(i 0).val / 512, hN⟩ (0 : Fin 3) * 512 + 512; omega
  | ⟨1, _⟩ => show win1_4.index ⟨(i 0).val / 512, hN⟩ (1 : Fin 3) * 4 ≤ (i 1).val ∧ (i 1).val < win1_4.index ⟨(i 0).val / 512, hN⟩ (1 : Fin 3) * 4 + 4; omega
  | ⟨2, _⟩ => show win1_4.index ⟨(i 0).val / 512, hN⟩ (2 : Fin 3) * 1024 ≤ (i 2).val ∧ (i 2).val < win1_4.index ⟨(i 0).val / 512, hN⟩ (2 : Fin 3) * 1024 + 1024; omega

/-- THE RESULT ARRAY after the region. -/
theorem arrAt_out (c : Dev nD) : (dat1 (U := U) e c).arrAt 4 cfg1.N = lnArr (e.M c) (e.X c) (e.G c) (e.B c) :=
  (dat1 (U := U) e c).arrAt_eq_of_cover 4 _ (fun t _ => flushed4_eq e c t) cover4

/-- The four inputs after the region: as at entry. -/
theorem arrAt_in0 (c : Dev nD) : (dat1 (U := U) e c).arrAt 0 cfg1.N = e.M c := (dat1 (U := U) e c).arrAt_in 0 rfl _
theorem arrAt_in1 (c : Dev nD) : (dat1 (U := U) e c).arrAt 1 cfg1.N = e.X c := (dat1 (U := U) e c).arrAt_in 1 rfl _
theorem arrAt_in2 (c : Dev nD) : (dat1 (U := U) e c).arrAt 2 cfg1.N = e.G c := (dat1 (U := U) e c).arrAt_in 2 rfl _
theorem arrAt_in3 (c : Dev nD) : (dat1 (U := U) e c).arrAt 3 cfg1.N = e.B c := (dat1 (U := U) e c).arrAt_in 3 rfl _

end Cert.KernelIdeal.Ln

end
-- ==== Proof.MaskJoinKI.lean ====
/-
  The mask's thirty-two segments.

  Worker `w = 2 i + c` (subcore `i` of SparseCore `c`) owns the 1024 entries `[1024 (w mod 8), 1024 (w mod 8) + 1024)` of
  row `w / 8` of the mask. The thirty-two segments are pairwise disjoint and cover the `[4, 8192]` array, so the array is the
  separating conjunction of its segments; and when every worker has left its segment at "one where its batch's list names
  the position", the array as a whole is the mask of the specification.
-/
import proofs.«214348_g62886911148048_cont_9to1c4b_763_21_alg».proof.Proof.LaunchKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ### Where the segments lie -/

omit [FloatOps F] in
/-- Worker `2 i + c`'s segment starts at row `(2 i + c) / 8`, column `1024 ((2 i + c) mod 8)`. -/
theorem off4_table : ∀ (c : Fin 2) (i : Fin 16),
    k0_off4 (coordsV c i) 0 = (2 * i.val + c.val) / 8 ∧ k0_off4 (coordsV c i) 1 = 1024 * ((2 * i.val + c.val) % 8) := by
  decide +kernel

omit [FloatOps F] in
/-- A task's segment is the set of its unit-stride rectangle of the mask. -/
theorem segSet_eq (L : grid0.Coords) :
    segSet L = (Rect.unit (s := S4x8192) (k0_off4 L) S1x1024.size (k0_off4_inb L)).set := by
  show (((View.whole (main_v0_scv : Ref sig .scVector)).slice (Rect.unit (s := S4x8192) (k0_off4 L) S1x1024.size (k0_off4_inb L))).reshape
    S1024 squeezes_S1x1024_S1024.numel_eq).set = _
  rw [View.set_reshape, View.set_slice_whole]

omit [FloatOps F] in
/-- Membership in worker `2 i + c`'s segment, by coordinates. -/
theorem mem_segSet (c : Fin 2) (i : Fin 16) (j : S4x8192.Idx) :
    j ∈ segSet (coordsV c i)
      ↔ (j 0).val = (2 * i.val + c.val) / 8
        ∧ 1024 * ((2 * i.val + c.val) % 8) ≤ (j 1).val ∧ (j 1).val < 1024 * ((2 * i.val + c.val) % 8) + 1024 := by
  obtain ⟨h0, h1⟩ := off4_table c i
  rw [segSet_eq, Rect.mem_set_unit, Fin.forall_fin_two, h0, h1]
  show ((2 * i.val + c.val) / 8 ≤ (j 0).val ∧ (j 0).val < (2 * i.val + c.val) / 8 + 1)
      ∧ (1024 * ((2 * i.val + c.val) % 8) ≤ (j 1).val ∧ (j 1).val < 1024 * ((2 * i.val + c.val) % 8) + 1024) ↔ _
  omega

omit [FloatOps F] in
/-- Two different workers' segments are disjoint. -/
theorem segs_disjoint : ∀ p ∈ (Finset.univ : Finset (Fin 2 × Fin 16)), ∀ p' ∈ (Finset.univ : Finset (Fin 2 × Fin 16)), p ≠ p' →
    Disjoint (segSet (coordsV p.1 p.2)) (segSet (coordsV p'.1 p'.2)) := by
  rintro ⟨c, i⟩ - ⟨c', i'⟩ - hne
  show Disjoint (segSet (coordsV c i)) (segSet (coordsV c' i'))
  rw [Finset.disjoint_left]
  intro j hj hj'
  rw [mem_segSet] at hj hj'
  apply hne
  have hc := c.isLt; have hc' := c'.isLt
  have : c.val = c'.val ∧ i.val = i'.val := by omega
  exact Prod.ext (Fin.ext this.1) (Fin.ext this.2)

omit [FloatOps F] in
/-- The thirty-two segments cover the mask. -/
theorem segs_cover : (Finset.univ : Finset (Fin 2 × Fin 16)).biUnion (fun p => segSet (coordsV p.1 p.2)) = Finset.univ := by
  rw [Finset.eq_univ_iff_forall]
  intro j
  rw [Finset.mem_biUnion]
  have h0 : (j 0).val < 4 := (j 0).isLt
  have h1 : (j 1).val < 8192 := (j 1).isLt
  let cc : Fin 2 := ⟨(8 * (j 0).val + (j 1).val / 1024) % 2, by omega⟩
  let ii : Fin 16 := ⟨(8 * (j 0).val + (j 1).val / 1024) / 2, by omega⟩
  have hcc : cc.val = (8 * (j 0).val + (j 1).val / 1024) % 2 := rfl
  have hii : ii.val = (8 * (j 0).val + (j 1).val / 1024) / 2 := rfl
  refine ⟨(cc, ii), Finset.mem_univ _, ?_⟩
  show j ∈ segSet (coordsV cc ii)
  rw [mem_segSet, hcc, hii]
  omega

omit [FloatOps F] in
/-- THE MASK IS ITS THIRTY-TWO SEGMENTS. -/
theorem seg_split (d : Dev nD) (f : Buf (Elt F) (mLoc d)) :
    (mLoc d ↦{fullShare} f : sProp 𝕄)
      = bigSep Finset.univ fun c : Fin 2 => bigSep Finset.univ fun i : Fin 16 => segPts d (coordsV c i) f := by
  rw [← bigSep_univ_prod (fun p : Fin 2 × Fin 16 => segPts d (coordsV p.1 p.2) f)]
  rw [← pointsTo_biUnion Finset.univ (ℓ := mLoc d) (fun p : Fin 2 × Fin 16 => segSet (coordsV p.1 p.2)) segs_disjoint, segs_cover]
  try rfl

/-! ### The two sliced-and-squeezed views, coordinate by coordinate -/

omit [FloatOps F] in
/-- Worker `2 i + c`'s batch row of the positions' array starts at row `(2 i + c) / 8`, column `0`. -/
theorem off1_table : ∀ (c : Fin 2) (i : Fin 16),
    k0_off1 (coordsV c i) 0 = (2 * i.val + c.val) / 8 ∧ k0_off1 (coordsV c i) 1 = 0 := by
  decide +kernel

omit [FloatOps F] in
/-- Entry `y` of a task's segment is entry `(row, column start + y)` of the mask. -/
theorem mSeg_emb (L : grid0.Coords) (y : S1024.Idx) :
    ((mSeg L).view.emb y 0 : Nat) = k0_off4 L 0 ∧ ((mSeg L).view.emb y 1 : Nat) = k0_off4 L 1 + (y 0).val := by
  have hre : Shape.reshapeEquiv squeezes_S1x1024_S1024.numel_eq y
      = ValueIdx.ix2 (0 : Fin 1) (⟨(y 0).val, (y 0).isLt⟩ : Fin 1024) :=
    Shape.reshapeEquiv_eq_of_rowMajor _ (by
      rw [Shape.rowMajor_val_two, Shape.rowMajor_val_one]
      show 0 * 1024 + (y 0).val = (y 0).val
      omega)
  have e : ∀ a, ((mSeg L).view.emb y a : Nat)
      = k0_off4 L a + 1 * ((Shape.reshapeEquiv squeezes_S1x1024_S1024.numel_eq y) a : Nat) := fun a => rfl
  constructor
  · rw [e 0, hre]; show k0_off4 L 0 + 1 * 0 = _; omega
  · rw [e 1, hre]; show k0_off4 L 1 + 1 * (y 0).val = _; omega

omit [FloatOps F] in
/-- Entry `r` of a task's list of positions is entry `(row, column start + r)` of the positions' array. -/
theorem iRow_emb (L : grid0.Coords) (r : Fin 4096) :
    ((iRow L).view.emb (ValueIdx.ix1 r) 0 : Nat) = k0_off1 L 0 ∧ ((iRow L).view.emb (ValueIdx.ix1 r) 1 : Nat) = k0_off1 L 1 + r.val := by
  have hre : Shape.reshapeEquiv squeezes_S1x4096_S4096.numel_eq (ValueIdx.ix1 r)
      = ValueIdx.ix2 (0 : Fin 1) r :=
    Shape.reshapeEquiv_eq_of_rowMajor _ (by
      rw [Shape.rowMajor_val_two, Shape.rowMajor_val_one]
      show 0 * 4096 + r.val = r.val
      omega)
  have e : ∀ a, ((iRow L).view.emb (ValueIdx.ix1 r) a : Nat)
      = k0_off1 L a + 1 * ((Shape.reshapeEquiv squeezes_S1x4096_S4096.numel_eq (ValueIdx.ix1 r)) a : Nat) := fun a => rfl
  constructor
  · rw [e 0, hre]; show k0_off1 L 0 + 1 * 0 = _; omega
  · rw [e 1, hre]; show k0_off1 L 1 + 1 * r.val = _; omega

/-! ### The mask as one array -/

/-- The mask the specification describes, as the contents of the mask's buffer: entry `(b, s)` is a one exactly when
    batch `b`'s list of positions marks `s`. -/
def maskBuf (d : Dev nD) : Buf (Elt F) (mLoc d) := fun (j : S4x8192.Idx) =>
  Cert.MaskSpec.maskArr (oneE : Elt F .f32) zeroE (fun b r => m (iLoc d) (ValueIdx.ix2 b r))
    (⟨(j 0).val, (j 0).isLt⟩ : Fin 4) (⟨(j 1).val, (j 1).isLt⟩ : Fin 8192)

/-- What a task leaves at entry `y` of its segment is the specification's mask at that entry of the array. -/
theorem segRaw_eq (d : Dev nD) (c : Fin 2) (i : Fin 16) (y : S1024.Idx) :
    segRaw m d (coordsV c i) y = maskBuf m d ((mSeg (coordsV c i)).view.emb y) := by
  obtain ⟨e0, e1⟩ := mSeg_emb (coordsV c i) y
  obtain ⟨t0, t1⟩ := off4_table c i
  obtain ⟨u0, u1⟩ := off1_table c i
  have hy : (y 0).val < 1024 := (y 0).isLt
  unfold segRaw maskBuf Cert.MaskSpec.maskArr
  refine congr (congrFun (congr (congrArg (Cert.MaskSpec.bufAfter (oneE : Elt F .f32) zeroE) ?_) ?_) 4096) ?_
  · show BitVec.ofNat 32 _ = BitVec.ofNat 32 (((mSeg (coordsV c i)).view.emb y 1 : Nat) / 1024 * 1024)
    rw [e1, t1]; congr 1; omega
  · funext r
    obtain ⟨i0, i1⟩ := iRow_emb (coordsV c i) r
    refine congrArg (m (iLoc d)) (funext fun (a : Fin 2) => Fin.ext ?_)
    match a with
    | ⟨0, _⟩ =>
      show ((iRow (coordsV c i)).view.emb (ValueIdx.ix1 r) 0 : Nat) = ((mSeg (coordsV c i)).view.emb y 0 : Nat)
      rw [i0, u0, e0, t0]
    | ⟨1, _⟩ =>
      show ((iRow (coordsV c i)).view.emb (ValueIdx.ix1 r) 1 : Nat) = r.val
      rw [i1, u1]; omega
  · refine Fin.ext ?_
    show (y 0).val = ((mSeg (coordsV c i)).view.emb y 1 : Nat) % 1024
    rw [e1, t1]; omega

/-- A task's segment, left at the task's marks, is the segment of the specification's mask. -/
theorem seg_piece (d : Dev nD) (c : Fin 2) (i : Fin 16) (f : Buf (Elt F) (mLoc d))
    (hf : ∀ y : S1024.Idx, f ((mSeg (coordsV c i)).view.emb y) = segRaw m d (coordsV c i) y) :
    (segPts d (coordsV c i) f : sProp 𝕄) = segPts d (coordsV c i) (maskBuf m d) :=
  pointsTo_congr fun j hj => by
    obtain ⟨y, -, rfl⟩ := Finset.mem_map.mp hj
    rw [hf y, segRaw_eq]

/-- THE SEGMENTS JOIN TO THE MASK: when every task has left its segment at its marks, the mask's array as a whole
    holds the specification's mask. -/
theorem seg_join (d : Dev nD) :
    (bigSep Finset.univ fun c : Fin 2 => bigSep Finset.univ fun i : Fin 16 =>
        iprop(∃ f, ⌜∀ y : S1024.Idx, f ((mSeg (coordsV c i)).view.emb y) = segRaw m d (coordsV c i) y⌝ ∗ segPts d (coordsV c i) f))
      ⊢ (mLoc d ↦{fullShare} maskBuf m d : sProp 𝕄) := by
  rw [seg_split d (maskBuf m d)]
  refine bigSep_mono fun c _ => bigSep_mono fun i _ => ?_
  show (iprop(∃ f, ⌜∀ y : S1024.Idx, f ((mSeg (coordsV c i)).view.emb y) = segRaw m d (coordsV c i) y⌝ ∗ segPts d (coordsV c i) f) : sProp 𝕄)
    ⊢ segPts d (coordsV c i) (maskBuf m d)
  iintro ⟨%f, %hf, H⟩
  ihave H' := (Entails.of_eq (seg_piece m d c i f hf)) $$ H
  iexact H'

end Cert.Proof.KI

end
-- ==== Proof.MainKI.lean ====
/-
  @main on the TensorCore: the positions' array goes out to the two SparseCores as read shares and the mask in thirty-two
  segments; the mask comes back whole at ONE function of the positions; the scale and shift rows are re-laid as 1×1024
  arrays by two host operations; the layer-normalisation region reads the mask, the hidden states and the two rows and
  writes the result. The four arguments are never written: the hidden states, the scale and the shift are held whole
  throughout, and of the positions' array a share stays with the TensorCore.
-/
import proofs.«214348_g62886911148048_cont_9to1c4b_763_21_alg».proof.Proof.LaunchKI
import proofs.«214348_g62886911148048_cont_9to1c4b_763_21_alg».proof.Proof.LnEntryCore
import proofs.«214348_g62886911148048_cont_9to1c4b_763_21_alg».proof.Proof.LnArr
import proofs.«214348_g62886911148048_cont_9to1c4b_763_21_alg».proof.Proof.MaskJoinKI

noncomputable section

namespace Cert.Proof.KI

open Cert.KernelIdeal Cert.KernelIdeal.Gen
open Cert.KernelIdeal.Ln (Entry pl regPre lnArr)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

abbrev a0Loc (d : Dev nD) : Loc nD τ sig := (SparseCore.T d).loc main_arg0
abbrev a2Loc (d : Dev nD) : Loc nD τ sig := (SparseCore.T d).loc main_arg2
abbrev a3Loc (d : Dev nD) : Loc nD τ sig := (SparseCore.T d).loc main_arg3
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

variable [FloatOps F]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (iLoc d ↦{fullShare} W main_arg1) ∗ (a2Loc d ↦{fullShare} W main_arg2)
      ∗ (a3Loc d ↦{fullShare} W main_arg3) ∗ (mLoc d ↦{fullShare} W main_v0) ∗ (v1Loc d ↦{fullShare} W main_v1) ∗ (v2Loc d ↦{fullShare} W main_v2)
      ∗ (v3Loc d ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The two host operations: the scale and shift rows re-laid -/

abbrev a2' : DevRef τ sig := Proc.devRef .tc (main_arg2 : Ref sig .tc)
abbrev a3' : DevRef τ sig := Proc.devRef .tc (main_arg3 : Ref sig .tc)
abbrev v1' : DevRef τ sig := Proc.devRef .tc (main_v1 : Ref sig .tc)
abbrev v2' : DevRef τ sig := Proc.devRef .tc (main_v2 : Ref sig .tc)
abbrev op1 : HloOp τ sig (Elt F) := StableHlo.reshape main_arg2 main_v1 rfl shapeCasts_S1024_S1x1024
abbrev op2 : HloOp τ sig (Elt F) := StableHlo.reshape main_arg3 main_v2 rfl shapeCasts_S1024_S1x1024
abbrev S4 : Finset (DevRef τ sig) := {a2', a3', v1', v2'}

def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)

omit [FloatOps F] in
theorem held_S4 (d : Dev nD) (W : Valuation τ sig (Elt F)) :
    (held (T d) S4 W : sProp 𝕄) = iprop((a2Loc d ↦{fullShare} W a2') ∗ (a3Loc d ↦{fullShare} W a3') ∗ (v1Loc d ↦{fullShare} W v1') ∗ (v2Loc d ↦{fullShare} W v2')) := by
  unfold held S4
  rw [SparseCore.bigSep_insert' (by decide), SparseCore.bigSep_insert' (by decide), SparseCore.bigSep_insert' (by decide), bigSep_singleton]

theorem h1sub : (op1 (F := F)).bufs ⊆ S4 := show ({a2', v1'} : Finset (DevRef τ sig)) ⊆ S4 by decide
theorem h2sub : (op2 (F := F)).bufs ⊆ S4 := show ({a3', v2'} : Finset (DevRef τ sig)) ⊆ S4 by decide

theorem V2_a2 (d : Dev nD) : V2 m d a2' = m (a2Loc d) := by
  show (op2 (F := F)).result ((op1 (F := F)).result (V0 m d)) a2' = _
  rw [(op2 (F := F)).result_of_not_mem _ (b := a2') (show a2' ∉ ({v2'} : Finset (DevRef τ sig)) by decide),
    (op1 (F := F)).result_of_not_mem _ (b := a2') (show a2' ∉ ({v1'} : Finset (DevRef τ sig)) by decide)]; rfl
theorem V2_a3 (d : Dev nD) : V2 m d a3' = m (a3Loc d) := by
  show (op2 (F := F)).result ((op1 (F := F)).result (V0 m d)) a3' = _
  rw [(op2 (F := F)).result_of_not_mem _ (b := a3') (show a3' ∉ ({v2'} : Finset (DevRef τ sig)) by decide),
    (op1 (F := F)).result_of_not_mem _ (b := a3') (show a3' ∉ ({v1'} : Finset (DevRef τ sig)) by decide)]; rfl

/-- The two rows as the region reads them. -/
abbrev G1 (d : Dev nD) : Buf (Elt F) (v1Loc d) := V2 m d v1'
abbrev B1 (d : Dev nD) : Buf (Elt F) (v2Loc d) := V2 m d v2'

/-! ## @main -/

section Main

-- the mask the SparseCore call leaves, as one function of the positions
variable (maskBuf : (d : Dev nD) → Buf (Elt F) (mLoc d))

/-- What @main leaves: the four arguments as launched (of the positions' array, the share the TensorCore kept), the
    result at the region's value. -/
abbrev FIN (d : Dev nD) : sProp 𝕄 :=
  iprop((a0Loc d ↦{fullShare} m (a0Loc d)) ∗ (iLoc d ↦{shareDrop fullShare 2} m (iLoc d)) ∗ (a2Loc d ↦{fullShare} m (a2Loc d))
    ∗ (a3Loc d ↦{fullShare} m (a3Loc d)) ∗ (v3Loc d ↦{fullShare} lnArr (maskBuf d) (m (a0Loc d)) (G1 m d) (B1 m d)))

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((bigSep Finset.univ fun c : Fin 2 => iPts m (qC c) d)
        ∗ bigSep Finset.univ fun c : Fin 2 => bigSep Finset.univ fun i : Fin 16 => segPts d (coordsV c i) (m (mLoc d))) := by
  rw [← bigSep_sep']
  exact bigSep_cores (F := F) (fun c => iprop(iPts m (qC c) d ∗ bigSep Finset.univ fun i : Fin 16 => segPts d (coordsV c i) (m (mLoc d))))

theorem dn0_eq (d : Dev nD) : (bigSep Finset.univ fun c : Fin ((K (F := F)).nCore 0) => (P m).dn 0 d c)
    = bigSep Finset.univ fun c : Fin 2 => bigSep Finset.univ fun i : Fin 16 => tdRes m d c i :=
  bigSep_cores (F := F) (fun c => bigSep Finset.univ fun i : Fin 16 => tdRes m d c i)

/-- Of what the tasks hand back, the segments. -/
theorem td_segs (d : Dev nD) : (bigSep Finset.univ fun c : Fin 2 => bigSep Finset.univ fun i : Fin 16 => tdRes m d c i)
    ⊢ bigSep Finset.univ fun c : Fin 2 => bigSep Finset.univ fun i : Fin 16 =>
        iprop(∃ f, ⌜∀ y : S1024.Idx, f ((mSeg (coordsV c i)).view.emb y) = segRaw m d (coordsV c i) y⌝ ∗ segPts d (coordsV c i) f) := by
  refine bigSep_mono fun c _ => bigSep_mono fun i _ => ?_
  have h : (tdRes m d c i : sProp 𝕄) ⊢ iprop(∃ f, ⌜∀ y : S1024.Idx, f ((mSeg (coordsV c i)).view.emb y) = segRaw m d (coordsV c i) y⌝ ∗ segPts d (coordsV c i) f) := by
    iintro ⟨-, H⟩; iexact H
  exact h

theorem hmain
  (hjoin : ∀ d : Dev nD, (bigSep Finset.univ fun c : Fin 2 => bigSep Finset.univ fun i : Fin 16 =>
      iprop(∃ f, ⌜∀ y : S1024.Idx, f ((mSeg (coordsV c i)).view.emb y) = segRaw m d (coordsV c i) y⌝ ∗ segPts d (coordsV c i) f))
    ⊢ (mLoc d ↦{fullShare} maskBuf d : sProp 𝕄))
  (hentry : ∀ (e : Entry F) (d : Dev nD),
    iprop(boundary (SparseCore.T d) ∗ levAts (K (F := F)).L (K (F := F)).lev
        ∗ Pipeline.cellsGhost (pinned (F := F)) EP 0 d ∗ Pipeline.toksInit (pinned (F := F)) EP 0 d ∗ regPre (U := UU) e d)
      ⊢ wp frame (wpE ((K (F := F)).defs (D (F := F))) 𝒱 (SparseCore.T d) none) Set.univ
          (Prog.lift (.customCall (SparseCore.inner (Pipeline.entry 0)) ()))
          (fun _ => iprop(boundary (SparseCore.T d) ∗ pl (U := UU) d main_v0 (e.M d) ∗ pl (U := UU) d main_arg0 (e.X d) ∗ pl (U := UU) d main_v1 (e.G d)
            ∗ pl (U := UU) d main_v2 (e.B d) ∗ pl (U := UU) d main_v3 (lnArr (e.M d) (e.X d) (e.G d) (e.B d))
            ∗ ∃ W', ⌜∀ p ∈ W', p ∈ e.W d ∨ p.2 = none⌝ ∗ owes (SparseCore.T d) (0 : CellTallies nD τ sig (HIx 1)) W')))
    (κ : GSem nD τ sig → ℕ) (d : Dev nD) :
    iprop((K (F := F)).ctx EH (P m) κ ∗ (K (F := F)).tcSt EH d 0 ∗ (K (F := F)).tcRes m ρ d ∗ GD (F := F) d)
      ⊢ wp frame (wpE ((K (F := F)).defs (D (F := F))) 𝒱 (SparseCore.T d) none) Set.univ (main d)
          fun _ => iprop((K (F := F)).tcSt EH d 1 ∗ FIN m maskBuf d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3⟩, -, -⟩, ⟨Hg, Ht⟩⟩
  ihave Hlev := ((K (F := F)).ctx_levAts κ) $$ Hctx
  -- the positions' array in shares, the mask in segments
  ihave Hs := (Transfers.pointsTo_toks_split fullShare 2) $$ Ha1
  icases Hs with ⟨Ha1, Htoks⟩
  ihave Hsegs := (Entails.of_eq (seg_split (F := F) d _)) $$ Hv0
  iapply ((K (F := F)).wp_run (D (F := F)) 𝒱 (EH := EH) (P := P m) κ d 0) $$ [Hst Htoks Hsegs Hb Ha0 Ha1 Ha2 Ha3 Hv1 Hv2 Hv3 Hg Ht]
  isplitr; · iexact Hctx
  isplitl [Hst]; · iexact Hst
  isplitl [Htoks Hsegs]
  · rw [st0_eq]
    isplitl [Htoks]; · iexact Htoks
    iexact Hsegs
  iintro ⟨Hst, Hdn⟩
  ihave Hdn' := (Entails.of_eq (dn0_eq m d)) $$ Hdn
  ihave Hdn'' := (td_segs m d) $$ Hdn'
  ihave Hv0 := (hjoin d) $$ Hdn''
  -- the two rows re-laid
  iapply (wp_hlo_within 𝒱 (SparseCore.T d) none Set.univ (op := op1) (S := S4) h1sub (V := V0 m d)) $$ [Hb Ha2 Ha3 Hv1 Hv2]
  · isplitl [Hb]; · iexact Hb
    rw [held_S4]
    isplitl [Ha2]; · iexact Ha2
    isplitl [Ha3]; · iexact Ha3
    isplitl [Hv1]; · iexact Hv1
    iexact Hv2
  iintro ⟨Hb, Hheld⟩
  rw [wp_ret]; imodintro
  iapply (wp_hlo_within 𝒱 (SparseCore.T d) none Set.univ (op := op2) (S := S4) h2sub (V := V1 m d)) $$ [Hb Hheld]
  · isplitl [Hb]; · iexact Hb
    iexact Hheld
  iintro ⟨Hb, Hheld⟩
  rw [wp_ret]; imodintro
  ihave Hh := (Entails.of_eq (held_S4 (F := F) d (V2 m d))) $$ Hheld
  icases Hh with ⟨Ha2, Ha3, Hv1, Hv2⟩
  -- the region
  unfold SparseCore.Cfg.tcSt
  icases Hst with ⟨⟨%W, %hW, HO⟩, Hrest⟩
  have hO1 : (K (F := F)).Otc d ((0 : Fin 1).val + 1) = 0 := (K (F := F)).Otc_end d (by decide)
  have hO2 : (K (F := F)).Otc d 1 = 0 := (K (F := F)).Otc_end d (le_refl _)
  ihave HO' := (Entails.of_eq (congrArg (fun o => owes (SparseCore.T d) o W) hO1)) $$ HO
  ihave Hw := (hentry ⟨fun _ => maskBuf d, fun _ => m (a0Loc d), fun _ => G1 m d, fun _ => B1 m d, fun _ => m (v3Loc d), fun _ => W⟩ d) $$ [Hb Hg Ht Hv0 Ha0 Hv1 Hv2 Hv3 HO']
  · unfold regPre pl
    isplitl [Hb]; · iexact Hb
    isplitr; · iexact Hlev
    isplitl [Hg]; · iexact Hg
    isplitl [Ht]; · iexact Ht
    isplitl [Hv0]; · iexact Hv0
    isplitl [Ha0]; · iexact Ha0
    isplitl [Hv1]; · iexact Hv1
    isplitl [Hv2]; · iexact Hv2
    isplitl [Hv3]; · iexact Hv3
    iexact HO'
  iapply (wp_wand frame (wpE ((K (F := F)).defs (D (F := F))) 𝒱 (SparseCore.T d) none) Set.univ) $$ Hw
  unfold pl
  iintro %a ⟨Hb, Hv0, Ha0, Hv1, Hv2, Hv3, %W', %hW', HO⟩
  imodintro
  isplitl [HO Hrest]
  · isplitl [HO]
    · iexists W'; isplitr
      · ipureintro; intro p hp
        rcases hW' p hp with h | h
        · exact hW p h
        · rw [h, (K (F := F)).lev_none]; exact Nat.zero_le _
      · rw [hO2]; iexact HO
    · iexact Hrest
  isplitl [Ha0]; · iexact Ha0
  isplitl [Ha1]; · iexact Ha1
  isplitl [Ha2]; · rw [V2_a2]; iexact Ha2
  isplitl [Ha3]; · rw [V2_a3]; iexact Ha3
  iexact Hv3

end Main

end Cert.Proof.KI

end
-- ==== Proof.LnRun.lean ====
/-
  The body run once, at a symbolic grid point and symbolic operands: the result window's buffer ends as the 512 stores'
  payloads written over anything, and those payloads, position by position, are the rows of `lnBlk`.
-/
import proofs.«214348_g62886911148048_cont_9to1c4b_763_21_alg».proof.Proof.LnDefs
import proofs.«214348_g62886911148048_cont_9to1c4b_763_21_alg».proof.Proof.Gen.KernelIdeal
import Idealize.ShloMosaic.Lib.Pipeline.FrameBody
import Idealize.ShloMosaic.Lib.Pipeline.Value
import Idealize.ShloMosaic.Lib.Tactic
import Idealize.ShloMosaic.Lib.SparseCore.Launch

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {U : Type} [URA U]

local notation "𝕄" => MT nD τ sig (SparseCore.Cfg.HIx 1) (Elt F) ℕ U ℕ

/-! ## The rows as a list of pieces -/

/-- The pieces of positions `n - 1, …, 0`, the last position first: position `k`'s rectangle with its row. -/
def rowsUpTo (v0 : Vec F S512x4x1024 .f32) (v2 : FVec F S4x512 .f32) (v33 : FVec F S512x4x1024 .f32) :
    (n : ℕ) → n ≤ 512 → List (View.Piece (Elt F) S512x4x1024 .f32)
  | 0, _ => []
  | n + 1, h => ⟨rowRect n h, rowPay v0 v2 v33 n h⟩ :: rowsUpTo v0 v2 v33 n (Nat.le_of_succ_le h)

/-- An index outside position `n` is outside its rectangle. -/
theorem not_mem_rowRect (n : ℕ) (hn : n < 512) (y : S512x4x1024.Idx) (hy : (y 0).val ≠ n) : y ∉ (rowRect n hn).set := fun hm => by
  have h0 : n ≤ (y 0).val ∧ (y 0).val < n + 1 := (Rect.mem_set_unit.mp hm) 0
  omega

/-- An index of position `n` is in its rectangle. -/
theorem mem_rowRect (y : S512x4x1024.Idx) : y ∈ (rowRect (y 0).val (y 0).isLt).set := by
  have h := (rowRect (y 0).val (y 0).isLt).toLoadRect.idx_mem (rowIdx y)
  have he : (rowRect (y 0).val (y 0).isLt).toLoadRect.idx (rowIdx y) = y := emb_rowIdx y
  rw [he] at h; exact h

/-- Under a last write at the index's own position, the canon is that write's payload. -/
theorem canon_cons_row (n : ℕ) (hn : n < 512) (w : S1x4x1024.Idx → Elt F .f32) (L : List (View.Piece (Elt F) S512x4x1024 .f32))
    (y : S512x4x1024.Idx) (hy : (y 0).val = n) : View.canon (⟨rowRect n hn, w⟩ :: L) y = w (rowIdx y) := by
  subst hy
  have h := View.canon_cons_emb (rowRect (y 0).val hn) w L (rowIdx y)
  rw [emb_rowIdx] at h
  exact h

theorem rowsUpTo_succ (v0 : Vec F S512x4x1024 .f32) (v2 : FVec F S4x512 .f32) (v33 : FVec F S512x4x1024 .f32) (n : ℕ) (h : n + 1 ≤ 512) :
    rowsUpTo v0 v2 v33 (n + 1) h = ⟨rowRect n h, rowPay v0 v2 v33 n h⟩ :: rowsUpTo v0 v2 v33 n (Nat.le_of_succ_le h) := rfl

/-- The canon of the rows below `n`, at an index of a position below `n`, is that position's row. -/
theorem canon_rowsUpTo (v0 : Vec F S512x4x1024 .f32) (v2 : FVec F S4x512 .f32) (v33 : FVec F S512x4x1024 .f32) (n : ℕ) :
    ∀ (h : n ≤ 512) (y : S512x4x1024.Idx), (y 0).val < n →
      View.canon (rowsUpTo v0 v2 v33 n h) y = rowPay v0 v2 v33 (y 0).val (y 0).isLt (rowIdx y) := by
  induction n with
  | zero => intro _ _ hy; exact absurd hy (Nat.not_lt_zero _)
  | succ n ih =>
    intro h y hy
    rw [rowsUpTo_succ]
    by_cases hk : (y 0).val = n
    · rw [canon_cons_row n h _ _ y hk]
      subst hk; rfl
    · rw [View.canon_cons_of_not_mem (⟨rowRect n h, rowPay v0 v2 v33 n h⟩ : View.Piece (Elt F) S512x4x1024 .f32) _ (not_mem_rowRect n h y hk)]
      exact ih (Nat.le_of_succ_le h) y (Nat.lt_of_le_of_ne (Nat.le_of_lt_succ hy) hk)

/-- The rows below `n` cover the positions below `n`. -/
theorem cover_rowsUpTo (v0 : Vec F S512x4x1024 .f32) (v2 : FVec F S4x512 .f32) (v33 : FVec F S512x4x1024 .f32) (n : ℕ) :
    ∀ (h : n ≤ 512) (y : S512x4x1024.Idx), (y 0).val < n → ∃ p ∈ rowsUpTo v0 v2 v33 n h, y ∈ p.1.set := by
  induction n with
  | zero => intro _ _ hy; exact absurd hy (Nat.not_lt_zero _)
  | succ n ih =>
    intro h y hy
    rw [rowsUpTo_succ]
    by_cases hk : (y 0).val = n
    · refine ⟨_, List.mem_cons_self, ?_⟩
      subst hk; exact mem_rowRect y
    · obtain ⟨p, hp, hm⟩ := ih (Nat.le_of_succ_le h) y (Nat.lt_of_le_of_ne (Nat.le_of_lt_succ hy) hk)
      exact ⟨p, List.mem_cons_of_mem _ hp, hm⟩

/-- What any view of the shape reads after all 512 rows were written over anything: position by position, the rows. -/
theorem read_rows {κ : Kind} {sp : Space} (v : View sig κ sp S512x4x1024 .f32) (f : v.ty.Contents (Elt F))
    (v0 : Vec F S512x4x1024 .f32) (v2 : FVec F S4x512 .f32) (v33 : FVec F S512x4x1024 .f32) :
    v.read (Elt F) (v.writes (Elt F) f (rowsUpTo v0 v2 v33 512 le_rfl))
      = fun y => rowPay v0 v2 v33 (y 0).val (y 0).isLt (rowIdx y) :=
  funext fun y => by
    rw [View.read_writes_apply_eq_canon v f y _ (cover_rowsUpTo v0 v2 v33 512 le_rfl y (y 0).isLt),
      canon_rowsUpTo v0 v2 v33 512 le_rfl y (y 0).isLt]

/-! ## The run -/

/-- A whole staging memref's buffer at contents `f`. -/
abbrev pt {s : Shape} {el : EltTy} (c : Dev nD) (M : Memref sig .tc .vmem s el) (f : M.view.ty.Contents (Elt F)) : sProp 𝕄 :=
  (M.view.loc (c : Thread nD τ) ↦[M.view.set]{fullShare} f)

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 8000000 in
set_option maxRecDepth 65536 in
/-- What the body leaves in the result window's buffer, WITH the proofs that, read, it is the result block of the input
    buffers' contents (each store's payload is its position's row, by unfolding; the whole-block loads read the buffers'
    contents), and that from the five buffers held whole — the inputs at `f1 … f4`, the result's at anything — the body
    runs to its return handing back the inputs as they were and the result's buffer at the witness. -/
noncomputable def kernelRun (c : Dev nD) (i : grid1.Coords)
    (arg1 : Memref sig .tc .vmem S4x512 .f32) (harg1 : arg1.IsWhole) (arg2 : Memref sig .tc .vmem S512x4x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S512x4x1024 .f32) (harg5 : arg5.IsWhole)
    (f1 : arg1.view.ty.Contents (Elt F)) (f2 : arg2.view.ty.Contents (Elt F)) (f3 : arg3.view.ty.Contents (Elt F)) (f4 : arg4.view.ty.Contents (Elt F)) :
    { W : arg5.view.ty.Contents (Elt F) //
      arg5.view.read (Elt F) W
          = lnBlk (arg1.view.read (Elt F) f1) (arg2.view.read (Elt F) f2) (arg3.view.read (Elt F) f3) (arg4.view.read (Elt F) f4)
      ∧ ∀ (f5 : arg5.view.ty.Contents (Elt F)) (E : Set ℕ) (Q : PUnit → sProp 𝕄),
        iprop(pt c arg1 f1 ∗ pt c arg2 f2 ∗ pt c arg3 f3 ∗ pt c arg4 f4 ∗ pt c arg5 f5
          ∗ (iprop(pt c arg1 f1 ∗ pt c arg2 f2 ∗ pt c arg3 f3 ∗ pt c arg4 f4 ∗ pt c arg5 W) -∗ Q ⟨⟩))
        ⊢ wp frame (wpE (defs₀ (F := F)) Variants.none c none) E
            (cc1__ln_body i arg1 harg1 arg2 harg2 arg3 harg3 arg4 harg4 arg5 harg5) Q } := by
  refine ⟨?_, ?val, fun f5 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5
  case val =>
    have hp : kernelRun.sl.H5_512 arg1 arg2 arg3 arg4 f1 f2 f3 f4
        = rowsUpTo (kernelRun.sl.r arg2 f2) (kernelRun.sl.r_1 arg1 f1) (kernelRun.sl.r_2 arg2 arg3 arg4 f2 f3 f4) 512 le_rfl := rfl
    have h0 : kernelRun.sl.r arg2 f2 = arg2.view.read (Elt F) f2 := by
      show View.ld (arg2.view.read (Elt F) f2) (Rect.unit ![0, 0, 0] S512x4x1024.size inb_S512x4x1024_S512x4x1024_0_0_0) = _
      exact View.ld_unit_zero hz3 _ _
    have h1 : kernelRun.sl.r_1 arg1 f1 = k1_pay1 (arg1.view.read (Elt F) f1) := by
      show k1_pay1 (View.ld (arg1.view.read (Elt F) f1) (Rect.unit ![0, 0] S4x512.size inb_S4x512_S4x512_0_0)) = _
      rw [View.ld_unit_zero hz2]
    have h2 : kernelRun.sl.r_2 arg2 arg3 arg4 f2 f3 f4
        = k1_pay2 (arg2.view.read (Elt F) f2) (arg3.view.read (Elt F) f3) (arg4.view.read (Elt F) f4) := by
      show k1_pay2 (View.ld (arg2.view.read (Elt F) f2) (Rect.unit ![0, 0, 0] S512x4x1024.size inb_S512x4x1024_S512x4x1024_0_0_0))
          (View.ld (arg3.view.read (Elt F) f3) (Rect.unit ![0, 0] S1x1024.size inb_S1x1024_S1x1024_0_0))
          (View.ld (arg4.view.read (Elt F) f4) (Rect.unit ![0, 0] S1x1024.size inb_S1x1024_S1x1024_0_0)) = _
      rw [View.ld_unit_zero hz3, View.ld_unit_zero hz2, View.ld_unit_zero hz2]
    show arg5.view.read (Elt F) (arg5.view.writes (Elt F) arg5.view.junk (kernelRun.sl.H5_512 arg1 arg2 arg3 arg4 f1 f2 f3 f4)) = _
    rw [hp, read_rows, h0, h1, h2]
    rfl

end Cert.KernelIdeal.Ln

end
-- ==== Proof.LnBody.lean ====
/-
  The body obligation of the layer-normalisation region: at any grid point, from the four input windows' staging buffers
  at their blocks and the result window's at anything, the body runs to the inputs' as they were and the result's at the
  result block of the four blocks; the (empty) invariant and what the thread owes pass through unread.
-/
import proofs.«214348_g62886911148048_cont_9to1c4b_763_21_alg».proof.Proof.LnRun
import proofs.«214348_g62886911148048_cont_9to1c4b_763_21_alg».proof.Proof.LnDat

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable {U : Type} [URA U]

local notation "ℍ" => SparseCore.Cfg.HIx 1
local notation "𝕄" => MT nD τ sig (SparseCore.Cfg.HIx 1) (Elt F) ℕ U ℕ

/-! ## The body's triple over window contents -/

/-- The kernel body on whole staging memrefs, the inputs' at read contents `x1 … x4` and the result's at anything, runs to
    the continuation holding the inputs' as they were and the result's at `lnBlk x1 x2 x3 x4`. -/
theorem sound_kernel (c : Dev nD) (E : Set ℕ) (i : grid1.Coords)
    (arg1 : Memref sig .tc .vmem S4x512 .f32) (harg1 : arg1.IsWhole) (arg2 : Memref sig .tc .vmem S512x4x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S512x4x1024 .f32) (harg5 : arg5.IsWhole)
    (x1 : Vec F S4x512 .f32) (x2 : Vec F S512x4x1024 .f32) (x3 : Vec F S1x1024 .f32) (x4 : Vec F S1x1024 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (lnBlk x1 x2 x3 x4)) -∗ K ⟨⟩))
      ⊢ wp frame (wpE (defs₀ (F := F)) Variants.none c none) E (cc1__ln_body i arg1 harg1 arg2 harg2 arg3 harg3 arg4 harg4 arg5 harg5) K := by
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  iapply ((kernelRun (U := U) c i arg1 harg1 arg2 harg2 arg3 harg3 arg4 harg4 arg5 harg5 f1 f2 f3 f4).2.2 f5 E K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (kernelRun (U := U) c i arg1 harg1 arg2 harg2 arg3 harg3 arg4 harg4 arg5 harg5 f1 f2 f3 f4).2.1

/-! ## The input windows' buffers hold their blocks -/

variable (e : Entry F)

theorem before1_0 (c : Dev nD) (t : Fin cfg1.N) (d) : (dat1 (U := U) e c).before 0 t d = iblk e c 0 t :=
  ((dat1 (U := U) e c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat1 (U := U) e c).before 1 t d = iblk e c 1 t :=
  ((dat1 (U := U) e c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat1 (U := U) e c).before 2 t d = iblk e c 2 t :=
  ((dat1 (U := U) e c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat1 (U := U) e c).before 3 t d = iblk e c 3 t :=
  ((dat1 (U := U) e c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat1 (U := U) e c).Φ t.castSucc ∗ (dat1 (U := U) e c).owesAt none t.castSucc
    ∗ (∃ d, owns (c : Thread nD τ) (st1_0 t) fullShare ((dat1 (U := U) e c).before 0 t d))
    ∗ (∃ d, owns (c : Thread nD τ) (st1_1 t) fullShare ((dat1 (U := U) e c).before 1 t d))
    ∗ (∃ d, owns (c : Thread nD τ) (st1_2 t) fullShare ((dat1 (U := U) e c).before 2 t d))
    ∗ (∃ d, owns (c : Thread nD τ) (st1_3 t) fullShare ((dat1 (U := U) e c).before 3 t d))
    ∗ (∃ d, owns (c : Thread nD τ) (st1_4 t) fullShare ((dat1 (U := U) e c).before 4 t d)))

/-- and what it returns. -/
def bodyPost (c : Dev nD) (t : Fin cfg1.N) : sProp 𝕄 :=
  iprop((dat1 (U := U) e c).Φ t.succ ∗ (dat1 (U := U) e c).owesAt none t.succ
    ∗ owns (c : Thread nD τ) (st1_0 t) fullShare ((dat1 (U := U) e c).after 0 t)
    ∗ owns (c : Thread nD τ) (st1_1 t) fullShare ((dat1 (U := U) e c).after 1 t)
    ∗ owns (c : Thread nD τ) (st1_2 t) fullShare ((dat1 (U := U) e c).after 2 t)
    ∗ owns (c : Thread nD τ) (st1_3 t) fullShare ((dat1 (U := U) e c).after 3 t)
    ∗ owns (c : Thread nD τ) (st1_4 t) fullShare ((dat1 (U := U) e c).after 4 t))

/-- The body at any point: the inputs' memrefs hold their blocks, so `sound_kernel` applies. -/
theorem sound_body (c : Dev nD) (t : Fin cfg1.N) :
    bodyPre (U := U) e c t ⊢ wp frame (wpE (defs₀ (F := F)) Variants.none c none) Set.univ (bodyAt1 t) (fun _ => bodyPost (U := U) e c t) := by
  unfold bodyPre bodyPost bodyAt1
  simp only [before1_0, before1_1, before1_2, before1_3]
  rw [show (dat1 (U := U) e c).Φ t.succ = (dat1 (U := U) e c).Φ t.castSucc from rfl,
    show (dat1 (U := U) e c).owesAt none t.succ = (dat1 (U := U) e c).owesAt none t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel (U := U) c Set.univ _ _ _ _ _ _ _ _ _ _ _ (iblk e c 0 t) (iblk e c 1 t) (iblk e c 2 t) (iblk e c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 100000 in
/-- The library's body obligation, at every point. -/
theorem body_obligation (c : Dev nD) : BodyObligation (dat1 (F := F) (U := U) e c) (defs₀ (F := F)) Variants.none none Set.univ := fun t => by
  rw [bigSep_W1, bigSep_W1]
  show bodyPre (U := U) e c t ⊢ wp frame (wpE (defs₀ (F := F)) Variants.none c none) Set.univ (bodyAt1 t) (fun _ => bodyPost (U := U) e c t)
  exact sound_body e c t

/-- The same for the family over the program's pipelines. -/
theorem body_obligation_loose (c : Dev nD) : BodyObligationLoose (pdats (F := F) (U := U) e 0 c) (defs₀ (F := F)) Variants.none none Set.univ :=
  (body_obligation e c).loose

end Cert.KernelIdeal.Ln

end
-- ==== Proof.LnEntry.lean ====
/-
  THE ENTRY of the layer-normalisation region from the TensorCore's thread of the SparseCore launch: from the
  region-boundary holdings, the level facts, the pipeline's launch ghost state for its staging cells on the device, the
  five arrays held whole and the thread owing nothing with its recorded pairs known, the region's call runs to the
  boundary again, the mask, the hidden states and the two rows unchanged, the result array at `lnArr` of them, and the
  thread still owing nothing, its recorded pairs those at entry and pairs at the index `none`.
-/
import proofs.«214348_g62886911148048_cont_9to1c4b_763_21_alg».proof.Proof.LnEntryCore
import proofs.«214348_g62886911148048_cont_9to1c4b_763_21_alg».proof.Proof.LnBody
import proofs.«214348_g62886911148048_cont_9to1c4b_763_21_alg».proof.Proof.LnArr

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable {U : Type} [URA U]

local notation "ℍ" => SparseCore.Cfg.HIx 1
local notation "𝕄" => MT nD τ sig (SparseCore.Cfg.HIx 1) (Elt F) ℕ U ℕ

variable (e : Entry F) (L : GSem nD τ sig → Finset ℍ) (lv : GSem nD τ sig → ℍ → ℕ)
variable (EP : Emb (URounds (GSem nD τ sig) Unit) (MT nD τ sig (SparseCore.Cfg.HIx 1) (Elt F) ℕ U ℕ))

/-- What the thread holds of the region's arrays after it, the arrays named. -/
def regOut (c : Dev nD) : sProp 𝕄 :=
  iprop(pl c main_v0 (e.M c) ∗ pl c main_arg0 (e.X c) ∗ pl c main_v1 (e.G c) ∗ pl c main_v2 (e.B c)
    ∗ pl c main_v3 (lnArr (e.M c) (e.X c) (e.G c) (e.B c))
    ∗ ∃ W', ⌜∀ p ∈ W', p ∈ e.W c ∨ p.2 = none⌝ ∗ owes (c : Thread nD τ) (0 : CellTallies nD τ sig ℍ) W')

theorem regPost_eq (c : Dev nD) : regPost (U := U) e c = regOut (U := U) e c := by
  unfold regPost regOut
  rw [arrAt_in0, arrAt_in1, arrAt_in2, arrAt_in3, arrAt_out]

/-- THE ENTRY. -/
theorem entry [EP.LandsIn (upEmb : UEmb _ 𝕄)] (d : Dev nD) :
    iprop(boundary (d.tc : Thread nD τ) ∗ levAts L lv
        ∗ Pipeline.cellsGhost (Pipeline.pin (pcfgs (F := F)) adm) EP 0 d ∗ Pipeline.toksInit (Pipeline.pin (pcfgs (F := F)) adm) EP 0 d
        ∗ regPre e d)
      ⊢ wp frame (wpE ((sc (F := F)).defs (Pipeline.defs pcfgs defs₀)) (Variants.lift Variants.none) (d.tc : Thread nD τ) none) Set.univ
          (Prog.lift (.customCall (SparseCore.inner (Pipeline.entry 0)) ()))
          (fun _ => iprop(boundary (d.tc : Thread nD τ) ∗ regOut e d)) := by
  have h := entry_core e L lv EP (fun c => body_obligation_loose e c) d
  rw [regPost_eq] at h
  exact h

end Cert.KernelIdeal.Ln

end
-- ==== Proof.RunKI.lean ====
/-
  The kernel program's run: every weakly fair execution of its thirty-five threads ends, nothing faulting, with the four
  arguments as launched and the result array at `KOut`: the layer-normalisation region's value at the mask the
  SparseCore call left, the hidden states, and the re-laid scale and shift rows.
-/
import proofs.«214348_g62886911148048_cont_9to1c4b_763_21_alg».proof.Proof.MainKI
import proofs.«214348_g62886911148048_cont_9to1c4b_763_21_alg».proof.Proof.LnEntry

noncomputable section

namespace Cert.Proof.KI

open Cert.KernelIdeal Cert.KernelIdeal.Gen
open Cert.KernelIdeal.Ln (Entry pl regPre lnArr)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The result array the run leaves. -/
abbrev KOut (d : Dev nD) : Buf (Elt F) (v3Loc d) := lnArr (maskBuf m d) (m (a0Loc d)) (G1 m d) (B1 m d)

def fq (d : Dev nD) (s' : Phys nD τ sig (Elt F)) : Prop :=
  s'.mem.mem (a0Loc d) = m (a0Loc d) ∧ s'.mem.mem (iLoc d) = m (iLoc d) ∧ s'.mem.mem (a2Loc d) = m (a2Loc d)
    ∧ s'.mem.mem (a3Loc d) = m (a3Loc d) ∧ s'.mem.mem (v3Loc d) = KOut m d

theorem hfin (d : Dev nD) (s' : Phys nD τ sig (Elt F)) : iprop(FIN m (maskBuf m) d ∗ SI s') ⊢ (⌜fq m d s'⌝ : sProp 𝕄) := by
  iintro ⟨⟨H0, H1, H2, H3, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := iLoc d) (I := Finset.univ) (q := shareDrop fullShare 2) (f := m (iLoc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := v3Loc d) (I := Finset.univ) (q := fullShare) (f := KOut m d)) $$ [HSI H4]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-- The run's post: the result named, the arguments as launched. -/
def QC : PUnit × MemSt nD τ sig (Elt F) → Prop := fun r => ∀ c : Dev nD,
  r.2.mem (v3Loc c) = KOut m c ∧ r.2.mem (a0Loc c) = m (a0Loc c) ∧ r.2.mem (iLoc c) = m (iLoc c)
    ∧ r.2.mem (a2Loc c) = m (a2Loc c) ∧ r.2.mem (a3Loc c) = m (a3Loc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => GD (F := F) d) (FIN m (maskBuf m)) (u₀ (F := F)) (sep_elim_left.trans (hu₀ m))
    (hmain m ρ (maskBuf m) (seg_join m) (fun e d => Cert.KernelIdeal.Ln.entry e _ _ EP d))
    (fq m) (hfin m) (QC m)
    (fun s' h c => ⟨(h c).2.2.2.2, (h c).1, (h c).2.1, (h c).2.2.1, (h c).2.2.2.1⟩)

end Cert.Proof.KI

end
-- ==== Proof.MaskTileK.lean ====
/-
  The mask kernel's task on one vector subcore: it fetches batch `b`'s 4096 sampled positions into its own scratch, clears
  a scratch of 1024 numbers, and for every fetched position that falls in its segment `[s0, s0 + 1024)` of the sequence
  writes a one at the position's offset in the segment; the scratch is then copied to the segment of row `b` of the mask.
  Subcore `s` of SparseCore `c` is worker `w = 2 s + c`; its batch is `w / 8` and its segment starts at `1024 (w mod 8)`.
  Each of the two copies is started and waited for by the task itself on a semaphore of its own, so no other thread's
  step matters to it.
-/
import proofs.«214348_g62886911148048_cont_9to1c4b_763_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«214348_g62886911148048_cont_9to1c4b_763_21_alg».proof.Proof.Gen.Kernel
import proofs.«214348_g62886911148048_cont_9to1c4b_763_21_alg».proof.Proof.Gen.Kernel.Skeleton
import proofs.«214348_g62886911148048_cont_9to1c4b_763_21_alg».proof.Proof.MaskSpec
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

local notation "iW" => (Memref.whole Cert.Kernel.main_arg1_scv : Memref Cert.Kernel.sig Kind.scVector Space.hbm Cert.Kernel.S4x4096 EltTy.i32)
local notation "mW" => (Memref.whole Cert.Kernel.main_v0_scv : Memref Cert.Kernel.sig Kind.scVector Space.hbm Cert.Kernel.S4x8192 EltTy.f32)
local notation "sI" => (Memref.whole Cert.Kernel.cc0_scratch0 : Memref Cert.Kernel.sig Kind.scVector Space.vmem Cert.Kernel.S4096 EltTy.i32)
local notation "sB" => (Memref.whole Cert.Kernel.cc0_scratch1 : Memref Cert.Kernel.sig Kind.scVector Space.vmem Cert.Kernel.S1024 EltTy.f32)

abbrev iLoc (d : Dev nD) : Loc nD τ sig := (SparseCore.T d).loc main_arg1
abbrev mLoc (d : Dev nD) : Loc nD τ sig := (SparseCore.T d).loc main_v0

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The task's segment of the mask, as the task slices it. -/
abbrev mSeg (L : grid0.Coords) : Memref sig .scVector .hbm S1024 .f32 :=
  ((mW).slice (Rect.unit (s := S4x8192) (k0_off4 L) S1x1024.size (k0_off4_inb L)) (fun _ => rfl)).squeeze S1024 squeezes_S1x1024_S1024
/-- The batch's list of positions, as the task slices it out of the positions' array. -/
abbrev iRow (L : grid0.Coords) : Memref sig .scVector .hbm S4096 .i32 :=
  ((iW).slice (Rect.unit (s := S4x4096) (k0_off1 L) S1x4096.size (k0_off1_inb L)) (fun _ => rfl)).squeeze S4096 squeezes_S1x4096_S4096
abbrev segSet (L : grid0.Coords) : Finset S4x8192.Idx := (mSeg L).view.set

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The thread. -/
abbrev thr (d : Dev nD) (L : grid0.Coords) : Thread nD τ := V d (cV L) (jV L)

/-- A share of the positions' array at its launch contents; the task's segment of the mask at `f`. -/
abbrev iPts (q : PosShare TreeShare) (d : Dev nD) : sProp 𝕄 := iLoc d ↦{q} m (iLoc d)
abbrev segPts (d : Dev nD) (L : grid0.Coords) (f : Buf (Elt F) (mLoc d)) : sProp 𝕄 := mLoc d ↦[segSet L]{fullShare} f

omit [FloatOps F] in
theorem pts_i (q : PosShare TreeShare) (f : Buf (Elt F) (iLoc d)) :
    ((iW).view.loc (thr d L) ↦{q} f : sProp 𝕄) = iLoc d ↦{q} f := by
  simp only [Memref.view_whole, View.set_whole]
omit [FloatOps F] in
theorem pts_sI (f : Buf (Elt F) ((thr d L).loc cc0_scratch0)) :
    ((sI).view.loc (thr d L) ↦{fullShare} f : sProp 𝕄) = (thr d L).loc cc0_scratch0 ↦{fullShare} f := rfl
omit [FloatOps F] in
theorem pts_sB (f : Buf (Elt F) ((thr d L).loc cc0_scratch1)) :
    ((sB).view.loc (thr d L) ↦{fullShare} f : sProp 𝕄) = (thr d L).loc cc0_scratch1 ↦{fullShare} f := rfl
omit [FloatOps F] in
theorem pts_seg (f : Buf (Elt F) (mLoc d)) :
    ((mSeg L).view.loc (thr d L) ↦[(mSeg L).view.set]{fullShare} f : sProp 𝕄) = segPts d L f := rfl

/-- The two words the task writes. -/
abbrev zeroE : Elt F .f32 := (Scalar.ofBits .f32 0x00000000#32 : F .f32)
abbrev oneE : Elt F .f32 := (Scalar.ofBits .f32 0x3F800000#32 : F .f32)

/-- While the scratch is cleared: its first `16 k` entries are zero after `k` trips. -/
def inv1 (d : Dev nD) (L : grid0.Coords) (k : Nat) (_ : PUnit) : sProp 𝕄 :=
  iprop(∃ fb : Buf (Elt F) ((thr d L).loc cc0_scratch1), ⌜∀ j : S1024.Idx, (j 0).val < 16 * k → fb j = zeroE⌝
    ∗ ((sB).view.loc (thr d L) ↦{fullShare} fb))

/-- One more sixteen entries cleared. -/
theorem clear_step (k : Fin k0_t1_loop.trips) (fb1 : Buf (Elt F) ((thr d L).loc cc0_scratch1))
    (hfb1 : ∀ j : S1024.Idx, (j 0).val < 16 * k.val → fb1 j = zeroE) (j : S1024.Idx) (hj : (j 0).val < 16 * (k.val + 1)) :
    ((sB).view.writes (Elt F) fb1 [⟨Rect.unit (s := S1024) (k0_off2 k) S16.size (k0_off2_inb k), k0_pay1⟩]) j = zeroE := by
  by_cases hin : j ∈ (Rect.unit (s := S1024) (k0_off2 k) S16.size (k0_off2_inb k)).set
  · have h := View.read_writes_apply_of_pieces (sB).view fb1 (fun _ => (zeroE : Elt F .f32))
      [⟨Rect.unit (s := S1024) (k0_off2 k) S16.size (k0_off2_inb k), k0_pay1⟩]
      (by intro p hp x; obtain rfl := List.mem_singleton.mp hp; rfl) j ⟨_, List.mem_singleton_self _, hin⟩
    simpa only [Memref.view_whole, View.read_whole] using h
  · have h := View.read_writes_apply_of_forall_not_mem (sB).view fb1 j
      [⟨Rect.unit (s := S1024) (k0_off2 k) S16.size (k0_off2_inb k), k0_pay1⟩]
      (by intro p hp; obtain rfl := List.mem_singleton.mp hp; exact hin)
    simp only [Memref.view_whole, View.read_whole] at h
    rw [h]; apply hfb1
    rw [Rect.mem_set_unit, k0_off2_eq] at hin
    by_contra hlt
    apply hin
    intro a
    obtain rfl : a = 0 := Subsingleton.elim _ _
    simp only [Matrix.cons_val_zero]
    constructor
    · omega
    · show (j 0).val < 16 * k.val + 16; omega

/-- The one coordinate of an index into the 1024-entry scratch. -/
abbrev c0 (j : S1024.Idx) : Fin 1024 := ⟨(j 0).val, (j 0).isLt⟩

/-- The fetched positions, as a list of 4096 words. -/
abbrev ivOf (fI : Buf (Elt F) ((thr d L).loc cc0_scratch0)) : Fin 4096 → BitVec 32 := fun r => fI (ValueIdx.ix1 r)

/-- While the fetched positions are treated: after `k` trips the scratch marks exactly the first `16 k` of them. -/
def inv2 (d : Dev nD) (L : grid0.Coords) (s0 : BitVec 32) (fI : Buf (Elt F) ((thr d L).loc cc0_scratch0)) (k : Nat) (_ : PUnit) : sProp 𝕄 :=
  iprop((∃ fb : Buf (Elt F) ((thr d L).loc cc0_scratch1),
      ⌜∀ j : S1024.Idx, fb j = Cert.MaskSpec.bufAfter (oneE : Elt F .f32) zeroE s0 (ivOf d L fI) (16 * k) (c0 j)⌝
      ∗ ((sB).view.loc (thr d L) ↦{fullShare} fb))
    ∗ ((sI).view.loc (thr d L) ↦{fullShare} fI))

omit [FloatOps F] in
/-- The clipped index is always inside the scratch: the side condition of the indexed store. -/
theorem chk_all (s0 : BitVec 32) (v35 : Vec F S16 .i32) : k0_chk1 (k0_pay5 (F := F) s0 v35) := by
  intro a x
  obtain rfl : a = 0 := Subsingleton.elim _ _
  exact Cert.MaskSpec.pos_lt s0 (v35 x)

omit [FloatOps F] in
theorem pts_sB_access (f : Buf (Elt F) ((thr d L).loc cc0_scratch1)) :
    ((((sB).access (.whole S1024)).loc (thr d L)) ↦[((sB).access (.whole S1024)).set]{fullShare} f : sProp 𝕄)
      = ((sB).view.loc (thr d L) ↦{fullShare} f) := by
  have h : ((sB).access (.whole S1024)).set = Finset.univ := Memref.set_access_whole cc0_scratch1
  rw [h]

omit [FloatOps F] in
theorem trips1 : Scf.trips k0_t1_loop.lb k0_t1_loop.ub k0_t1_loop.st = 64 := by decide +kernel
omit [FloatOps F] in
theorem trips2 : Scf.trips k0_t2_loop.lb k0_t2_loop.ub k0_t2_loop.st = 256 := by decide +kernel

/-- The sixteen positions trip `k` loads. -/
abbrev lanes (k : Fin k0_t2_loop.trips) (fI : Buf (Elt F) ((thr d L).loc cc0_scratch0)) : Vec F S16 .i32 :=
  View.readAt (Elt F) (sI).view (Rect.unit (s := S4096) (k0_off3 k) S16.size (k0_off3_inb k)).toLoadRect fI

omit [FloatOps F] in
theorem lanes_apply (k : Fin k0_t2_loop.trips) (fI : Buf (Elt F) ((thr d L).loc cc0_scratch0)) (x : Fin 16) (hx : 16 * k.val + x.val < 4096) :
    lanes d L k fI (Shape.ofLane x) = ivOf d L fI ⟨16 * k.val + x.val, hx⟩ := by
  unfold lanes ivOf
  simp only [View.readAt_apply, Memref.view_whole, View.read_whole]
  congr 1
  refine funext fun a => Fin.ext ?_
  have ha : a = (0 : Fin 1) := Subsingleton.elim (α := Fin 1) a 0
  subst ha
  rw [LoadRect.idx_apply]
  show k0_off3 k 0 + 1 * x.val = 16 * k.val + x.val
  rw [k0_off3_eq]; simp

/-- The indexed store of ones through the trip's active lanes adds exactly the offsets the trip's positions mark. -/
theorem scatter_step (s0 : BitVec 32) (fI : Buf (Elt F) ((thr d L).loc cc0_scratch0)) (k : Fin k0_t2_loop.trips)
    (fb2 : Buf (Elt F) ((thr d L).loc cc0_scratch1))
    (hfb2 : ∀ j : S1024.Idx, fb2 j = Cert.MaskSpec.bufAfter (oneE : Elt F .f32) zeroE s0 (ivOf d L fI) (16 * k.val) (c0 j))
    (h : ∀ a x, ((![k0_pay5 (F := F) s0 (lanes d L k fI)] : Fin 1 → IVec S16 32) a x).toNat < S1024.size a) (j : S1024.Idx) :
    storeIdx (F := F) (e := .f32) fb2 ![k0_pay5 (F := F) s0 (lanes d L k fI)] (k0_pay2 (F := F)) (k0_pay4 (F := F) s0 (lanes d L k fI)) false h j
      = Cert.MaskSpec.bufAfter (oneE : Elt F .f32) zeroE s0 (ivOf d L fI) (16 * (k.val + 1)) (c0 j) := by
  classical
  have hk : k.val < 256 := by have := k.isLt; have := trips2; unfold Scf.Loop.trips at *; omega
  rw [Cert.MaskSpec.storeIdx_const fb2 _ (k0_pay2 (F := F)) _ h oneE (fun _ => rfl) j, hfb2 j,
    ← Cert.MaskSpec.bufAfter_step oneE zeroE s0 (ivOf d L fI) k.val (by omega)
      (fun x => lanes d L k fI (Shape.ofLane x)) (fun x => lanes_apply (F := F) d L k fI x (by have := x.isLt; omega)) (c0 j)]
  refine Cert.MaskSpec.ite_iff_congr ⟨?_, ?_⟩ _ _
  · rintro ⟨x, h1, h2⟩; exact ⟨x, h1, h2 0⟩
  · rintro ⟨x, h1, h2⟩
    refine ⟨x, h1, fun a => ?_⟩
    have ha : a = (0 : Fin 1) := Subsingleton.elim (α := Fin 1) a 0
    subst ha; exact h2

theorem pts_sB_storeIdx (fb : Buf (Elt F) ((thr d L).loc cc0_scratch1)) (idxs : Fin S1024.rank → IVec S16 32) (v : Vec F S16 .f32)
    (mask : IVec S16 1) (h : ∀ a x, (idxs a x).toNat < S1024.size a) :
    ((((sB).access (.whole S1024)).loc (thr d L)) ↦[((sB).access (.whole S1024)).set]{fullShare}
        (((sB).access (.whole S1024)).write (Elt F) fb
          (storeIdx (((sB).access (.whole S1024)).read (Elt F) fb) idxs v mask false h) Finset.univ) : sProp 𝕄)
      = ((sB).view.loc (thr d L) ↦{fullShare} storeIdx (F := F) (e := .f32) fb idxs v mask false h) := by
  have h1 : ((sB).access (.whole S1024)).read (Elt F) fb = fb := Memref.read_access_whole (Elt F) cc0_scratch1 fb
  rw [h1]
  have h2 : ((sB).access (.whole S1024)).write (Elt F) fb (storeIdx (F := F) (e := .f32) fb idxs v mask false h) Finset.univ
      = storeIdx (F := F) (e := .f32) fb idxs v mask false h := Memref.write_access_whole_univ (Elt F) cc0_scratch1 fb _
  rw [h2, pts_sB_access]

/-- What the task leaves at entry `y` of its segment: a one exactly when one of its batch's positions marks `y`. -/
def segRaw (d : Dev nD) (L : grid0.Coords) (y : S1024.Idx) : Elt F .f32 :=
  Cert.MaskSpec.bufAfter (oneE : Elt F .f32) zeroE (BitVec.ofNat 32 (k0_off4 L 1))
    (fun r => m (iLoc d) ((iRow L).view.emb (ValueIdx.ix1 r))) 4096 (c0 y)

theorem tile_body (hF : (K (F := F)).Facts) (q : PosShare TreeShare) (O : CellTallies nD τ sig (HIx 1)) (W : Waits sig (HIx 1)) (hO : ∀ g, O g none = 0)
    (f0 : Buf (Elt F) (mLoc d)) :
    iprop(levAts (K (F := F)).L (K (F := F)).lev ∗ emp
        ∗ (iPts m q d ∗ segPts d L f0)
        ∗ scopedBufs (thr d L) ∗ scopedSems0 (thr d L) ∗ owes (thr d L) O W)
      ⊢ wp frame (wpE (defs₀ (F := F)) 𝒱₀ (thr d L) none) Set.univ
          (cc0__mask_body L iW (Memref.isWhole_whole _) mW (Memref.isWhole_whole _) sI (Memref.isWhole_whole _) sB (Memref.isWhole_whole _) cc0_scoped0 cc0_scoped1)
          fun _ => iprop((iPts m q d ∗ ∃ f, ⌜∀ y : S1024.Idx, f ((mSeg L).view.emb y) = segRaw m d L y⌝ ∗ segPts d L f)
            ∗ scopedBufs (thr d L) ∗ scopedSems0 (thr d L) ∗ ∃ W', ⌜∀ p ∈ W', p ∈ W ∨ p.2 = none⌝ ∗ owes (thr d L) O W') := by
  simp only [cc0__mask_body_eq_skeleton]; unfold cc0__mask_body_skel
  rw [(K (F := F)).scopedBufs_V hF d (cV L) (jV L), SparseCore.Cfg.scopedSems0_V (Val := Elt F) d (cV L) (jV L), ownSems0_V, ownBufs_V]
  iintro ⟨#Hlv, -, ⟨Hi, Hm⟩, ⟨⟨%fs, Hs⟩, ⟨%fb, Hb⟩, Hbufs⟩, ⟨Hsem0, Hsem1, Hsems⟩, HO⟩
  ihave Hmw := ((K (F := F)).mayWaits_none (thr := thr d L) hO) $$ Hlv
  ihave Hi' := (Entails.of_eq (pts_i (F := F) d L q _).symm) $$ Hi
  ihave Hs' := (Entails.of_eq (pts_sI (F := F) d L _).symm) $$ Hs
  ihave Hb' := (Entails.of_eq (pts_sB (F := F) d L _).symm) $$ Hb
  ihave Hm' := (Entails.of_eq (pts_seg (F := F) d L _).symm) $$ Hm
  sl_exec
  sl_for (inv1 (F := F) d L) $$ [Hb']
  case region =>
    intro k _
    unfold inv1
    iintro ⟨%fb1, %hfb1, Hb⟩
    sl_exec
    sl_step
    iexists _; isplitr
    · ipureintro; exact clear_step (F := F) d L k fb1 hfb1
    · iexact Hb
  · unfold inv1
    iexists fb; isplitr
    · ipureintro; intro j hj; omega
    · iexact Hb'
  iintro %_ HI
  unfold inv1
  icases HI with ⟨%fb1, %hfb1, Hb⟩
  sl_for (inv2 (F := F) d L (tile_body.sl.v29 L) (View.write (Elt F) (sI).view fs (tile_body.sl.dma0 m d L) Finset.univ)) $$ [Hb Hs']
  case region =>
    intro k _
    unfold inv2
    iintro ⟨⟨%fb2, %hfb2, Hb⟩, Hs⟩
    sl_exec (disch := exact chk_all (F := F) _ _)
    ihave Hb' := (Entails.of_eq (pts_sB_access (F := F) d L _).symm) $$ Hb
    iapply (SparseCore.wp_vectorStoreIdx 𝒱₀ (thr d L) none Set.univ (base := sB)) $$ Hb'; iintro Hb'
    ihave Hb := (Entails.of_eq (pts_sB_storeIdx (F := F) d L fb2 _ _ _ _)) $$ Hb'
    sl_step
    isplitl [Hb]
    · iexists _; isplitr
      rotate_left
      · iexact Hb
      · ipureintro; intro j; exact scatter_step (F := F) d L _ _ k fb2 hfb2 _ j
    · iexact Hs
  · unfold inv2
    isplitl [Hb]
    · iexists fb1; isplitr
      · ipureintro; intro j
        exact (hfb1 j (by have h1 : (j 0).val < 1024 := (j 0).isLt; have h3 := trips1; omega)).trans
          (Cert.MaskSpec.bufAfter_zero (oneE : Elt F .f32) zeroE _ _ (c0 j)).symm
      · iexact Hb
    · iexact Hs'
  iintro %_ HI
  unfold inv2
  icases HI with ⟨⟨%fb2, %hfb2, Hb⟩, Hs⟩
  sl_exec
  sl_step
  isplitl [Hi' Hm']
  · isplitl [Hi']
    · iapply (Entails.of_eq (pts_i (F := F) d L q _)); iexact Hi'
    · iexists _; isplitr
      rotate_left
      · iapply (Entails.of_eq (pts_seg (F := F) d L _)); iexact Hm'
      · ipureintro; intro y
        have hv29 : ∀ L' : grid0.Coords, tile_body.sl.v29 L' = BitVec.ofNat 32 (k0_off4 L' 1) := by decide +kernel
        have h1 := View.read_writes_cons_emb (mSeg L).view f0 (Rect.whole S1024) (tile_body.sl.dma0_1 d L fb2) [] y
        rw [Rect.emb_whole_apply, View.read_apply] at h1
        refine (cast_eq _ _).symm.trans (h1.trans ?_)
        unfold tile_body.sl.dma0_1
        show fb2 y = _
        rw [hfb2 y, hv29 L]
        unfold segRaw
        have ht : 16 * Scf.trips k0_t2_loop.lb k0_t2_loop.ub k0_t2_loop.st = 4096 := by rw [trips2]
        rw [ht]
        congr 1
        funext r
        unfold ivOf tile_body.sl.dma0
        rw [View.write_whole_univ]
        show View.read (Elt F) (iRow L).view (m (iLoc d)) (ValueIdx.ix1 r) = _
        rw [View.read_apply]; exact cast_eq _ _
  isplitl [Hs Hb Hbufs]
  · isplitl [Hs]; · iexists _; iexact Hs
    isplitl [Hb]; · iexists _; iexact Hb
    iexact Hbufs
  isplitl [Hsem0 Hsem1 Hsems]
  · isplitl [Hsem0]; · iexact Hsem0
    isplitl [Hsem1]; · iexact Hsem1
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact .inl hp

end Tile

end Cert.Proof.KB

end
-- ==== Proof.LnKDefs.lean ====
/-
  The layer-normalisation region's result as a pure function of the blocks it reads.

  At a grid point the body reads a block of 512 positions of the hidden states (each position four rows of 1024
  numbers), the matching 4 x 512 block of the 0/1 mask, and the scale and shift rows. Position `k` of the result
  block is, row by row, the normalised row where the mask exceeds one half and the input row elsewhere.
-/
import proofs.«214348_g62886911148048_cont_9to1c4b_763_21_alg».proof.Proof.Gen.Kernel.Skeleton
import Idealize.ShloMosaic.Lib.Pipeline.FrameBody

set_option maxRecDepth 16384

noncomputable section

namespace Cert.Kernel.Ln

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Column `k` of the mask block is a 4 x 1 slice of it. -/
theorem slices_mask (k : ℕ) (hk : k < 512) : S4x512.Slices ![0, k] S4x1 :=
  ⟨rfl, fun a => by
    fin_cases a
    · show 0 + 4 ≤ 4; omega
    · show k + 1 ≤ 512; omega⟩

/-- Position `k` of a block of 512 positions is a 1 x 4 x 1024 slice of it. -/
theorem slices_row (k : ℕ) (hk : k < 512) : S512x4x1024.Slices ![k, 0, 0] S1x4x1024 :=
  ⟨rfl, fun a => by
    fin_cases a
    · show k + 1 ≤ 512; omega
    · show 0 + 4 ≤ 4; omega
    · show 0 + 1024 ≤ 1024; omega⟩

/-- Position `k` of a block of 512 positions is a unit rectangle of it. -/
theorem inb_row (k : ℕ) (hk : k < 512) : ∀ a, (![k, 0, 0] : Fin 3 → Nat) a + S1x4x1024.size a ≤ S512x4x1024.size a := fun a => by
  fin_cases a
  · show k + 1 ≤ 512; omega
  · show 0 + 4 ≤ 4; omega
  · show 0 + 1024 ≤ 1024; omega

/-- What is stored at position `k` of the result block, from the input block `v0`, the mask block `v2` and the block of
    normalised rows `v33`: per row, the normalised row where the mask's entry for (row, `k`) exceeds one half, the input
    row elsewhere. -/
def rowPay (v0 : Vec F S512x4x1024 .f32) (v2 : FVec F S4x512 .f32) (v33 : FVec F S512x4x1024 .f32) (k : ℕ) (hk : k < 512) :
    FVec F S1x4x1024 .f32 :=
  shapeCast S1x4x1024
    (select
      (broadcastTo S4x1024
        (shapeCast S4x1 (cmpf .ogt (extractStridedSlice S4x1 ![0, k] v2 (slices_mask k hk)) (broadcast S4x1 (Scalar.ofBits .f32 0x3F000000#32)))
          shapeCasts_S4x1_S4x1)
        broadcasts_S4x1_S4x1024)
      (shapeCast S4x1024 (extractStridedSlice S1x4x1024 ![k, 0, 0] v33 (slices_row k hk)) shapeCasts_S1x4x1024_S4x1024)
      (shapeCast S4x1024 (extractStridedSlice S1x4x1024 ![k, 0, 0] v0 (slices_row k hk)) shapeCasts_S1x4x1024_S4x1024))
    shapeCasts_S4x1024_S1x4x1024

/-- An index of the block, read as an index of its position's 1 x 4 x 1024 slice. -/
def rowIdx (y : S512x4x1024.Idx) : S1x4x1024.Idx := fun a =>
  match a with
  | ⟨0, _⟩ => ⟨0, by show 0 < 1; omega⟩
  | ⟨1, _⟩ => y 1
  | ⟨2, _⟩ => y 2

/-- The unit rectangle of position `k`. -/
abbrev rowRect (k : ℕ) (hk : k < 512) : Rect S512x4x1024 := Rect.unit (s := S512x4x1024) ![k, 0, 0] S1x4x1024.size (inb_row k hk)

/-- An index lies in the rectangle of its own position, at its `rowIdx`. -/
theorem emb_rowIdx (y : S512x4x1024.Idx) : (rowRect (y 0).val (y 0).isLt).emb (rowIdx y) = y := by
  funext a
  apply Fin.ext
  rw [Rect.emb_apply]
  fin_cases a
  · show (y 0).val + 1 * 0 = (y 0).val; omega
  · show 0 + 1 * (y 1).val = (y 1).val; omega
  · show 0 + 1 * (y 2).val = (y 2).val; omega

/-- THE RESULT BLOCK: from the mask block `mb`, the input block `xb`, the scale row `gb` and the shift row `bb`. -/
def lnBlk (mb : Vec F S4x512 .f32) (xb : Vec F S512x4x1024 .f32) (gb bb : Vec F S1x1024 .f32) : Vec F S512x4x1024 .f32 :=
  fun y => rowPay xb (k1_pay1 mb) (k1_pay2 xb gb bb) (y 0).val (y 0).isLt (rowIdx y)

end Cert.Kernel.Ln

end
-- ==== Proof.LnKDat.lean ====
/-
  The proof data of the layer-normalisation region on one device: the five arrays at the contents the region is entered
  with, and what each window's staging buffer holds after the body at a grid point — the four inputs' buffers their
  blocks, the result's buffer the result block `lnBlk` of those four blocks.
-/
import proofs.«214348_g62886911148048_cont_9to1c4b_763_21_alg».proof.Proof.LnKDefs
import proofs.«214348_g62886911148048_cont_9to1c4b_763_21_alg».proof.Proof.Gen.Kernel.Launch
import proofs.«214348_g62886911148048_cont_9to1c4b_763_21_alg».proof.Proof.Gen.Kernel.Points
import Idealize.ShloMosaic.Lib.Pipeline.FrameBody
import Idealize.ShloMosaic.Lib.Pipeline.Regions
import Idealize.ShloMosaic.Lib.SparseCore.Launch

set_option maxRecDepth 16384

noncomputable section

namespace Cert.Kernel.Ln

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable {U : Type} [URA U]

local notation "ℍ" => SparseCore.Cfg.HIx 1
local notation "𝕄" => MT nD τ sig (SparseCore.Cfg.HIx 1) (Elt F) ℕ U ℕ

/-- What the five arrays hold, device by device, when the region is entered: the mask, the hidden states, the scale and
    shift rows, the result array (at anything), and the pairs its waits have recorded so far. -/
structure Entry (F : FTy → Type) where
  M : Dev nD → Vec F S4x8192 .f32
  X : Dev nD → Vec F S8192x4x1024 .f32
  G : Dev nD → Vec F S1x1024 .f32
  B : Dev nD → Vec F S1x1024 .f32
  O : Dev nD → Vec F S8192x4x1024 .f32
  /-- The (semaphore, index) pairs the thread's waits have recorded before the region. -/
  W : Dev nD → Waits sig (SparseCore.Cfg.HIx 1)

variable (e : Entry F)

/-- The arrays at entry, window by window. -/
def arrA (c : Dev nD) (w : Fin cfg1.W) : Buf (Elt F) ((cfg1.win w).arr.view.loc (c.tc : Thread nD τ)) :=
  match w with
  | ⟨0, _⟩ => e.M c
  | ⟨1, _⟩ => e.X c
  | ⟨2, _⟩ => e.G c
  | ⟨3, _⟩ => e.B c
  | ⟨4, _⟩ => e.O c

/-- Window `w`'s block at point `t`, read off its array at entry. -/
def iblk (c : Dev nD) (w : Fin cfg1.W) (t : Fin cfg1.N) : ((cfg1.win w).xblock (cfg1.grid.coords t)).Idx → Elt F (cfg1.win w).elt :=
  ((cfg1.win w).blk t).view.read (Elt F) (arrA e c w)

/-- The proof data: the arrays at entry; after the body each input's buffer at its block and the result's at `lnBlk` of
    the input blocks; no invariant; nothing owed; the recorded pairs those at entry (the body waits for nothing); full shares. -/
def dat1 (c : Dev nD) : Dat τ (Elt F) ℍ ℕ U ℕ cfg1 c where
  A w := arrA e c w
  after w t := match w with
    | ⟨0, _⟩ => iblk e c 0 t
    | ⟨1, _⟩ => iblk e c 1 t
    | ⟨2, _⟩ => iblk e c 2 t
    | ⟨3, _⟩ => iblk e c 3 t
    | ⟨4, _⟩ => lnBlk (iblk e c 0 t) (iblk e c 1 t) (iblk e c 2 t) (iblk e c 3 t)
  Φ _ := iprop(emp)
  q _ := fullShare
  owed _ := 0
  recorded _ := ↑(e.W c)

abbrev adm : (p : Fin 1) → (pcfgs (F := F) p).Adm := fun p => (cfgs p).toPCfg_adm

/-- The same, as the family over the program's pipelines (there is one). -/
def pdats : (p : Fin 1) → (c : Dev nD) → Dat τ (Elt F) ℍ ℕ U ℕ (Pipeline.pin (pcfgs (F := F)) adm p) c
  | 0 => dat1 (U := U) e

theorem A_eq (c : Dev nD) (w : Fin cfg1.W) : (dat1 (U := U) e c).A w = arrA e c w := by dsimp only [dat1]
theorem after1_0 (c : Dev nD) (t : Fin cfg1.N) : (dat1 (U := U) e c).after 0 t = iblk e c 0 t := by dsimp only [dat1]
theorem after1_1 (c : Dev nD) (t : Fin cfg1.N) : (dat1 (U := U) e c).after 1 t = iblk e c 1 t := by dsimp only [dat1]
theorem after1_2 (c : Dev nD) (t : Fin cfg1.N) : (dat1 (U := U) e c).after 2 t = iblk e c 2 t := by dsimp only [dat1]
theorem after1_3 (c : Dev nD) (t : Fin cfg1.N) : (dat1 (U := U) e c).after 3 t = iblk e c 3 t := by dsimp only [dat1]
theorem after1_4 (c : Dev nD) (t : Fin cfg1.N) :
    (dat1 (U := U) e c).after 4 t = lnBlk (iblk e c 0 t) (iblk e c 1 t) (iblk e c 2 t) (iblk e c 3 t) := by dsimp only [dat1]

end Cert.Kernel.Ln

end
-- ==== Proof.LaunchK.lean ====
/-
  The launch of the mask kernel on the two SparseCores' thirty-two vector subcores. Every task reads its batch's list out
  of the positions' array, which eight tasks share: the array goes out as read shares, one per SparseCore and, of that,
  one per task; nothing of it needs to come back, a share kept by the TensorCore witnesses that it never changes. The
  mask goes out in thirty-two disjoint segments, one per task, and comes back with each segment at what its task left.
-/
import proofs.«214348_g62886911148048_cont_9to1c4b_763_21_alg».proof.Proof.MaskTileK
import proofs.«214348_g62886911148048_cont_9to1c4b_763_21_alg».proof.Proof.LnKDat

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

variable [FloatOps F]

theorem nCore_zero : (K (F := F)).nCore 0 = 2 := rfl
theorem nSub_zero : (K (F := F)).nSub 0 = 16 := rfl

/-- The task of subcore `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- SparseCore `c`'s share of the positions' array, and task `i`'s share of that. -/
abbrev qC (c : Fin 2) : PosShare TreeShare := shareTok fullShare 2 c
abbrev qT (c : Fin 2) (i : Fin 16) : PosShare TreeShare := shareTok (qC c) 16 i

/-- What a task is handed, and what it hands back. -/
abbrev goRes (d : Dev nD) (c : Fin 2) (i : Fin 16) : sProp 𝕄 :=
  iprop(iPts m (qT c i) d ∗ segPts d (coordsV c i) (m (mLoc d)))
abbrev tdRes (d : Dev nD) (c : Fin 2) (i : Fin 16) : sProp 𝕄 :=
  iprop(iPts m (qT c i) d ∗ ∃ f, ⌜∀ y : S1024.Idx, f ((mSeg (coordsV c i)).view.emb y) = segRaw m d (coordsV c i) y⌝ ∗ segPts d (coordsV c i) f)

def P : (K (F := F)).Pay (nD := nD) (Val := Elt F) (Name := ℕ) (U := UU) where
  st := fun q d c => match q with
    | 0 => iprop(iPts m (qC (Fin.cast nCore_zero c)) d ∗ bigSep Finset.univ fun i : Fin 16 => segPts d (coordsV (Fin.cast nCore_zero c) i) (m (mLoc d)))
  dn := fun q d c => match q with
    | 0 => bigSep Finset.univ fun i : Fin 16 => tdRes m d (Fin.cast nCore_zero c) i
  go := fun q d c i => match q with
    | 0 => goRes m d (Fin.cast nCore_zero c) (Fin.cast nSub_zero i)
  td := fun q d c i => match q with
    | 0 => tdRes m d (Fin.cast nCore_zero c) (Fin.cast nSub_zero i)
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

theorem defs₀_vector (c : Fin τ.nSC) (s : Fin τ.nSub) :
    defs₀ (F := F) (.scVector c s) 0 ()
      = SparseCore.onTile hcore0 hsub0 (fun c s => cc0__mask_body (coordsV c s)
          (Memref.whole main_arg1_scv) (Memref.isWhole_whole _) (Memref.whole main_v0_scv) (Memref.isWhole_whole _)
          (Memref.whole cc0_scratch0) (Memref.isWhole_whole _) (Memref.whole cc0_scratch1) (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF _ O W hO _).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share of the positions' array splits into its sixteen tasks' shares; each task takes one with its own
    segment of the mask; what the tasks hand back is what the SparseCore hands back. -/
theorem vecSplit : (K (F := F)).VecSplit' (P m) 0 := by
  intro d c
  show iprop(iPts m (qC (Fin.cast nCore_zero c)) d ∗ bigSep Finset.univ fun i : Fin 16 => segPts d (coordsV (Fin.cast nCore_zero c) i) (m (mLoc d)))
    ⊢ |={Set.univ}=> iprop((bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ bigSep Finset.univ fun i : Fin 16 => tdRes m d (Fin.cast nCore_zero c) i))
  rw [bigSep_tasks (F := F) (fun i => goRes m d (Fin.cast nCore_zero c) i), bigSep_tasks (F := F) (fun i => tdRes m d (Fin.cast nCore_zero c) i)]
  iintro ⟨Hi, Hsegs⟩
  ihave Hi' := (Transfers.pointsTo_toks_split (qC (Fin.cast nCore_zero c)) 16) $$ Hi
  icases Hi' with ⟨-, Htoks⟩
  imodintro
  isplitl [Htoks Hsegs]
  · rw [bigSep_sep']
    isplitl [Htoks]; · iexact Htoks
    iexact Hsegs
  · iintro H; iexact H

/-! ## The launch element: the handshakes' rounds, the pipeline's staging cells' rounds; no cell of the kernel's own -/

/-- The staging cells' rounds, as a factor of the user algebra. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

abbrev pinned : Fin 1 → Pipeline.Cfg sig Λ₀ := Pipeline.pin (pcfgs (F := F)) Cert.Kernel.Ln.adm

def u₀ : UU :=
  (initOf (K (F := F)).hsCells (K (F := F)).hsToks,
    (initOf (Pipeline.cells (pinned (F := F)) cellOf_inj) (Pipeline.launchToks (pinned (F := F)) cellOf_inj), 1))

/-- What the launch deals a device for the region: its staging cells' ghost state and duty tokens. -/
abbrev GD (d : Dev nD) : sProp 𝕄 :=
  iprop(Pipeline.cellsGhost (pinned (F := F)) EP 0 d ∗ Pipeline.toksInit (pinned (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GD (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (pinned (F := F)) EP cellOf_inj) $$ HP with ⟨Hg, Ht⟩
  imodintro
  isplitl [HH]; · iexact HH
  isplitl [Hg Ht]
  · unfold GD
    rw [bigSep_sep']
    isplitl [Hg]
    · ihave Hg' := (Entails.of_eq (bigSep_congr fun d _ => (bigSep_univ_of_subsingleton (0 : Fin 1)))) $$ Hg
      iexact Hg'
    · ihave Ht' := (Entails.of_eq (bigSep_congr fun d _ => (bigSep_univ_of_subsingleton (0 : Fin 1)))) $$ Ht
      iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.LnKEntryCore.lean ====
/-
  Entering the layer-normalisation region from the TensorCore's thread of a program that also runs a SparseCore kernel:
  from the region-boundary holdings, the pipeline's launch ghost state for its staging cells, the five arrays held whole
  and the thread owing nothing, the region's call runs to the boundary again with the four inputs unchanged and the
  result array at what the proof data computes. The body obligation is a hypothesis here.
-/
import proofs.«214348_g62886911148048_cont_9to1c4b_763_21_alg».proof.Proof.LnKDat

set_option maxRecDepth 16384

noncomputable section

namespace Cert.Kernel.Ln

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable {U : Type} [URA U]

local notation "ℍ" => SparseCore.Cfg.HIx 1
local notation "𝕄" => MT nD τ sig (SparseCore.Cfg.HIx 1) (Elt F) ℕ U ℕ

variable (e : Entry F) (L : GSem nD τ sig → Finset ℍ) (lv : GSem nD τ sig → ℍ → ℕ)

/-- A TensorCore buffer held whole at the full share. -/
abbrev pl (c : Dev nD) (b : Ref sig .tc) (f : Buf (Elt F) ((c : Thread nD τ).loc b)) : sProp 𝕄 :=
  (((c : Thread nD τ).loc b) ↦{fullShare} f)

/-- The region's arrays at contents `Fa` are the five buffers held. -/
theorem arrays_eq (c : Dev nD) (Fa) : ((pdats (U := U) e 0 c).arrays Fa : sProp 𝕄)
    = iprop(pl c main_v0 (Fa 0) ∗ pl c main_arg0 (Fa 1) ∗ pl c main_v1 (Fa 2) ∗ pl c main_v2 (Fa 3) ∗ pl c main_v3 (Fa 4)) := by
  rw [Pipeline.arrays_eq (Pipeline.pin (pcfgs (F := F)) adm) (pdats e) 0 c launch1.arr_whole ((pdats e 0 c).share_full fun _ => rfl) Fa, bigSep_W1]

/-- What the thread holds of the region's arrays before it, -/
def regPre (c : Dev nD) : sProp 𝕄 :=
  iprop(pl c main_v0 (e.M c) ∗ pl c main_arg0 (e.X c) ∗ pl c main_v1 (e.G c) ∗ pl c main_v2 (e.B c) ∗ pl c main_v3 (e.O c)
    ∗ owes (c : Thread nD τ) (0 : CellTallies nD τ sig ℍ) (e.W c))

/-- and after it: the pairs its waits have recorded are those at entry and pairs at the index `none`. -/
def regPost (c : Dev nD) : sProp 𝕄 :=
  iprop(pl c main_v0 ((dat1 (U := U) e c).arrAt 0 cfg1.N) ∗ pl c main_arg0 ((dat1 (U := U) e c).arrAt 1 cfg1.N)
    ∗ pl c main_v1 ((dat1 (U := U) e c).arrAt 2 cfg1.N) ∗ pl c main_v2 ((dat1 (U := U) e c).arrAt 3 cfg1.N)
    ∗ pl c main_v3 ((dat1 (U := U) e c).arrAt 4 cfg1.N)
    ∗ ∃ W', ⌜∀ p ∈ W', p ∈ e.W c ∨ p.2 = none⌝ ∗ owes (c : Thread nD τ) (0 : CellTallies nD τ sig ℍ) W')

/-- THE REGION as the library's record: the five arrays into the pipeline, nothing beside. -/
def reg1 (hbody : ∀ c, BodyObligationLoose (pdats (U := U) e 0 c) (defs₀ (F := F)) Variants.none none Set.univ) :
    Pipeline.RegionSeg (pcfgs (F := F)) adm (pdats (U := U) e) none defs₀ Variants.none L lv 0 where
  win := launch1.win.to₀
  block_pos := launch1.block_pos
  stage_whole := launch1.stage_whole
  K := PEmpty
  osem k := k.elim
  ho := Pipeline.OwnSemFacts.none _
  hbody := hbody
  hwaits c := (show (levAts L lv : sProp 𝕄) ⊢ BI.emp from by iintro -; iempintro).trans
    (Pipeline.cellsWaits_of_owed_zero _ (pdats e) none 0 c fun _ => rfl)
  pre := regPre e
  post := regPost e
  X _ := iprop(emp)
  Y _ := iprop(emp)
  Z _ := iprop(emp)
  hentry c := by
    rw [Pipeline.ownSems0_none, arrays_eq]
    unfold regPre
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      iexists (e.W c); isplitr; · ipureintro; exact fun _ hp => Or.inl hp
      iexact HO
    isplitr <;> iempintro
  hin c := by iintro -; iempintro
  hout c := by
    rw [Pipeline.ownSems0_none, scopedRest1_eq]
    iintro -; isplitr; · iempintro
    isplitr <;> iempintro
  hexit c := by
    rw [arrays_eq]
    unfold regPost
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    unfold Pipeline.Dat.owesAt Pipeline.owesWithin
    icases HO with ⟨%W, %hW, HO⟩; iexists W
    isplitr
    · ipureintro
      intro p hp
      rcases hW hp with h | ⟨w, s, rfl⟩
      · exact Or.inl h
      · exact Or.inr rfl
    iexact HO

variable (EP : Emb (URounds (GSem nD τ sig) Unit) (MT nD τ sig (SparseCore.Cfg.HIx 1) (Elt F) ℕ U ℕ))

set_option maxHeartbeats 1600000 in
set_option backward.isDefEq.respectTransparency.types false in
/-- The entry in the pipeline library's own signature, the body obligation assumed. -/
theorem entry_core0 [EP.LandsIn (upEmb : UEmb _ 𝕄)]
    (hbody : ∀ c, BodyObligationLoose (pdats (U := U) e 0 c) (defs₀ (F := F)) Variants.none none Set.univ) (d : Dev nD) :
    iprop(boundary (d.tc : Thread nD τ) ∗ levAts L lv
        ∗ Pipeline.cellsGhost (Pipeline.pin (pcfgs (F := F)) adm) EP 0 d ∗ Pipeline.toksInit (Pipeline.pin (pcfgs (F := F)) adm) EP 0 d
        ∗ regPre e d)
      ⊢ wp frame (wpE (Pipeline.defs (pcfgs (F := F)) defs₀) (Variants.lift Variants.none) (d.tc : Thread nD τ) none) Set.univ
          (Prog.lift (.customCall (Pipeline.entry 0) ()))
          (fun _ => iprop(boundary (d.tc : Thread nD τ) ∗ regPost e d)) := by
  have h := Pipeline.RegionSeg.wp (pcfgs (F := F)) adm (pdats e) none cellOf_inj EP defs₀ Variants.none L lv (reg1 e L lv hbody) d none
    (fun _ h => by cases h) (fun _ => Prog.ret PUnit.unit) (fun _ => iprop(boundary (d.tc : Thread nD τ) ∗ regPost e d))
  rw [show (reg1 e L lv hbody).post d = regPost e d from rfl, show (reg1 e L lv hbody).pre d = regPre e d from rfl] at h
  refine BIBase.Entails.trans ?_ h
  iintro ⟨Hb, Hl, Hg, Ht, Hpre⟩
  isplitr
  · iintro ⟨Hb, Hpost⟩
    rw [wp_ret]
    imodintro
    isplitl [Hb]; · iexact Hb
    iexact Hpost
  isplitl [Hb]; · iexact Hb
  isplitl [Hpre]; · iexact Hpre
  isplitl [Hl]; · iexact Hl
  isplitl [Hg]; · iexact Hg
  iexact Ht

/-- The region's call, lifted to the signature extended by the SparseCore launch's labels, is the call the program makes. -/
theorem lift_call : SparseCore.liftProg (Q := 1)
      (Prog.lift (.customCall (Pipeline.entry 0) ()) : Prog (TpuEff nD τ sig (Elt F) (Pipeline.Sig Λ₀ (Fin 1) fun p => (pcfgs (F := F) p).Adm) .tc) PUnit)
    = Prog.lift (.customCall (SparseCore.inner (Pipeline.entry 0)) ()) := rfl

set_option backward.isDefEq.respectTransparency.types false in
/-- THE ENTRY, the body obligation assumed. -/
theorem entry_core [EP.LandsIn (upEmb : UEmb _ 𝕄)]
    (hbody : ∀ c, BodyObligationLoose (pdats (U := U) e 0 c) (defs₀ (F := F)) Variants.none none Set.univ) (d : Dev nD) :
    iprop(boundary (d.tc : Thread nD τ) ∗ levAts L lv
        ∗ Pipeline.cellsGhost (Pipeline.pin (pcfgs (F := F)) adm) EP 0 d ∗ Pipeline.toksInit (Pipeline.pin (pcfgs (F := F)) adm) EP 0 d
        ∗ regPre e d)
      ⊢ wp frame (wpE ((sc (F := F)).defs (Pipeline.defs pcfgs defs₀)) (Variants.lift Variants.none) (d.tc : Thread nD τ) none) Set.univ
          (Prog.lift (.customCall (SparseCore.inner (Pipeline.entry 0)) ()))
          (fun _ => iprop(boundary (d.tc : Thread nD τ) ∗ regPost e d)) := by
  have h := (sc (F := F)).wp_liftProg (Name := ℕ) (U := U) (Pipeline.defs pcfgs defs₀) (Variants.lift Variants.none) (d.tc : Thread nD τ) Set.univ none
    (Prog.lift (.customCall (Pipeline.entry 0) ())) (fun _ => iprop(boundary (d.tc : Thread nD τ) ∗ regPost e d))
  rw [lift_call] at h
  exact BIBase.Entails.trans (entry_core0 e L lv EP hbody d) h

end Cert.Kernel.Ln

end
-- ==== Proof.LnKArr.lean ====
/-
  From blocks to the array: the result array after the region is ONE function `lnArr` of the mask, the hidden states and
  the scale and shift rows. Row `r` of the array lies in block `r / 512`; that block is `lnBlk` of the mask's columns
  `512 (r / 512) …`, the hidden states' rows `512 (r / 512) …`, and the two rows.
-/
import proofs.«214348_g62886911148048_cont_9to1c4b_763_21_alg».proof.Proof.LnKDat
import Idealize.ShloMosaic.Lib.ValueIdx
import Idealize.ShloMosaic.Lib.Pipeline.Value

set_option maxRecDepth 16384

noncomputable section

namespace Cert.Kernel.Ln

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
variable {F : FTy → Type} [FloatOps F]

variable {U : Type} [URA U]

local notation "ℍ" => SparseCore.Cfg.HIx 1
local notation "𝕄" => MT nD τ sig (SparseCore.Cfg.HIx 1) (Elt F) ℕ U ℕ

/-- Columns `512 q, …, 512 q + 511` of the mask. -/
def maskBlk (M : Vec F S4x8192 .f32) (q : ℕ) (hq : q < 16) : Vec F S4x512 .f32 :=
  fun j => M (ix2 (n0 := 4) (n1 := 8192) ⟨(j 0).val, (j 0).isLt⟩ ⟨512 * q + (j 1).val, by have := (j 1).isLt; show 512 * q + (j 1).val < 8192; have h1 : (j 1).val < 512 := this; omega⟩)

/-- Rows `512 q, …, 512 q + 511` of the hidden states. -/
def xBlk (X : Vec F S8192x4x1024 .f32) (q : ℕ) (hq : q < 16) : Vec F S512x4x1024 .f32 :=
  fun j => X (ix3 (n0 := 8192) (n1 := 4) (n2 := 1024) ⟨512 * q + (j 0).val, by have h0 : (j 0).val < 512 := (j 0).isLt; omega⟩ ⟨(j 1).val, (j 1).isLt⟩ ⟨(j 2).val, (j 2).isLt⟩)

/-- A row number's block. -/
theorem div_lt (i : S8192x4x1024.Idx) : (i 0).val / 512 < 16 := by
  have h : (i 0).val < 8192 := (i 0).isLt
  omega

/-- THE RESULT ARRAY: entry `(r, b, h)` is entry `(r % 512, b, h)` of the result block of block `r / 512`. -/
def lnArr (M : Vec F S4x8192 .f32) (X : Vec F S8192x4x1024 .f32) (G B : Vec F S1x1024 .f32) : Vec F S8192x4x1024 .f32 :=
  fun i => lnBlk (maskBlk M ((i 0).val / 512) (div_lt i)) (xBlk X ((i 0).val / 512) (div_lt i)) G B
    (ix3 (n0 := 512) (n1 := 4) (n2 := 1024) ⟨(i 0).val % 512, Nat.mod_lt _ (by omega)⟩ ⟨(i 1).val, (i 1).isLt⟩ ⟨(i 2).val, (i 2).isLt⟩)

/-- The block equation, as the definition reads. -/
theorem lnArr_apply (M : Vec F S4x8192 .f32) (X : Vec F S8192x4x1024 .f32) (G B : Vec F S1x1024 .f32) (i : S8192x4x1024.Idx) :
    lnArr M X G B i = lnBlk (maskBlk M ((i 0).val / 512) (div_lt i)) (xBlk X ((i 0).val / 512) (div_lt i)) G B
      (ix3 (n0 := 512) (n1 := 4) (n2 := 1024) ⟨(i 0).val % 512, Nat.mod_lt _ (by omega)⟩ ⟨(i 1).val, (i 1).isLt⟩ ⟨(i 2).val, (i 2).isLt⟩) := rfl

variable (e : Entry F)

/-- The printed index maps, decided over the grid: the mask's block moves along its columns, the hidden states' and the
    result's along their rows, with the point; the two rows stay. -/
theorem idx_facts : ∀ t : Fin cfg1.N, win1_0.index t (0 : Fin 2) = 0 ∧ win1_0.index t (1 : Fin 2) = t.val
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 ∧ t.val < 16 :=
  (by decide +kernel : ∀ t : Fin grid1.N, _)

/-- THE BLOCK EQUATION: at an index `i` whose row is `512 q + j 0` and whose other coordinates are `j`'s, the result array
    is the result block of block `q` at `j`. -/
theorem lnArr_emb (M : Vec F S4x8192 .f32) (X : Vec F S8192x4x1024 .f32) (G B : Vec F S1x1024 .f32) (q : ℕ) (hq : q < 16)
    (j : S512x4x1024.Idx) (i : S8192x4x1024.Idx) (h0 : (i 0).val = 512 * q + (j 0).val) (h1 : (i 1).val = (j 1).val) (h2 : (i 2).val = (j 2).val) :
    lnArr M X G B i = lnBlk (maskBlk M q hq) (xBlk X q hq) G B j := by
  have hj : (j 0).val < 512 := (j 0).isLt
  have hd : (i 0).val / 512 = q := by omega
  have hi : (ix3 (n0 := 512) (n1 := 4) (n2 := 1024) ⟨(i 0).val % 512, Nat.mod_lt _ (by omega)⟩ ⟨(i 1).val, (i 1).isLt⟩ ⟨(i 2).val, (i 2).isLt⟩ : S512x4x1024.Idx) = j := by
    funext a; apply Fin.ext
    match a with
    | ⟨0, _⟩ => show (i 0).val % 512 = (j 0).val; omega
    | ⟨1, _⟩ => exact h1
    | ⟨2, _⟩ => exact h2
  rw [lnArr_apply, hi]
  subst hd
  rfl

/-- The mask's block at point `t`: its columns `512 t …`. -/
theorem iblk0_eq (c : Dev nD) (t : Fin cfg1.N) (ht : t.val < 16) : iblk e c 0 t = maskBlk (e.M c) t.val ht := by
  obtain ⟨e0, e1, -⟩ := idx_facts t
  funext j
  show e.M c (((cfg1.win 0).blk t).view.emb j) = e.M c _
  congr 1
  funext a; apply Fin.ext
  match a with
  | ⟨0, _⟩ => show win1_0.index t (0 : Fin 2) * 4 + 1 * (j 0).val = (j 0).val; omega
  | ⟨1, _⟩ => show win1_0.index t (1 : Fin 2) * 512 + 1 * (j 1).val = 512 * t.val + (j 1).val; omega

/-- The hidden states' block at point `t`: their rows `512 t …`. -/
theorem iblk1_eq (c : Dev nD) (t : Fin cfg1.N) (ht : t.val < 16) : iblk e c 1 t = xBlk (e.X c) t.val ht := by
  obtain ⟨-, -, e2, e3, e4, -⟩ := idx_facts t
  funext j
  show e.X c (((cfg1.win 1).blk t).view.emb j) = e.X c _
  congr 1
  funext a; apply Fin.ext
  match a with
  | ⟨0, _⟩ => show win1_1.index t (0 : Fin 3) * 512 + 1 * (j 0).val = 512 * t.val + (j 0).val; omega
  | ⟨1, _⟩ => show win1_1.index t (1 : Fin 3) * 4 + 1 * (j 1).val = (j 1).val; omega
  | ⟨2, _⟩ => show win1_1.index t (2 : Fin 3) * 1024 + 1 * (j 2).val = (j 2).val; omega

/-- The scale row's block is the row. -/
theorem iblk2_eq (c : Dev nD) (t : Fin cfg1.N) : iblk e c 2 t = e.G c := by
  obtain ⟨-, -, -, -, -, e5, e6, -⟩ := idx_facts t
  funext j
  show e.G c (((cfg1.win 2).blk t).view.emb j) = e.G c j
  congr 1
  funext a; apply Fin.ext
  match a with
  | ⟨0, _⟩ => show win1_2.index t (0 : Fin 2) * 1 + 1 * (j 0).val = (j 0).val; omega
  | ⟨1, _⟩ => show win1_2.index t (1 : Fin 2) * 1024 + 1 * (j 1).val = (j 1).val; omega

/-- The shift row's block is the row. -/
theorem iblk3_eq (c : Dev nD) (t : Fin cfg1.N) : iblk e c 3 t = e.B c := by
  obtain ⟨-, -, -, -, -, -, -, e7, e8, -⟩ := idx_facts t
  funext j
  show e.B c (((cfg1.win 3).blk t).view.emb j) = e.B c j
  congr 1
  funext a; apply Fin.ext
  match a with
  | ⟨0, _⟩ => show win1_3.index t (0 : Fin 2) * 1 + 1 * (j 0).val = (j 0).val; omega
  | ⟨1, _⟩ => show win1_3.index t (1 : Fin 2) * 1024 + 1 * (j 1).val = (j 1).val; omega

/-- WHAT POINT `t` WRITES BACK is block `t` of `lnArr` of the arrays at entry. -/
theorem flushed4_eq (c : Dev nD) (t : Fin cfg1.N) :
    (dat1 (U := U) e c).flushed 4 t = ((cfg1.win 4).blk t).view.read (Elt F) (lnArr (e.M c) (e.X c) (e.G c) (e.B c)) := by
  show (cfg1.win 4).cut (grid1.coords t) ((dat1 (U := U) e c).after 4 t) = _
  obtain ⟨-, -, -, -, -, -, -, -, -, e9, e10, e11, ht⟩ := idx_facts t
  rw [after1_4, iblk0_eq e c t ht, iblk1_eq e c t ht, iblk2_eq, iblk3_eq]
  funext j
  show _ = lnArr (e.M c) (e.X c) (e.G c) (e.B c) (((cfg1.win 4).blk t).view.emb j)
  refine (lnArr_emb _ _ _ _ t.val ht j _ ?_ ?_ ?_).symm
  · show win1_4.index t (0 : Fin 3) * 512 + 1 * (j 0).val = 512 * t.val + (j 0).val; omega
  · show win1_4.index t (1 : Fin 3) * 4 + 1 * (j 1).val = (j 1).val; omega
  · show win1_4.index t (2 : Fin 3) * 1024 + 1 * (j 2).val = (j 2).val; omega

/-- An index of the array is in point `t`'s block iff each coordinate is in the block's range on its axis. -/
theorem mem_blk4 (t : Fin cfg1.N) (i : S8192x4x1024.Idx) :
    i ∈ ((cfg1.win 4).blk t).view.set ↔ ∀ a : Fin 3, win1_4.index t a * S512x4x1024.size a ≤ (i a).val ∧ (i a).val < win1_4.index t a * S512x4x1024.size a + S512x4x1024.size a := by
  show i ∈ ((View.whole main_v3).slice (win1_4.rect t)).set ↔ _
  rw [View.set_slice_whole, Rect.mem_set_unit]
  exact Iff.rfl

/-- Every row lies in the block of the point `row / 512`. -/
theorem cover4 (i : S8192x4x1024.Idx) : ∃ t : Fin cfg1.N, (cfg1.win 4).flush t = true ∧ i ∈ ((cfg1.win 4).blk t).view.set := by
  have hi0 : (i 0).val < 8192 := (i 0).isLt
  have hi1 : (i 1).val < 4 := (i 1).isLt
  have hi2 : (i 2).val < 1024 := (i 2).isLt
  have hN : (i 0).val / 512 < cfg1.N := by rw [show cfg1.N = 16 from N_1]; omega
  refine ⟨⟨(i 0).val / 512, hN⟩, flush1_4 _, ?_⟩
  rw [mem_blk4]
  obtain ⟨-, -, -, -, -, -, -, -, -, e9, e10, e11, -⟩ := idx_facts ⟨(i 0).val / 512, hN⟩
  have e9' : win1_4.index ⟨(i 0).val / 512, hN⟩ (0 : Fin 3) = (i 0).val / 512 := e9
  intro a
  match a with
  | ⟨0, _⟩ => show win1_4.index ⟨(i 0).val / 512, hN⟩ (0 : Fin 3) * 512 ≤ (i 0).val ∧ (i 0).val < win1_4.index ⟨(i 0).val / 512, hN⟩ (0 : Fin 3) * 512 + 512; omega
  | ⟨1, _⟩ => show win1_4.index ⟨(i 0).val / 512, hN⟩ (1 : Fin 3) * 4 ≤ (i 1).val ∧ (i 1).val < win1_4.index ⟨(i 0).val / 512, hN⟩ (1 : Fin 3) * 4 + 4; omega
  | ⟨2, _⟩ => show win1_4.index ⟨(i 0).val / 512, hN⟩ (2 : Fin 3) * 1024 ≤ (i 2).val ∧ (i 2).val < win1_4.index ⟨(i 0).val / 512, hN⟩ (2 : Fin 3) * 1024 + 1024; omega

/-- THE RESULT ARRAY after the region. -/
theorem arrAt_out (c : Dev nD) : (dat1 (U := U) e c).arrAt 4 cfg1.N = lnArr (e.M c) (e.X c) (e.G c) (e.B c) :=
  (dat1 (U := U) e c).arrAt_eq_of_cover 4 _ (fun t _ => flushed4_eq e c t) cover4

/-- The four inputs after the region: as at entry. -/
theorem arrAt_in0 (c : Dev nD) : (dat1 (U := U) e c).arrAt 0 cfg1.N = e.M c := (dat1 (U := U) e c).arrAt_in 0 rfl _
theorem arrAt_in1 (c : Dev nD) : (dat1 (U := U) e c).arrAt 1 cfg1.N = e.X c := (dat1 (U := U) e c).arrAt_in 1 rfl _
theorem arrAt_in2 (c : Dev nD) : (dat1 (U := U) e c).arrAt 2 cfg1.N = e.G c := (dat1 (U := U) e c).arrAt_in 2 rfl _
theorem arrAt_in3 (c : Dev nD) : (dat1 (U := U) e c).arrAt 3 cfg1.N = e.B c := (dat1 (U := U) e c).arrAt_in 3 rfl _

end Cert.Kernel.Ln

end
-- ==== Proof.MaskJoinK.lean ====
/-
  The mask's thirty-two segments.

  Worker `w = 2 i + c` (subcore `i` of SparseCore `c`) owns the 1024 entries `[1024 (w mod 8), 1024 (w mod 8) + 1024)` of
  row `w / 8` of the mask. The thirty-two segments are pairwise disjoint and cover the `[4, 8192]` array, so the array is the
  separating conjunction of its segments; and when every worker has left its segment at "one where its batch's list names
  the position", the array as a whole is the mask of the specification.
-/
import proofs.«214348_g62886911148048_cont_9to1c4b_763_21_alg».proof.Proof.LaunchK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ### Where the segments lie -/

omit [FloatOps F] in
/-- Worker `2 i + c`'s segment starts at row `(2 i + c) / 8`, column `1024 ((2 i + c) mod 8)`. -/
theorem off4_table : ∀ (c : Fin 2) (i : Fin 16),
    k0_off4 (coordsV c i) 0 = (2 * i.val + c.val) / 8 ∧ k0_off4 (coordsV c i) 1 = 1024 * ((2 * i.val + c.val) % 8) := by
  decide +kernel

omit [FloatOps F] in
/-- A task's segment is the set of its unit-stride rectangle of the mask. -/
theorem segSet_eq (L : grid0.Coords) :
    segSet L = (Rect.unit (s := S4x8192) (k0_off4 L) S1x1024.size (k0_off4_inb L)).set := by
  show (((View.whole (main_v0_scv : Ref sig .scVector)).slice (Rect.unit (s := S4x8192) (k0_off4 L) S1x1024.size (k0_off4_inb L))).reshape
    S1024 squeezes_S1x1024_S1024.numel_eq).set = _
  rw [View.set_reshape, View.set_slice_whole]

omit [FloatOps F] in
/-- Membership in worker `2 i + c`'s segment, by coordinates. -/
theorem mem_segSet (c : Fin 2) (i : Fin 16) (j : S4x8192.Idx) :
    j ∈ segSet (coordsV c i)
      ↔ (j 0).val = (2 * i.val + c.val) / 8
        ∧ 1024 * ((2 * i.val + c.val) % 8) ≤ (j 1).val ∧ (j 1).val < 1024 * ((2 * i.val + c.val) % 8) + 1024 := by
  obtain ⟨h0, h1⟩ := off4_table c i
  rw [segSet_eq, Rect.mem_set_unit, Fin.forall_fin_two, h0, h1]
  show ((2 * i.val + c.val) / 8 ≤ (j 0).val ∧ (j 0).val < (2 * i.val + c.val) / 8 + 1)
      ∧ (1024 * ((2 * i.val + c.val) % 8) ≤ (j 1).val ∧ (j 1).val < 1024 * ((2 * i.val + c.val) % 8) + 1024) ↔ _
  omega

omit [FloatOps F] in
/-- Two different workers' segments are disjoint. -/
theorem segs_disjoint : ∀ p ∈ (Finset.univ : Finset (Fin 2 × Fin 16)), ∀ p' ∈ (Finset.univ : Finset (Fin 2 × Fin 16)), p ≠ p' →
    Disjoint (segSet (coordsV p.1 p.2)) (segSet (coordsV p'.1 p'.2)) := by
  rintro ⟨c, i⟩ - ⟨c', i'⟩ - hne
  show Disjoint (segSet (coordsV c i)) (segSet (coordsV c' i'))
  rw [Finset.disjoint_left]
  intro j hj hj'
  rw [mem_segSet] at hj hj'
  apply hne
  have hc := c.isLt; have hc' := c'.isLt
  have : c.val = c'.val ∧ i.val = i'.val := by omega
  exact Prod.ext (Fin.ext this.1) (Fin.ext this.2)

omit [FloatOps F] in
/-- The thirty-two segments cover the mask. -/
theorem segs_cover : (Finset.univ : Finset (Fin 2 × Fin 16)).biUnion (fun p => segSet (coordsV p.1 p.2)) = Finset.univ := by
  rw [Finset.eq_univ_iff_forall]
  intro j
  rw [Finset.mem_biUnion]
  have h0 : (j 0).val < 4 := (j 0).isLt
  have h1 : (j 1).val < 8192 := (j 1).isLt
  let cc : Fin 2 := ⟨(8 * (j 0).val + (j 1).val / 1024) % 2, by omega⟩
  let ii : Fin 16 := ⟨(8 * (j 0).val + (j 1).val / 1024) / 2, by omega⟩
  have hcc : cc.val = (8 * (j 0).val + (j 1).val / 1024) % 2 := rfl
  have hii : ii.val = (8 * (j 0).val + (j 1).val / 1024) / 2 := rfl
  refine ⟨(cc, ii), Finset.mem_univ _, ?_⟩
  show j ∈ segSet (coordsV cc ii)
  rw [mem_segSet, hcc, hii]
  omega

omit [FloatOps F] in
/-- THE MASK IS ITS THIRTY-TWO SEGMENTS. -/
theorem seg_split (d : Dev nD) (f : Buf (Elt F) (mLoc d)) :
    (mLoc d ↦{fullShare} f : sProp 𝕄)
      = bigSep Finset.univ fun c : Fin 2 => bigSep Finset.univ fun i : Fin 16 => segPts d (coordsV c i) f := by
  rw [← bigSep_univ_prod (fun p : Fin 2 × Fin 16 => segPts d (coordsV p.1 p.2) f)]
  rw [← pointsTo_biUnion Finset.univ (ℓ := mLoc d) (fun p : Fin 2 × Fin 16 => segSet (coordsV p.1 p.2)) segs_disjoint, segs_cover]
  try rfl

/-! ### The two sliced-and-squeezed views, coordinate by coordinate -/

omit [FloatOps F] in
/-- Worker `2 i + c`'s batch row of the positions' array starts at row `(2 i + c) / 8`, column `0`. -/
theorem off1_table : ∀ (c : Fin 2) (i : Fin 16),
    k0_off1 (coordsV c i) 0 = (2 * i.val + c.val) / 8 ∧ k0_off1 (coordsV c i) 1 = 0 := by
  decide +kernel

omit [FloatOps F] in
/-- Entry `y` of a task's segment is entry `(row, column start + y)` of the mask. -/
theorem mSeg_emb (L : grid0.Coords) (y : S1024.Idx) :
    ((mSeg L).view.emb y 0 : Nat) = k0_off4 L 0 ∧ ((mSeg L).view.emb y 1 : Nat) = k0_off4 L 1 + (y 0).val := by
  have hre : Shape.reshapeEquiv squeezes_S1x1024_S1024.numel_eq y
      = ValueIdx.ix2 (0 : Fin 1) (⟨(y 0).val, (y 0).isLt⟩ : Fin 1024) :=
    Shape.reshapeEquiv_eq_of_rowMajor _ (by
      rw [Shape.rowMajor_val_two, Shape.rowMajor_val_one]
      show 0 * 1024 + (y 0).val = (y 0).val
      omega)
  have e : ∀ a, ((mSeg L).view.emb y a : Nat)
      = k0_off4 L a + 1 * ((Shape.reshapeEquiv squeezes_S1x1024_S1024.numel_eq y) a : Nat) := fun a => rfl
  constructor
  · rw [e 0, hre]; show k0_off4 L 0 + 1 * 0 = _; omega
  · rw [e 1, hre]; show k0_off4 L 1 + 1 * (y 0).val = _; omega

omit [FloatOps F] in
/-- Entry `r` of a task's list of positions is entry `(row, column start + r)` of the positions' array. -/
theorem iRow_emb (L : grid0.Coords) (r : Fin 4096) :
    ((iRow L).view.emb (ValueIdx.ix1 r) 0 : Nat) = k0_off1 L 0 ∧ ((iRow L).view.emb (ValueIdx.ix1 r) 1 : Nat) = k0_off1 L 1 + r.val := by
  have hre : Shape.reshapeEquiv squeezes_S1x4096_S4096.numel_eq (ValueIdx.ix1 r)
      = ValueIdx.ix2 (0 : Fin 1) r :=
    Shape.reshapeEquiv_eq_of_rowMajor _ (by
      rw [Shape.rowMajor_val_two, Shape.rowMajor_val_one]
      show 0 * 4096 + r.val = r.val
      omega)
  have e : ∀ a, ((iRow L).view.emb (ValueIdx.ix1 r) a : Nat)
      = k0_off1 L a + 1 * ((Shape.reshapeEquiv squeezes_S1x4096_S4096.numel_eq (ValueIdx.ix1 r)) a : Nat) := fun a => rfl
  constructor
  · rw [e 0, hre]; show k0_off1 L 0 + 1 * 0 = _; omega
  · rw [e 1, hre]; show k0_off1 L 1 + 1 * r.val = _; omega

/-! ### The mask as one array -/

/-- The mask the specification describes, as the contents of the mask's buffer: entry `(b, s)` is a one exactly when
    batch `b`'s list of positions marks `s`. -/
def maskBuf (d : Dev nD) : Buf (Elt F) (mLoc d) := fun (j : S4x8192.Idx) =>
  Cert.MaskSpec.maskArr (oneE : Elt F .f32) zeroE (fun b r => m (iLoc d) (ValueIdx.ix2 b r))
    (⟨(j 0).val, (j 0).isLt⟩ : Fin 4) (⟨(j 1).val, (j 1).isLt⟩ : Fin 8192)

/-- What a task leaves at entry `y` of its segment is the specification's mask at that entry of the array. -/
theorem segRaw_eq (d : Dev nD) (c : Fin 2) (i : Fin 16) (y : S1024.Idx) :
    segRaw m d (coordsV c i) y = maskBuf m d ((mSeg (coordsV c i)).view.emb y) := by
  obtain ⟨e0, e1⟩ := mSeg_emb (coordsV c i) y
  obtain ⟨t0, t1⟩ := off4_table c i
  obtain ⟨u0, u1⟩ := off1_table c i
  have hy : (y 0).val < 1024 := (y 0).isLt
  unfold segRaw maskBuf Cert.MaskSpec.maskArr
  refine congr (congrFun (congr (congrArg (Cert.MaskSpec.bufAfter (oneE : Elt F .f32) zeroE) ?_) ?_) 4096) ?_
  · show BitVec.ofNat 32 _ = BitVec.ofNat 32 (((mSeg (coordsV c i)).view.emb y 1 : Nat) / 1024 * 1024)
    rw [e1, t1]; congr 1; omega
  · funext r
    obtain ⟨i0, i1⟩ := iRow_emb (coordsV c i) r
    refine congrArg (m (iLoc d)) (funext fun (a : Fin 2) => Fin.ext ?_)
    match a with
    | ⟨0, _⟩ =>
      show ((iRow (coordsV c i)).view.emb (ValueIdx.ix1 r) 0 : Nat) = ((mSeg (coordsV c i)).view.emb y 0 : Nat)
      rw [i0, u0, e0, t0]
    | ⟨1, _⟩ =>
      show ((iRow (coordsV c i)).view.emb (ValueIdx.ix1 r) 1 : Nat) = r.val
      rw [i1, u1]; omega
  · refine Fin.ext ?_
    show (y 0).val = ((mSeg (coordsV c i)).view.emb y 1 : Nat) % 1024
    rw [e1, t1]; omega

/-- A task's segment, left at the task's marks, is the segment of the specification's mask. -/
theorem seg_piece (d : Dev nD) (c : Fin 2) (i : Fin 16) (f : Buf (Elt F) (mLoc d))
    (hf : ∀ y : S1024.Idx, f ((mSeg (coordsV c i)).view.emb y) = segRaw m d (coordsV c i) y) :
    (segPts d (coordsV c i) f : sProp 𝕄) = segPts d (coordsV c i) (maskBuf m d) :=
  pointsTo_congr fun j hj => by
    obtain ⟨y, -, rfl⟩ := Finset.mem_map.mp hj
    rw [hf y, segRaw_eq]

/-- THE SEGMENTS JOIN TO THE MASK: when every task has left its segment at its marks, the mask's array as a whole
    holds the specification's mask. -/
theorem seg_join (d : Dev nD) :
    (bigSep Finset.univ fun c : Fin 2 => bigSep Finset.univ fun i : Fin 16 =>
        iprop(∃ f, ⌜∀ y : S1024.Idx, f ((mSeg (coordsV c i)).view.emb y) = segRaw m d (coordsV c i) y⌝ ∗ segPts d (coordsV c i) f))
      ⊢ (mLoc d ↦{fullShare} maskBuf m d : sProp 𝕄) := by
  rw [seg_split d (maskBuf m d)]
  refine bigSep_mono fun c _ => bigSep_mono fun i _ => ?_
  show (iprop(∃ f, ⌜∀ y : S1024.Idx, f ((mSeg (coordsV c i)).view.emb y) = segRaw m d (coordsV c i) y⌝ ∗ segPts d (coordsV c i) f) : sProp 𝕄)
    ⊢ segPts d (coordsV c i) (maskBuf m d)
  iintro ⟨%f, %hf, H⟩
  ihave H' := (Entails.of_eq (seg_piece m d c i f hf)) $$ H
  iexact H'

end Cert.Proof.KB

end
-- ==== Proof.MainK.lean ====
/-
  @main on the TensorCore: the positions' array goes out to the two SparseCores as read shares and the mask in thirty-two
  segments; the mask comes back whole at ONE function of the positions; the scale and shift rows are re-laid as 1×1024
  arrays by two host operations; the layer-normalisation region reads the mask, the hidden states and the two rows and
  writes the result. The four arguments are never written: the hidden states, the scale and the shift are held whole
  throughout, and of the positions' array a share stays with the TensorCore.
-/
import proofs.«214348_g62886911148048_cont_9to1c4b_763_21_alg».proof.Proof.LaunchK
import proofs.«214348_g62886911148048_cont_9to1c4b_763_21_alg».proof.Proof.LnKEntryCore
import proofs.«214348_g62886911148048_cont_9to1c4b_763_21_alg».proof.Proof.LnKArr
import proofs.«214348_g62886911148048_cont_9to1c4b_763_21_alg».proof.Proof.MaskJoinK

noncomputable section

namespace Cert.Proof.KB

open Cert.Kernel Cert.Kernel.Gen
open Cert.Kernel.Ln (Entry pl regPre lnArr)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

abbrev a0Loc (d : Dev nD) : Loc nD τ sig := (SparseCore.T d).loc main_arg0
abbrev a2Loc (d : Dev nD) : Loc nD τ sig := (SparseCore.T d).loc main_arg2
abbrev a3Loc (d : Dev nD) : Loc nD τ sig := (SparseCore.T d).loc main_arg3
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

variable [FloatOps F]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (iLoc d ↦{fullShare} W main_arg1) ∗ (a2Loc d ↦{fullShare} W main_arg2)
      ∗ (a3Loc d ↦{fullShare} W main_arg3) ∗ (mLoc d ↦{fullShare} W main_v0) ∗ (v1Loc d ↦{fullShare} W main_v1) ∗ (v2Loc d ↦{fullShare} W main_v2)
      ∗ (v3Loc d ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The two host operations: the scale and shift rows re-laid -/

abbrev a2' : DevRef τ sig := Proc.devRef .tc (main_arg2 : Ref sig .tc)
abbrev a3' : DevRef τ sig := Proc.devRef .tc (main_arg3 : Ref sig .tc)
abbrev v1' : DevRef τ sig := Proc.devRef .tc (main_v1 : Ref sig .tc)
abbrev v2' : DevRef τ sig := Proc.devRef .tc (main_v2 : Ref sig .tc)
abbrev op1 : HloOp τ sig (Elt F) := StableHlo.reshape main_arg2 main_v1 rfl shapeCasts_S1024_S1x1024
abbrev op2 : HloOp τ sig (Elt F) := StableHlo.reshape main_arg3 main_v2 rfl shapeCasts_S1024_S1x1024
abbrev S4 : Finset (DevRef τ sig) := {a2', a3', v1', v2'}

def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)

omit [FloatOps F] in
theorem held_S4 (d : Dev nD) (W : Valuation τ sig (Elt F)) :
    (held (T d) S4 W : sProp 𝕄) = iprop((a2Loc d ↦{fullShare} W a2') ∗ (a3Loc d ↦{fullShare} W a3') ∗ (v1Loc d ↦{fullShare} W v1') ∗ (v2Loc d ↦{fullShare} W v2')) := by
  unfold held S4
  rw [SparseCore.bigSep_insert' (by decide), SparseCore.bigSep_insert' (by decide), SparseCore.bigSep_insert' (by decide), bigSep_singleton]

theorem h1sub : (op1 (F := F)).bufs ⊆ S4 := show ({a2', v1'} : Finset (DevRef τ sig)) ⊆ S4 by decide
theorem h2sub : (op2 (F := F)).bufs ⊆ S4 := show ({a3', v2'} : Finset (DevRef τ sig)) ⊆ S4 by decide

theorem V2_a2 (d : Dev nD) : V2 m d a2' = m (a2Loc d) := by
  show (op2 (F := F)).result ((op1 (F := F)).result (V0 m d)) a2' = _
  rw [(op2 (F := F)).result_of_not_mem _ (b := a2') (show a2' ∉ ({v2'} : Finset (DevRef τ sig)) by decide),
    (op1 (F := F)).result_of_not_mem _ (b := a2') (show a2' ∉ ({v1'} : Finset (DevRef τ sig)) by decide)]; rfl
theorem V2_a3 (d : Dev nD) : V2 m d a3' = m (a3Loc d) := by
  show (op2 (F := F)).result ((op1 (F := F)).result (V0 m d)) a3' = _
  rw [(op2 (F := F)).result_of_not_mem _ (b := a3') (show a3' ∉ ({v2'} : Finset (DevRef τ sig)) by decide),
    (op1 (F := F)).result_of_not_mem _ (b := a3') (show a3' ∉ ({v1'} : Finset (DevRef τ sig)) by decide)]; rfl

/-- The two rows as the region reads them. -/
abbrev G1 (d : Dev nD) : Buf (Elt F) (v1Loc d) := V2 m d v1'
abbrev B1 (d : Dev nD) : Buf (Elt F) (v2Loc d) := V2 m d v2'

/-! ## @main -/

section Main

-- the mask the SparseCore call leaves, as one function of the positions
variable (maskBuf : (d : Dev nD) → Buf (Elt F) (mLoc d))

/-- What @main leaves: the four arguments as launched (of the positions' array, the share the TensorCore kept), the
    result at the region's value. -/
abbrev FIN (d : Dev nD) : sProp 𝕄 :=
  iprop((a0Loc d ↦{fullShare} m (a0Loc d)) ∗ (iLoc d ↦{shareDrop fullShare 2} m (iLoc d)) ∗ (a2Loc d ↦{fullShare} m (a2Loc d))
    ∗ (a3Loc d ↦{fullShare} m (a3Loc d)) ∗ (v3Loc d ↦{fullShare} lnArr (maskBuf d) (m (a0Loc d)) (G1 m d) (B1 m d)))

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((bigSep Finset.univ fun c : Fin 2 => iPts m (qC c) d)
        ∗ bigSep Finset.univ fun c : Fin 2 => bigSep Finset.univ fun i : Fin 16 => segPts d (coordsV c i) (m (mLoc d))) := by
  rw [← bigSep_sep']
  exact bigSep_cores (F := F) (fun c => iprop(iPts m (qC c) d ∗ bigSep Finset.univ fun i : Fin 16 => segPts d (coordsV c i) (m (mLoc d))))

theorem dn0_eq (d : Dev nD) : (bigSep Finset.univ fun c : Fin ((K (F := F)).nCore 0) => (P m).dn 0 d c)
    = bigSep Finset.univ fun c : Fin 2 => bigSep Finset.univ fun i : Fin 16 => tdRes m d c i :=
  bigSep_cores (F := F) (fun c => bigSep Finset.univ fun i : Fin 16 => tdRes m d c i)

/-- Of what the tasks hand back, the segments. -/
theorem td_segs (d : Dev nD) : (bigSep Finset.univ fun c : Fin 2 => bigSep Finset.univ fun i : Fin 16 => tdRes m d c i)
    ⊢ bigSep Finset.univ fun c : Fin 2 => bigSep Finset.univ fun i : Fin 16 =>
        iprop(∃ f, ⌜∀ y : S1024.Idx, f ((mSeg (coordsV c i)).view.emb y) = segRaw m d (coordsV c i) y⌝ ∗ segPts d (coordsV c i) f) := by
  refine bigSep_mono fun c _ => bigSep_mono fun i _ => ?_
  have h : (tdRes m d c i : sProp 𝕄) ⊢ iprop(∃ f, ⌜∀ y : S1024.Idx, f ((mSeg (coordsV c i)).view.emb y) = segRaw m d (coordsV c i) y⌝ ∗ segPts d (coordsV c i) f) := by
    iintro ⟨-, H⟩; iexact H
  exact h

theorem hmain
  (hjoin : ∀ d : Dev nD, (bigSep Finset.univ fun c : Fin 2 => bigSep Finset.univ fun i : Fin 16 =>
      iprop(∃ f, ⌜∀ y : S1024.Idx, f ((mSeg (coordsV c i)).view.emb y) = segRaw m d (coordsV c i) y⌝ ∗ segPts d (coordsV c i) f))
    ⊢ (mLoc d ↦{fullShare} maskBuf d : sProp 𝕄))
  (hentry : ∀ (e : Entry F) (d : Dev nD),
    iprop(boundary (SparseCore.T d) ∗ levAts (K (F := F)).L (K (F := F)).lev
        ∗ Pipeline.cellsGhost (pinned (F := F)) EP 0 d ∗ Pipeline.toksInit (pinned (F := F)) EP 0 d ∗ regPre (U := UU) e d)
      ⊢ wp frame (wpE ((K (F := F)).defs (D (F := F))) 𝒱 (SparseCore.T d) none) Set.univ
          (Prog.lift (.customCall (SparseCore.inner (Pipeline.entry 0)) ()))
          (fun _ => iprop(boundary (SparseCore.T d) ∗ pl (U := UU) d main_v0 (e.M d) ∗ pl (U := UU) d main_arg0 (e.X d) ∗ pl (U := UU) d main_v1 (e.G d)
            ∗ pl (U := UU) d main_v2 (e.B d) ∗ pl (U := UU) d main_v3 (lnArr (e.M d) (e.X d) (e.G d) (e.B d))
            ∗ ∃ W', ⌜∀ p ∈ W', p ∈ e.W d ∨ p.2 = none⌝ ∗ owes (SparseCore.T d) (0 : CellTallies nD τ sig (HIx 1)) W')))
    (κ : GSem nD τ sig → ℕ) (d : Dev nD) :
    iprop((K (F := F)).ctx EH (P m) κ ∗ (K (F := F)).tcSt EH d 0 ∗ (K (F := F)).tcRes m ρ d ∗ GD (F := F) d)
      ⊢ wp frame (wpE ((K (F := F)).defs (D (F := F))) 𝒱 (SparseCore.T d) none) Set.univ (main d)
          fun _ => iprop((K (F := F)).tcSt EH d 1 ∗ FIN m maskBuf d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3⟩, -, -⟩, ⟨Hg, Ht⟩⟩
  ihave Hlev := ((K (F := F)).ctx_levAts κ) $$ Hctx
  -- the positions' array in shares, the mask in segments
  ihave Hs := (Transfers.pointsTo_toks_split fullShare 2) $$ Ha1
  icases Hs with ⟨Ha1, Htoks⟩
  ihave Hsegs := (Entails.of_eq (seg_split (F := F) d _)) $$ Hv0
  iapply ((K (F := F)).wp_run (D (F := F)) 𝒱 (EH := EH) (P := P m) κ d 0) $$ [Hst Htoks Hsegs Hb Ha0 Ha1 Ha2 Ha3 Hv1 Hv2 Hv3 Hg Ht]
  isplitr; · iexact Hctx
  isplitl [Hst]; · iexact Hst
  isplitl [Htoks Hsegs]
  · rw [st0_eq]
    isplitl [Htoks]; · iexact Htoks
    iexact Hsegs
  iintro ⟨Hst, Hdn⟩
  ihave Hdn' := (Entails.of_eq (dn0_eq m d)) $$ Hdn
  ihave Hdn'' := (td_segs m d) $$ Hdn'
  ihave Hv0 := (hjoin d) $$ Hdn''
  -- the two rows re-laid
  iapply (wp_hlo_within 𝒱 (SparseCore.T d) none Set.univ (op := op1) (S := S4) h1sub (V := V0 m d)) $$ [Hb Ha2 Ha3 Hv1 Hv2]
  · isplitl [Hb]; · iexact Hb
    rw [held_S4]
    isplitl [Ha2]; · iexact Ha2
    isplitl [Ha3]; · iexact Ha3
    isplitl [Hv1]; · iexact Hv1
    iexact Hv2
  iintro ⟨Hb, Hheld⟩
  rw [wp_ret]; imodintro
  iapply (wp_hlo_within 𝒱 (SparseCore.T d) none Set.univ (op := op2) (S := S4) h2sub (V := V1 m d)) $$ [Hb Hheld]
  · isplitl [Hb]; · iexact Hb
    iexact Hheld
  iintro ⟨Hb, Hheld⟩
  rw [wp_ret]; imodintro
  ihave Hh := (Entails.of_eq (held_S4 (F := F) d (V2 m d))) $$ Hheld
  icases Hh with ⟨Ha2, Ha3, Hv1, Hv2⟩
  -- the region
  unfold SparseCore.Cfg.tcSt
  icases Hst with ⟨⟨%W, %hW, HO⟩, Hrest⟩
  have hO1 : (K (F := F)).Otc d ((0 : Fin 1).val + 1) = 0 := (K (F := F)).Otc_end d (by decide)
  have hO2 : (K (F := F)).Otc d 1 = 0 := (K (F := F)).Otc_end d (le_refl _)
  ihave HO' := (Entails.of_eq (congrArg (fun o => owes (SparseCore.T d) o W) hO1)) $$ HO
  ihave Hw := (hentry ⟨fun _ => maskBuf d, fun _ => m (a0Loc d), fun _ => G1 m d, fun _ => B1 m d, fun _ => m (v3Loc d), fun _ => W⟩ d) $$ [Hb Hg Ht Hv0 Ha0 Hv1 Hv2 Hv3 HO']
  · unfold regPre pl
    isplitl [Hb]; · iexact Hb
    isplitr; · iexact Hlev
    isplitl [Hg]; · iexact Hg
    isplitl [Ht]; · iexact Ht
    isplitl [Hv0]; · iexact Hv0
    isplitl [Ha0]; · iexact Ha0
    isplitl [Hv1]; · iexact Hv1
    isplitl [Hv2]; · iexact Hv2
    isplitl [Hv3]; · iexact Hv3
    iexact HO'
  iapply (wp_wand frame (wpE ((K (F := F)).defs (D (F := F))) 𝒱 (SparseCore.T d) none) Set.univ) $$ Hw
  unfold pl
  iintro %a ⟨Hb, Hv0, Ha0, Hv1, Hv2, Hv3, %W', %hW', HO⟩
  imodintro
  isplitl [HO Hrest]
  · isplitl [HO]
    · iexists W'; isplitr
      · ipureintro; intro p hp
        rcases hW' p hp with h | h
        · exact hW p h
        · rw [h, (K (F := F)).lev_none]; exact Nat.zero_le _
      · rw [hO2]; iexact HO
    · iexact Hrest
  isplitl [Ha0]; · iexact Ha0
  isplitl [Ha1]; · iexact Ha1
  isplitl [Ha2]; · rw [V2_a2]; iexact Ha2
  isplitl [Ha3]; · rw [V2_a3]; iexact Ha3
  iexact Hv3

end Main

end Cert.Proof.KB

end
-- ==== Proof.LnKRun.lean ====
/-
  The body run once, at a symbolic grid point and symbolic operands: the result window's buffer ends as the 512 stores'
  payloads written over anything, and those payloads, position by position, are the rows of `lnBlk`.
-/
import proofs.«214348_g62886911148048_cont_9to1c4b_763_21_alg».proof.Proof.LnKDefs
import proofs.«214348_g62886911148048_cont_9to1c4b_763_21_alg».proof.Proof.Gen.Kernel
import Idealize.ShloMosaic.Lib.Pipeline.FrameBody
import Idealize.ShloMosaic.Lib.Pipeline.Value
import Idealize.ShloMosaic.Lib.Tactic
import Idealize.ShloMosaic.Lib.SparseCore.Launch

set_option maxRecDepth 16384

noncomputable section

namespace Cert.Kernel.Ln

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {U : Type} [URA U]

local notation "𝕄" => MT nD τ sig (SparseCore.Cfg.HIx 1) (Elt F) ℕ U ℕ

/-! ## The rows as a list of pieces -/

/-- The pieces of positions `n - 1, …, 0`, the last position first: position `k`'s rectangle with its row. -/
def rowsUpTo (v0 : Vec F S512x4x1024 .f32) (v2 : FVec F S4x512 .f32) (v33 : FVec F S512x4x1024 .f32) :
    (n : ℕ) → n ≤ 512 → List (View.Piece (Elt F) S512x4x1024 .f32)
  | 0, _ => []
  | n + 1, h => ⟨rowRect n h, rowPay v0 v2 v33 n h⟩ :: rowsUpTo v0 v2 v33 n (Nat.le_of_succ_le h)

/-- An index outside position `n` is outside its rectangle. -/
theorem not_mem_rowRect (n : ℕ) (hn : n < 512) (y : S512x4x1024.Idx) (hy : (y 0).val ≠ n) : y ∉ (rowRect n hn).set := fun hm => by
  have h0 : n ≤ (y 0).val ∧ (y 0).val < n + 1 := (Rect.mem_set_unit.mp hm) 0
  omega

/-- An index of position `n` is in its rectangle. -/
theorem mem_rowRect (y : S512x4x1024.Idx) : y ∈ (rowRect (y 0).val (y 0).isLt).set := by
  have h := (rowRect (y 0).val (y 0).isLt).toLoadRect.idx_mem (rowIdx y)
  have he : (rowRect (y 0).val (y 0).isLt).toLoadRect.idx (rowIdx y) = y := emb_rowIdx y
  rw [he] at h; exact h

/-- Under a last write at the index's own position, the canon is that write's payload. -/
theorem canon_cons_row (n : ℕ) (hn : n < 512) (w : S1x4x1024.Idx → Elt F .f32) (L : List (View.Piece (Elt F) S512x4x1024 .f32))
    (y : S512x4x1024.Idx) (hy : (y 0).val = n) : View.canon (⟨rowRect n hn, w⟩ :: L) y = w (rowIdx y) := by
  subst hy
  have h := View.canon_cons_emb (rowRect (y 0).val hn) w L (rowIdx y)
  rw [emb_rowIdx] at h
  exact h

theorem rowsUpTo_succ (v0 : Vec F S512x4x1024 .f32) (v2 : FVec F S4x512 .f32) (v33 : FVec F S512x4x1024 .f32) (n : ℕ) (h : n + 1 ≤ 512) :
    rowsUpTo v0 v2 v33 (n + 1) h = ⟨rowRect n h, rowPay v0 v2 v33 n h⟩ :: rowsUpTo v0 v2 v33 n (Nat.le_of_succ_le h) := rfl

/-- The canon of the rows below `n`, at an index of a position below `n`, is that position's row. -/
theorem canon_rowsUpTo (v0 : Vec F S512x4x1024 .f32) (v2 : FVec F S4x512 .f32) (v33 : FVec F S512x4x1024 .f32) (n : ℕ) :
    ∀ (h : n ≤ 512) (y : S512x4x1024.Idx), (y 0).val < n →
      View.canon (rowsUpTo v0 v2 v33 n h) y = rowPay v0 v2 v33 (y 0).val (y 0).isLt (rowIdx y) := by
  induction n with
  | zero => intro _ _ hy; exact absurd hy (Nat.not_lt_zero _)
  | succ n ih =>
    intro h y hy
    rw [rowsUpTo_succ]
    by_cases hk : (y 0).val = n
    · rw [canon_cons_row n h _ _ y hk]
      subst hk; rfl
    · rw [View.canon_cons_of_not_mem (⟨rowRect n h, rowPay v0 v2 v33 n h⟩ : View.Piece (Elt F) S512x4x1024 .f32) _ (not_mem_rowRect n h y hk)]
      exact ih (Nat.le_of_succ_le h) y (Nat.lt_of_le_of_ne (Nat.le_of_lt_succ hy) hk)

/-- The rows below `n` cover the positions below `n`. -/
theorem cover_rowsUpTo (v0 : Vec F S512x4x1024 .f32) (v2 : FVec F S4x512 .f32) (v33 : FVec F S512x4x1024 .f32) (n : ℕ) :
    ∀ (h : n ≤ 512) (y : S512x4x1024.Idx), (y 0).val < n → ∃ p ∈ rowsUpTo v0 v2 v33 n h, y ∈ p.1.set := by
  induction n with
  | zero => intro _ _ hy; exact absurd hy (Nat.not_lt_zero _)
  | succ n ih =>
    intro h y hy
    rw [rowsUpTo_succ]
    by_cases hk : (y 0).val = n
    · refine ⟨_, List.mem_cons_self, ?_⟩
      subst hk; exact mem_rowRect y
    · obtain ⟨p, hp, hm⟩ := ih (Nat.le_of_succ_le h) y (Nat.lt_of_le_of_ne (Nat.le_of_lt_succ hy) hk)
      exact ⟨p, List.mem_cons_of_mem _ hp, hm⟩

/-- What any view of the shape reads after all 512 rows were written over anything: position by position, the rows. -/
theorem read_rows {κ : Kind} {sp : Space} (v : View sig κ sp S512x4x1024 .f32) (f : v.ty.Contents (Elt F))
    (v0 : Vec F S512x4x1024 .f32) (v2 : FVec F S4x512 .f32) (v33 : FVec F S512x4x1024 .f32) :
    v.read (Elt F) (v.writes (Elt F) f (rowsUpTo v0 v2 v33 512 le_rfl))
      = fun y => rowPay v0 v2 v33 (y 0).val (y 0).isLt (rowIdx y) :=
  funext fun y => by
    rw [View.read_writes_apply_eq_canon v f y _ (cover_rowsUpTo v0 v2 v33 512 le_rfl y (y 0).isLt),
      canon_rowsUpTo v0 v2 v33 512 le_rfl y (y 0).isLt]

/-! ## The run -/

/-- A whole staging memref's buffer at contents `f`. -/
abbrev pt {s : Shape} {el : EltTy} (c : Dev nD) (M : Memref sig .tc .vmem s el) (f : M.view.ty.Contents (Elt F)) : sProp 𝕄 :=
  (M.view.loc (c : Thread nD τ) ↦[M.view.set]{fullShare} f)

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 8000000 in
set_option maxRecDepth 65536 in
/-- What the body leaves in the result window's buffer, WITH the proofs that, read, it is the result block of the input
    buffers' contents (each store's payload is its position's row, by unfolding; the whole-block loads read the buffers'
    contents), and that from the five buffers held whole — the inputs at `f1 … f4`, the result's at anything — the body
    runs to its return handing back the inputs as they were and the result's buffer at the witness. -/
noncomputable def kernelRun (c : Dev nD) (i : grid1.Coords)
    (arg1 : Memref sig .tc .vmem S4x512 .f32) (harg1 : arg1.IsWhole) (arg2 : Memref sig .tc .vmem S512x4x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S512x4x1024 .f32) (harg5 : arg5.IsWhole)
    (f1 : arg1.view.ty.Contents (Elt F)) (f2 : arg2.view.ty.Contents (Elt F)) (f3 : arg3.view.ty.Contents (Elt F)) (f4 : arg4.view.ty.Contents (Elt F)) :
    { W : arg5.view.ty.Contents (Elt F) //
      arg5.view.read (Elt F) W
          = lnBlk (arg1.view.read (Elt F) f1) (arg2.view.read (Elt F) f2) (arg3.view.read (Elt F) f3) (arg4.view.read (Elt F) f4)
      ∧ ∀ (f5 : arg5.view.ty.Contents (Elt F)) (E : Set ℕ) (Q : PUnit → sProp 𝕄),
        iprop(pt c arg1 f1 ∗ pt c arg2 f2 ∗ pt c arg3 f3 ∗ pt c arg4 f4 ∗ pt c arg5 f5
          ∗ (iprop(pt c arg1 f1 ∗ pt c arg2 f2 ∗ pt c arg3 f3 ∗ pt c arg4 f4 ∗ pt c arg5 W) -∗ Q ⟨⟩))
        ⊢ wp frame (wpE (defs₀ (F := F)) Variants.none c none) E
            (cc1__ln_body i arg1 harg1 arg2 harg2 arg3 harg3 arg4 harg4 arg5 harg5) Q } := by
  refine ⟨?_, ?val, fun f5 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5
  case val =>
    have hp : kernelRun.sl.H5_512 arg1 arg2 arg3 arg4 f1 f2 f3 f4
        = rowsUpTo (kernelRun.sl.r arg2 f2) (kernelRun.sl.r_1 arg1 f1) (kernelRun.sl.r_2 arg2 arg3 arg4 f2 f3 f4) 512 le_rfl := rfl
    have h0 : kernelRun.sl.r arg2 f2 = arg2.view.read (Elt F) f2 := by
      show View.ld (arg2.view.read (Elt F) f2) (Rect.unit ![0, 0, 0] S512x4x1024.size inb_S512x4x1024_S512x4x1024_0_0_0) = _
      exact View.ld_unit_zero hz3 _ _
    have h1 : kernelRun.sl.r_1 arg1 f1 = k1_pay1 (arg1.view.read (Elt F) f1) := by
      show k1_pay1 (View.ld (arg1.view.read (Elt F) f1) (Rect.unit ![0, 0] S4x512.size inb_S4x512_S4x512_0_0)) = _
      rw [View.ld_unit_zero hz2]
    have h2 : kernelRun.sl.r_2 arg2 arg3 arg4 f2 f3 f4
        = k1_pay2 (arg2.view.read (Elt F) f2) (arg3.view.read (Elt F) f3) (arg4.view.read (Elt F) f4) := by
      show k1_pay2 (View.ld (arg2.view.read (Elt F) f2) (Rect.unit ![0, 0, 0] S512x4x1024.size inb_S512x4x1024_S512x4x1024_0_0_0))
          (View.ld (arg3.view.read (Elt F) f3) (Rect.unit ![0, 0] S1x1024.size inb_S1x1024_S1x1024_0_0))
          (View.ld (arg4.view.read (Elt F) f4) (Rect.unit ![0, 0] S1x1024.size inb_S1x1024_S1x1024_0_0)) = _
      rw [View.ld_unit_zero hz3, View.ld_unit_zero hz2, View.ld_unit_zero hz2]
    show arg5.view.read (Elt F) (arg5.view.writes (Elt F) arg5.view.junk (kernelRun.sl.H5_512 arg1 arg2 arg3 arg4 f1 f2 f3 f4)) = _
    rw [hp, read_rows, h0, h1, h2]
    rfl

end Cert.Kernel.Ln

end
-- ==== Proof.LnKBody.lean ====
/-
  The body obligation of the layer-normalisation region: at any grid point, from the four input windows' staging buffers
  at their blocks and the result window's at anything, the body runs to the inputs' as they were and the result's at the
  result block of the four blocks; the (empty) invariant and what the thread owes pass through unread.
-/
import proofs.«214348_g62886911148048_cont_9to1c4b_763_21_alg».proof.Proof.LnKRun
import proofs.«214348_g62886911148048_cont_9to1c4b_763_21_alg».proof.Proof.LnKDat

set_option maxRecDepth 16384

noncomputable section

namespace Cert.Kernel.Ln

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable {U : Type} [URA U]

local notation "ℍ" => SparseCore.Cfg.HIx 1
local notation "𝕄" => MT nD τ sig (SparseCore.Cfg.HIx 1) (Elt F) ℕ U ℕ

/-! ## The body's triple over window contents -/

/-- The kernel body on whole staging memrefs, the inputs' at read contents `x1 … x4` and the result's at anything, runs to
    the continuation holding the inputs' as they were and the result's at `lnBlk x1 x2 x3 x4`. -/
theorem sound_kernel (c : Dev nD) (E : Set ℕ) (i : grid1.Coords)
    (arg1 : Memref sig .tc .vmem S4x512 .f32) (harg1 : arg1.IsWhole) (arg2 : Memref sig .tc .vmem S512x4x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S512x4x1024 .f32) (harg5 : arg5.IsWhole)
    (x1 : Vec F S4x512 .f32) (x2 : Vec F S512x4x1024 .f32) (x3 : Vec F S1x1024 .f32) (x4 : Vec F S1x1024 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (lnBlk x1 x2 x3 x4)) -∗ K ⟨⟩))
      ⊢ wp frame (wpE (defs₀ (F := F)) Variants.none c none) E (cc1__ln_body i arg1 harg1 arg2 harg2 arg3 harg3 arg4 harg4 arg5 harg5) K := by
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  iapply ((kernelRun (U := U) c i arg1 harg1 arg2 harg2 arg3 harg3 arg4 harg4 arg5 harg5 f1 f2 f3 f4).2.2 f5 E K)
  isplitl [H1]; · iexact H1
  isplitl [H2]; · iexact H2
  isplitl [H3]; · iexact H3
  isplitl [H4]; · iexact H4
  isplitl [H5]; · iexact H5
  iintro ⟨H1, H2, H3, H4, H5⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (kernelRun (U := U) c i arg1 harg1 arg2 harg2 arg3 harg3 arg4 harg4 arg5 harg5 f1 f2 f3 f4).2.1

/-! ## The input windows' buffers hold their blocks -/

variable (e : Entry F)

theorem before1_0 (c : Dev nD) (t : Fin cfg1.N) (d) : (dat1 (U := U) e c).before 0 t d = iblk e c 0 t :=
  ((dat1 (U := U) e c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat1 (U := U) e c).before 1 t d = iblk e c 1 t :=
  ((dat1 (U := U) e c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat1 (U := U) e c).before 2 t d = iblk e c 2 t :=
  ((dat1 (U := U) e c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat1 (U := U) e c).before 3 t d = iblk e c 3 t :=
  ((dat1 (U := U) e c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat1 (U := U) e c).Φ t.castSucc ∗ (dat1 (U := U) e c).owesAt none t.castSucc
    ∗ (∃ d, owns (c : Thread nD τ) (st1_0 t) fullShare ((dat1 (U := U) e c).before 0 t d))
    ∗ (∃ d, owns (c : Thread nD τ) (st1_1 t) fullShare ((dat1 (U := U) e c).before 1 t d))
    ∗ (∃ d, owns (c : Thread nD τ) (st1_2 t) fullShare ((dat1 (U := U) e c).before 2 t d))
    ∗ (∃ d, owns (c : Thread nD τ) (st1_3 t) fullShare ((dat1 (U := U) e c).before 3 t d))
    ∗ (∃ d, owns (c : Thread nD τ) (st1_4 t) fullShare ((dat1 (U := U) e c).before 4 t d)))

/-- and what it returns. -/
def bodyPost (c : Dev nD) (t : Fin cfg1.N) : sProp 𝕄 :=
  iprop((dat1 (U := U) e c).Φ t.succ ∗ (dat1 (U := U) e c).owesAt none t.succ
    ∗ owns (c : Thread nD τ) (st1_0 t) fullShare ((dat1 (U := U) e c).after 0 t)
    ∗ owns (c : Thread nD τ) (st1_1 t) fullShare ((dat1 (U := U) e c).after 1 t)
    ∗ owns (c : Thread nD τ) (st1_2 t) fullShare ((dat1 (U := U) e c).after 2 t)
    ∗ owns (c : Thread nD τ) (st1_3 t) fullShare ((dat1 (U := U) e c).after 3 t)
    ∗ owns (c : Thread nD τ) (st1_4 t) fullShare ((dat1 (U := U) e c).after 4 t))

/-- The body at any point: the inputs' memrefs hold their blocks, so `sound_kernel` applies. -/
theorem sound_body (c : Dev nD) (t : Fin cfg1.N) :
    bodyPre (U := U) e c t ⊢ wp frame (wpE (defs₀ (F := F)) Variants.none c none) Set.univ (bodyAt1 t) (fun _ => bodyPost (U := U) e c t) := by
  unfold bodyPre bodyPost bodyAt1
  simp only [before1_0, before1_1, before1_2, before1_3]
  rw [show (dat1 (U := U) e c).Φ t.succ = (dat1 (U := U) e c).Φ t.castSucc from rfl,
    show (dat1 (U := U) e c).owesAt none t.succ = (dat1 (U := U) e c).owesAt none t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel (U := U) c Set.univ _ _ _ _ _ _ _ _ _ _ _ (iblk e c 0 t) (iblk e c 1 t) (iblk e c 2 t) (iblk e c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxRecDepth 100000 in
/-- The library's body obligation, at every point. -/
theorem body_obligation (c : Dev nD) : BodyObligation (dat1 (F := F) (U := U) e c) (defs₀ (F := F)) Variants.none none Set.univ := fun t => by
  rw [bigSep_W1, bigSep_W1]
  show bodyPre (U := U) e c t ⊢ wp frame (wpE (defs₀ (F := F)) Variants.none c none) Set.univ (bodyAt1 t) (fun _ => bodyPost (U := U) e c t)
  exact sound_body e c t

/-- The same for the family over the program's pipelines. -/
theorem body_obligation_loose (c : Dev nD) : BodyObligationLoose (pdats (F := F) (U := U) e 0 c) (defs₀ (F := F)) Variants.none none Set.univ :=
  (body_obligation e c).loose

end Cert.Kernel.Ln

end
-- ==== Proof.LnKEntry.lean ====
/-
  THE ENTRY of the layer-normalisation region from the TensorCore's thread of the SparseCore launch: from the
  region-boundary holdings, the level facts, the pipeline's launch ghost state for its staging cells on the device, the
  five arrays held whole and the thread owing nothing with its recorded pairs known, the region's call runs to the
  boundary again, the mask, the hidden states and the two rows unchanged, the result array at `lnArr` of them, and the
  thread still owing nothing, its recorded pairs those at entry and pairs at the index `none`.
-/
import proofs.«214348_g62886911148048_cont_9to1c4b_763_21_alg».proof.Proof.LnKEntryCore
import proofs.«214348_g62886911148048_cont_9to1c4b_763_21_alg».proof.Proof.LnKBody
import proofs.«214348_g62886911148048_cont_9to1c4b_763_21_alg».proof.Proof.LnKArr

set_option maxRecDepth 16384

noncomputable section

namespace Cert.Kernel.Ln

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable {U : Type} [URA U]

local notation "ℍ" => SparseCore.Cfg.HIx 1
local notation "𝕄" => MT nD τ sig (SparseCore.Cfg.HIx 1) (Elt F) ℕ U ℕ

variable (e : Entry F) (L : GSem nD τ sig → Finset ℍ) (lv : GSem nD τ sig → ℍ → ℕ)
variable (EP : Emb (URounds (GSem nD τ sig) Unit) (MT nD τ sig (SparseCore.Cfg.HIx 1) (Elt F) ℕ U ℕ))

/-- What the thread holds of the region's arrays after it, the arrays named. -/
def regOut (c : Dev nD) : sProp 𝕄 :=
  iprop(pl c main_v0 (e.M c) ∗ pl c main_arg0 (e.X c) ∗ pl c main_v1 (e.G c) ∗ pl c main_v2 (e.B c)
    ∗ pl c main_v3 (lnArr (e.M c) (e.X c) (e.G c) (e.B c))
    ∗ ∃ W', ⌜∀ p ∈ W', p ∈ e.W c ∨ p.2 = none⌝ ∗ owes (c : Thread nD τ) (0 : CellTallies nD τ sig ℍ) W')

theorem regPost_eq (c : Dev nD) : regPost (U := U) e c = regOut (U := U) e c := by
  unfold regPost regOut
  rw [arrAt_in0, arrAt_in1, arrAt_in2, arrAt_in3, arrAt_out]

/-- THE ENTRY. -/
theorem entry [EP.LandsIn (upEmb : UEmb _ 𝕄)] (d : Dev nD) :
    iprop(boundary (d.tc : Thread nD τ) ∗ levAts L lv
        ∗ Pipeline.cellsGhost (Pipeline.pin (pcfgs (F := F)) adm) EP 0 d ∗ Pipeline.toksInit (Pipeline.pin (pcfgs (F := F)) adm) EP 0 d
        ∗ regPre e d)
      ⊢ wp frame (wpE ((sc (F := F)).defs (Pipeline.defs pcfgs defs₀)) (Variants.lift Variants.none) (d.tc : Thread nD τ) none) Set.univ
          (Prog.lift (.customCall (SparseCore.inner (Pipeline.entry 0)) ()))
          (fun _ => iprop(boundary (d.tc : Thread nD τ) ∗ regOut e d)) := by
  have h := entry_core e L lv EP (fun c => body_obligation_loose e c) d
  rw [regPost_eq] at h
  exact h

end Cert.Kernel.Ln

end
-- ==== Proof.RunK.lean ====
/-
  The kernel program's run: every weakly fair execution of its thirty-five threads ends, nothing faulting, with the four
  arguments as launched and the result array at `KOut`: the layer-normalisation region's value at the mask the
  SparseCore call left, the hidden states, and the re-laid scale and shift rows.
-/
import proofs.«214348_g62886911148048_cont_9to1c4b_763_21_alg».proof.Proof.MainK
import proofs.«214348_g62886911148048_cont_9to1c4b_763_21_alg».proof.Proof.LnKEntry

noncomputable section

namespace Cert.Proof.KB

open Cert.Kernel Cert.Kernel.Gen
open Cert.Kernel.Ln (Entry pl regPre lnArr)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The result array the run leaves. -/
abbrev KOut (d : Dev nD) : Buf (Elt F) (v3Loc d) := lnArr (maskBuf m d) (m (a0Loc d)) (G1 m d) (B1 m d)

def fq (d : Dev nD) (s' : Phys nD τ sig (Elt F)) : Prop :=
  s'.mem.mem (a0Loc d) = m (a0Loc d) ∧ s'.mem.mem (iLoc d) = m (iLoc d) ∧ s'.mem.mem (a2Loc d) = m (a2Loc d)
    ∧ s'.mem.mem (a3Loc d) = m (a3Loc d) ∧ s'.mem.mem (v3Loc d) = KOut m d

theorem hfin (d : Dev nD) (s' : Phys nD τ sig (Elt F)) : iprop(FIN m (maskBuf m) d ∗ SI s') ⊢ (⌜fq m d s'⌝ : sProp 𝕄) := by
  iintro ⟨⟨H0, H1, H2, H3, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := iLoc d) (I := Finset.univ) (q := shareDrop fullShare 2) (f := m (iLoc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := v3Loc d) (I := Finset.univ) (q := fullShare) (f := KOut m d)) $$ [HSI H4]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-- The run's post: the result named, the arguments as launched. -/
def QC : PUnit × MemSt nD τ sig (Elt F) → Prop := fun r => ∀ c : Dev nD,
  r.2.mem (v3Loc c) = KOut m c ∧ r.2.mem (a0Loc c) = m (a0Loc c) ∧ r.2.mem (iLoc c) = m (iLoc c)
    ∧ r.2.mem (a2Loc c) = m (a2Loc c) ∧ r.2.mem (a3Loc c) = m (a3Loc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => GD (F := F) d) (FIN m (maskBuf m)) (u₀ (F := F)) (sep_elim_left.trans (hu₀ m))
    (hmain m ρ (maskBuf m) (seg_join m) (fun e d => Cert.Kernel.Ln.entry e _ _ EP d))
    (fq m) (hfin m) (QC m)
    (fun s' h c => ⟨(h c).2.2.2.2, (h c).1, (h c).2.1, (h c).2.2.1, (h c).2.2.2.1⟩)

end Cert.Proof.KB

end
-- ==== Proof.RefFrame.lean ====
/-
  The reference program runs to completion and leaves its argument arrays unchanged: its run, read back, with the
  result dropped.
-/
import proofs.«214348_g62886911148048_cont_9to1c4b_763_21_alg».proof.Defs
import proofs.«214348_g62886911148048_cont_9to1c4b_763_21_alg».proof.Proof.Gen.ReferenceIdeal.Run
import proofs.«214348_g62886911148048_cont_9to1c4b_763_21_alg».proof.Proof.Gen.Pre_input_domain

noncomputable section

namespace Cert.RefValue

open Idealize.ShloMosaic Idealize.SL.Sem

/-- The reference terminates without fault and its four argument arrays end as they began. -/
theorem frame_ri : Cert.frame_ReferenceIdeal :=
  fun m ρ _ => (θ_run Cert.ReferenceIdeal.defs _ _).mono (fun _ h c => (h c).2)
    (Cert.ReferenceIdeal.Value.run (F := Ideal) m ρ)

end Cert.RefValue

end
-- ==== Proof.Spec.lean ====
/-
  What the two programs compute, as one function of the argument arrays over the extended reals.

  A row `x s b` (1024 numbers) of the hidden states is NORMALISED when batch `b`'s list of sampled positions names `s`,
  and kept otherwise. The normalised row is written here in the arrangement the kernel computes it in: with
  `μ = (Σ x) · 2⁻¹⁰` and `ι = ((Σ x²) · 2⁻¹⁰ − μ² + ε)^(−1/2)`, entry `h` is `(x h · ι + (0 − μ) · ι) · g h + bt h`.
  For a row of real numbers this is the textbook `(x h − μ) / √(σ² + ε) · g h + bt h` with `σ² = Σ (x − μ)² / 1024`:
  `Σ (x − μ)² / 1024 = (Σ x²) / 1024 − μ²`, the product with `2⁻¹⁰` is the quotient by `1024`, and `σ² + ε > 0`.
  `2⁻¹⁰` and `ε` are the values of the binary words both programs spell.
-/
import Idealize.ShloMosaic.PureOps.Ideal
import Mathlib.Algebra.BigOperators.Group.Finset.Basic

noncomputable section

namespace Cert.Spec

open Idealize.ShloMosaic

/-- `2⁻¹⁰`, the reciprocal of the row length, as its binary word denotes it. -/
def invH : EReal := Ideal.ofBits .f32 0x3A800000#32

/-- The offset added to the variance, as its binary word denotes it. -/
def eps : EReal := Ideal.ofBits .f32 0x3727C5AC#32

/-- The row's mean: its sum times `2⁻¹⁰`. -/
def mean (x : Fin 1024 → EReal) : EReal := (∑ k, x k) * invH

/-- The reciprocal square root of the row's variance plus `ε`, the variance as mean of squares less squared mean. -/
def invStd (x : Fin 1024 → EReal) : EReal := Ideal.rsqrt ((∑ k, x k * x k) * invH - mean x * mean x + eps)

/-- Entry `h` of the normalised row, scaled by `g` and shifted by `bt`. -/
def lnRow (x g bt : Fin 1024 → EReal) (h : Fin 1024) : EReal :=
  (x h * invStd x + (0 - mean x) * invStd x) * g h + bt h

/-- Batch `b`'s list of sampled positions names position `s`. -/
def sampled (idx : Fin 4 → Fin 4096 → BitVec 32) (b : Fin 4) (s : Fin 8192) : Prop := ∃ r, (idx b r).toNat = s.val

open Classical in
/-- The result: a sampled row normalised, any other row kept. -/
def G (x : Fin 8192 → Fin 4 → Fin 1024 → EReal) (idx : Fin 4 → Fin 4096 → BitVec 32) (g bt : Fin 1024 → EReal) :
    Fin 8192 → Fin 4 → Fin 1024 → EReal :=
  fun s b h => if sampled idx b s then lnRow (x s b) g bt h else x s b h

end Cert.Spec

end
-- ==== Proof.LibScatterSet.lean ====
/-
  Reading a "set" scatter — one whose body returns the update — at one result index.

  The scatter is a left fold over the update indices in row-major order; each step either rewrites
  the one element the update lands on or leaves the array as it is. Read at a fixed index, the fold
  therefore returns the operand's element when no update lands there, and when some do and all of
  them carry one value, that value — whatever the order and however many they are.
-/
import Idealize.ShloMosaic.PureOps.ShapeOps

namespace Cert.LibScatterSet

open Idealize.ShloMosaic

/-- A left fold whose step, read at `j`, keeps the accumulator's element unless the item "hits" `j`:
    when no item of the list hits `j`, the fold read at `j` is the initial array's element. -/
theorem foldl_read_of_no_hit {ι κ α : Type} (step : (ι → α) → κ → ι → α) (hit : κ → ι → Prop)
    (hmiss : ∀ r n j, ¬ hit n j → step r n j = r j) (l : List κ) (r : ι → α) (j : ι)
    (h : ∀ n ∈ l, ¬ hit n j) : l.foldl step r j = r j := by
  induction l generalizing r with
  | nil => rfl
  | cons a l ih =>
    rw [List.foldl_cons, ih _ (fun n hn => h n (List.mem_cons_of_mem _ hn))]
    exact hmiss r a j (h a List.mem_cons_self)

/-- A left fold whose step, read at `j`, writes the item's value when the item hits `j` and keeps the
    accumulator's element otherwise: when every item that hits `j` carries the value `v`, and either the
    initial element is `v` already or some item hits `j`, the fold read at `j` is `v`. -/
theorem foldl_read_of_hits_const {ι κ α : Type} (step : (ι → α) → κ → ι → α) (hit : κ → ι → Prop)
    (val : κ → α) (hhit : ∀ r n j, hit n j → step r n j = val n)
    (hmiss : ∀ r n j, ¬ hit n j → step r n j = r j) (l : List κ) (r : ι → α) (j : ι) (v : α)
    (hall : ∀ n ∈ l, hit n j → val n = v) (hsome : r j = v ∨ ∃ n ∈ l, hit n j) :
    l.foldl step r j = v := by
  induction l generalizing r with
  | nil =>
    rcases hsome with h | ⟨n, hn, _⟩
    · exact h
    · exact absurd hn List.not_mem_nil
  | cons a l ih =>
    rw [List.foldl_cons]
    refine ih _ (fun n hn => hall n (List.mem_cons_of_mem _ hn)) ?_
    by_cases ha : hit a j
    · exact Or.inl ((hhit r a j ha).trans (hall a List.mem_cons_self ha))
    · rcases hsome with h | ⟨n, hn, hnj⟩
      · exact Or.inl ((hmiss r a j ha).trans h)
      · rcases List.mem_cons.1 hn with rfl | hn'
        · exact absurd hnj ha
        · exact Or.inr ⟨n, hn', hnj⟩

section Scatter
variable {s si u : Shape} {α : Type} {w : Nat}

/-- One step of a set scatter read at `i'`: the update's element when the update lands on `i'`. -/
private theorem step_hit (d : ScatterDims s si u) (idx : IVec si w) (upd : u.Idx → α)
    (r : s.Idx → α) (n : Fin u.numel) (i' : s.Idx) (h : d.resultIdx? (u.rowMajor.symm n) idx = some i') :
    (match d.resultIdx? (u.rowMajor.symm n) idx with
      | some i => fun i' => if i' = i then (fun (_ : α) (b : α) => b) (r i) (upd (u.rowMajor.symm n)) else r i'
      | none => r) i' = upd (u.rowMajor.symm n) := by
  rw [h]; simp

/-- One step of a set scatter read at `i'`: the accumulator's element when the update lands elsewhere or is dropped. -/
private theorem step_miss (d : ScatterDims s si u) (idx : IVec si w) (upd : u.Idx → α)
    (r : s.Idx → α) (n : Fin u.numel) (i' : s.Idx) (h : ¬ d.resultIdx? (u.rowMajor.symm n) idx = some i') :
    (match d.resultIdx? (u.rowMajor.symm n) idx with
      | some i => fun i' => if i' = i then (fun (_ : α) (b : α) => b) (r i) (upd (u.rowMajor.symm n)) else r i'
      | none => r) i' = r i' := by
  cases hr : d.resultIdx? (u.rowMajor.symm n) idx with
  | none => rfl
  | some i =>
    have hne : i' ≠ i := fun e => h (by rw [hr, e])
    simp [hne]

/-- A set scatter (`stablehlo.scatter` whose body returns the update) read at an index NO update lands on:
    the operand's element. -/
theorem scatter_set_untouched (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  unfold Host.scatter
  exact foldl_read_of_no_hit _ (fun n i' => d.resultIdx? (u.rowMajor.symm n) idx = some i')
    (fun r n j hj => step_miss d idx upd r n j hj) _ x i' (fun n _ => h _)

/-- A set scatter read at an index some update lands on, all the updates landing there carrying one value `v`
    (repeated scatter indices writing equal rows): that value, whatever the order of the updates. -/
theorem scatter_set_const (d : ScatterDims s si u) (x : s.Idx → α) (idx : IVec si w) (upd : u.Idx → α)
    (i' : s.Idx) (v : α) (j0 : u.Idx) (h0 : d.resultIdx? j0 idx = some i')
    (hall : ∀ j : u.Idx, d.resultIdx? j idx = some i' → upd j = v) :
    Host.scatter d (fun _ b => b) x idx upd i' = v := by
  unfold Host.scatter
  refine foldl_read_of_hits_const _ (fun n i' => d.resultIdx? (u.rowMajor.symm n) idx = some i')
    (fun n => upd (u.rowMajor.symm n)) (fun r n j hj => step_hit d idx upd r n j hj)
    (fun r n j hj => step_miss d idx upd r n j hj) _ x i' v (fun n _ hn => hall _ hn) (Or.inr ?_)
  exact ⟨u.rowMajor j0, List.mem_finRange _, by rw [Equiv.symm_apply_apply]; exact h0⟩

end Scatter

end Cert.LibScatterSet
-- ==== Proof.RefLayerNorm.lean ====
/-
  The textbook layer norm of a row of real numbers, in the reference's arrangement, equals the specification's.

  For a row `y` of 1024 reals, with `μ = (Σ y) / 1024`:
  * the reference computes `σ² = (Σ (y − μ)²) / 1024` and entry `h` as `(y h − μ) / √(σ² + ε) · g h + bt h`;
  * the specification writes `σ² = (Σ y²) · 2⁻¹⁰ − μ²` and entry `h` as `(y h · ι + (0 − μ) · ι) · g h + bt h`
    with `ι = (σ² + ε)^(−1/2)`.
  The two variances agree (`Σ (y − μ)² = Σ y² − 2 μ Σ y + 1024 μ² = Σ y² − 1024 μ²`), `2⁻¹⁰ = 1/1024`, the variance is
  nonnegative and `ε > 0`, so the square root is of a positive real, the quotient by it is the product with its
  inverse, and every extended-real operation involved is the real one.
-/
import proofs.«214348_g62886911148048_cont_9to1c4b_763_21_alg».proof.Proof.Spec
import Idealize.ShloMosaic.PureOps.Ideal

noncomputable section

namespace Cert.RefLayerNorm

open Idealize.ShloMosaic

/-! ### The three binary words -/

/-- The word `0x3A800000` denotes `2⁻¹⁰ = 1/1024`. -/
theorem invH_eq : Cert.Spec.invH = ((1 / 1024 : ℝ) : EReal) := by
  unfold Cert.Spec.invH
  simp [Ideal.ofBits, Ideal.ieee, -EReal.coe_mul]
  norm_num

/-- The row length as the reference spells it: the word `0x44800000`. -/
def lenW : EReal := Ideal.ofBits .f32 0x44800000#32

/-- The word `0x44800000` denotes `1024`. -/
theorem lenW_eq : lenW = ((1024 : ℝ) : EReal) := by
  unfold lenW
  simp [Ideal.ofBits, Ideal.ieee, -EReal.coe_mul]
  norm_num

/-- The initial value of the reference's sums: the word of `+0.0`. -/
def zeroW : EReal := Ideal.ofBits .f32 0x00000000#32

/-- The word of `+0.0` denotes `0`. -/
theorem zeroW_eq : zeroW = 0 := by
  unfold zeroW
  simp [Ideal.ofBits, Ideal.ieee]

/-- The real number the word `0x3727C5AC` denotes: `10995116 · 2⁻⁴⁰`, about `10⁻⁵`. -/
def epsR : ℝ := 10995116 / 2 ^ 40

/-- The word `0x3727C5AC` denotes `epsR`. -/
theorem eps_eq : Cert.Spec.eps = ((epsR : ℝ) : EReal) := by
  unfold Cert.Spec.eps epsR
  simp [Ideal.ofBits, Ideal.ieee, -EReal.coe_mul]
  norm_num

/-- `ε` is positive. -/
theorem epsR_pos : 0 < epsR := by unfold epsR; positivity

/-! ### Sums of reals inside the extended reals -/

/-- A finite sum of real numbers, taken in the extended reals, is the real sum. -/
theorem coe_sum {ι : Type} (s : Finset ι) (f : ι → ℝ) :
    ∑ k ∈ s, ((f k : ℝ) : EReal) = ((∑ k ∈ s, f k : ℝ) : EReal) := by
  induction s using Finset.cons_induction with
  | empty => simp
  | cons a s ha ih => rw [Finset.sum_cons, Finset.sum_cons, ih, EReal.coe_add]

/-! ### The real-number mean and variance -/

/-- The mean of a row of reals. -/
def meanR (y : Fin 1024 → ℝ) : ℝ := (∑ k, y k) * (1 / 1024)

/-- The variance of a row of reals, as the mean of the squared deviations. -/
def varR (y : Fin 1024 → ℝ) : ℝ := (∑ k, (y k - meanR y) * (y k - meanR y)) * (1 / 1024)

/-- The variance is the mean of the squares less the squared mean. -/
theorem varR_eq (y : Fin 1024 → ℝ) : varR y = (∑ k, y k * y k) * (1 / 1024) - meanR y * meanR y := by
  have hexp : ∀ k, (y k - meanR y) * (y k - meanR y) = y k * y k - 2 * meanR y * y k + meanR y * meanR y :=
    fun k => by ring
  have hS : (∑ k, y k) = 1024 * meanR y := by unfold meanR; ring
  unfold varR
  simp only [hexp, Finset.sum_add_distrib, Finset.sum_sub_distrib, ← Finset.mul_sum, Finset.sum_const,
    Finset.card_univ, Fintype.card_fin, nsmul_eq_mul]
  rw [hS]
  push_cast
  ring

/-- The variance is nonnegative. -/
theorem varR_nonneg (y : Fin 1024 → ℝ) : 0 ≤ varR y := by
  unfold varR
  exact mul_nonneg (Finset.sum_nonneg fun k _ => mul_self_nonneg _) (by norm_num)

/-- Variance plus `ε` is positive. -/
theorem varR_add_eps_pos (y : Fin 1024 → ℝ) : 0 < varR y + epsR := add_pos_of_nonneg_of_pos (varR_nonneg y) epsR_pos

/-- The normalised, scaled and shifted entry as a real number. -/
def lnR (y g bt : Fin 1024 → ℝ) (h : Fin 1024) : ℝ :=
  (y h - meanR y) * (Real.sqrt (varR y + epsR))⁻¹ * g h + bt h

/-! ### The specification's arrangement on a row of reals -/

/-- The specification's mean of a row of reals is the real mean. -/
theorem spec_mean_coe (y : Fin 1024 → ℝ) : Cert.Spec.mean (fun k => ((y k : ℝ) : EReal)) = ((meanR y : ℝ) : EReal) := by
  unfold Cert.Spec.mean meanR
  rw [invH_eq, coe_sum, ← EReal.coe_mul]

/-- The specification's reciprocal standard deviation of a row of reals is the real one. -/
theorem spec_invStd_coe (y : Fin 1024 → ℝ) :
    Cert.Spec.invStd (fun k => ((y k : ℝ) : EReal)) = (((Real.sqrt (varR y + epsR))⁻¹ : ℝ) : EReal) := by
  unfold Cert.Spec.invStd
  rw [spec_mean_coe, invH_eq, eps_eq]
  simp only [← EReal.coe_mul]
  rw [coe_sum, ← EReal.coe_mul, ← EReal.coe_sub, ← EReal.coe_add, ← varR_eq]
  have hpos := varR_add_eps_pos y
  rw [Ideal.rsqrt_coe, if_neg (not_lt.2 hpos.le), if_neg hpos.ne']

/-- The specification's normalised entry on rows of reals is the real one. -/
theorem spec_lnRow_coe (y g bt : Fin 1024 → ℝ) (h : Fin 1024) :
    Cert.Spec.lnRow (fun k => ((y k : ℝ) : EReal)) (fun k => ((g k : ℝ) : EReal)) (fun k => ((bt k : ℝ) : EReal)) h
      = ((lnR y g bt h : ℝ) : EReal) := by
  unfold Cert.Spec.lnRow lnR
  rw [spec_invStd_coe, spec_mean_coe]
  rw [← EReal.coe_zero, ← EReal.coe_sub, ← EReal.coe_mul, ← EReal.coe_mul, ← EReal.coe_add, ← EReal.coe_mul,
    ← EReal.coe_add]
  congr 1
  ring

/-! ### The reference's arrangement -/

/-- The reference's mean: the sum from `+0.0`, divided by the row length. -/
def refMean (y : Fin 1024 → EReal) : EReal := Ideal.div (zeroW + ∑ k, y k) lenW

/-- The reference's variance: the sum of squared deviations from `+0.0`, divided by the row length. -/
def refVar (y : Fin 1024 → EReal) : EReal :=
  Ideal.div (zeroW + ∑ k, (y k - refMean y) * (y k - refMean y)) lenW

/-- The reference's normalised, scaled and shifted entry. -/
def refRow (y g bt : Fin 1024 → EReal) (h : Fin 1024) : EReal :=
  Ideal.div (y h - refMean y) (Ideal.sqrt (refVar y + Cert.Spec.eps)) * g h + bt h

/-- The reference's mean of a row of reals is the real mean. -/
theorem refMean_coe (y : Fin 1024 → ℝ) : refMean (fun k => ((y k : ℝ) : EReal)) = ((meanR y : ℝ) : EReal) := by
  unfold refMean meanR
  rw [zeroW_eq, zero_add, lenW_eq, Ideal.div_coe (by norm_num), coe_sum, ← EReal.coe_mul]

/-- The reference's variance of a row of reals is the real variance. -/
theorem refVar_coe (y : Fin 1024 → ℝ) : refVar (fun k => ((y k : ℝ) : EReal)) = ((varR y : ℝ) : EReal) := by
  unfold refVar varR
  rw [refMean_coe, zeroW_eq, zero_add, lenW_eq, Ideal.div_coe (by norm_num)]
  simp only [← EReal.coe_sub, ← EReal.coe_mul]
  rw [coe_sum, ← EReal.coe_mul]

/-- The reference's normalised entry on rows of reals is the real one. -/
theorem refRow_coe (y g bt : Fin 1024 → ℝ) (h : Fin 1024) :
    refRow (fun k => ((y k : ℝ) : EReal)) (fun k => ((g k : ℝ) : EReal)) (fun k => ((bt k : ℝ) : EReal)) h
      = ((lnR y g bt h : ℝ) : EReal) := by
  unfold refRow lnR
  have hpos := varR_add_eps_pos y
  have hsq : Real.sqrt (varR y + epsR) ≠ 0 := (Real.sqrt_pos.2 hpos).ne'
  rw [refVar_coe, refMean_coe, eps_eq, ← EReal.coe_add, Ideal.sqrt_coe, if_neg (not_lt.2 hpos.le),
    Ideal.div_coe hsq, ← EReal.coe_sub, ← EReal.coe_mul, ← EReal.coe_mul, ← EReal.coe_add]
  congr 1
  rw [one_div]

/-- THE ALGEBRA: on a row of finite numbers, with finite scale and shift, the reference's arrangement of the
    layer norm equals the specification's. -/
theorem refRow_eq_lnRow (x g bt : Fin 1024 → EReal) (hx : ∀ k, ∃ r : ℝ, x k = (r : EReal))
    (hg : ∀ k, ∃ r : ℝ, g k = (r : EReal)) (hbt : ∀ k, ∃ r : ℝ, bt k = (r : EReal)) (h : Fin 1024) :
    refRow x g bt h = Cert.Spec.lnRow x g bt h := by
  obtain ⟨y, rfl⟩ : ∃ y : Fin 1024 → ℝ, x = fun k => ((y k : ℝ) : EReal) :=
    ⟨fun k => (hx k).choose, funext fun k => (hx k).choose_spec⟩
  obtain ⟨g', rfl⟩ : ∃ g' : Fin 1024 → ℝ, g = fun k => ((g' k : ℝ) : EReal) :=
    ⟨fun k => (hg k).choose, funext fun k => (hg k).choose_spec⟩
  obtain ⟨b', rfl⟩ : ∃ b' : Fin 1024 → ℝ, bt = fun k => ((b' k : ℝ) : EReal) :=
    ⟨fun k => (hbt k).choose, funext fun k => (hbt k).choose_spec⟩
  rw [refRow_coe, spec_lnRow_coe]

end Cert.RefLayerNorm

end
-- ==== Proof.RefPre.lean ====
/-
  What the precondition says of the argument arrays: every float entry is a real number and every sampled index lies
  in `[0, 8191]`.

  The precondition is a conjunction of four "all entries satisfy …" tests: `|x| < +∞` for the three float arrays — an
  extended real whose absolute value is below `+∞` is neither infinity, hence a real — and `0 ≤ idx ∧ idx ≤ 8191`,
  read signed, for the index array.
-/
import proofs.«214348_g62886911148048_cont_9to1c4b_763_21_alg».proof.ReferenceIdeal
import proofs.«214348_g62886911148048_cont_9to1c4b_763_21_alg».proof.Pre_input_domain
import Idealize.ShloMosaic.Lib.ValueIdx
import Idealize.ShloMosaic.Lib.ReduceAll

noncomputable section

namespace Cert.RefValue

open Idealize.ShloMosaic Idealize.ShloMosaic.ValueIdx

/-- The scalar shape has one index. -/
instance subsingleton_scalar_idx : Subsingleton Cert.Pre_input_domain.S_.Idx := ⟨fun _ _ => funext fun d => d.elim0⟩

/-- Finiteness of the float arguments and the range of the sampled indices, as read off the precondition. -/
structure Fin_in (x0 : (⟨Cert.ReferenceIdeal.S8192x4x1024, .f32⟩ : BufTy).Contents (Elt Ideal))
    (x1 : (⟨Cert.ReferenceIdeal.S4x4096, .i32⟩ : BufTy).Contents (Elt Ideal))
    (x2 x3 : (⟨Cert.ReferenceIdeal.S1024, .f32⟩ : BufTy).Contents (Elt Ideal)) : Prop where
  hx : ∀ i, ∃ r : ℝ, x0 i = (r : EReal)
  hg : ∀ i, ∃ r : ℝ, x2 i = (r : EReal)
  hbt : ∀ i, ∃ r : ℝ, x3 i = (r : EReal)
  hidx : ∀ j, 0 ≤ (x1 j).toInt ∧ (x1 j).toInt ≤ 8191

/-- The word `0x7F800000` denotes `+∞`. -/
theorem ofBits_inf : Ideal.ofBits .f32 0x7F800000#32 = ⊤ := by
  simp [Ideal.ofBits, Ideal.ieee]

/-- An extended real whose absolute value tests below `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  have hlt : max x (-x) < ⊤ := by
    by_contra hn
    unfold Ideal.cmp at h'
    simp only [decide_eq_false hn] at h'
    exact absurd h' (by decide)
  induction x using EReal.rec with
  | bot => simp at hlt
  | coe r => exact ⟨r, rfl⟩
  | top => simp at hlt

/-- From the precondition: the float arguments are real-valued and the sampled indices lie in `[0, 8191]`. -/
theorem fin_of_pre [Cert.Pre_input_domain.Facts]
    (x0 : (⟨Cert.ReferenceIdeal.S8192x4x1024, .f32⟩ : BufTy).Contents (Elt Ideal))
    (x1 : (⟨Cert.ReferenceIdeal.S4x4096, .i32⟩ : BufTy).Contents (Elt Ideal))
    (x2 x3 : (⟨Cert.ReferenceIdeal.S1024, .f32⟩ : BufTy).Contents (Elt Ideal))
    (h : Cert.Pre_input_domain.fn (F := Ideal) x0 x1 x2 x3 = fun _ => 1#1) : Fin_in x0 x1 x2 x3 := by
  have h0 := congrFun h ValueIdx.ix0
  dsimp only [Cert.Pre_input_domain.fn, Cert.Pre_input_domain.fn_part1] at h0
  obtain ⟨h13, h19⟩ := IntOp.andi_eq_one.1 h0
  obtain ⟨h8, h12⟩ := IntOp.andi_eq_one.1 h13
  obtain ⟨h3, h7⟩ := IntOp.andi_eq_one.1 h8
  have a3 := Host.reduce_andi_all _ _ _ _ _ h3
  have a7 := Host.reduce_andi_all _ _ _ _ _ h7
  have a12 := Host.reduce_andi_all _ _ _ _ _ h12
  have a19 := Host.reduce_andi_all _ _ _ _ _ h19
  refine ⟨fun i => real_of_abs_lt_inf (x0 i) (a3 i), fun i => real_of_abs_lt_inf (x2 i) (a7 i),
    fun i => real_of_abs_lt_inf (x3 i) (a12 i), fun j => ?_⟩
  obtain ⟨hge, hle⟩ := IntOp.andi_eq_one.1 (a19 j)
  have hge' := IntOp.cmpi_sge.1 hge
  have hle' := IntOp.cmpi_sle.1 hle
  have e0 : (0#32 : BitVec 32).toInt = 0 := by decide
  have e1 : (8191#32 : BitVec 32).toInt = 8191 := by decide
  exact ⟨e0 ▸ hge', e1 ▸ hle'⟩

end Cert.RefValue

end
-- ==== Proof.RefIndex.lean ====
/-
  The reference's index arrays, its gather and its scatter targets, read at an index.

  Both index arrays hold, at `(r, b, ·)`, the pair `(idx[b, r], b)`: the first component is the transposed sampled index
  after a "negative wraps around" select that does nothing to a nonnegative word, the second is batch `b` itself after
  the same select on `0 … 3`. With the sampled index in `[0, 8191]` the gather's clamp is the identity and the scatter's
  window lies inside the operand, so row `(r, b)` of the gather is row `(idx[b, r], b)` of the hidden states and update
  `(r, b, h)` of the scatter lands on `(idx[b, r], b, h)`.
-/
import proofs.«214348_g62886911148048_cont_9to1c4b_763_21_alg».proof.Proof.Gen.ReferenceIdeal.Read
import Idealize.ShloMosaic.Lib.ValueIdx

noncomputable section

namespace Cert.RefIndex

open Cert.ReferenceIdeal Cert.ReferenceIdeal.Gen Cert.ReferenceIdeal.Read Idealize.ShloMosaic Idealize.ShloMosaic.ValueIdx

/-! ### Words -/

/-- A 32-bit word that reads nonnegative signed reads the same unsigned. -/
theorem toInt_eq_toNat_of_nonneg (w : BitVec 32) (h0 : 0 ≤ w.toInt) : w.toInt = (w.toNat : Int) := by
  have hc := BitVec.toInt_eq_toNat_cond w
  have hlt := w.isLt
  split at hc <;> omega

/-- "A negative index counts from the end" does nothing to a nonnegative index. -/
theorem wrap_nonneg (v : BitVec 32) (h : 0 ≤ v.toInt) :
    Scalar.select (IntOp.cmpi .slt v 0#32) (IntOp.addi v 8192#32) v = v := by
  unfold Scalar.select
  rw [if_neg]
  intro hc
  have h1 := IntOp.cmpi_slt.1 hc
  have e0 : (0#32 : BitVec 32).toInt = 0 := by decide
  omega

/-- The same select on a batch number `0 … 3` returns the batch number. -/
theorem wrap_batch (b : Fin 4) :
    Scalar.select (IntOp.cmpi .slt (BitVec.ofNat 32 b.val) 0#32) (IntOp.addi (BitVec.ofNat 32 b.val) 4#32)
      (BitVec.ofNat 32 b.val) = BitVec.ofNat 32 b.val := by
  revert b; decide

/-- A batch number read back signed. -/
theorem batch_toInt (b : Fin 4) : (BitVec.ofNat 32 b.val).toInt = (b.val : Int) := by
  revert b; decide

variable (x1 : (⟨S4x4096, .i32⟩ : BufTy).Contents (Elt Ideal))

/-! ### The first index array (the gather's) -/

/-- The wrapped transposed index at `(r, b)` is `idx[b, r]` when that is nonnegative. -/
theorem v7_at (r : Fin 4096) (b : Fin 4) (h : 0 ≤ (x1 (ix2 b r)).toInt) :
    val_main_v7 (F := Ideal) x1 (ix2 r b) = x1 (ix2 b r) := by
  have e : idx_main_v0 (ix2 r b) = ix2 b r := by
    funext a; match a with | ⟨0, _⟩ => rfl | ⟨1, _⟩ => rfl
  rw [val_main_v7_apply, val_main_v4_apply, val_main_v6_apply, val_main_v0_apply, val_main_v3_apply,
    val_main_v5_apply, val_main_c_apply, val_main_c_0_apply, e]
  exact wrap_nonneg _ h

/-- The batch column at `(r, b)` is `b`. -/
theorem v13_at (r : Fin 4096) (b : Fin 4) :
    val_main_v13 (F := Ideal) (ix2 r b) = BitVec.ofNat 32 b.val := by
  rw [val_main_v13_apply, val_main_v12_apply, val_main_v9_apply, val_main_v11_apply, val_main_v2_apply,
    val_main_v8_apply, val_main_v10_apply, val_main_c_1_apply, val_main_c_2_apply, val_main_v1_apply]
  exact wrap_batch b

/-- Component 0 of the gather's index vector at `(r, b)`. -/
theorem v16_at0 (r : Fin 4096) (b : Fin 4) (h : 0 ≤ (x1 (ix2 b r)).toInt) :
    val_main_v16 (F := Ideal) x1 (ix3 r b (0 : Fin 2)) = x1 (ix2 b r) := by
  unfold val_main_v16
  rw [concatenate_pair_apply_left (s₁ := S4096x4x1) (s₂ := S4096x4x1) (2 : Fin 3) (val_main_v14 (F := Ideal) x1) (val_main_v15 (F := Ideal)) concatenates_S4096x4x1_S4096x4x1_S4096x4x2_d2 (ix3 r b (0 : Fin 2)) rfl
    (ix3 r b (0 : Fin 1)) (fun c => by match c with | ⟨0, _⟩ => rfl | ⟨1, _⟩ => rfl | ⟨2, _⟩ => rfl)]
  have e : idx_main_v14 (ix3 r b (0 : Fin 1)) = ix2 r b := by
    funext a; match a with | ⟨0, _⟩ => rfl | ⟨1, _⟩ => rfl
  rw [val_main_v14_apply, e]
  exact v7_at x1 r b h

/-- Component 1 of the gather's index vector at `(r, b)`. -/
theorem v16_at1 (r : Fin 4096) (b : Fin 4) :
    val_main_v16 (F := Ideal) x1 (ix3 r b (1 : Fin 2)) = BitVec.ofNat 32 b.val := by
  unfold val_main_v16
  rw [concatenate_pair_apply_right (s₁ := S4096x4x1) (s₂ := S4096x4x1) (2 : Fin 3) (val_main_v14 (F := Ideal) x1) (val_main_v15 (F := Ideal)) concatenates_S4096x4x1_S4096x4x1_S4096x4x2_d2 (ix3 r b (1 : Fin 2)) rfl rfl
    (ix3 r b (0 : Fin 1)) (fun c hc => by match c with | ⟨0, _⟩ => rfl | ⟨1, _⟩ => rfl | ⟨2, _⟩ => exact absurd rfl hc) rfl]
  have e : idx_main_v15 (ix3 r b (0 : Fin 1)) = ix2 r b := by
    funext a; match a with | ⟨0, _⟩ => rfl | ⟨1, _⟩ => rfl
  rw [val_main_v15_apply, e]
  exact v13_at r b

/-! ### The second index array (the scatter's): the same operations once more -/

/-- The wrapped transposed index at `(r, b)`, second copy. -/
theorem v46_at (r : Fin 4096) (b : Fin 4) (h : 0 ≤ (x1 (ix2 b r)).toInt) :
    val_main_v46 (F := Ideal) x1 (ix2 r b) = x1 (ix2 b r) := by
  have e : idx_main_v0 (ix2 r b) = ix2 b r := by
    funext a; match a with | ⟨0, _⟩ => rfl | ⟨1, _⟩ => rfl
  rw [val_main_v46_apply, val_main_v43_apply, val_main_v45_apply, val_main_v0_apply, val_main_v42_apply,
    val_main_v44_apply, val_main_c_7_apply, val_main_c_8_apply, e]
  exact wrap_nonneg _ h

/-- The batch column at `(r, b)`, second copy. -/
theorem v52_at (r : Fin 4096) (b : Fin 4) :
    val_main_v52 (F := Ideal) (ix2 r b) = BitVec.ofNat 32 b.val := by
  rw [val_main_v52_apply, val_main_v51_apply, val_main_v48_apply, val_main_v50_apply, val_main_v2_apply,
    val_main_v47_apply, val_main_v49_apply, val_main_c_9_apply, val_main_c_10_apply, val_main_v1_apply]
  exact wrap_batch b

/-- Component 0 of the scatter's index vector at `(r, b)`. -/
theorem v55_at0 (r : Fin 4096) (b : Fin 4) (h : 0 ≤ (x1 (ix2 b r)).toInt) :
    val_main_v55 (F := Ideal) x1 (ix3 r b (0 : Fin 2)) = x1 (ix2 b r) := by
  unfold val_main_v55
  rw [concatenate_pair_apply_left (s₁ := S4096x4x1) (s₂ := S4096x4x1) (2 : Fin 3) (val_main_v53 (F := Ideal) x1)
    (val_main_v54 (F := Ideal)) concatenates_S4096x4x1_S4096x4x1_S4096x4x2_d2 (ix3 r b (0 : Fin 2)) rfl
    (ix3 r b (0 : Fin 1)) (fun c => by match c with | ⟨0, _⟩ => rfl | ⟨1, _⟩ => rfl | ⟨2, _⟩ => rfl)]
  have e : idx_main_v53 (ix3 r b (0 : Fin 1)) = ix2 r b := by
    funext a; match a with | ⟨0, _⟩ => rfl | ⟨1, _⟩ => rfl
  rw [val_main_v53_apply, e]
  exact v46_at x1 r b h

/-- Component 1 of the scatter's index vector at `(r, b)`. -/
theorem v55_at1 (r : Fin 4096) (b : Fin 4) :
    val_main_v55 (F := Ideal) x1 (ix3 r b (1 : Fin 2)) = BitVec.ofNat 32 b.val := by
  unfold val_main_v55
  rw [concatenate_pair_apply_right (s₁ := S4096x4x1) (s₂ := S4096x4x1) (2 : Fin 3) (val_main_v53 (F := Ideal) x1)
    (val_main_v54 (F := Ideal)) concatenates_S4096x4x1_S4096x4x1_S4096x4x2_d2 (ix3 r b (1 : Fin 2)) rfl rfl
    (ix3 r b (0 : Fin 1)) (fun c hc => by match c with | ⟨0, _⟩ => rfl | ⟨1, _⟩ => rfl | ⟨2, _⟩ => exact absurd rfl hc) rfl]
  have e : idx_main_v54 (ix3 r b (0 : Fin 1)) = ix2 r b := by
    funext a; match a with | ⟨0, _⟩ => rfl | ⟨1, _⟩ => rfl
  rw [val_main_v54_apply, e]
  exact v52_at r b

/-! ### The gather -/

/-- The gather's dimension record. -/
abbrev gd := gather_S8192x4x1024_S4096x4x2_S4096x4x1024_2_01_n_n_01_2_111024

/-- The gather at `(r, b, h)` for ANY index array: the operand at the clamped start `(idx[r, b, 0], idx[r, b, 1])`,
    offset `h` on the last axis. -/
theorem gather_apply {α : Type} (x : S8192x4x1024.Idx → α) (idx : IVec S4096x4x2 32) (r : Fin 4096) (b : Fin 4) (h : Fin 1024) :
    Host.gather gd x idx (ix3 r b h)
      = x (ix3 (⟨min (idx (ix3 r b (0 : Fin 2))).toInt.toNat 8191, by omega⟩ : Fin 8192)
            (⟨min (idx (ix3 r b (1 : Fin 2))).toInt.toNat 3, by omega⟩ : Fin 4) h) := by
  unfold Host.gather
  congr 1
  funext a
  refine Fin.ext ?_
  show gd.start (ix3 r b h) idx a + gd.batchCoord (ix3 r b h) a + gd.offCoord (ix3 r b h) a = _
  rw [GatherDims.batchCoord_eq_zero _ _ _ List.not_mem_nil, Nat.add_zero]
  match a with
  | ⟨0, _⟩ =>
    rw [GatherDims.offCoord_eq_zero _ _ _ (show (⟨0, by decide⟩ : Fin 3) ∉ gd.sKept from by decide), Nat.add_zero]
    unfold GatherDims.start
    rw [dif_pos (show (⟨0, by decide⟩ : Fin 3) ∈ gd.startIndexMap from by decide)]
    have hsi : gd.siIdx (ix3 r b h) ⟨List.idxOf (⟨0, by decide⟩ : Fin 3) gd.startIndexMap,
        List.idxOf_lt_length_iff.2 (by decide)⟩ = ix3 r b (0 : Fin 2) := by
      funext c; refine Fin.ext ?_
      match c with
      | ⟨0, _⟩ => rfl
      | ⟨1, _⟩ => rfl
      | ⟨2, _⟩ => rfl
    rw [hsi]
    rfl
  | ⟨1, _⟩ =>
    rw [GatherDims.offCoord_eq_zero _ _ _ (show (⟨1, by decide⟩ : Fin 3) ∉ gd.sKept from by decide), Nat.add_zero]
    unfold GatherDims.start
    rw [dif_pos (show (⟨1, by decide⟩ : Fin 3) ∈ gd.startIndexMap from by decide)]
    have hsi : gd.siIdx (ix3 r b h) ⟨List.idxOf (⟨1, by decide⟩ : Fin 3) gd.startIndexMap,
        List.idxOf_lt_length_iff.2 (by decide)⟩ = ix3 r b (1 : Fin 2) := by
      funext c; refine Fin.ext ?_
      match c with
      | ⟨0, _⟩ => rfl
      | ⟨1, _⟩ => rfl
      | ⟨2, _⟩ => rfl
    rw [hsi]
    rfl
  | ⟨2, _⟩ =>
    unfold GatherDims.start
    rw [dif_neg (show (⟨2, by decide⟩ : Fin 3) ∉ gd.startIndexMap from by decide), Nat.zero_add]
    rfl

/-- THE GATHERED ROWS: with `idx[b, r]` in range and naming position `s`, entry `(r, b, h)` of the gather is
    `x[s, b, h]`. -/
theorem v17_at (x0 : (⟨S8192x4x1024, .f32⟩ : BufTy).Contents (Elt Ideal)) (r : Fin 4096) (b : Fin 4) (h : Fin 1024)
    (s : Fin 8192) (h0 : 0 ≤ (x1 (ix2 b r)).toInt) (hs : (x1 (ix2 b r)).toNat = s.val) :
    val_main_v17 (F := Ideal) x0 x1 (ix3 r b h) = x0 (ix3 s b h) := by
  unfold val_main_v17
  rw [gather_apply]
  refine congrArg x0 (funext fun a => Fin.ext ?_)
  match a with
  | ⟨0, _⟩ =>
    show min (val_main_v16 (F := Ideal) x1 (ix3 r b (0 : Fin 2))).toInt.toNat 8191 = s.val
    rw [v16_at0 x1 r b h0, toInt_eq_toNat_of_nonneg _ h0, Int.toNat_natCast, hs]
    have := s.isLt; omega
  | ⟨1, _⟩ =>
    show min (val_main_v16 (F := Ideal) x1 (ix3 r b (1 : Fin 2))).toInt.toNat 3 = b.val
    rw [v16_at1 x1 r b, batch_toInt, Int.toNat_natCast]
    have := b.isLt; omega
  | ⟨2, _⟩ => rfl

/-! ### The scatter's targets -/

/-- The scatter's dimension record. -/
abbrev sd := scatter_S8192x4x1024_S4096x4x2_S4096x4x1024_2_01_01_2

/-- The scatter window's start on the position axis: component 0 of the index vector, read signed. -/
theorem scatter_start0 (idx : IVec S4096x4x2 32) (r : Fin 4096) (b : Fin 4) (h : Fin 1024) :
    sd.start (ix3 r b h) idx ⟨0, by decide⟩ = (idx (ix3 r b (0 : Fin 2))).toInt := by
  unfold ScatterDims.start
  rw [dif_pos (show (⟨0, by decide⟩ : Fin 3) ∈ sd.scatterDimsToOperandDims from by decide)]
  have hsi : sd.siIdx (ix3 r b h) ⟨List.idxOf (⟨0, by decide⟩ : Fin 3) sd.scatterDimsToOperandDims,
      List.idxOf_lt_length_iff.2 (by decide)⟩ = ix3 r b (0 : Fin 2) := by
    funext c; refine Fin.ext ?_
    match c with
    | ⟨0, _⟩ => rfl
    | ⟨1, _⟩ => rfl
    | ⟨2, _⟩ => rfl
  rw [hsi]

/-- The scatter window's start on the batch axis: component 1 of the index vector, read signed. -/
theorem scatter_start1 (idx : IVec S4096x4x2 32) (r : Fin 4096) (b : Fin 4) (h : Fin 1024) :
    sd.start (ix3 r b h) idx ⟨1, by decide⟩ = (idx (ix3 r b (1 : Fin 2))).toInt := by
  unfold ScatterDims.start
  rw [dif_pos (show (⟨1, by decide⟩ : Fin 3) ∈ sd.scatterDimsToOperandDims from by decide)]
  have hsi : sd.siIdx (ix3 r b h) ⟨List.idxOf (⟨1, by decide⟩ : Fin 3) sd.scatterDimsToOperandDims,
      List.idxOf_lt_length_iff.2 (by decide)⟩ = ix3 r b (1 : Fin 2) := by
    funext c; refine Fin.ext ?_
    match c with
    | ⟨0, _⟩ => rfl
    | ⟨1, _⟩ => rfl
    | ⟨2, _⟩ => rfl
  rw [hsi]

/-- The scatter window's start on the feature axis is 0: the index vector names no feature. -/
theorem scatter_start2 (idx : IVec S4096x4x2 32) (r : Fin 4096) (b : Fin 4) (h : Fin 1024) :
    sd.start (ix3 r b h) idx ⟨2, by decide⟩ = 0 := by
  unfold ScatterDims.start
  rw [dif_neg (show (⟨2, by decide⟩ : Fin 3) ∉ sd.scatterDimsToOperandDims from by decide)]

/-- The window coordinates of update `(r, b, h)`: `0` on the two inserted axes, `h` on the feature axis. -/
theorem scatter_window (r : Fin 4096) (b : Fin 4) (h : Fin 1024) :
    sd.window (ix3 r b h) ⟨0, by decide⟩ = 0 ∧ sd.window (ix3 r b h) ⟨1, by decide⟩ = 0
      ∧ sd.window (ix3 r b h) ⟨2, by decide⟩ = h.val := by
  refine ⟨?_, ?_, ?_⟩
  · unfold ScatterDims.window; rw [dif_neg (by decide)]
  · unfold ScatterDims.window; rw [dif_neg (by decide)]
  · unfold ScatterDims.window; rw [dif_pos (by decide)]; rfl

/-- THE SCATTER'S TARGETS: with `idx[b, r]` nonnegative and naming position `s`, update `(r, b, h)` lands on
    `(s, b, h)`. -/
theorem scatter_target (r : Fin 4096) (b : Fin 4) (h : Fin 1024) (s : Fin 8192)
    (h0 : 0 ≤ (x1 (ix2 b r)).toInt) (hs : (x1 (ix2 b r)).toNat = s.val) :
    sd.resultIdx? (ix3 r b h) (val_main_v55 (F := Ideal) x1) = some (ix3 s b h) := by
  have st0 : sd.start (ix3 r b h) (val_main_v55 (F := Ideal) x1) ⟨0, by decide⟩ = (s.val : Int) := by
    rw [scatter_start0, v55_at0 x1 r b h0, toInt_eq_toNat_of_nonneg _ h0, hs]
  have st1 : sd.start (ix3 r b h) (val_main_v55 (F := Ideal) x1) ⟨1, by decide⟩ = (b.val : Int) := by
    rw [scatter_start1, v55_at1 x1 r b, batch_toInt]
  have st2 := scatter_start2 (val_main_v55 (F := Ideal) x1) r b h
  obtain ⟨w0, w1, w2⟩ := scatter_window r b h
  have hall : ∀ a, 0 ≤ sd.start (ix3 r b h) (val_main_v55 (F := Ideal) x1) a + sd.window (ix3 r b h) a
      ∧ sd.start (ix3 r b h) (val_main_v55 (F := Ideal) x1) a + sd.window (ix3 r b h) a < S8192x4x1024.size a := by
    intro a
    match a with
    | ⟨0, _⟩ =>
      rw [st0, w0]
      show (0 : Int) ≤ (s.val : Int) + ((0 : Nat) : Int) ∧ (s.val : Int) + ((0 : Nat) : Int) < ((8192 : Nat) : Int)
      have := s.isLt; omega
    | ⟨1, _⟩ =>
      rw [st1, w1]
      show (0 : Int) ≤ (b.val : Int) + ((0 : Nat) : Int) ∧ (b.val : Int) + ((0 : Nat) : Int) < ((4 : Nat) : Int)
      have := b.isLt; omega
    | ⟨2, _⟩ =>
      rw [st2, w2]
      show (0 : Int) ≤ 0 + ((h.val : Nat) : Int) ∧ 0 + ((h.val : Nat) : Int) < ((1024 : Nat) : Int)
      have := h.isLt; omega
  unfold ScatterDims.resultIdx?
  rw [dif_pos hall]
  refine congrArg some (funext fun a => Fin.ext ?_)
  match a with
  | ⟨0, _⟩ =>
    show (sd.start (ix3 r b h) (val_main_v55 (F := Ideal) x1) ⟨0, by decide⟩ + sd.window (ix3 r b h) ⟨0, by decide⟩).toNat = s.val
    rw [st0, w0]; omega
  | ⟨1, _⟩ =>
    show (sd.start (ix3 r b h) (val_main_v55 (F := Ideal) x1) ⟨1, by decide⟩ + sd.window (ix3 r b h) ⟨1, by decide⟩).toNat = b.val
    rw [st1, w1]; omega
  | ⟨2, _⟩ =>
    show (sd.start (ix3 r b h) (val_main_v55 (F := Ideal) x1) ⟨2, by decide⟩ + sd.window (ix3 r b h) ⟨2, by decide⟩).toNat = h.val
    rw [st2, w2]; omega

end Cert.RefIndex

end
-- ==== Proof.RefNorm.lean ====
/-
  The reference's normalised rows, read at an index.

  Row `(r, b)` of the gathered array is a row of 1024 numbers. The reference's operations on it — sum, quotient by the
  row length, deviations, their squares' sum, quotient, plus `ε`, square root, quotient, scale, shift — are, entry by
  entry, the arrangement `refRow` of that row.
-/
import proofs.«214348_g62886911148048_cont_9to1c4b_763_21_alg».proof.Proof.Gen.ReferenceIdeal.Read
import proofs.«214348_g62886911148048_cont_9to1c4b_763_21_alg».proof.Proof.RefLayerNorm
import Idealize.ShloMosaic.Lib.ValueIdx

noncomputable section

namespace Cert.RefNorm

open Cert.ReferenceIdeal Cert.ReferenceIdeal.Gen Cert.ReferenceIdeal.Read Idealize.ShloMosaic Idealize.ShloMosaic.ValueIdx
open Cert.RefLayerNorm

variable (x0 : (⟨S8192x4x1024, .f32⟩ : BufTy).Contents (Elt Ideal)) (x1 : (⟨S4x4096, .i32⟩ : BufTy).Contents (Elt Ideal))
  (x2 x3 : (⟨S1024, .f32⟩ : BufTy).Contents (Elt Ideal))

/-- Row `(r, b)` of the gathered array. -/
def row (r : Fin 4096) (b : Fin 4) : Fin 1024 → EReal := fun k => val_main_v17 (F := Ideal) x0 x1 (ix3 r b k)

/-- The keep-dims mean at `(r, b, 0)` is the reference's mean of row `(r, b)`. -/
theorem v21_at (r : Fin 4096) (b : Fin 4) (j : Fin 1) :
    val_main_v21 (F := Ideal) x0 x1 (ix3 r b j) = refMean (row x0 x1 r b) := by
  rw [val_main_v21_apply, val_main_v19_apply, val_main_v18_apply, val_main_v20_apply, val_main_cst_3_apply,
    val_main_cst_apply]
  unfold refMean zeroW lenW row
  refine congrArg (fun t => Ideal.div (Ideal.ofBits .f32 0x00000000#32 + t) (Ideal.ofBits .f32 0x44800000#32)) ?_
  refine Finset.sum_congr rfl fun k _ => congrArg (val_main_v17 (F := Ideal) x0 x1) ?_
  funext a
  match a with
  | ⟨0, _⟩ => rfl
  | ⟨1, _⟩ => rfl
  | ⟨2, _⟩ => rfl

/-- The keep-dims variance at `(r, b, 0)` is the reference's variance of row `(r, b)`. -/
theorem v28_at (r : Fin 4096) (b : Fin 4) (j : Fin 1) :
    val_main_v28 (F := Ideal) x0 x1 (ix3 r b j) = refVar (row x0 x1 r b) := by
  rw [val_main_v28_apply, val_main_v26_apply, val_main_v25_apply, val_main_v27_apply, val_main_cst_5_apply,
    val_main_cst_4_apply]
  unfold refVar zeroW lenW
  refine congrArg (fun t => Ideal.div (Ideal.ofBits .f32 0x00000000#32 + t) (Ideal.ofBits .f32 0x44800000#32)) ?_
  refine Finset.sum_congr rfl fun k _ => ?_
  have e : idx_main_v25 (idx_main_v26 (ix3 r b j)) k = ix3 r b k := by
    funext a
    match a with
    | ⟨0, _⟩ => rfl
    | ⟨1, _⟩ => rfl
    | ⟨2, _⟩ => rfl
  have e2 : idx_main_v22 (ix3 r b k) = ix3 r b (0 : Fin 1) := by
    funext a
    match a with
    | ⟨0, _⟩ => rfl
    | ⟨1, _⟩ => rfl
    | ⟨2, _⟩ => rfl
  rw [e, val_main_v24_apply, val_main_v23_apply, val_main_v22_apply, e2, v21_at]
  rfl

/-- THE NORMALISED ROWS: entry `(r, b, h)` of the reference's scaled and shifted rows is the reference's arrangement
    of the layer norm of gathered row `(r, b)`. -/
theorem v41_at (r : Fin 4096) (b : Fin 4) (h : Fin 1024) :
    val_main_v41 (F := Ideal) x0 x1 x2 x3 (ix3 r b h)
      = refRow (row x0 x1 r b) (fun k => x2 (ix1 k)) (fun k => x3 (ix1 k)) h := by
  have e29 : idx_main_v29 (ix3 r b h) = ix3 r b (0 : Fin 1) := by
    funext a
    match a with
    | ⟨0, _⟩ => rfl
    | ⟨1, _⟩ => rfl
    | ⟨2, _⟩ => rfl
  have e34 : idx_main_v34 (ix3 r b h) = ix3 r b (0 : Fin 1) := by
    funext a
    match a with
    | ⟨0, _⟩ => rfl
    | ⟨1, _⟩ => rfl
    | ⟨2, _⟩ => rfl
  have e37 : idx_main_v36 (idx_main_v37 (ix3 r b h)) = ix1 h := by
    funext a
    match a with
    | ⟨0, _⟩ => rfl
  have e40 : idx_main_v39 (idx_main_v40 (ix3 r b h)) = ix1 h := by
    funext a
    match a with
    | ⟨0, _⟩ => rfl
  rw [val_main_v41_apply, val_main_v38_apply, val_main_v35_apply, val_main_v30_apply, val_main_v29_apply, e29, v21_at,
    val_main_v34_apply, e34, val_main_v33_apply, val_main_v32_apply, v28_at, val_main_v31_apply, val_main_cst_6_apply,
    val_main_v37_apply, val_main_v36_apply, e37, val_main_v40_apply, val_main_v39_apply, e40]
  rfl

end Cert.RefNorm

end
-- ==== Proof.RefValue.lean ====
/-
  The reference computes the specification.

  The reference's result is a set scatter of the normalised rows into the hidden states. Update `(r, b, h)` lands on
  `(idx[b, r], b, h)` and carries entry `h` of the layer norm of row `(idx[b, r], b)`. So at `(s, b, h)`: when batch `b`
  samples position `s`, some update lands there, and every update that does carries the layer norm of row `(s, b)` — the
  same value however often `s` is sampled; when it does not, no update lands there and the hidden state is kept. On rows of
  finite numbers the reference's arrangement of the layer norm equals the specification's.
-/
import proofs.«214348_g62886911148048_cont_9to1c4b_763_21_alg».proof.Proof.Gen.ReferenceIdeal.Read
import proofs.«214348_g62886911148048_cont_9to1c4b_763_21_alg».proof.Proof.Spec
import proofs.«214348_g62886911148048_cont_9to1c4b_763_21_alg».proof.Proof.LibScatterSet
import proofs.«214348_g62886911148048_cont_9to1c4b_763_21_alg».proof.Proof.RefLayerNorm
import proofs.«214348_g62886911148048_cont_9to1c4b_763_21_alg».proof.Proof.RefPre
import proofs.«214348_g62886911148048_cont_9to1c4b_763_21_alg».proof.Proof.RefIndex
import proofs.«214348_g62886911148048_cont_9to1c4b_763_21_alg».proof.Proof.RefNorm
import Idealize.ShloMosaic.Lib.ValueIdx

noncomputable section

namespace Cert.RefValue

open Cert.ReferenceIdeal Cert.ReferenceIdeal.Gen Cert.ReferenceIdeal.Read Idealize.ShloMosaic Idealize.ShloMosaic.ValueIdx
open Cert.RefIndex Cert.RefNorm Cert.RefLayerNorm

/-- A sampled index in range reads below 8192 unsigned. -/
theorem toNat_lt_of_range (w : BitVec 32) (h0 : 0 ≤ w.toInt) (h1 : w.toInt ≤ 8191) : w.toNat < 8192 := by
  have := toInt_eq_toNat_of_nonneg w h0
  omega

/-- Two rank-3 indices built from coordinates are equal only if their coordinates are. -/
theorem ix3_inj {n0 n1 n2 : Nat} {a a' : Fin n0} {b b' : Fin n1} {c c' : Fin n2} (h : ix3 a b c = ix3 a' b' c') :
    a = a' ∧ b = b' ∧ c = c' := by
  refine ⟨?_, ?_, ?_⟩
  · exact congrFun h (0 : Fin 3)
  · exact congrFun h (1 : Fin 3)
  · exact congrFun h (2 : Fin 3)

/-- THE REFERENCE IS THE SPECIFICATION: under finiteness of the float arguments and the range of the sampled indices,
    the reference's result is `G` of its arguments, index by index. -/
theorem ref_eq_G (x0 : (⟨S8192x4x1024, .f32⟩ : BufTy).Contents (Elt Ideal)) (x1 : (⟨S4x4096, .i32⟩ : BufTy).Contents (Elt Ideal))
    (x2 x3 : (⟨S1024, .f32⟩ : BufTy).Contents (Elt Ideal)) (h : Fin_in x0 x1 x2 x3) :
    val_main_v56 (F := Ideal) x0 x1 x2 x3
      = fun i => Cert.Spec.G (fun s b h => x0 (ix3 s b h)) (fun b r => x1 (ix2 b r)) (fun h => x2 (ix1 h))
          (fun h => x3 (ix1 h)) (i 0) (i 1) (i 2) := by
  funext i
  obtain ⟨s, b, f, rfl⟩ : ∃ (s : Fin 8192) (b : Fin 4) (f : Fin 1024), i = ix3 s b f := ⟨i 0, i 1, i 2, eq_ix3 i⟩
  show val_main_v56 (F := Ideal) x0 x1 x2 x3 (ix3 s b f)
    = Cert.Spec.G (fun s b h => x0 (ix3 s b h)) (fun b r => x1 (ix2 b r)) (fun h => x2 (ix1 h)) (fun h => x3 (ix1 h)) s b f
  unfold val_main_v56 Cert.Spec.G
  -- where update `(r, b', f')` lands
  have target : ∀ (r : Fin 4096) (b' : Fin 4) (f' : Fin 1024),
      sd.resultIdx? (ix3 r b' f') (val_main_v55 (F := Ideal) x1)
        = some (ix3 (⟨(x1 (ix2 b' r)).toNat, toNat_lt_of_range _ (h.hidx _).1 (h.hidx _).2⟩ : Fin 8192) b' f') :=
    fun r b' f' => scatter_target x1 r b' f' _ (h.hidx _).1 rfl
  by_cases hsamp : Cert.Spec.sampled (fun b r => x1 (ix2 b r)) b s
  · rw [if_pos hsamp]
    obtain ⟨r0, hr0⟩ := hsamp
    refine Cert.LibScatterSet.scatter_set_const sd x0 (val_main_v55 (F := Ideal) x1) (val_main_v41 (F := Ideal) x0 x1 x2 x3)
      (ix3 s b f) _ (ix3 r0 b f) (scatter_target x1 r0 b f s (h.hidx _).1 hr0) ?_
    intro j hj
    obtain ⟨r, b', f', rfl⟩ : ∃ (r : Fin 4096) (b' : Fin 4) (f' : Fin 1024), j = ix3 r b' f' := ⟨j 0, j 1, j 2, eq_ix3 j⟩
    rw [target r b' f'] at hj
    obtain ⟨es, eb, ef⟩ := ix3_inj (Option.some.inj hj)
    subst eb ef
    have hs : (x1 (ix2 b' r)).toNat = s.val := congrArg Fin.val es
    rw [v41_at]
    have hrow : row x0 x1 r b' = fun k => x0 (ix3 s b' k) :=
      funext fun k => v17_at x1 x0 r b' k s (h.hidx _).1 hs
    rw [hrow]
    exact refRow_eq_lnRow _ _ _ (fun k => h.hx _) (fun k => h.hg _) (fun k => h.hbt _) f'
  · rw [if_neg hsamp]
    refine Cert.LibScatterSet.scatter_set_untouched sd x0 (val_main_v55 (F := Ideal) x1) (val_main_v41 (F := Ideal) x0 x1 x2 x3)
      (ix3 s b f) ?_
    intro j hj
    obtain ⟨r, b', f', rfl⟩ : ∃ (r : Fin 4096) (b' : Fin 4) (f' : Fin 1024), j = ix3 r b' f' := ⟨j 0, j 1, j 2, eq_ix3 j⟩
    rw [target r b' f'] at hj
    obtain ⟨es, eb, _⟩ := ix3_inj (Option.some.inj hj)
    subst eb
    exact hsamp ⟨r, congrArg Fin.val es⟩

end Cert.RefValue

end
-- ==== Proof.Claims.lean ====
/-
  The five claims. Each kernel frame is the kernel program's run with the result forgotten; the reference's frame is its
  generated run; nothing was rewritten by the idealization, so there is nothing to preserve; and at the extended reals both
  programs end at ONE function of the arguments — a row normalised exactly when its batch's list of positions names it.
-/
import proofs.«214348_g62886911148048_cont_9to1c4b_763_21_alg».proof.Defs
import proofs.«214348_g62886911148048_cont_9to1c4b_763_21_alg».proof.Proof.RunKI
import proofs.«214348_g62886911148048_cont_9to1c4b_763_21_alg».proof.Proof.RunK
import proofs.«214348_g62886911148048_cont_9to1c4b_763_21_alg».proof.Proof.RefFrame
import proofs.«214348_g62886911148048_cont_9to1c4b_763_21_alg».proof.Proof.RefValue
import proofs.«214348_g62886911148048_cont_9to1c4b_763_21_alg».proof.Proof.Gen.Pre_input_domain

noncomputable section

namespace Cert.Proof.Claims

open Idealize.ShloMosaic Idealize.ShloMosaic.TcCoe Idealize.SL.Sem

theorem frame_k : Cert.frame_Kernel := fun m ρ _ =>
  (θ_run Cert.Kernel.defs _ _).mono (fun _ h c => ⟨(h c).2.1, (h c).2.2.1, (h c).2.2.2.1, (h c).2.2.2.2⟩)
    (Cert.Proof.KB.run_main (F := Bits) m ρ)

theorem frame_ki : Cert.frame_KernelIdeal := fun m ρ _ =>
  (θ_run Cert.KernelIdeal.defs _ _).mono (fun _ h c => ⟨(h c).2.1, (h c).2.2.1, (h c).2.2.2.1, (h c).2.2.2.2⟩)
    (Cert.Proof.KI.run_main (F := Ideal) m ρ)

theorem frame_ri : Cert.frame_ReferenceIdeal := Cert.RefValue.frame_ri

theorem preserves : Cert.preserves_Kernel_KernelIdeal := trivial

end Cert.Proof.Claims

end
-- ==== Proof.RowPay.lean ====
/-
  One row of the block's stores.

  The body stores the block row by row. For row `N` it tests the mask's column `N` against `1/2` and stores, for each batch
  `b` and feature `h`, the normalised entry where the test holds and the hidden state where it does not. `rowPay N` is that
  stored vector as ONE function of the row number; read at `(0, b, h)` it is the `if` on the mask's entry `(b, N)`.
-/
import proofs.«214348_g62886911148048_cont_9to1c4b_763_21_alg».proof.Proof.Gen.KernelIdeal.Skeleton
import Idealize.ShloMosaic.Lib.ValueIdx
import Idealize.ShloMosaic.Lib.ValueLayout
import Idealize.ShloMosaic.Lib.Pipeline.Value

noncomputable section

namespace Cert.RowPay

open Cert.KernelIdeal Cert.KernelIdeal.Gen Idealize.ShloMosaic Idealize.ShloMosaic.ValueIdx

/-- Column `N` of the `[4, 512]` mask is a `[4, 1]` block inside it. -/
theorem slices_mask (N : Fin 512) : S4x512.Slices ![0, N.val] S4x1 :=
  ⟨rfl, fun a => by
    match a with
    | ⟨0, _⟩ => show 0 + 4 ≤ 4; omega
    | ⟨1, _⟩ => show N.val + 1 ≤ 512; have := N.isLt; omega⟩

/-- Row `N` of the `[512, 4, 1024]` block is a `[1, 4, 1024]` block inside it. -/
theorem slices_row (N : Fin 512) : S512x4x1024.Slices ![N.val, 0, 0] S1x4x1024 :=
  ⟨rfl, fun a => by
    match a with
    | ⟨0, _⟩ => show N.val + 1 ≤ 512; have := N.isLt; omega
    | ⟨1, _⟩ => show 0 + 4 ≤ 4; omega
    | ⟨2, _⟩ => show 0 + 1024 ≤ 1024; omega⟩

variable {F : FTy → Type} [FloatOps F]

/-- The vector stored for row `N`: where the mask's column `N` exceeds `1/2` the normalised row, elsewhere the hidden states' row. -/
def rowPay (N : Fin 512) (v0 : Vec F S512x4x1024 .f32) (v2 : FVec F S4x512 .f32) (v33 : FVec F S512x4x1024 .f32) :
    FVec F S1x4x1024 .f32 :=
  shapeCast S1x4x1024
    (select
      (broadcastTo S4x1024
        (shapeCast S4x1
          (cmpf .ogt (extractStridedSlice S4x1 ![0, N.val] v2 (slices_mask N)) (broadcast S4x1 (Scalar.ofBits (F := F) .f32 0x3F000000#32)))
          shapeCasts_S4x1_S4x1)
        broadcasts_S4x1_S4x1024)
      (shapeCast S4x1024 (extractStridedSlice S1x4x1024 ![N.val, 0, 0] v33 (slices_row N)) shapeCasts_S1x4x1024_S4x1024)
      (shapeCast S4x1024 (extractStridedSlice S1x4x1024 ![N.val, 0, 0] v0 (slices_row N)) shapeCasts_S1x4x1024_S4x1024))
    shapeCasts_S4x1024_S1x4x1024

section Layout
variable {α : Type}

/-- A `[4, 1]` column broadcast along the lanes reads, at `(b, h)`, the column's entry `b`. -/
theorem bcast_4x1_apply (v : S4x1.Idx → α) (hb : S4x1.Broadcasts S4x1024) (b : Fin 4) (h : Fin 1024) :
    broadcastTo S4x1024 v hb (ix2 b h) = v (ix2 b (0 : Fin 1)) := by
  refine broadcastTo_apply v hb (ix2 b h) (ix2 b (0 : Fin 1)) fun ax => ?_
  match ax with
  | ⟨0, _⟩ => show b.val = if (4 : Nat) = 1 then 0 else b.val; rw [if_neg (by decide)]
  | ⟨1, _⟩ => show 0 = if (1 : Nat) = 1 then 0 else h.val; rw [if_pos rfl]

/-- Column `N` of a `[4, 512]` array reads, at `(b, 0)`, the array at `(b, N)`. -/
theorem mask_col_apply (N : Fin 512) (x : S4x512.Idx → α) (hs : S4x512.Slices ![0, N.val] S4x1) (b : Fin 4) (u : Fin 1) :
    extractStridedSlice S4x1 ![0, N.val] x hs (ix2 b u) = x (ix2 b N) :=
  slice2_axis1_apply N.val x hs b u N (by have := u.isLt; omega)

/-- Row `N` of a `[512, 4, 1024]` array reads, at `(0, b, h)`, the array at `(N, b, h)`. -/
theorem block_row_apply (N : Fin 512) (x : S512x4x1024.Idx → α) (hs : S512x4x1024.Slices ![N.val, 0, 0] S1x4x1024)
    (u : Fin 1) (b : Fin 4) (h : Fin 1024) :
    extractStridedSlice S1x4x1024 ![N.val, 0, 0] x hs (ix3 u b h) = x (ix3 N b h) :=
  extractStridedSlice_apply _ _ _ _ _ (fun ax => by
    match ax with
    | ⟨0, _⟩ => show N.val = N.val + u.val; have := u.isLt; omega
    | ⟨1, _⟩ => exact (Nat.zero_add _).symm
    | ⟨2, _⟩ => exact (Nat.zero_add _).symm)

end Layout

/-- THE STORED ROW AT AN INDEX: entry `(0, b, h)` of row `N`'s stored vector is the normalised entry `(N, b, h)` when the
    mask's entry `(b, N)` tests above `1/2`, and the hidden state `(N, b, h)` otherwise. -/
theorem rowPay_apply (N : Fin 512) (v0 : Vec F S512x4x1024 .f32) (v2 : FVec F S4x512 .f32) (v33 : FVec F S512x4x1024 .f32)
    (b : Fin 4) (h : Fin 1024) :
    rowPay N v0 v2 v33 (ix3 (0 : Fin 1) b h)
      = if FloatOps.cmpf .ogt (v2 (ix2 b N)) (Scalar.ofBits (F := F) .f32 0x3F000000#32) = 1#1 then v33 (ix3 N b h)
        else v0 (ix3 N b h) := by
  unfold rowPay
  rw [shapeCast_ab_1ab_apply, select_apply, bcast_4x1_apply, shapeCast_self, cmpf_apply, mask_col_apply, broadcast_apply,
    shapeCast_1ab_ab_apply, shapeCast_1ab_ab_apply, block_row_apply, block_row_apply]
  rfl

/-- The generated payload of the store of row 1 IS `rowPay 1`. -/
example (v0 : Vec F S512x4x1024 .f32) (v2 : FVec F S4x512 .f32) (v33 : FVec F S512x4x1024 .f32) :
    k1_pay7 v0 v2 v33 = rowPay ⟨1, by decide⟩ v0 v2 v33 := rfl

/-- The generated payload of the store of row 2 IS `rowPay 2`. -/
example (v0 : Vec F S512x4x1024 .f32) (v2 : FVec F S4x512 .f32) (v33 : FVec F S512x4x1024 .f32) :
    k1_pay8 v0 v2 v33 = rowPay ⟨2, by decide⟩ v0 v2 v33 := rfl

/-- The generated payload of the store of row 0 (cut over three definitions) IS `rowPay 0` of the re-laid mask and the body's arithmetic. -/
example (v0 : Vec F S512x4x1024 .f32) (v1 : Vec F S4x512 .f32) (v24 v29 : Vec F S1x1024 .f32) :
    k1_pay6 (k1_pay3 v0 v24 v29) (k1_pay4 v0) (k1_pay5 v1) = rowPay ⟨0, by decide⟩ v0 (k1_pay1 v1) (k1_pay2 v0 v24 v29) := rfl

/-- The generated payload of the store of row 3 (its select and its final cast in two definitions) IS `rowPay 3`. -/
example (v0 : Vec F S512x4x1024 .f32) (v2 : FVec F S4x512 .f32) (v33 : FVec F S512x4x1024 .f32) :
    k1_pay10 (k1_pay9 v0 v2 v33) = rowPay ⟨3, by decide⟩ v0 v2 v33 := rfl

end Cert.RowPay

end
-- ==== Proof.LnBlock.lean ====
/-
  The body's arithmetic on a block of 512 positions, read at an index.

  For each of the block's rows `(s, b)` the body forms the row's sum and sum of squares (lane sums that keep their axis),
  the mean `μ = Σ · 2⁻¹⁰`, the reciprocal standard deviation `ι = rsqrt(Σ² · 2⁻¹⁰ − μ² + ε)`, and entry `h` as
  `(x h · ι + (0 − μ) · ι) · g h + bt h`, the scale and shift rows re-laid from `[1, 1024]` and broadcast. Entry by entry that
  is the specification's `lnRow` of the row — the same arrangement, so no finiteness is needed.
-/
import proofs.«214348_g62886911148048_cont_9to1c4b_763_21_alg».proof.Proof.Gen.KernelIdeal.Skeleton
import proofs.«214348_g62886911148048_cont_9to1c4b_763_21_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.LnBlock

open Cert.KernelIdeal Cert.KernelIdeal.Gen Idealize.ShloMosaic Idealize.ShloMosaic.ValueIdx

/-! ### Layout operations read at an index -/

section Layout
variable {α : Type}

/-- An `[a, b]` array cast to `[a, b, 1]` (a sum that keeps its axis) reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, w, k)`, the operand at `k`. -/
theorem shapeCast_a_11a_apply {a : ℕ} (x : (⟨1, ![a]⟩ : Shape).Idx → α)
    (h : (⟨1, ![a]⟩ : Shape).ShapeCasts ⟨3, ![1, 1, a]⟩) (u w : Fin 1) (k : Fin a) :
    shapeCast ⟨3, ![1, 1, a]⟩ x h (ix3 u w k) = x (ix1 k) :=
  shapeCast_apply x h _ _ (by
    have hu : u.val = 0 := by omega
    have hw : w.val = 0 := by omega
    rw [Shape.rowMajor_val_three, Shape.rowMajor_val_one]
    show k.val = (u.val * 1 + w.val) * a + k.val
    rw [hu, hw]; simp)

/-- A column `[512, 4, 1]` broadcast along the lanes reads, at `(s, b, k)`, the column's entry `(s, b)`. -/
theorem bcast_col_apply (v : S512x4x1.Idx → α) (h : S512x4x1.Broadcasts S512x4x1024) (s : Fin 512) (b : Fin 4) (k : Fin 1024) :
    broadcastTo S512x4x1024 v h (ix3 s b k) = v (ix3 s b (0 : Fin 1)) := by
  refine broadcastTo_apply v h (ix3 s b k) (ix3 s b (0 : Fin 1)) fun ax => ?_
  match ax with
  | ⟨0, _⟩ => show s.val = if (512 : Nat) = 1 then 0 else s.val; rw [if_neg (by decide)]
  | ⟨1, _⟩ => show b.val = if (4 : Nat) = 1 then 0 else b.val; rw [if_neg (by decide)]
  | ⟨2, _⟩ => show 0 = if (1 : Nat) = 1 then 0 else k.val; rw [if_pos rfl]

/-- A row `[1, 1, 1024]` broadcast over positions and batches reads, at `(s, b, k)`, the row's entry `k`. -/
theorem bcast_row_apply (v : S1x1x1024.Idx → α) (h : S1x1x1024.Broadcasts S512x4x1024) (s : Fin 512) (b : Fin 4) (k : Fin 1024) :
    broadcastTo S512x4x1024 v h (ix3 s b k) = v (ix3 (0 : Fin 1) (0 : Fin 1) k) := by
  refine broadcastTo_apply v h (ix3 s b k) (ix3 (0 : Fin 1) (0 : Fin 1) k) fun ax => ?_
  match ax with
  | ⟨0, _⟩ => show 0 = if (1 : Nat) = 1 then 0 else s.val; rw [if_pos rfl]
  | ⟨1, _⟩ => show 0 = if (1 : Nat) = 1 then 0 else b.val; rw [if_pos rfl]
  | ⟨2, _⟩ => show k.val = if (1024 : Nat) = 1 then 0 else k.val; rw [if_neg (by decide)]

end Layout

/-- A lane sum read at `(s, b)`: the sum of the row's 1024 entries. -/
theorem lane_sum (v : FVec Ideal S512x4x1024 .f32) (hφ : FKind.Formats .f32)
    (hacc : (0x00000000#32 : BitVec 32) = FKind.add.neutral .f32 hφ) (s : Fin 512) (b : Fin 4) :
    multiReduction (F := Ideal) .add [2] S512x4 v 0x00000000#32 reduces_S512x4x1024_S512x4 hφ hacc (ix2 s b)
      = ∑ k : Fin 1024, v (ix3 s b k) :=
  (Ideal.multiReduction_add_single v 0x00000000#32 reduces_S512x4x1024_S512x4 hφ hacc (ix2 s b)).trans
    (Finset.sum_congr rfl fun k _ => congrArg v (funext fun a => Fin.ext (by
      match a with
      | ⟨0, _⟩ => rfl
      | ⟨1, _⟩ => rfl
      | ⟨2, _⟩ => rfl)))

/-! ### The body's columns -/

/-- A lane sum that keeps its axis: the column of row sums. -/
def sumCol (v : FVec Ideal S512x4x1024 .f32) : FVec Ideal S512x4x1 .f32 :=
  shapeCast S512x4x1 (multiReduction (F := Ideal) .add [2] S512x4 v 0x00000000#32 reduces_S512x4x1024_S512x4 (.inl rfl) rfl)
    shapeCasts_S512x4_S512x4x1

/-- The column of row sums at `(s, b, 0)`: the sum of row `(s, b)`. -/
theorem sumCol_at (v : FVec Ideal S512x4x1024 .f32) (s : Fin 512) (b : Fin 4) (u : Fin 1) :
    sumCol v (ix3 s b u) = ∑ k : Fin 1024, v (ix3 s b k) := by
  unfold sumCol
  rw [shapeCast_ab_ab1_apply]
  exact lane_sum v _ _ s b

/-- The column of row means: the row sums times `2⁻¹⁰`. -/
def meanCol (v0 : FVec Ideal S512x4x1024 .f32) : FVec Ideal S512x4x1 .f32 :=
  mulf (sumCol v0) (broadcast S512x4x1 (Scalar.ofBits (F := Ideal) .f32 0x3A800000#32))

/-- The column of means at `(s, b, 0)`: the specification's mean of row `(s, b)`. -/
theorem meanCol_at (v0 : FVec Ideal S512x4x1024 .f32) (s : Fin 512) (b : Fin 4) (u : Fin 1) :
    meanCol v0 (ix3 s b u) = Cert.Spec.mean (fun k => v0 (ix3 s b k)) := by
  show sumCol v0 (ix3 s b u) * Ideal.ofBits .f32 0x3A800000#32 = _
  rw [sumCol_at]
  rfl

/-- The column of reciprocal standard deviations. -/
def rstdCol (v0 : FVec Ideal S512x4x1024 .f32) : FVec Ideal S512x4x1 .f32 :=
  rsqrt (addf (subf (mulf (sumCol (mulf v0 v0)) (broadcast S512x4x1 (Scalar.ofBits (F := Ideal) .f32 0x3A800000#32)))
    (mulf (meanCol v0) (meanCol v0))) (broadcast S512x4x1 (Scalar.ofBits (F := Ideal) .f32 0x3727C5AC#32)))

/-- The column of reciprocal standard deviations at `(s, b, 0)`: the specification's of row `(s, b)`. -/
theorem rstdCol_at (v0 : FVec Ideal S512x4x1024 .f32) (s : Fin 512) (b : Fin 4) (u : Fin 1) :
    rstdCol v0 (ix3 s b u) = Cert.Spec.invStd (fun k => v0 (ix3 s b k)) := by
  show Ideal.rsqrt (sumCol (mulf v0 v0) (ix3 s b u) * Ideal.ofBits .f32 0x3A800000#32
    - meanCol v0 (ix3 s b u) * meanCol v0 (ix3 s b u) + Ideal.ofBits .f32 0x3727C5AC#32) = _
  rw [sumCol_at, meanCol_at]
  rfl

/-- The body's arithmetic, with its three columns named. -/
theorem pay2_eq (v0 : Vec Ideal S512x4x1024 .f32) (v24 v29 : Vec Ideal S1x1024 .f32) :
    k1_pay2 (F := Ideal) v0 v24 v29
      = addf (mulf (addf (mulf v0 (broadcastTo S512x4x1024 (rstdCol v0) broadcasts_S512x4x1_S512x4x1024))
            (broadcastTo S512x4x1024 (mulf (subf (broadcast S512x4x1 (Scalar.ofBits (F := Ideal) .f32 0x00000000#32)) (meanCol v0))
              (rstdCol v0)) broadcasts_S512x4x1_S512x4x1024))
          (broadcastTo S512x4x1024 (shapeCast S1x1x1024 (shapeCast S1024 v24 shapeCasts_S1x1024_S1024) shapeCasts_S1024_S1x1x1024)
            broadcasts_S1x1x1024_S512x4x1024))
        (broadcastTo S512x4x1024 (shapeCast S1x1x1024 (shapeCast S1024 v29 shapeCasts_S1x1024_S1024) shapeCasts_S1024_S1x1x1024)
          broadcasts_S1x1x1024_S512x4x1024) := rfl

/-- THE BODY'S ARITHMETIC AT AN INDEX: entry `(s, b, h)` is the specification's normalised entry `h` of row `(s, b)`. -/
theorem pay2_apply (v0 : Vec Ideal S512x4x1024 .f32) (v24 v29 : Vec Ideal S1x1024 .f32) (s : Fin 512) (b : Fin 4) (h : Fin 1024) :
    k1_pay2 (F := Ideal) v0 v24 v29 (ix3 s b h)
      = Cert.Spec.lnRow (fun k => v0 (ix3 s b k)) (fun k => v24 (ix2 (0 : Fin 1) k)) (fun k => v29 (ix2 (0 : Fin 1) k)) h := by
  rw [pay2_eq, addf_apply, mulf_apply, addf_apply, mulf_apply, bcast_col_apply, bcast_col_apply, bcast_row_apply,
    bcast_row_apply, shapeCast_a_11a_apply, shapeCast_a_11a_apply, shapeCast_1a_a_apply, shapeCast_1a_a_apply]
  show (v0 (ix3 s b h) * rstdCol v0 (ix3 s b (0 : Fin 1))
      + (Ideal.ofBits .f32 0x00000000#32 - meanCol v0 (ix3 s b (0 : Fin 1))) * rstdCol v0 (ix3 s b (0 : Fin 1)))
      * v24 (ix2 (0 : Fin 1) h) + v29 (ix2 (0 : Fin 1) h) = _
  rw [rstdCol_at, meanCol_at, Ideal.ofBits_zero_f32]
  rfl

end Cert.LnBlock

end
-- ==== Proof.LnValue.lean ====
/-
  The result block at an index: entry `(s, b, h)` is the normalised entry where the mask's entry `(b, s)` tests above one
  half, the input entry elsewhere; over the extended reals the normalised entry is the specification's `lnRow`.
-/
import proofs.«214348_g62886911148048_cont_9to1c4b_763_21_alg».proof.Proof.LnDefs
import proofs.«214348_g62886911148048_cont_9to1c4b_763_21_alg».proof.Proof.RowPay
import proofs.«214348_g62886911148048_cont_9to1c4b_763_21_alg».proof.Proof.LnBlock
import Idealize.ShloMosaic.Lib.ValueIdx
import Idealize.ShloMosaic.Lib.ValueLayout
import Idealize.ShloMosaic.Lib.Pipeline.Value

set_option maxRecDepth 16384

noncomputable section

namespace Cert.KernelIdeal.Ln

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
variable {F : FTy → Type} [FloatOps F]

/-- The row stored at position `k`, in the spelling indexed by `Fin 512`. -/
theorem rowPay_eq (v0 : Vec F S512x4x1024 .f32) (v2 : FVec F S4x512 .f32) (v33 : FVec F S512x4x1024 .f32) (k : ℕ) (hk : k < 512) :
    rowPay v0 v2 v33 k hk = Cert.RowPay.rowPay ⟨k, hk⟩ v0 v2 v33 := rfl

/-- An index by its coordinates, read in its position's slice. -/
theorem rowIdx_ix3 (s : Fin 512) (b : Fin 4) (h : Fin 1024) :
    rowIdx (ix3 (n0 := 512) (n1 := 4) (n2 := 1024) s b h) = ix3 (n0 := 1) (n1 := 4) (n2 := 1024) (0 : Fin 1) b h := by
  funext a; match a with | ⟨0, _⟩ => rfl | ⟨1, _⟩ => rfl | ⟨2, _⟩ => rfl

/-- The mask block's reshape to its own shape reads the block. -/
theorem pay1_apply (mb : Vec F S4x512 .f32) (j : S4x512.Idx) : k1_pay1 mb j = mb j := by
  unfold k1_pay1; rw [shapeCast_self]

/-- THE RESULT BLOCK AT AN INDEX, at every float instance. -/
theorem lnBlk_apply (mb : Vec F S4x512 .f32) (xb : Vec F S512x4x1024 .f32) (gb bb : Vec F S1x1024 .f32) (s : Fin 512) (b : Fin 4) (h : Fin 1024) :
    lnBlk mb xb gb bb (ix3 (n0 := 512) (n1 := 4) (n2 := 1024) s b h)
      = if FloatOps.cmpf .ogt (mb (ix2 (n0 := 4) (n1 := 512) b s)) (Scalar.ofBits (F := F) .f32 0x3F000000#32) = 1#1
        then k1_pay2 xb gb bb (ix3 (n0 := 512) (n1 := 4) (n2 := 1024) s b h) else xb (ix3 (n0 := 512) (n1 := 4) (n2 := 1024) s b h) := by
  show rowPay xb (k1_pay1 mb) (k1_pay2 xb gb bb) s.val s.isLt (rowIdx (ix3 (n0 := 512) (n1 := 4) (n2 := 1024) s b h)) = _
  rw [rowIdx_ix3, rowPay_eq, Cert.RowPay.rowPay_apply, pay1_apply]

/-- THE RESULT BLOCK AT AN INDEX over the extended reals: the specification's normalised row where the mask tests above
    one half, the input row elsewhere. -/
theorem lnBlk_apply_ideal (mb : Vec Ideal S4x512 .f32) (xb : Vec Ideal S512x4x1024 .f32) (gb bb : Vec Ideal S1x1024 .f32)
    (s : Fin 512) (b : Fin 4) (h : Fin 1024) :
    lnBlk (F := Ideal) mb xb gb bb (ix3 (n0 := 512) (n1 := 4) (n2 := 1024) s b h)
      = if FloatOps.cmpf .ogt (mb (ix2 (n0 := 4) (n1 := 512) b s)) (Scalar.ofBits (F := Ideal) .f32 0x3F000000#32) = 1#1
        then Cert.Spec.lnRow (fun k => xb (ix3 (n0 := 512) (n1 := 4) (n2 := 1024) s b k)) (fun k => gb (ix2 (n0 := 1) (n1 := 1024) (0 : Fin 1) k))
          (fun k => bb (ix2 (n0 := 1) (n1 := 1024) (0 : Fin 1) k)) h
        else xb (ix3 (n0 := 512) (n1 := 4) (n2 := 1024) s b h) := by
  rw [lnBlk_apply, Cert.LnBlock.pay2_apply]

end Cert.KernelIdeal.Ln

end
-- ==== Proof.MaskValue.lean ====
/-
  The mask, entry by entry: batch `b`'s mask at position `s` is set exactly when `b`'s list of sampled positions names `s`.

  Position `s` lies in the segment that starts at `s0 = 1024 ⌊s / 1024⌋`, at offset `s mod 1024`. For a fetched position
  `v` in `[0, 8191]` the 32-bit difference `v − s0` does not wrap, so "`0 ≤ v − s0 < 1024` and `v − s0` clipped to
  `[0, 1023]` is `s mod 1024`" says `v = s0 + s mod 1024 = s`.
-/
import proofs.«214348_g62886911148048_cont_9to1c4b_763_21_alg».proof.Proof.MaskSpec
import proofs.«214348_g62886911148048_cont_9to1c4b_763_21_alg».proof.Proof.Spec
import Idealize.ShloMosaic.Lib.Affine
import Idealize.ShloMosaic.PureOps.Ideal

noncomputable section

namespace Cert.MaskValue

open Idealize.ShloMosaic Cert.MaskSpec

/-- A 32-bit word that reads nonnegative signed reads the same unsigned. -/
theorem toInt_eq_toNat_of_nonneg (w : BitVec 32) (h0 : 0 ≤ w.toInt) : w.toInt = (w.toNat : Int) := by
  have hc := BitVec.toInt_eq_toNat_cond w
  have hlt := w.isLt
  split at hc <;> omega

/-- The 32-bit difference of a position in `[0, 8191]` and a segment start below `8192`, read signed, is the integer
    difference: nothing wraps. -/
theorem sub_toInt (v : BitVec 32) (S0 : Nat) (hv : v.toNat ≤ 8191) (hS : S0 < 8192) :
    (IntOp.subi v (BitVec.ofNat 32 S0)).toInt = (v.toNat : Int) - (S0 : Int) := by
  have hl : (IntOp.subi v (BitVec.ofNat 32 S0)).toNat = (4294967296 - S0 + v.toNat) % 4294967296 := by
    unfold IntOp.subi
    rw [BitVec.toNat_sub, BitVec.toNat_ofNat]
    norm_num
    congr 2
    omega
  rw [BitVec.toInt_eq_toNat_cond, hl]
  norm_num
  split_ifs <;> omega

/-- A word whose signed reading is in `[0, 1024)` is returned by the clip to `[0, 1023]`. -/
theorem clip_of_range (l : BitVec 32) (h0 : 0 ≤ l.toInt) (h1 : l.toInt < 1024) :
    IntOp.minsi 1023#32 (IntOp.maxsi 0#32 l) = l := by
  have e0 : (0#32 : BitVec 32).toInt = 0 := by decide
  have e1 : (1023#32 : BitVec 32).toInt = 1023 := by decide
  have hm : IntOp.maxsi 0#32 l = l := by
    unfold IntOp.maxsi
    rw [if_neg]
    rw [BitVec.slt_iff_toInt_lt, e0]; omega
  rw [hm]
  unfold IntOp.minsi
  rw [if_neg]
  rw [BitVec.slt_iff_toInt_lt, e1]; omega

/-- THE TEST ON ONE FETCHED POSITION: `v` in `[0, 8191]` marks offset `s mod 1024` of `s`'s segment exactly when `v` is `s`. -/
theorem hit_iff (s : Fin 8192) (v : BitVec 32) (h0 : 0 ≤ v.toInt) (h1 : v.toInt ≤ 8191) :
    hit (BitVec.ofNat 32 (s.val / 1024 * 1024)) v (s.val % 1024) ↔ v.toNat = s.val := by
  have hV := toInt_eq_toNat_of_nonneg v h0
  have hVle : v.toNat ≤ 8191 := by omega
  have hs := s.isLt
  have hS : s.val / 1024 * 1024 < 8192 := by omega
  have hd := sub_toInt v (s.val / 1024 * 1024) hVle hS
  have e0 : (0#32 : BitVec 32).toInt = 0 := by decide
  have e1 : (1024#32 : BitVec 32).toInt = 1024 := by decide
  unfold hit inr pos
  constructor
  · rintro ⟨hin, hp⟩
    obtain ⟨hge, hlt⟩ := IntOp.andi_eq_one.1 hin
    have hge' := IntOp.cmpi_sge.1 hge
    have hlt' := IntOp.cmpi_slt.1 hlt
    rw [e0] at hge'
    rw [e1] at hlt'
    rw [clip_of_range _ hge' hlt'] at hp
    have hln := toInt_eq_toNat_of_nonneg _ hge'
    omega
  · intro hvs
    have hge' : 0 ≤ (IntOp.subi v (BitVec.ofNat 32 (s.val / 1024 * 1024))).toInt := by omega
    have hlt' : (IntOp.subi v (BitVec.ofNat 32 (s.val / 1024 * 1024))).toInt < 1024 := by omega
    refine ⟨IntOp.andi_eq_one.2 ⟨IntOp.cmpi_sge.2 (by rw [e0]; exact hge'), IntOp.cmpi_slt.2 (by rw [e1]; exact hlt')⟩, ?_⟩
    rw [clip_of_range _ hge' hlt']
    have hln := toInt_eq_toNat_of_nonneg _ hge'
    omega

/-- THE MASK IS THE SAMPLED SET: with every fetched position in `[0, 8191]`, entry `(b, s)` of the mask is `one` exactly
    when list `b` names `s`. -/
theorem maskArr_eq {α : Type} (one zero : α) (I : Fin 4 → Fin 4096 → BitVec 32)
    (hI : ∀ b r, 0 ≤ (I b r).toInt ∧ (I b r).toInt ≤ 8191) (b : Fin 4) (s : Fin 8192) :
    Cert.MaskSpec.maskArr one zero I b s = (open Classical in if Cert.Spec.sampled I b s then one else zero) := by
  unfold Cert.MaskSpec.maskArr Cert.MaskSpec.bufAfter
  refine ite_iff_congr ?_ one zero
  unfold Cert.Spec.sampled
  constructor
  · rintro ⟨r, _, hr⟩
    exact ⟨r, (hit_iff s (I b r) (hI b r).1 (hI b r).2).1 hr⟩
  · rintro ⟨r, hr⟩
    exact ⟨r, r.isLt, (hit_iff s (I b r) (hI b r).1 (hI b r).2).2 hr⟩

/-! ### The comparison made on the mask -/

/-- The word `0x3F800000` denotes `1`. -/
theorem ofBits_one : Ideal.ofBits .f32 0x3F800000#32 = 1 := by
  simp [Ideal.ofBits, Ideal.ieee, -EReal.coe_mul]; norm_num

/-- The word `0x3F000000` denotes `1/2`. -/
theorem ofBits_half : Ideal.ofBits .f32 0x3F000000#32 = ((1 / 2 : ℝ) : EReal) := by
  simp [Ideal.ofBits, Ideal.ieee, -EReal.coe_mul]; norm_num

/-- The word of `+0.0` denotes `0`. -/
theorem ofBits_zero : Ideal.ofBits .f32 0x00000000#32 = 0 := by
  simp [Ideal.ofBits, Ideal.ieee]

/-- `1 > 1/2` as the ideal instance compares. -/
theorem one_gt_half : FloatOps.cmpf (F := Ideal) (φ := .f32) .ogt (Scalar.ofBits (F := Ideal) .f32 0x3F800000#32)
    (Scalar.ofBits (F := Ideal) .f32 0x3F000000#32) = 1#1 := by
  show Ideal.cmp .ogt (Ideal.ofBits .f32 0x3F800000#32) (Ideal.ofBits .f32 0x3F000000#32) = 1#1
  rw [ofBits_one, ofBits_half]
  unfold Ideal.cmp
  have h : (((1 / 2 : ℝ) : EReal)) < 1 := by
    rw [← EReal.coe_one, EReal.coe_lt_coe_iff]; norm_num
  simp only [decide_eq_true h]
  decide

/-- `0 > 1/2` fails as the ideal instance compares. -/
theorem zero_not_gt_half : ¬ FloatOps.cmpf (F := Ideal) (φ := .f32) .ogt (Scalar.ofBits (F := Ideal) .f32 0x00000000#32)
    (Scalar.ofBits (F := Ideal) .f32 0x3F000000#32) = 1#1 := by
  show ¬ Ideal.cmp .ogt (Ideal.ofBits .f32 0x00000000#32) (Ideal.ofBits .f32 0x3F000000#32) = 1#1
  rw [ofBits_zero, ofBits_half]
  unfold Ideal.cmp
  have h : ¬ (((1 / 2 : ℝ) : EReal)) < 0 := by
    rw [← EReal.coe_zero, EReal.coe_lt_coe_iff]; norm_num
  simp only [decide_eq_false h]
  decide

/-- THE TEST `mask > 1/2` on the mask of ones and zeros holds exactly on the sampled positions. -/
theorem mask_gt_half (I : Fin 4 → Fin 4096 → BitVec 32) (hI : ∀ b r, 0 ≤ (I b r).toInt ∧ (I b r).toInt ≤ 8191)
    (b : Fin 4) (s : Fin 8192) :
    (FloatOps.cmpf (F := Ideal) (φ := .f32) .ogt
        (Cert.MaskSpec.maskArr (Scalar.ofBits (F := Ideal) .f32 0x3F800000#32) (Scalar.ofBits (F := Ideal) .f32 0x00000000#32) I b s)
        (Scalar.ofBits (F := Ideal) .f32 0x3F000000#32) = 1#1) ↔ Cert.Spec.sampled I b s := by
  rw [maskArr_eq _ _ I hI b s]
  by_cases hs : Cert.Spec.sampled I b s
  · rw [if_pos hs]; exact ⟨fun _ => hs, fun _ => one_gt_half⟩
  · rw [if_neg hs]; exact ⟨fun h => absurd h zero_not_gt_half, fun h => absurd h hs⟩

end Cert.MaskValue

end
-- ==== Proof.LnArrValue.lean ====
/-
  The result array of the layer-normalisation region is the specification.

  Row `s` of the result lies in block `s / 512` at local row `s mod 512`; there the block's entry is the normalised entry
  where the mask's entry `(b, s)` tests above one half and the hidden state elsewhere. When the mask is "one where batch
  `b`'s list names `s`, zero elsewhere", the test holds exactly on the sampled positions, and the array is `G`.
-/
import proofs.«214348_g62886911148048_cont_9to1c4b_763_21_alg».proof.Proof.LnArr
import proofs.«214348_g62886911148048_cont_9to1c4b_763_21_alg».proof.Proof.LnValue
import proofs.«214348_g62886911148048_cont_9to1c4b_763_21_alg».proof.Proof.MaskValue
import proofs.«214348_g62886911148048_cont_9to1c4b_763_21_alg».proof.Proof.Spec
import Idealize.ShloMosaic.Lib.ValueIdx

noncomputable section

namespace Cert.LnArrValue

open Cert.KernelIdeal Cert.KernelIdeal.Gen Cert.KernelIdeal.Ln
open Idealize.ShloMosaic Idealize.ShloMosaic.ValueIdx

/-- THE RESULT ARRAY IS `G`: for a mask array that is the mask of ones and zeros of the positions `I` (every position in
    `[0, 8191]`), hidden states `X` and scale and shift rows reading `g` and `bt`. -/
theorem lnArr_eq_G (M : Vec Ideal S4x8192 .f32) (X : Vec Ideal S8192x4x1024 .f32) (G B : Vec Ideal S1x1024 .f32)
    (I : Fin 4 → Fin 4096 → BitVec 32) (hI : ∀ b r, 0 ≤ (I b r).toInt ∧ (I b r).toInt ≤ 8191) (g bt : Fin 1024 → EReal)
    (hM : ∀ (b : Fin 4) (s : Fin 8192), M (ix2 b s)
      = Cert.MaskSpec.maskArr (Scalar.ofBits (F := Ideal) .f32 0x3F800000#32) (Scalar.ofBits (F := Ideal) .f32 0x00000000#32) I b s)
    (hG : ∀ k : Fin 1024, G (ix2 (0 : Fin 1) k) = g k) (hB : ∀ k : Fin 1024, B (ix2 (0 : Fin 1) k) = bt k) :
    lnArr (F := Ideal) M X G B
      = fun i => Cert.Spec.G (fun s b h => X (ix3 s b h)) I g bt (i 0) (i 1) (i 2) := by
  funext i
  obtain ⟨s, b, f, rfl⟩ : ∃ (s : Fin 8192) (b : Fin 4) (f : Fin 1024), i = ix3 s b f := ⟨i 0, i 1, i 2, eq_ix3 i⟩
  show lnArr (F := Ideal) M X G B (ix3 s b f) = Cert.Spec.G (fun s b h => X (ix3 s b h)) I g bt s b f
  have hs := s.isLt
  have hq : s.val / 512 < 16 := by omega
  have hr : s.val % 512 < 512 := Nat.mod_lt _ (by omega)
  -- the block equation, at local row `s mod 512`
  have hblk : lnArr (F := Ideal) M X G B (ix3 s b f)
      = lnBlk (F := Ideal) (maskBlk M (s.val / 512) hq) (xBlk X (s.val / 512) hq) G B (ix3 (⟨s.val % 512, hr⟩ : Fin 512) b f) := rfl
  -- the mask block's entry and the hidden states' block's row, in the array's coordinates
  have hMb : maskBlk M (s.val / 512) hq (ix2 b (⟨s.val % 512, hr⟩ : Fin 512)) = M (ix2 b s) :=
    congrArg M (funext fun a => Fin.ext (by
      match a with
      | ⟨0, _⟩ => rfl
      | ⟨1, _⟩ => show 512 * (s.val / 512) + s.val % 512 = s.val; omega))
  have hXb : ∀ k : Fin 1024, xBlk X (s.val / 512) hq (ix3 (⟨s.val % 512, hr⟩ : Fin 512) b k) = X (ix3 s b k) := fun k =>
    congrArg X (funext fun a => Fin.ext (by
      match a with
      | ⟨0, _⟩ => show 512 * (s.val / 512) + s.val % 512 = s.val; omega
      | ⟨1, _⟩ => rfl
      | ⟨2, _⟩ => rfl))
  have hiff := Cert.MaskValue.mask_gt_half I hI b s
  rw [hblk, lnBlk_apply_ideal, hMb, hM b s]
  unfold Cert.Spec.G
  by_cases hsamp : Cert.Spec.sampled I b s
  · rw [if_pos (hiff.2 hsamp), if_pos hsamp]
    have e1 : (fun k => xBlk X (s.val / 512) hq (ix3 (⟨s.val % 512, hr⟩ : Fin 512) b k)) = fun k => X (ix3 s b k) := funext hXb
    have e2 : (fun k => G (ix2 (0 : Fin 1) k)) = g := funext hG
    have e3 : (fun k => B (ix2 (0 : Fin 1) k)) = bt := funext hB
    rw [e1, e2, e3]
  · rw [if_neg (fun hc => hsamp (hiff.1 hc)), if_neg hsamp]
    exact hXb f

end Cert.LnArrValue

end
-- ==== Proof.KernelValueKI.lean ====
/-
  The kernel's result is the specification.

  The scale and shift rows the region reads are the arguments re-laid from `[1024]` to `[1, 1024]`: entry `(0, k)` is
  entry `k`. The mask the region reads is the mask of ones and zeros of the positions' array. With the sampled positions
  in `[0, 8191]`, the region's result array is `G` of the four arguments.
-/
import proofs.«214348_g62886911148048_cont_9to1c4b_763_21_alg».proof.Proof.MainKI
import proofs.«214348_g62886911148048_cont_9to1c4b_763_21_alg».proof.Proof.LnArrValue
import proofs.«214348_g62886911148048_cont_9to1c4b_763_21_alg».proof.Proof.RefPre
import Idealize.ShloMosaic.Lib.ValueLayout

noncomputable section

namespace Cert.Proof.KI

open Cert.KernelIdeal Cert.KernelIdeal.Gen
open Cert.KernelIdeal.Ln (lnArr)

open Idealize.ShloMosaic Idealize.ShloMosaic.ValueIdx

variable {F : FTy → Type} [FloatOps F]

variable (m : (ℓ : Loc nD τ sig) → Buf (Elt F) ℓ)

/-! ### The two re-laid rows -/

/-- The scale row as the region reads it: entry `(0, k)` is the scale argument's entry `k`. -/
theorem G1_apply (d : Dev nD) (k : Fin 1024) : G1 m d (ix2 (0 : Fin 1) k) = m (a2Loc d) (ix1 k) := by
  show (op2 (F := F)).result ((op1 (F := F)).result (V0 m d)) v1' (ix2 (0 : Fin 1) k) = _
  rw [(op2 (F := F)).result_of_not_mem _ (b := v1') (show v1' ∉ ({v2'} : Finset (DevRef τ sig)) by decide)]
  have e := StableHlo.reshape_result (τ := τ) (Val := Elt F) main_arg2 main_v1 rfl shapeCasts_S1024_S1x1024
    ⟨by decide, rfl⟩ ⟨by decide, rfl⟩ (V0 m d)
  rw [show (op1 (F := F)).result (V0 m d) v1' = _ from e]
  exact shapeCast_a_1a_apply (m (a2Loc d)) shapeCasts_S1024_S1x1024 (0 : Fin 1) k

/-- The shift row as the region reads it: entry `(0, k)` is the shift argument's entry `k`. -/
theorem B1_apply (d : Dev nD) (k : Fin 1024) : B1 m d (ix2 (0 : Fin 1) k) = m (a3Loc d) (ix1 k) := by
  show (op2 (F := F)).result ((op1 (F := F)).result (V0 m d)) v2' (ix2 (0 : Fin 1) k) = _
  have e := StableHlo.reshape_result (τ := τ) (Val := Elt F) main_arg3 main_v2 rfl shapeCasts_S1024_S1x1024
    ⟨by decide, rfl⟩ ⟨by decide, rfl⟩ ((op1 (F := F)).result (V0 m d))
  rw [show (op2 (F := F)).result ((op1 (F := F)).result (V0 m d)) v2' = _ from e]
  have e3 : (op1 (F := F)).result (V0 m d) a3' = m (a3Loc d) :=
    ((op1 (F := F)).result_of_not_mem _ (b := a3') (show a3' ∉ ({v1'} : Finset (DevRef τ sig)) by decide)).trans rfl
  show shapeCast S1x1024 ((op1 (F := F)).result (V0 m d) a3') shapeCasts_S1024_S1x1024 (ix2 (0 : Fin 1) k) = _
  rw [e3]
  exact shapeCast_a_1a_apply (m (a3Loc d)) shapeCasts_S1024_S1x1024 (0 : Fin 1) k

/-- The kernel's result array: the region's value at the mask of the positions, the hidden states and the two re-laid rows. -/
abbrev KOutV (d : Dev nD) : Vec F S8192x4x1024 .f32 := lnArr (maskBuf m d) (m (a0Loc d)) (G1 m d) (B1 m d)

end Cert.Proof.KI

namespace Cert.Proof.KI

open Cert.KernelIdeal Cert.KernelIdeal.Gen
open Cert.KernelIdeal.Ln (lnArr)
open Idealize.ShloMosaic Idealize.ShloMosaic.ValueIdx

/-- THE KERNEL IS THE SPECIFICATION: with the sampled positions in `[0, 8191]`, the kernel's result array is `G` of its
    four arguments, index by index. -/
theorem kernel_eq_G (m : (ℓ : Loc nD τ sig) → Buf (Elt Ideal) ℓ) (d : Dev nD)
    (h : Cert.RefValue.Fin_in (m (a0Loc d)) (m (iLoc d)) (m (a2Loc d)) (m (a3Loc d))) :
    KOutV m d = fun i => Cert.Spec.G (fun s b h => m (a0Loc d) (ix3 s b h)) (fun b r => m (iLoc d) (ix2 b r))
      (fun h => m (a2Loc d) (ix1 h)) (fun h => m (a3Loc d) (ix1 h)) (i 0) (i 1) (i 2) :=
  Cert.LnArrValue.lnArr_eq_G (maskBuf m d) (m (a0Loc d)) (G1 m d) (B1 m d) (fun b r => m (iLoc d) (ix2 b r))
    (fun b r => h.hidx (ix2 b r)) (fun k => m (a2Loc d) (ix1 k)) (fun k => m (a3Loc d) (ix1 k))
    (fun _ _ => rfl) (G1_apply m d) (B1_apply m d)

end Cert.Proof.KI

end
-- ==== Proof.Algebraic.lean ====
/-
  The value claim. From memories that agree on the four arguments, the kernel program ends with its result array at
  `KOut` and the reference with its result at its operations' composed term; under the precondition (finite numbers, every
  sampled position a row of the sequence) both are the function that normalises row `(s, b)` when batch `b`'s list of
  positions names `s` and keeps it otherwise: on the kernel's side because the mask holds a one exactly at the named
  positions and the region selects the normalised row where the mask exceeds one half; on the reference's side because the
  gathered rows are normalised and scattered back to the positions they came from, equal rows to equal positions.
-/
import proofs.«214348_g62886911148048_cont_9to1c4b_763_21_alg».proof.Proof.Claims
import proofs.«214348_g62886911148048_cont_9to1c4b_763_21_alg».proof.Proof.KernelValueKI

noncomputable section

namespace Cert.Proof.Claims

open Idealize.ShloMosaic Idealize.ShloMosaic.TcCoe Idealize.SL.Sem

theorem algebraic : Cert.algebraic_KernelIdeal_ReferenceIdeal := by
  intro m ρ m' ρ' hpre hagree
  refine ⟨fun c => Cert.Proof.KI.KOut (F := Ideal) m c, Cert.Proof.KI.run_main (F := Ideal) m ρ, ?_⟩
  refine (θ_run Cert.ReferenceIdeal.defs _ _).mono (fun _ h c => ⟨(h c).1.trans ?_, (h c).2⟩)
    (Cert.ReferenceIdeal.Value.run (F := Ideal) m' ρ')
  have hfin := Cert.RefValue.fin_of_pre _ _ _ _ (hpre c)
  rw [Cert.ReferenceIdeal.Read.val_main_v56_eq, (hagree c).1, (hagree c).2.1, (hagree c).2.2.1, (hagree c).2.2.2,
    Cert.RefValue.ref_eq_G _ _ _ _ hfin]
  exact (Cert.Proof.KI.kernel_eq_G m c hfin).symm

end Cert.Proof.Claims

end
-- ==== Proof.lean ====
/-
  The certificate's claim: the kernel — a mask of the sampled positions built on the SparseCores' vector subcores, then a
  layer normalisation on the TensorCore that keeps every row the mask does not mark — against the reference — the sampled
  rows gathered, normalised and scattered back. The three frames, the (empty) list of idealization rewrites, and the equality
  of the two results over the extended reals are proved in the modules imported here; this file assembles them.
-/
import proofs.«214348_g62886911148048_cont_9to1c4b_763_21_alg».proof.Defs
import proofs.«214348_g62886911148048_cont_9to1c4b_763_21_alg».proof.Proof.Gen.Kernel
import proofs.«214348_g62886911148048_cont_9to1c4b_763_21_alg».proof.Proof.Gen.Kernel.Skeleton
import proofs.«214348_g62886911148048_cont_9to1c4b_763_21_alg».proof.Proof.Gen.Kernel.Launch
import proofs.«214348_g62886911148048_cont_9to1c4b_763_21_alg».proof.Proof.Gen.Kernel.Points
import proofs.«214348_g62886911148048_cont_9to1c4b_763_21_alg».proof.Proof.Gen.KernelIdeal
import proofs.«214348_g62886911148048_cont_9to1c4b_763_21_alg».proof.Proof.Gen.KernelIdeal.Skeleton
import proofs.«214348_g62886911148048_cont_9to1c4b_763_21_alg».proof.Proof.Gen.KernelIdeal.Launch
import proofs.«214348_g62886911148048_cont_9to1c4b_763_21_alg».proof.Proof.Gen.KernelIdeal.Points
import proofs.«214348_g62886911148048_cont_9to1c4b_763_21_alg».proof.Proof.Gen.ReferenceIdeal
import proofs.«214348_g62886911148048_cont_9to1c4b_763_21_alg».proof.Proof.Gen.Pre_input_domain
import proofs.«214348_g62886911148048_cont_9to1c4b_763_21_alg».proof.Proof.Gen.ReferenceIdeal.Run
import proofs.«214348_g62886911148048_cont_9to1c4b_763_21_alg».proof.Proof.Gen.ReferenceIdeal.Read
import proofs.«214348_g62886911148048_cont_9to1c4b_763_21_alg».proof.Proof.Claims
import proofs.«214348_g62886911148048_cont_9to1c4b_763_21_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Cert.Proof.Claims.frame_k, Cert.Proof.Claims.frame_ki, Cert.Proof.Claims.frame_ri, Cert.Proof.Claims.preserves, Cert.Proof.Claims.algebraic⟩

end Cert.Proof

end
